-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x257x4000 : Shape := ⟨3, ![16, 257, 4000]⟩
abbrev S_ : Shape := ⟨0, ![]⟩

class Facts : Prop where
  bcast_S_S16x257x4000 : S_.BroadcastsInDim S16x257x4000 (![] : Fin 0 → Fin S16x257x4000.rank)
  reducesTo_S16x257x4000_S_d0_1_2 : S16x257x4000.ReducesTo [0, 1, 2] S_
  h_S_ : 0 < S_.numel

variable [Facts]

def fn_part1 {F : FTy → Type} [FloatOps F] (main_v13 : IVec S_ 1) (main_v16 : IVec S16x257x4000 1) : IVec S_ 1 :=
  let main_c_5 : IVec S_ 1 := constantI S_ 1 1#1
  let main_v17 : IVec S_ 1 := (fun x v => Host.reduce IntOp.andi x v reducesTo_S16x257x4000_S_d0_1_2 h_S_) main_v16 main_c_5
  let main_v18 : IVec S_ 1 := andi main_v13 main_v17
  main_v18

def fn {F : FTy → Type} [FloatOps F] (main_arg0 : FVec F S16x257x4000 .f32) (main_arg1 : FVec F S16x257x4000 .f32) (main_arg2 : FVec F S16x257x4000 .f32) (main_arg3 : FVec F S16x257x4000 .f32) : IVec S_ 1 :=
  let main_v0 : FVec F S16x257x4000 .f32 := Host.absf main_arg0
  let main_cst : FVec F S_ .f32 := constant S_ .f32 0x7F800000#32
  let main_v1 : FVec F S16x257x4000 .f32 := broadcastInDim S16x257x4000 ![] bcast_S_S16x257x4000 main_cst
  let main_v2 : IVec S16x257x4000 1 := cmpf .olt main_v0 main_v1
  let main_c : IVec S_ 1 := constantI S_ 1 1#1
  let main_v3 : IVec S_ 1 := (fun x v => Host.reduce IntOp.andi x v reducesTo_S16x257x4000_S_d0_1_2 h_S_) main_v2 main_c
  let main_v4 : FVec F S16x257x4000 .f32 := Host.absf main_arg1
  let main_cst_0 : FVec F S_ .f32 := constant S_ .f32 0x7F800000#32
  let main_v5 : FVec F S16x257x4000 .f32 := broadcastInDim S16x257x4000 ![] bcast_S_S16x257x4000 main_cst_0
  let main_v6 : IVec S16x257x4000 1 := cmpf .olt main_v4 main_v5
  let main_c_1 : IVec S_ 1 := constantI S_ 1 1#1
  let main_v7 : IVec S_ 1 := (fun x v => Host.reduce IntOp.andi x v reducesTo_S16x257x4000_S_d0_1_2 h_S_) main_v6 main_c_1
  let main_v8 : IVec S_ 1 := andi main_v3 main_v7
  let main_v9 : FVec F S16x257x4000 .f32 := Host.absf main_arg2
  let main_cst_2 : FVec F S_ .f32 := constant S_ .f32 0x7F800000#32
  let main_v10 : FVec F S16x257x4000 .f32 := broadcastInDim S16x257x4000 ![] bcast_S_S16x257x4000 main_cst_2
  let main_v11 : IVec S16x257x4000 1 := cmpf .olt main_v9 main_v10
  let main_c_3 : IVec S_ 1 := constantI S_ 1 1#1
  let main_v12 : IVec S_ 1 := (fun x v => Host.reduce IntOp.andi x v reducesTo_S16x257x4000_S_d0_1_2 h_S_) main_v11 main_c_3
  let main_v13 : IVec S_ 1 := andi main_v8 main_v12
  let main_v14 : FVec F S16x257x4000 .f32 := Host.absf main_arg3
  let main_cst_4 : FVec F S_ .f32 := constant S_ .f32 0x7F800000#32
  let main_v15 : FVec F S16x257x4000 .f32 := broadcastInDim S16x257x4000 ![] bcast_S_S16x257x4000 main_cst_4
  let main_v16 : IVec S16x257x4000 1 := cmpf .olt main_v14 main_v15
  fn_part1 (F := F) main_v13 main_v16
-- ==== Kernel.lean ====
abbrev S16x257x4000 : Shape := ⟨3, ![16, 257, 4000]⟩
abbrev S16x2x257x4000 : Shape := ⟨4, ![16, 2, 257, 4000]⟩
abbrev S1x2x257x4000 : Shape := ⟨4, ![1, 2, 257, 4000]⟩
abbrev S257x4000 : Shape := ⟨2, ![257, 4000]⟩
abbrev S257x516 : Shape := ⟨2, ![257, 516]⟩
abbrev S257x512 : Shape := ⟨2, ![257, 512]⟩
abbrev S4 : Shape := ⟨1, ![4]⟩
abbrev S1 : Shape := ⟨1, ![1]⟩
abbrev S_ : Shape := ⟨0, ![]⟩
abbrev S1x257x4000 : Shape := ⟨3, ![1, 257, 4000]⟩
abbrev S257x514 : Shape := ⟨2, ![257, 514]⟩
abbrev S256x514 : Shape := ⟨2, ![256, 514]⟩
abbrev S257x510 : Shape := ⟨2, ![257, 510]⟩
abbrev S257x511 : Shape := ⟨2, ![257, 511]⟩
abbrev S1x1x257x512 : Shape := ⟨4, ![1, 1, 257, 512]⟩
abbrev S256x516 : Shape := ⟨2, ![256, 516]⟩
abbrev S257x418 : Shape := ⟨2, ![257, 418]⟩
abbrev S256x418 : Shape := ⟨2, ![256, 418]⟩
abbrev S257x416 : Shape := ⟨2, ![257, 416]⟩
abbrev S257x415 : Shape := ⟨2, ![257, 415]⟩
abbrev S257x414 : Shape := ⟨2, ![257, 414]⟩
abbrev S1x1x257x416 : Shape := ⟨4, ![1, 1, 257, 416]⟩
abbrev S16x514x4000 : Shape := ⟨3, ![16, 514, 4000]⟩

abbrev nBuf : Space → Nat
  | .hbm => 6
  | .vmem => 10
  | .smem => 0
  | _ => 0

abbrev bufTy : (tb : Table) → Fin (tcTables nBuf tb) → BufTy
  | .hbm, ⟨0, _⟩ => ⟨S16x257x4000, .f32⟩
  | .hbm, ⟨1, _⟩ => ⟨S16x257x4000, .f32⟩
  | .hbm, ⟨2, _⟩ => ⟨S16x257x4000, .f32⟩
  | .hbm, ⟨3, _⟩ => ⟨S16x257x4000, .f32⟩
  | .hbm, ⟨4, _⟩ => ⟨S16x2x257x4000, .f32⟩
  | .hbm, ⟨5, _⟩ => ⟨S16x514x4000, .f32⟩
  | .local _ .vmem, ⟨0, _⟩ => ⟨S1x2x257x4000, .f32⟩
  | .local _ .vmem, ⟨1, _⟩ => ⟨S1x2x257x4000, .f32⟩
  | .local _ .vmem, ⟨2, _⟩ => ⟨S257x4000, .f32⟩
  | .local _ .vmem, ⟨3, _⟩ => ⟨S257x4000, .f32⟩
  | .local _ .vmem, ⟨4, _⟩ => ⟨S257x4000, .f32⟩
  | .local _ .vmem, ⟨5, _⟩ => ⟨S257x4000, .f32⟩
  | .local _ .vmem, ⟨6, _⟩ => ⟨S257x516, .f32⟩
  | .local _ .vmem, ⟨7, _⟩ => ⟨S257x516, .f32⟩
  | .local _ .vmem, ⟨8, _⟩ => ⟨S257x512, .f32⟩
  | .local _ .vmem, ⟨9, _⟩ => ⟨S257x512, .f32⟩
  | _, _ => ⟨S16x257x4000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let c0_i32_0 : BitVec 32 := 0#32
  let c0_i32_1 : BitVec 32 := 0#32
  ![arg0.toNat, 0, 0]
def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2x257x4000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  inb_S4_S1_0 : ∀ a, (![0] : Fin 1 → Nat) a + S1.size a ≤ S4.size a
  squeezes_S1_S_ : S1.Squeezes S_
  squeezes_S1x257x4000_S257x4000 : S1x257x4000.Squeezes S257x4000
  inb_S4_S1_1 : ∀ a, (![1] : Fin 1 → Nat) a + S1.size a ≤ S4.size a
  inb_S4_S1_2 : ∀ a, (![2] : Fin 1 → Nat) a + S1.size a ≤ S4.size a
  inb_S4_S1_3 : ∀ a, (![3] : Fin 1 → Nat) a + S1.size a ≤ S4.size a
  inb_S257x4000_S257x514_0_0 : ∀ a, (![0, 0] : Fin 2 → Nat) a + S257x514.size a ≤ S257x4000.size a
  h_S257x514 : 0 < S257x514.numel
  inb_S257x516_S257x514_0_0 : ∀ a, (![0, 0] : Fin 2 → Nat) a + S257x514.size a ≤ S257x516.size a
  shapeCasts_S257x514_S257x514 : S257x514.ShapeCasts S257x514
  inb_S257x516_S256x514_1_0 : ∀ a, (![1, 0] : Fin 2 → Nat) a + S256x514.size a ≤ S257x516.size a
  h_S256x514 : 0 < S256x514.numel
  slices_S257x514_o0_0_S256x514 : S257x514.Slices ![0, 0] S256x514
  shapeCasts_S256x514_S256x514 : S256x514.ShapeCasts S256x514
  inb_S257x516_S256x514_0_0 : ∀ a, (![0, 0] : Fin 2 → Nat) a + S256x514.size a ≤ S257x516.size a
  slices_S257x514_o1_0_S256x514 : S257x514.Slices ![1, 0] S256x514
  inb_S257x512_S257x512_0_0 : ∀ a, (![0, 0] : Fin 2 → Nat) a + S257x512.size a ≤ S257x512.size a
  h_S257x512 : 0 < S257x512.numel
  shapeCasts_S257x512_S257x512 : S257x512.ShapeCasts S257x512
  inb_S257x512_S257x510_0_2 : ∀ a, (![0, 2] : Fin 2 → Nat) a + S257x510.size a ≤ S257x512.size a
  h_S257x510 : 0 < S257x510.numel
  inb_S257x516_S257x510_0_0 : ∀ a, (![0, 0] : Fin 2 → Nat) a + S257x510.size a ≤ S257x516.size a
  shapeCasts_S257x510_S257x510 : S257x510.ShapeCasts S257x510
  inb_S257x512_S257x511_0_1 : ∀ a, (![0, 1] : Fin 2 → Nat) a + S257x511.size a ≤ S257x512.size a
  h_S257x511 : 0 < S257x511.numel
  inb_S257x516_S257x511_0_0 : ∀ a, (![0, 0] : Fin 2 → Nat) a + S257x511.size a ≤ S257x516.size a
  shapeCasts_S257x511_S257x511 : S257x511.ShapeCasts S257x511
  inb_S257x516_S257x512_0_0 : ∀ a, (![0, 0] : Fin 2 → Nat) a + S257x512.size a ≤ S257x516.size a
  inb_S257x516_S257x512_0_1 : ∀ a, (![0, 1] : Fin 2 → Nat) a + S257x512.size a ≤ S257x516.size a
  inb_S257x516_S257x512_0_2 : ∀ a, (![0, 2] : Fin 2 → Nat) a + S257x512.size a ≤ S257x516.size a
  inb_S1x2x257x4000_S1x1x257x512_0_0_0_0 : ∀ a, (![0, 0, 0, 0] : Fin 4 → Nat) a + S1x1x257x512.size a ≤ S1x2x257x4000.size a
  h_S1x1x257x512 : 0 < S1x1x257x512.numel
  shapeCasts_S1x1x257x512_S257x512 : S1x1x257x512.ShapeCasts S257x512
  shapeCasts_S257x512_S1x1x257x512 : S257x512.ShapeCasts S1x1x257x512
  inb_S1x2x257x4000_S1x1x257x512_0_1_0_0 : ∀ a, (![0, 1, 0, 0] : Fin 4 → Nat) a + S1x1x257x512.size a ≤ S1x2x257x4000.size a
  inb_S257x4000_S257x516_0_510 : ∀ a, (![0, 510] : Fin 2 → Nat) a + S257x516.size a ≤ S257x4000.size a
  h_S257x516 : 0 < S257x516.numel
  inb_S257x516_S257x516_0_0 : ∀ a, (![0, 0] : Fin 2 → Nat) a + S257x516.size a ≤ S257x516.size a
  shapeCasts_S257x516_S257x516 : S257x516.ShapeCasts S257x516
  inb_S257x516_S256x516_1_0 : ∀ a, (![1, 0] : Fin 2 → Nat) a + S256x516.size a ≤ S257x516.size a
  h_S256x516 : 0 < S256x516.numel
  slices_S257x516_o0_0_S256x516 : S257x516.Slices ![0, 0] S256x516
  shapeCasts_S256x516_S256x516 : S256x516.ShapeCasts S256x516
  inb_S257x516_S256x516_0_0 : ∀ a, (![0, 0] : Fin 2 → Nat) a + S256x516.size a ≤ S257x516.size a
  slices_S257x516_o1_0_S256x516 : S257x516.Slices ![1, 0] S256x516
  inb_S257x516_S257x512_0_3 : ∀ a, (![0, 3] : Fin 2 → Nat) a + S257x512.size a ≤ S257x516.size a
  inb_S257x516_S257x512_0_4 : ∀ a, (![0, 4] : Fin 2 → Nat) a + S257x512.size a ≤ S257x516.size a
  inb_S1x2x257x4000_S1x1x257x512_0_0_0_512 : ∀ a, (![0, 0, 0, 512] : Fin 4 → Nat) a + S1x1x257x512.size a ≤ S1x2x257x4000.size a
  inb_S1x2x257x4000_S1x1x257x512_0_1_0_512 : ∀ a, (![0, 1, 0, 512] : Fin 4 → Nat) a + S1x1x257x512.size a ≤ S1x2x257x4000.size a
  inb_S257x4000_S257x516_0_1022 : ∀ a, (![0, 1022] : Fin 2 → Nat) a + S257x516.size a ≤ S257x4000.size a
  inb_S1x2x257x4000_S1x1x257x512_0_0_0_1024 : ∀ a, (![0, 0, 0, 1024] : Fin 4 → Nat) a + S1x1x257x512.size a ≤ S1x2x257x4000.size a
  inb_S1x2x257x4000_S1x1x257x512_0_1_0_1024 : ∀ a, (![0, 1, 0, 1024] : Fin 4 → Nat) a + S1x1x257x512.size a ≤ S1x2x257x4000.size a
  inb_S257x4000_S257x516_0_1534 : ∀ a, (![0, 1534] : Fin 2 → Nat) a + S257x516.size a ≤ S257x4000.size a
  inb_S1x2x257x4000_S1x1x257x512_0_0_0_1536 : ∀ a, (![0, 0, 0, 1536] : Fin 4 → Nat) a + S1x1x257x512.size a ≤ S1x2x257x4000.size a
  inb_S1x2x257x4000_S1x1x257x512_0_1_0_1536 : ∀ a, (![0, 1, 0, 1536] : Fin 4 → Nat) a + S1x1x257x512.size a ≤ S1x2x257x4000.size a
  inb_S257x4000_S257x516_0_2046 : ∀ a, (![0, 2046] : Fin 2 → Nat) a + S257x516.size a ≤ S257x4000.size a
  inb_S1x2x257x4000_S1x1x257x512_0_0_0_2048 : ∀ a, (![0, 0, 0, 2048] : Fin 4 → Nat) a + S1x1x257x512.size a ≤ S1x2x257x4000.size a
  inb_S1x2x257x4000_S1x1x257x512_0_1_0_2048 : ∀ a, (![0, 1, 0, 2048] : Fin 4 → Nat) a + S1x1x257x512.size a ≤ S1x2x257x4000.size a
  inb_S257x4000_S257x516_0_2558 : ∀ a, (![0, 2558] : Fin 2 → Nat) a + S257x516.size a ≤ S257x4000.size a
  inb_S1x2x257x4000_S1x1x257x512_0_0_0_2560 : ∀ a, (![0, 0, 0, 2560] : Fin 4 → Nat) a + S1x1x257x512.size a ≤ S1x2x257x4000.size a
  inb_S1x2x257x4000_S1x1x257x512_0_1_0_2560 : ∀ a, (![0, 1, 0, 2560] : Fin 4 → Nat) a + S1x1x257x512.size a ≤ S1x2x257x4000.size a
  inb_S257x4000_S257x516_0_3070 : ∀ a, (![0, 3070] : Fin 2 → Nat) a + S257x516.size a ≤ S257x4000.size a
  inb_S1x2x257x4000_S1x1x257x512_0_0_0_3072 : ∀ a, (![0, 0, 0, 3072] : Fin 4 → Nat) a + S1x1x257x512.size a ≤ S1x2x257x4000.size a
  inb_S1x2x257x4000_S1x1x257x512_0_1_0_3072 : ∀ a, (![0, 1, 0, 3072] : Fin 4 → Nat) a + S1x1x257x512.size a ≤ S1x2x257x4000.size a
  inb_S257x4000_S257x418_0_3582 : ∀ a, (![0, 3582] : Fin 2 → Nat) a + S257x418.size a ≤ S257x4000.size a
  h_S257x418 : 0 < S257x418.numel
  inb_S257x516_S257x418_0_0 : ∀ a, (![0, 0] : Fin 2 → Nat) a + S257x418.size a ≤ S257x516.size a
  shapeCasts_S257x418_S257x418 : S257x418.ShapeCasts S257x418
  inb_S257x516_S256x418_1_0 : ∀ a, (![1, 0] : Fin 2 → Nat) a + S256x418.size a ≤ S257x516.size a
  h_S256x418 : 0 < S256x418.numel
  slices_S257x418_o0_0_S256x418 : S257x418.Slices ![0, 0] S256x418
  shapeCasts_S256x418_S256x418 : S256x418.ShapeCasts S256x418
  inb_S257x516_S256x418_0_0 : ∀ a, (![0, 0] : Fin 2 → Nat) a + S256x418.size a ≤ S257x516.size a
  slices_S257x418_o1_0_S256x418 : S257x418.Slices ![1, 0] S256x418
  inb_S257x512_S257x416_0_0 : ∀ a, (![0, 0] : Fin 2 → Nat) a + S257x416.size a ≤ S257x512.size a
  h_S257x416 : 0 < S257x416.numel
  shapeCasts_S257x416_S257x416 : S257x416.ShapeCasts S257x416
  inb_S257x516_S257x416_0_0 : ∀ a, (![0, 0] : Fin 2 → Nat) a + S257x416.size a ≤ S257x516.size a
  inb_S257x516_S257x416_0_1 : ∀ a, (![0, 1] : Fin 2 → Nat) a + S257x416.size a ≤ S257x516.size a
  inb_S257x516_S257x416_0_2 : ∀ a, (![0, 2] : Fin 2 → Nat) a + S257x416.size a ≤ S257x516.size a
  inb_S257x512_S257x415_0_0 : ∀ a, (![0, 0] : Fin 2 → Nat) a + S257x415.size a ≤ S257x512.size a
  h_S257x415 : 0 < S257x415.numel
  inb_S257x516_S257x415_0_3 : ∀ a, (![0, 3] : Fin 2 → Nat) a + S257x415.size a ≤ S257x516.size a
  shapeCasts_S257x415_S257x415 : S257x415.ShapeCasts S257x415
  inb_S257x512_S257x414_0_0 : ∀ a, (![0, 0] : Fin 2 → Nat) a + S257x414.size a ≤ S257x512.size a
  h_S257x414 : 0 < S257x414.numel
  inb_S257x516_S257x414_0_4 : ∀ a, (![0, 4] : Fin 2 → Nat) a + S257x414.size a ≤ S257x516.size a
  shapeCasts_S257x414_S257x414 : S257x414.ShapeCasts S257x414
  inb_S1x2x257x4000_S1x1x257x416_0_0_0_3584 : ∀ a, (![0, 0, 0, 3584] : Fin 4 → Nat) a + S1x1x257x416.size a ≤ S1x2x257x4000.size a
  h_S1x1x257x416 : 0 < S1x1x257x416.numel
  shapeCasts_S1x1x257x416_S257x416 : S1x1x257x416.ShapeCasts S257x416
  shapeCasts_S257x416_S1x1x257x416 : S257x416.ShapeCasts S1x1x257x416
  inb_S1x2x257x4000_S1x1x257x416_0_1_0_3584 : ∀ a, (![0, 1, 0, 3584] : Fin 4 → Nat) a + S1x1x257x416.size a ≤ S1x2x257x4000.size a
  shapeCasts_S16x2x257x4000_S16x514x4000 : S16x2x257x4000.ShapeCasts S16x514x4000
  hcc0_scratch8 : 2 + S4.numel ≤ 6
  hrank0 : 0 < grid0.rank
  k0_off1_inb : ∀ i : grid0.Coords, ∀ a, (k0_off1 i) a + S1x257x4000.size a ≤ S16x257x4000.size a
  hstage0_0 : ∀ j, (stage0_0 j).IsWhole
  nbuf0_0 : grid0.bufCount reads0_0 false = 2
  hreads0_0 : ∀ i i' : grid0.Coords, (∀ a, reads0_0 a = true → i a = i' a) → cc0_transform_4 i = cc0_transform_4 i'
  hinb0_0 : ∀ (i : grid0.Coords) a, (cc0_transform_4 i a + 1) * S1x2x257x4000.size a ≤ S16x2x257x4000.size a
  hwx0_0 : ∀ i : grid0.Coords, EltTy.bits .f32 = 32 ∨ (Rect.block (s := S16x2x257x4000) S1x2x257x4000.size (cc0_transform_4 i) (hinb0_0 i)).WholeWords (EltTy.packing .f32)

variable [Facts₀]

abbrev cc0_scratch8 : DmaSems sig S4 := SemArray.consecutive 2 S4 hcc0_scratch8

abbrev win0_0 : Pipeline.Window sig grid0 :=
  Pipeline.Window.ofSpec (Memref.whole main_v0) S1x2x257x4000.size cc0_transform_4 reads0_0 true false 2 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S16x257x4000 : Shape := ⟨3, ![16, 257, 4000]⟩
abbrev S_ : Shape := ⟨0, ![]⟩
abbrev S16x259x4004 : Shape := ⟨3, ![16, 259, 4004]⟩
abbrev S16x514x4000 : Shape := ⟨3, ![16, 514, 4000]⟩

abbrev nBuf : Space → Nat
  | .hbm => 216
  | .vmem => 0
  | .smem => 0
  | _ => 0

abbrev hbmTy0_0 (i : Nat) : BufTy := match i % 128 with
  | 0 => ⟨S16x257x4000, .f32⟩
  | 1 => ⟨S16x257x4000, .f32⟩
  | 2 => ⟨S16x257x4000, .f32⟩
  | 3 => ⟨S16x257x4000, .f32⟩
  | 4 => ⟨S_, .i32⟩
  | 5 => ⟨S_, .f32⟩
  | 6 => ⟨S16x259x4004, .f32⟩
  | 7 => ⟨S_, .i32⟩
  | 8 => ⟨S_, .f32⟩
  | 9 => ⟨S16x259x4004, .f32⟩
  | 10 => ⟨S_, .i32⟩
  | 11 => ⟨S_, .f32⟩
  | 12 => ⟨S16x259x4004, .f32⟩
  | 13 => ⟨S_, .i32⟩
  | 14 => ⟨S_, .f32⟩
  | 15 => ⟨S16x259x4004, .f32⟩
  | 16 => ⟨S_, .f32⟩
  | 17 => ⟨S16x257x4000, .f32⟩
  | 18 => ⟨S_, .f32⟩
  | 19 => ⟨S16x257x4000, .f32⟩
  | 20 => ⟨S16x257x4000, .f32⟩
  | 21 => ⟨S16x257x4000, .f32⟩
  | 22 => ⟨S16x257x4000, .f32⟩
  | 23 => ⟨S16x257x4000, .f32⟩
  | 24 => ⟨S16x257x4000, .f32⟩
  | 25 => ⟨S16x257x4000, .f32⟩
  | 26 => ⟨S16x257x4000, .f32⟩
  | 27 => ⟨S16x257x4000, .f32⟩
  | 28 => ⟨S_, .f32⟩
  | 29 => ⟨S16x257x4000, .f32⟩
  | 30 => ⟨S16x257x4000, .f32⟩
  | 31 => ⟨S16x257x4000, .f32⟩
  | 32 => ⟨S16x257x4000, .f32⟩
  | 33 => ⟨S16x257x4000, .f32⟩
  | 34 => ⟨S16x257x4000, .f32⟩
  | 35 => ⟨S16x257x4000, .f32⟩
  | 36 => ⟨S16x257x4000, .f32⟩
  | 37 => ⟨S16x257x4000, .f32⟩
  | 38 => ⟨S16x257x4000, .f32⟩
  | 39 => ⟨S16x257x4000, .f32⟩
  | 40 => ⟨S16x257x4000, .f32⟩
  | 41 => ⟨S_, .f32⟩
  | 42 => ⟨S16x257x4000, .f32⟩
  | 43 => ⟨S16x257x4000, .f32⟩
  | 44 => ⟨S16x257x4000, .f32⟩
  | 45 => ⟨S16x257x4000, .f32⟩
  | 46 => ⟨S16x257x4000, .f32⟩
  | 47 => ⟨S16x257x4000, .f32⟩
  | 48 => ⟨S16x257x4000, .f32⟩
  | 49 => ⟨S16x257x4000, .f32⟩
  | 50 => ⟨S16x257x4000, .f32⟩
  | 51 => ⟨S16x257x4000, .f32⟩
  | 52 => ⟨S16x257x4000, .f32⟩
  | 53 => ⟨S16x257x4000, .f32⟩
  | 54 => ⟨S_, .f32⟩
  | 55 => ⟨S16x257x4000, .f32⟩
  | 56 => ⟨S16x257x4000, .f32⟩
  | 57 => ⟨S16x257x4000, .f32⟩
  | 58 => ⟨S16x257x4000, .f32⟩
  | 59 => ⟨S16x257x4000, .f32⟩
  | 60 => ⟨S16x257x4000, .f32⟩
  | 61 => ⟨S16x257x4000, .f32⟩
  | 62 => ⟨S16x257x4000, .f32⟩
  | 63 => ⟨S16x257x4000, .f32⟩
  | 64 => ⟨S16x257x4000, .f32⟩
  | 65 => ⟨S16x257x4000, .f32⟩
  | 66 => ⟨S16x257x4000, .f32⟩
  | 67 => ⟨S_, .f32⟩
  | 68 => ⟨S16x257x4000, .f32⟩
  | 69 => ⟨S16x257x4000, .f32⟩
  | 70 => ⟨S16x257x4000, .f32⟩
  | 71 => ⟨S16x257x4000, .f32⟩
  | 72 => ⟨S16x257x4000, .f32⟩
  | 73 => ⟨S16x257x4000, .f32⟩
  | 74 => ⟨S16x257x4000, .f32⟩
  | 75 => ⟨S16x257x4000, .f32⟩
  | 76 => ⟨S16x257x4000, .f32⟩
  | 77 => ⟨S16x257x4000, .f32⟩
  | 78 => ⟨S16x257x4000, .f32⟩
  | 79 => ⟨S16x257x4000, .f32⟩
  | 80 => ⟨S_, .f32⟩
  | 81 => ⟨S16x257x4000, .f32⟩
  | 82 => ⟨S16x257x4000, .f32⟩
  | 83 => ⟨S16x257x4000, .f32⟩
  | 84 => ⟨S16x257x4000, .f32⟩
  | 85 => ⟨S16x257x4000, .f32⟩
  | 86 => ⟨S16x257x4000, .f32⟩
  | 87 => ⟨S16x257x4000, .f32⟩
  | 88 => ⟨S16x257x4000, .f32⟩
  | 89 => ⟨S16x257x4000, .f32⟩
  | 90 => ⟨S16x257x4000, .f32⟩
  | 91 => ⟨S16x257x4000, .f32⟩
  | 92 => ⟨S16x257x4000, .f32⟩
  | 93 => ⟨S_, .f32⟩
  | 94 => ⟨S16x257x4000, .f32⟩
  | 95 => ⟨S16x257x4000, .f32⟩
  | 96 => ⟨S16x257x4000, .f32⟩
  | 97 => ⟨S16x257x4000, .f32⟩
  | 98 => ⟨S16x257x4000, .f32⟩
  | 99 => ⟨S16x257x4000, .f32⟩
  | 100 => ⟨S16x257x4000, .f32⟩
  | 101 => ⟨S16x257x4000, .f32⟩
  | 102 => ⟨S16x257x4000, .f32⟩
  | 103 => ⟨S16x257x4000, .f32⟩
  | 104 => ⟨S16x257x4000, .f32⟩
  | 105 => ⟨S16x257x4000, .f32⟩
  | 106 => ⟨S_, .f32⟩
  | 107 => ⟨S16x257x4000, .f32⟩
  | 108 => ⟨S16x257x4000, .f32⟩
  | 109 => ⟨S16x257x4000, .f32⟩
  | 110 => ⟨S16x257x4000, .f32⟩
  | 111 => ⟨S16x257x4000, .f32⟩
  | 112 => ⟨S16x257x4000, .f32⟩
  | 113 => ⟨S16x257x4000, .f32⟩
  | 114 => ⟨S16x257x4000, .f32⟩
  | 115 => ⟨S16x257x4000, .f32⟩
  | 116 => ⟨S16x257x4000, .f32⟩
  | 117 => ⟨S16x257x4000, .f32⟩
  | 118 => ⟨S16x257x4000, .f32⟩
  | 119 => ⟨S_, .f32⟩
  | 120 => ⟨S16x257x4000, .f32⟩
  | 121 => ⟨S16x257x4000, .f32⟩
  | 122 => ⟨S16x257x4000, .f32⟩
  | 123 => ⟨S16x257x4000, .f32⟩
  | 124 => ⟨S16x257x4000, .f32⟩
  | 125 => ⟨S16x257x4000, .f32⟩
  | 126 => ⟨S16x257x4000, .f32⟩
  | 127 => ⟨S16x257x4000, .f32⟩
  | _ => ⟨S16x257x4000, .f32⟩

abbrev hbmTy0_1 (i : Nat) : BufTy := match i % 128 with
  | 0 => ⟨S16x257x4000, .f32⟩
  | 1 => ⟨S16x257x4000, .f32⟩
  | 2 => ⟨S16x257x4000, .f32⟩
  | 3 => ⟨S16x257x4000, .f32⟩
  | 4 => ⟨S_, .f32⟩
  | 5 => ⟨S16x257x4000, .f32⟩
  | 6 => ⟨S16x257x4000, .f32⟩
  | 7 => ⟨S16x257x4000, .f32⟩
  | 8 => ⟨S16x257x4000, .f32⟩
  | 9 => ⟨S16x257x4000, .f32⟩
  | 10 => ⟨S16x257x4000, .f32⟩
  | 11 => ⟨S16x257x4000, .f32⟩
  | 12 => ⟨S16x257x4000, .f32⟩
  | 13 => ⟨S16x257x4000, .f32⟩
  | 14 => ⟨S16x257x4000, .f32⟩
  | 15 => ⟨S16x257x4000, .f32⟩
  | 16 => ⟨S16x257x4000, .f32⟩
  | 17 => ⟨S_, .f32⟩
  | 18 => ⟨S16x257x4000, .f32⟩
  | 19 => ⟨S16x257x4000, .f32⟩
  | 20 => ⟨S16x257x4000, .f32⟩
  | 21 => ⟨S16x257x4000, .f32⟩
  | 22 => ⟨S16x257x4000, .f32⟩
  | 23 => ⟨S16x257x4000, .f32⟩
  | 24 => ⟨S16x257x4000, .f32⟩
  | 25 => ⟨S16x257x4000, .f32⟩
  | 26 => ⟨S16x257x4000, .f32⟩
  | 27 => ⟨S16x257x4000, .f32⟩
  | 28 => ⟨S16x257x4000, .f32⟩
  | 29 => ⟨S16x257x4000, .f32⟩
  | 30 => ⟨S_, .f32⟩
  | 31 => ⟨S16x257x4000, .f32⟩
  | 32 => ⟨S16x257x4000, .f32⟩
  | 33 => ⟨S16x257x4000, .f32⟩
  | 34 => ⟨S16x257x4000, .f32⟩
  | 35 => ⟨S16x257x4000, .f32⟩
  | 36 => ⟨S16x257x4000, .f32⟩
  | 37 => ⟨S16x257x4000, .f32⟩
  | 38 => ⟨S16x257x4000, .f32⟩
  | 39 => ⟨S16x257x4000, .f32⟩
  | 40 => ⟨S16x257x4000, .f32⟩
  | 41 => ⟨S16x257x4000, .f32⟩
  | 42 => ⟨S16x257x4000, .f32⟩
  | 43 => ⟨S_, .f32⟩
  | 44 => ⟨S16x257x4000, .f32⟩
  | 45 => ⟨S16x257x4000, .f32⟩
  | 46 => ⟨S16x257x4000, .f32⟩
  | 47 => ⟨S16x257x4000, .f32⟩
  | 48 => ⟨S16x257x4000, .f32⟩
  | 49 => ⟨S16x257x4000, .f32⟩
  | 50 => ⟨S16x257x4000, .f32⟩
  | 51 => ⟨S16x257x4000, .f32⟩
  | 52 => ⟨S16x257x4000, .f32⟩
  | 53 => ⟨S16x257x4000, .f32⟩
  | 54 => ⟨S16x257x4000, .f32⟩
  | 55 => ⟨S16x257x4000, .f32⟩
  | 56 => ⟨S_, .f32⟩
  | 57 => ⟨S16x257x4000, .f32⟩
  | 58 => ⟨S16x257x4000, .f32⟩
  | 59 => ⟨S16x257x4000, .f32⟩
  | 60 => ⟨S16x257x4000, .f32⟩
  | 61 => ⟨S16x257x4000, .f32⟩
  | 62 => ⟨S16x257x4000, .f32⟩
  | 63 => ⟨S16x257x4000, .f32⟩
  | 64 => ⟨S16x257x4000, .f32⟩
  | 65 => ⟨S16x257x4000, .f32⟩
  | 66 => ⟨S16x257x4000, .f32⟩
  | 67 => ⟨S16x257x4000, .f32⟩
  | 68 => ⟨S16x257x4000, .f32⟩
  | 69 => ⟨S_, .f32⟩
  | 70 => ⟨S16x257x4000, .f32⟩
  | 71 => ⟨S16x257x4000, .f32⟩
  | 72 => ⟨S16x257x4000, .f32⟩
  | 73 => ⟨S16x257x4000, .f32⟩
  | 74 => ⟨S16x257x4000, .f32⟩
  | 75 => ⟨S16x257x4000, .f32⟩
  | 76 => ⟨S16x257x4000, .f32⟩
  | 77 => ⟨S16x257x4000, .f32⟩
  | 78 => ⟨S16x257x4000, .f32⟩
  | 79 => ⟨S16x257x4000, .f32⟩
  | 80 => ⟨S16x257x4000, .f32⟩
  | 81 => ⟨S16x257x4000, .f32⟩
  | 82 => ⟨S_, .f32⟩
  | 83 => ⟨S16x257x4000, .f32⟩
  | 84 => ⟨S16x257x4000, .f32⟩
  | 85 => ⟨S16x257x4000, .f32⟩
  | 86 => ⟨S16x257x4000, .f32⟩
  | 87 => ⟨S16x514x4000, .f32⟩
  | _ => ⟨S16x257x4000, .f32⟩

abbrev hbmTy (i : Nat) : BufTy := match i / 128 with
  | 0 => hbmTy0_0 i
  | 1 => hbmTy0_1 i
  | _ => ⟨S16x257x4000, .f32⟩

abbrev bufTy : (tb : Table) → Fin (tcTables nBuf tb) → BufTy
  | .hbm, ⟨i, _⟩ => hbmTy i
  | _, _ => ⟨S16x257x4000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_c_2 : Ref sig .tc := ⟨.hbm, 13, rfl⟩
abbrev main_call3_v0 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_3 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_8 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_9 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_10 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_cst_11 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_cst_12 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_cst_13 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_cst_14 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_cst_15 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_cst_16 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_cst_17 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_cst_18 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩

abbrev nD : Nat := 1
abbrev τ : Topo := Topo.v7x

variable {F : FTy → Type} [FloatOps F]

class Facts₀ : Prop where
  pads_S16x257x4000_S16x259x4004_000_110_220 : S16x257x4000.Pads (![0, 1, 2] : Fin 3 → Nat) ![0, 1, 2] ![0, 0, 0] S16x259x4004
  h_S_ : 0 < S_.numel
  bcast_S_S16x257x4000 : S_.BroadcastsInDim S16x257x4000 (![] : Fin 0 → Fin S16x257x4000.rank)
  slices_S16x259x4004_S16x257x4000_0_0_0 : S16x259x4004.Slices ![0, 0, 0] S16x257x4000
  slices_S16x259x4004_S16x257x4000_0_0_1 : S16x259x4004.Slices ![0, 0, 1] S16x257x4000
  slices_S16x259x4004_S16x257x4000_0_0_2 : S16x259x4004.Slices ![0, 0, 2] S16x257x4000
  slices_S16x259x4004_S16x257x4000_0_0_3 : S16x259x4004.Slices ![0, 0, 3] S16x257x4000
  slices_S16x259x4004_S16x257x4000_0_0_4 : S16x259x4004.Slices ![0, 0, 4] S16x257x4000
  slices_S16x259x4004_S16x257x4000_0_1_0 : S16x259x4004.Slices ![0, 1, 0] S16x257x4000
  slices_S16x259x4004_S16x257x4000_0_1_1 : S16x259x4004.Slices ![0, 1, 1] S16x257x4000
  slices_S16x259x4004_S16x257x4000_0_1_2 : S16x259x4004.Slices ![0, 1, 2] S16x257x4000
  slices_S16x259x4004_S16x257x4000_0_1_3 : S16x259x4004.Slices ![0, 1, 3] S16x257x4000
  slices_S16x259x4004_S16x257x4000_0_1_4 : S16x259x4004.Slices ![0, 1, 4] S16x257x4000
  slices_S16x259x4004_S16x257x4000_0_2_0 : S16x259x4004.Slices ![0, 2, 0] S16x257x4000
  slices_S16x259x4004_S16x257x4000_0_2_1 : S16x259x4004.Slices ![0, 2, 1] S16x257x4000
  slices_S16x259x4004_S16x257x4000_0_2_2 : S16x259x4004.Slices ![0, 2, 2] S16x257x4000
  slices_S16x259x4004_S16x257x4000_0_2_3 : S16x259x4004.Slices ![0, 2, 3] S16x257x4000
  slices_S16x259x4004_S16x257x4000_0_2_4 : S16x259x4004.Slices ![0, 2, 4] S16x257x4000
  concatenates_S16x257x4000_S16x257x4000_S16x514x4000_d1 : Shape.Concatenates [S16x257x4000, S16x257x4000] S16x514x4000 1

variable [Facts₀]

class Facts : Prop extends Facts₀ where

variable [Facts]
-- ==== Proof.LibNatReads.lean ====
/-
  Rank-2 arrays and lists of stores read at natural-number coordinates.

  A vector of shape [R, C] over the extended reals is read at a pair of naturals `(f, j)`, with the value `0`
  outside the shape (`at2`). The elementwise operations then read coordinate by coordinate, a unit-stride slice
  shifts the coordinates by its offsets, and a cast to the same shape changes nothing.

  The contents a list of stores leaves in a rank-2 buffer are read the same way (`sem`). The newest store, through
  the unit-stride rectangle of rows `[o0, o0 + s0)` and columns `[o1, o1 + s1)`, gives its payload at
  `(f - o0, j - o1)` inside the rectangle and leaves the older stores' contents outside it (`sem_cons`); a load
  of a rectangle that the stores cover reads those contents at the rectangle's offset plus the position
  (`at2_readCov`). With these two a chain of read-modify-write steps on a scratch buffer becomes a recurrence
  between functions of two naturals, and all side conditions are linear arithmetic.
-/
import Idealize.ShloMosaic.Lib.WritesUnit
import Idealize.ShloMosaic.Lib.Exec.Geometry
import Idealize.ShloMosaic.Lib.ValueIdx
import Idealize.ShloMosaic.Lib.Pipeline.Value

noncomputable section

namespace Cert.LibNatReads

open Idealize.ShloMosaic Idealize.ShloMosaic.ValueIdx

/-- A rank-2 array at row `f`, column `j`; `0` outside the shape. -/
def at2 {R C : ℕ} (x : (⟨2, ![R, C]⟩ : Shape).Idx → EReal) (f j : ℕ) : EReal :=
  if h : f < R ∧ j < C then x (ix2 ⟨f, h.1⟩ ⟨j, h.2⟩) else 0

theorem at2_of_lt {R C : ℕ} (x : (⟨2, ![R, C]⟩ : Shape).Idx → EReal) {f j : ℕ} (hf : f < R) (hj : j < C) :
    at2 x f j = x (ix2 ⟨f, hf⟩ ⟨j, hj⟩) := dif_pos ⟨hf, hj⟩

theorem at2_of_not {R C : ℕ} (x : (⟨2, ![R, C]⟩ : Shape).Idx → EReal) {f j : ℕ} (h : ¬ (f < R ∧ j < C)) :
    at2 x f j = 0 := dif_neg h

/-- A product reads as the product. -/
theorem at2_mulf {R C : ℕ} (a b : FVec Ideal (⟨2, ![R, C]⟩ : Shape) .f32) (f j : ℕ) :
    at2 (R := R) (C := C) (mulf a b) f j = at2 (R := R) (C := C) a f j * at2 (R := R) (C := C) b f j := by
  unfold at2
  by_cases h : f < R ∧ j < C
  · rw [dif_pos h, dif_pos h, dif_pos h]; rfl
  · rw [dif_neg h, dif_neg h, dif_neg h, mul_zero]

/-- A sum reads as the sum. -/
theorem at2_addf {R C : ℕ} (a b : FVec Ideal (⟨2, ![R, C]⟩ : Shape) .f32) (f j : ℕ) :
    at2 (R := R) (C := C) (addf a b) f j = at2 (R := R) (C := C) a f j + at2 (R := R) (C := C) b f j := by
  unfold at2
  by_cases h : f < R ∧ j < C
  · rw [dif_pos h, dif_pos h, dif_pos h]; rfl
  · rw [dif_neg h, dif_neg h, dif_neg h, add_zero]

/-- A difference reads as the difference. -/
theorem at2_subf {R C : ℕ} (a b : FVec Ideal (⟨2, ![R, C]⟩ : Shape) .f32) (f j : ℕ) :
    at2 (R := R) (C := C) (subf a b) f j = at2 (R := R) (C := C) a f j - at2 (R := R) (C := C) b f j := by
  unfold at2
  by_cases h : f < R ∧ j < C
  · rw [dif_pos h, dif_pos h, dif_pos h]; rfl
  · rw [dif_neg h, dif_neg h, dif_neg h, sub_zero]

/-- A splat reads as its word inside the shape. -/
theorem at2_broadcast {R C : ℕ} (w : EReal) (f j : ℕ) :
    at2 (R := R) (C := C) (broadcast (⟨2, ![R, C]⟩ : Shape) w) f j = if f < R ∧ j < C then w else 0 := by
  unfold at2
  by_cases h : f < R ∧ j < C
  · rw [dif_pos h, if_pos h]; rfl
  · rw [dif_neg h, if_neg h]

/-- A cast to the same shape changes nothing. -/
theorem at2_shapeCast_self {R C : ℕ} (x : (⟨2, ![R, C]⟩ : Shape).Idx → EReal)
    (h : (⟨2, ![R, C]⟩ : Shape).ShapeCasts (⟨2, ![R, C]⟩ : Shape)) (f j : ℕ) :
    at2 (R := R) (C := C) (shapeCast (⟨2, ![R, C]⟩ : Shape) x h) f j = at2 x f j := by
  rw [shapeCast_self]

/-- A unit-stride slice at offsets `(a, b)` reads the operand at `(a + f, b + j)`. -/
theorem at2_slice {R C R' C' : ℕ} (a b : ℕ) (x : (⟨2, ![R, C]⟩ : Shape).Idx → EReal)
    (h : (⟨2, ![R, C]⟩ : Shape).Slices ![a, b] (⟨2, ![R', C']⟩ : Shape)) (f j : ℕ) :
    at2 (R := R') (C := C') (extractStridedSlice (⟨2, ![R', C']⟩ : Shape) ![a, b] x h) f j
      = if f < R' ∧ j < C' then at2 x (a + f) (b + j) else 0 := by
  by_cases hfj : f < R' ∧ j < C'
  · rw [if_pos hfj, at2_of_lt _ hfj.1 hfj.2]
    have h0 : a + R' ≤ R := h.2 0
    have h1 : b + C' ≤ C := h.2 1
    have hf : a + f < R := by omega
    have hj : b + j < C := by omega
    rw [at2_of_lt _ hf hj]
    exact extractStridedSlice_apply ![a, b] x h (ix2 ⟨f, hfj.1⟩ ⟨j, hfj.2⟩) (ix2 ⟨a + f, hf⟩ ⟨b + j, hj⟩)
      (Fin.forall_fin_two.mpr ⟨rfl, rfl⟩)
  · rw [if_neg hfj, at2_of_not _ hfj]

section Stores

variable {sig : RefSig} {κ : Kind} {sp : Space} {R C : ℕ}

/-- What a list of stores leaves in a rank-2 buffer, at row `f`, column `j` (over unspecified older contents). -/
def sem (v : View sig κ sp (⟨2, ![R, C]⟩ : Shape) .f32) (L : List (View.Piece (Elt Ideal) (⟨2, ![R, C]⟩ : Shape) .f32))
    (f j : ℕ) : EReal :=
  at2 (R := R) (C := C) (v.read (Elt Ideal) (v.writes (Elt Ideal) v.junk L)) f j

/-- The newest store wins inside its rectangle; outside it the older stores are read. -/
theorem sem_cons (v : View sig κ sp (⟨2, ![R, C]⟩ : Shape) .f32) (o0 o1 s0 s1 : ℕ)
    (inb : ∀ a, (![o0, o1] : Fin 2 → ℕ) a + (![s0, s1] : Fin 2 → ℕ) a ≤ (⟨2, ![R, C]⟩ : Shape).size a)
    (w : (Rect.unit (s := (⟨2, ![R, C]⟩ : Shape)) ![o0, o1] ![s0, s1] inb).shape.Idx → Elt Ideal .f32)
    (L : List (View.Piece (Elt Ideal) (⟨2, ![R, C]⟩ : Shape) .f32)) (f j : ℕ) (hf : f < R) (hj : j < C) :
    sem v ((⟨Rect.unit ![o0, o1] ![s0, s1] inb, w⟩ : View.Piece (Elt Ideal) (⟨2, ![R, C]⟩ : Shape) .f32) :: L) f j
      = if (o0 ≤ f ∧ f < o0 + s0) ∧ (o1 ≤ j ∧ j < o1 + s1) then at2 (R := s0) (C := s1) w (f - o0) (j - o1)
        else sem v L f j := by
  unfold sem
  rw [at2_of_lt _ hf hj]
  by_cases h : (o0 ≤ f ∧ f < o0 + s0) ∧ (o1 ≤ j ∧ j < o1 + s1)
  · rw [if_pos h]
    have h0 : f - o0 < s0 := by omega
    have h1 : j - o1 < s1 := by omega
    rw [at2_of_lt _ h0 h1]
    exact View.read_writes_cons_unit_of_mem v v.junk inb w L _ (ix2 ⟨f - o0, h0⟩ ⟨j - o1, h1⟩) rfl
      (Fin.forall_fin_two.mpr ⟨by show f = o0 + (f - o0); omega, by show j = o1 + (j - o1); omega⟩)
  · rw [if_neg h, at2_of_lt _ hf hj]
    by_cases hr : o0 ≤ f ∧ f < o0 + s0
    · have hc : ¬ (o1 ≤ j ∧ j < o1 + s1) := fun hc => h ⟨hr, hc⟩
      exact View.read_writes_cons_unit_of_not_mem v v.junk inb w L _ rfl (1 : Fin 2)
        (by show j < o1 ∨ o1 + s1 ≤ j; omega)
    · exact View.read_writes_cons_unit_of_not_mem v v.junk inb w L _ rfl (0 : Fin 2)
        (by show f < o0 ∨ o0 + s0 ≤ f; omega)

/-- A load of a rectangle the stores cover reads their contents at the rectangle's offset plus the position. -/
theorem at2_readCov (v : View sig κ sp (⟨2, ![R, C]⟩ : Shape) .f32)
    (L : List (View.Piece (Elt Ideal) (⟨2, ![R, C]⟩ : Shape) .f32)) (o0 o1 s0 s1 : ℕ)
    (inb : ∀ a, (![o0, o1] : Fin 2 → ℕ) a + (![s0, s1] : Fin 2 → ℕ) a ≤ (⟨2, ![R, C]⟩ : Shape).size a) (f j : ℕ) :
    at2 (R := s0) (C := s1) (v.readCov L (Rect.unit (s := (⟨2, ![R, C]⟩ : Shape)) ![o0, o1] ![s0, s1] inb).toLoadRect) f j
      = if f < s0 ∧ j < s1 then sem v L (o0 + f) (o1 + j) else 0 := by
  by_cases hfj : f < s0 ∧ j < s1
  · rw [if_pos hfj, at2_of_lt _ hfj.1 hfj.2]
    have h0 : o0 + s0 ≤ R := inb 0
    have h1 : o1 + s1 ≤ C := inb 1
    have hf : o0 + f < R := by omega
    have hj : o1 + j < C := by omega
    unfold sem
    rw [at2_of_lt _ hf hj]
    show v.read (Elt Ideal) (v.writes (Elt Ideal) v.junk L) ((Rect.unit ![o0, o1] ![s0, s1] inb).emb _) = _
    refine congrArg (v.read (Elt Ideal) (v.writes (Elt Ideal) v.junk L)) (funext fun a => Fin.ext ?_)
    revert a
    exact Fin.forall_fin_two.mpr ⟨by show o0 + 1 * f = o0 + f; omega, by show o1 + 1 * j = o1 + j; omega⟩
  · rw [if_neg hfj, at2_of_not _ hfj]

/-- The one store through the whole buffer: its payload everywhere. -/
theorem sem_whole (v : View sig κ sp (⟨2, ![R, C]⟩ : Shape) .f32)
    (w : (Rect.whole (⟨2, ![R, C]⟩ : Shape)).shape.Idx → Elt Ideal .f32) (f j : ℕ) :
    sem v [(⟨Rect.whole (⟨2, ![R, C]⟩ : Shape), w⟩ : View.Piece (Elt Ideal) (⟨2, ![R, C]⟩ : Shape) .f32)] f j
      = at2 (R := R) (C := C) w f j := by
  unfold sem at2
  by_cases h : f < R ∧ j < C
  · rw [dif_pos h, dif_pos h]
    have e : (Rect.whole (⟨2, ![R, C]⟩ : Shape)).emb (ix2 ⟨f, h.1⟩ ⟨j, h.2⟩) = ix2 ⟨f, h.1⟩ ⟨j, h.2⟩ :=
      funext fun a => Fin.ext (by
        revert a
        exact Fin.forall_fin_two.mpr ⟨by show 0 + 1 * f = f; omega, by show 0 + 1 * j = j; omega⟩)
    exact (congrArg (v.read (Elt Ideal) (v.writes (Elt Ideal) v.junk _)) e.symm).trans
      (View.read_writes_cons_emb v v.junk (Rect.whole (⟨2, ![R, C]⟩ : Shape)) w [] (ix2 ⟨f, h.1⟩ ⟨j, h.2⟩))
  · rw [dif_neg h, dif_neg h]

/-- Equal coordinates, equal contents. -/
theorem sem_congr (v : View sig κ sp (⟨2, ![R, C]⟩ : Shape) .f32) (L : List (View.Piece (Elt Ideal) (⟨2, ![R, C]⟩ : Shape) .f32))
    {f f' j j' : ℕ} (hf : f = f') (hj : j = j') : sem v L f j = sem v L f' j' := by subst hf; subst hj; rfl

/-- Inside the newest store's rectangle: its payload. -/
theorem sem_cons_in (v : View sig κ sp (⟨2, ![R, C]⟩ : Shape) .f32) (o0 o1 s0 s1 : ℕ)
    (inb : ∀ a, (![o0, o1] : Fin 2 → ℕ) a + (![s0, s1] : Fin 2 → ℕ) a ≤ (⟨2, ![R, C]⟩ : Shape).size a)
    (w : (Rect.unit (s := (⟨2, ![R, C]⟩ : Shape)) ![o0, o1] ![s0, s1] inb).shape.Idx → Elt Ideal .f32)
    (L : List (View.Piece (Elt Ideal) (⟨2, ![R, C]⟩ : Shape) .f32)) (f j : ℕ) (hf : f < R) (hj : j < C)
    (h : (o0 ≤ f ∧ f < o0 + s0) ∧ (o1 ≤ j ∧ j < o1 + s1)) :
    sem v ((⟨Rect.unit ![o0, o1] ![s0, s1] inb, w⟩ : View.Piece (Elt Ideal) (⟨2, ![R, C]⟩ : Shape) .f32) :: L) f j
      = at2 (R := s0) (C := s1) w (f - o0) (j - o1) := by
  rw [sem_cons v o0 o1 s0 s1 inb w L f j hf hj, if_pos h]

/-- Outside the newest store's rectangle: the older stores. -/
theorem sem_cons_out (v : View sig κ sp (⟨2, ![R, C]⟩ : Shape) .f32) (o0 o1 s0 s1 : ℕ)
    (inb : ∀ a, (![o0, o1] : Fin 2 → ℕ) a + (![s0, s1] : Fin 2 → ℕ) a ≤ (⟨2, ![R, C]⟩ : Shape).size a)
    (w : (Rect.unit (s := (⟨2, ![R, C]⟩ : Shape)) ![o0, o1] ![s0, s1] inb).shape.Idx → Elt Ideal .f32)
    (L : List (View.Piece (Elt Ideal) (⟨2, ![R, C]⟩ : Shape) .f32)) (f j : ℕ) (hf : f < R) (hj : j < C)
    (h : ¬ ((o0 ≤ f ∧ f < o0 + s0) ∧ (o1 ≤ j ∧ j < o1 + s1))) :
    sem v ((⟨Rect.unit ![o0, o1] ![s0, s1] inb, w⟩ : View.Piece (Elt Ideal) (⟨2, ![R, C]⟩ : Shape) .f32) :: L) f j
      = sem v L f j := by
  rw [sem_cons v o0 o1 s0 s1 inb w L f j hf hj, if_neg h]

/-- A covered load inside its rectangle. -/
theorem at2_readCov_in (v : View sig κ sp (⟨2, ![R, C]⟩ : Shape) .f32)
    (L : List (View.Piece (Elt Ideal) (⟨2, ![R, C]⟩ : Shape) .f32)) (o0 o1 s0 s1 : ℕ)
    (inb : ∀ a, (![o0, o1] : Fin 2 → ℕ) a + (![s0, s1] : Fin 2 → ℕ) a ≤ (⟨2, ![R, C]⟩ : Shape).size a) (f j : ℕ)
    (hf : f < s0) (hj : j < s1) :
    at2 (R := s0) (C := s1) (v.readCov L (Rect.unit (s := (⟨2, ![R, C]⟩ : Shape)) ![o0, o1] ![s0, s1] inb).toLoadRect) f j
      = sem v L (o0 + f) (o1 + j) := by
  rw [at2_readCov, if_pos ⟨hf, hj⟩]

end Stores

/-- Equal coordinates, equal elements. -/
theorem at2_congr {R C : ℕ} (x : (⟨2, ![R, C]⟩ : Shape).Idx → EReal) {f f' j j' : ℕ} (hf : f = f') (hj : j = j') :
    at2 x f j = at2 x f' j' := by subst hf; subst hj; rfl

/-- A slice inside its extents. -/
theorem at2_slice_in {R C R' C' : ℕ} (a b : ℕ) (x : (⟨2, ![R, C]⟩ : Shape).Idx → EReal)
    (h : (⟨2, ![R, C]⟩ : Shape).Slices ![a, b] (⟨2, ![R', C']⟩ : Shape)) (f j : ℕ) (hf : f < R') (hj : j < C') :
    at2 (R := R') (C := C') (extractStridedSlice (⟨2, ![R', C']⟩ : Shape) ![a, b] x h) f j = at2 x (a + f) (b + j) := by
  rw [at2_slice, if_pos ⟨hf, hj⟩]

/-- A splat inside the shape. -/
theorem at2_broadcast_in {R C : ℕ} (w : EReal) (f j : ℕ) (hf : f < R) (hj : j < C) :
    at2 (R := R) (C := C) (broadcast (⟨2, ![R, C]⟩ : Shape) w) f j = w := by
  rw [at2_broadcast, if_pos ⟨hf, hj⟩]

/-- A rank-2 array cast to [1, 1, R, C] reads at `(0, 0, f, j)` what it holds at `(f, j)`. -/
theorem shapeCast_addUnit2_apply {α : Type} {R C : ℕ} (v : (⟨2, ![R, C]⟩ : Shape).Idx → α)
    (h : (⟨2, ![R, C]⟩ : Shape).ShapeCasts (⟨4, ![1, 1, R, C]⟩ : Shape)) (y : (⟨4, ![1, 1, R, C]⟩ : Shape).Idx) :
    shapeCast (⟨4, ![1, 1, R, C]⟩ : Shape) v h y = v (ix2 (y 2) (y 3)) := by
  have h1 : (⟨2, ![R, C]⟩ : Shape).ShapeCasts (⟨3, ![1, R, C]⟩ : Shape) := by
    show (⟨3, ![1, R, C]⟩ : Shape).numel = (⟨2, ![R, C]⟩ : Shape).numel
    simp [Shape.numel, Fin.prod_univ_succ]
  have h2 : (⟨3, ![1, R, C]⟩ : Shape).ShapeCasts (⟨4, ![1, 1, R, C]⟩ : Shape) := by
    show (⟨4, ![1, 1, R, C]⟩ : Shape).numel = (⟨3, ![1, R, C]⟩ : Shape).numel
    simp [Shape.numel, Fin.prod_univ_succ]
  have e : shapeCast (⟨4, ![1, 1, R, C]⟩ : Shape) v h
      = shapeCast (⟨4, ![1, 1, R, C]⟩ : Shape) (shapeCast (⟨3, ![1, R, C]⟩ : Shape) v h1) h2 := by
    funext z
    unfold shapeCast
    refine congrArg v ?_
    exact (Shape.reshapeEquiv_reshapeEquiv _ _ z).symm
  rw [e]
  refine (shapeCast_addUnit_apply ![1, R, C] _ h2 y).trans ?_
  refine (shapeCast_addUnit_apply ![R, C] v h1 _).trans ?_
  refine congrArg v (funext fun a => ?_)
  match a with
  | ⟨0, _⟩ => rfl
  | ⟨1, _⟩ => rfl

end Cert.LibNatReads

end
-- ==== Proof.Spec.lean ====
/-
  The deep-filter sum as one function of the four input arrays.

  Each input is an array [16, 257, 4000] of extended reals (batch, frequency bin, frame). Extended by zero one
  bin below and above and two frames before and after, it becomes an array [16, 259, 4004] (`zext`, read at
  the padded coordinates). At a padded position the real part of the product is
  `ir * fr - ii * fi` and the imaginary part, as the source writes it, `(2 * ir) * fi`. The result at batch
  `b`, bin `f`, frame `t` is the sum of the product over the 3 x 5 window of padded positions
  `(f + i, t + j)`, `i < 3`, `j < 5`; the real parts fill rows `0 .. 256` of the [16, 514, 4000] result and the
  imaginary parts rows `257 .. 513`.
-/
import Idealize.ShloMosaic.PureOps.Ideal
import Idealize.ShloMosaic.Lib.ValueIdx

noncomputable section

open scoped BigOperators

namespace Cert.DeepFilter

open Idealize.ShloMosaic Idealize.ShloMosaic.ValueIdx

/-- An input array: batch, frequency bin, frame. -/
abbrev Arr : Type := (⟨3, ![16, 257, 4000]⟩ : Shape).Idx → EReal

/-- The result array: batch, real bins then imaginary bins, frame. -/
abbrev Res : Type := (⟨3, ![16, 514, 4000]⟩ : Shape).Idx → EReal

/-- The word 2.0. -/
def two : EReal := Ideal.ofBits .f32 0x40000000#32

/-- The array extended by zero, at the padded coordinates `f` (bin + 1) and `t` (frame + 2). -/
def zext (x : Arr) (b : Fin 16) (f t : ℕ) : EReal :=
  if h : (1 ≤ f ∧ f < 258) ∧ (2 ≤ t ∧ t < 4002) then x (ix3 b ⟨f - 1, by omega⟩ ⟨t - 2, by omega⟩) else 0

/-- Real part of the product at a padded position. -/
def prodR (ir ii fr fi : Arr) (b : Fin 16) (f t : ℕ) : EReal :=
  zext ir b f t * zext fr b f t - zext ii b f t * zext fi b f t

/-- Imaginary part of the product at a padded position, as the source writes it. -/
def prodI (ir fi : Arr) (b : Fin 16) (f t : ℕ) : EReal :=
  two * zext ir b f t * zext fi b f t

/-- The 3 x 5 window sum of the real part at bin `f`, frame `t`. -/
def sumR (ir ii fr fi : Arr) (b : Fin 16) (f t : ℕ) : EReal :=
  ∑ i : Fin 3, ∑ j : Fin 5, prodR ir ii fr fi b (f + i.val) (t + j.val)

/-- The 3 x 5 window sum of the imaginary part at bin `f`, frame `t`. -/
def sumI (ir fi : Arr) (b : Fin 16) (f t : ℕ) : EReal :=
  ∑ i : Fin 3, ∑ j : Fin 5, prodI ir fi b (f + i.val) (t + j.val)

/-- The whole result: rows below 257 the real sums, rows from 257 the imaginary sums. -/
def G (ir ii fr fi : Arr) : Res := fun y =>
  if (y 1).val < 257 then sumR ir ii fr fi (y 0) (y 1).val (y 2).val
  else sumI ir fi (y 0) ((y 1).val - 257) (y 2).val

/-- The kernel's own layout of the same result: [16, 2, 257, 4000], real sums in plane 0 and imaginary sums in
    plane 1 of each batch. Row-major, plane `p`, bin `f` is row `p * 257 + f` of `G`. -/
def K4 (ir ii fr fi : Arr) : (⟨4, ![16, 2, 257, 4000]⟩ : Shape).Idx → EReal := fun y =>
  if (y 1).val = 0 then sumR ir ii fr fi (y 0) (y 2).val (y 3).val
  else sumI ir fi (y 0) (y 2).val (y 3).val

end Cert.DeepFilter

end
-- ==== Proof.BodySlabs.lean ====
/-
  The four input slabs of one grid point, and the products of the deep filter read on them.

  At grid point `i` the body copies batch `i 0` of each input array — a [257, 4000] slab — into scratch. Read at
  natural coordinates `(f, τ)` a slab is the input array at `(i 0, f, τ)` and `0` outside the slab, which is the
  zero-extended array of the specification at the padded coordinates `(f + 1, τ + 2)`. So the products of the
  specification at padded positions are products of slab elements, and they vanish on the padding: row `0`,
  rows from `258`, columns below `2` and from `4002`.
-/
import proofs.«134051_j16587163697924_2_alg».proof.Proof.Gen.KernelIdeal.Frame
import proofs.«134051_j16587163697924_2_alg».proof.Proof.LibNatReads
import proofs.«134051_j16587163697924_2_alg».proof.Proof.Spec
import Idealize.ShloMosaic.PureOps.Ideal.Laws

noncomputable section

namespace Cert.DeepFilter.Body

open Idealize.ShloMosaic Idealize.ShloMosaic.ValueIdx Idealize.SL.Sem
open Cert.KernelIdeal Cert.KernelIdeal.Gen Cert.LibNatReads

variable (c : Dev nD) (i : grid0.Coords)
  (fh0 : HbBuf0 (F := Ideal) c hbM0_0) (fh1 : HbBuf0 (F := Ideal) c hbM0_1) (fh2 : HbBuf0 (F := Ideal) c hbM0_2) (fh3 : HbBuf0 (F := Ideal) c hbM0_3)

/-- The batch a grid point works on. -/
abbrev bat : Fin 16 := ⟨(i 0).val, (i 0).isLt⟩

/-- The slab's offsets in its array: the batch, then the slab's origin. -/
theorem off1_eq : k0_off1 i = ![(i 0).val, 0, 0] := by
  unfold k0_off1
  have h : (i 0).val < 16 := (i 0).isLt
  simp only [BitVec.toNat_ofNat]
  rw [Nat.mod_eq_of_lt (by omega)]

/-- Slab of `main_arg0` at `(f, τ)`: the array at `(batch, f, τ)`. -/
theorem dma0_at (f τ : ℕ) (hf : f < 257) (hτ : τ < 4000) :
    at2 (R := 257) (C := 4000) (kernelRun0_A.sl.dma0 (F := Ideal) c i fh0) f τ
      = fh0 (ix3 (bat i) (⟨f, hf⟩ : Fin 257) (⟨τ, hτ⟩ : Fin 4000)) := by
  rw [at2_of_lt _ hf hτ]
  unfold kernelRun0_A.sl.dma0
  have hc : (Rect.unit (s := S16x257x4000) (k0_off1 i) S1x257x4000.size (k0_off1_inb i)).shape.ShapeCasts S257x4000 := by
    show S257x4000.numel = S1x257x4000.numel; decide
  show shapeCast S257x4000 ((Memref.whole main_arg0).view.readAt (Elt Ideal)
      (Rect.unit (s := S16x257x4000) (k0_off1 i) S1x257x4000.size (k0_off1_inb i)).toLoadRect fh0) hc (ix2 ⟨f, hf⟩ ⟨τ, hτ⟩) = _
  refine (shapeCast_dropUnit_apply ![257, 4000] _ hc (ix2 ⟨f, hf⟩ ⟨τ, hτ⟩)).trans ?_
  show fh0 _ = fh0 _
  refine congrArg fh0 (funext fun a => Fin.ext ?_)
  match a with
  | ⟨0, _⟩ =>
    show (k0_off1 i) 0 + 1 * 0 = (i 0).val
    rw [off1_eq]; rfl
  | ⟨1, _⟩ =>
    show (k0_off1 i) 1 + 1 * f = f
    rw [off1_eq]; show 0 + 1 * f = f; omega
  | ⟨2, _⟩ =>
    show (k0_off1 i) 2 + 1 * τ = τ
    rw [off1_eq]; show 0 + 1 * τ = τ; omega

/-- The zero-extended `main_arg0` at padded `(f + 1, τ + 2)` is its slab at `(f, τ)`. -/
theorem zext_dma0 (f τ : ℕ) :
    Cert.DeepFilter.zext fh0 (bat i) (f + 1) (τ + 2)
      = at2 (R := 257) (C := 4000) (kernelRun0_A.sl.dma0 (F := Ideal) c i fh0) f τ := by
  unfold Cert.DeepFilter.zext
  by_cases h : f < 257 ∧ τ < 4000
  · rw [dif_pos ⟨⟨by omega, by omega⟩, ⟨by omega, by omega⟩⟩, dma0_at c i fh0 f τ h.1 h.2]
    refine congrArg fh0 (funext fun a => ?_)
    match a with
    | ⟨0, _⟩ => rfl
    | ⟨1, _⟩ => exact Fin.ext (by show f + 1 - 1 = f; omega)
    | ⟨2, _⟩ => exact Fin.ext (by show τ + 2 - 2 = τ; omega)
  · rw [dif_neg (by omega), at2_of_not _ h]

/-- Slab of `main_arg1` at `(f, τ)`: the array at `(batch, f, τ)`. -/
theorem dma0_1_at (f τ : ℕ) (hf : f < 257) (hτ : τ < 4000) :
    at2 (R := 257) (C := 4000) (kernelRun0_A.sl.dma0_1 (F := Ideal) c i fh1) f τ
      = fh1 (ix3 (bat i) (⟨f, hf⟩ : Fin 257) (⟨τ, hτ⟩ : Fin 4000)) := by
  rw [at2_of_lt _ hf hτ]
  unfold kernelRun0_A.sl.dma0_1
  have hc : (Rect.unit (s := S16x257x4000) (k0_off1 i) S1x257x4000.size (k0_off1_inb i)).shape.ShapeCasts S257x4000 := by
    show S257x4000.numel = S1x257x4000.numel; decide
  show shapeCast S257x4000 ((Memref.whole main_arg1).view.readAt (Elt Ideal)
      (Rect.unit (s := S16x257x4000) (k0_off1 i) S1x257x4000.size (k0_off1_inb i)).toLoadRect fh1) hc (ix2 ⟨f, hf⟩ ⟨τ, hτ⟩) = _
  refine (shapeCast_dropUnit_apply ![257, 4000] _ hc (ix2 ⟨f, hf⟩ ⟨τ, hτ⟩)).trans ?_
  show fh1 _ = fh1 _
  refine congrArg fh1 (funext fun a => Fin.ext ?_)
  match a with
  | ⟨0, _⟩ =>
    show (k0_off1 i) 0 + 1 * 0 = (i 0).val
    rw [off1_eq]; rfl
  | ⟨1, _⟩ =>
    show (k0_off1 i) 1 + 1 * f = f
    rw [off1_eq]; show 0 + 1 * f = f; omega
  | ⟨2, _⟩ =>
    show (k0_off1 i) 2 + 1 * τ = τ
    rw [off1_eq]; show 0 + 1 * τ = τ; omega

/-- The zero-extended `main_arg1` at padded `(f + 1, τ + 2)` is its slab at `(f, τ)`. -/
theorem zext_dma0_1 (f τ : ℕ) :
    Cert.DeepFilter.zext fh1 (bat i) (f + 1) (τ + 2)
      = at2 (R := 257) (C := 4000) (kernelRun0_A.sl.dma0_1 (F := Ideal) c i fh1) f τ := by
  unfold Cert.DeepFilter.zext
  by_cases h : f < 257 ∧ τ < 4000
  · rw [dif_pos ⟨⟨by omega, by omega⟩, ⟨by omega, by omega⟩⟩, dma0_1_at c i fh1 f τ h.1 h.2]
    refine congrArg fh1 (funext fun a => ?_)
    match a with
    | ⟨0, _⟩ => rfl
    | ⟨1, _⟩ => exact Fin.ext (by show f + 1 - 1 = f; omega)
    | ⟨2, _⟩ => exact Fin.ext (by show τ + 2 - 2 = τ; omega)
  · rw [dif_neg (by omega), at2_of_not _ h]

/-- Slab of `main_arg2` at `(f, τ)`: the array at `(batch, f, τ)`. -/
theorem dma0_2_at (f τ : ℕ) (hf : f < 257) (hτ : τ < 4000) :
    at2 (R := 257) (C := 4000) (kernelRun0_A.sl.dma0_2 (F := Ideal) c i fh2) f τ
      = fh2 (ix3 (bat i) (⟨f, hf⟩ : Fin 257) (⟨τ, hτ⟩ : Fin 4000)) := by
  rw [at2_of_lt _ hf hτ]
  unfold kernelRun0_A.sl.dma0_2
  have hc : (Rect.unit (s := S16x257x4000) (k0_off1 i) S1x257x4000.size (k0_off1_inb i)).shape.ShapeCasts S257x4000 := by
    show S257x4000.numel = S1x257x4000.numel; decide
  show shapeCast S257x4000 ((Memref.whole main_arg2).view.readAt (Elt Ideal)
      (Rect.unit (s := S16x257x4000) (k0_off1 i) S1x257x4000.size (k0_off1_inb i)).toLoadRect fh2) hc (ix2 ⟨f, hf⟩ ⟨τ, hτ⟩) = _
  refine (shapeCast_dropUnit_apply ![257, 4000] _ hc (ix2 ⟨f, hf⟩ ⟨τ, hτ⟩)).trans ?_
  show fh2 _ = fh2 _
  refine congrArg fh2 (funext fun a => Fin.ext ?_)
  match a with
  | ⟨0, _⟩ =>
    show (k0_off1 i) 0 + 1 * 0 = (i 0).val
    rw [off1_eq]; rfl
  | ⟨1, _⟩ =>
    show (k0_off1 i) 1 + 1 * f = f
    rw [off1_eq]; show 0 + 1 * f = f; omega
  | ⟨2, _⟩ =>
    show (k0_off1 i) 2 + 1 * τ = τ
    rw [off1_eq]; show 0 + 1 * τ = τ; omega

/-- The zero-extended `main_arg2` at padded `(f + 1, τ + 2)` is its slab at `(f, τ)`. -/
theorem zext_dma0_2 (f τ : ℕ) :
    Cert.DeepFilter.zext fh2 (bat i) (f + 1) (τ + 2)
      = at2 (R := 257) (C := 4000) (kernelRun0_A.sl.dma0_2 (F := Ideal) c i fh2) f τ := by
  unfold Cert.DeepFilter.zext
  by_cases h : f < 257 ∧ τ < 4000
  · rw [dif_pos ⟨⟨by omega, by omega⟩, ⟨by omega, by omega⟩⟩, dma0_2_at c i fh2 f τ h.1 h.2]
    refine congrArg fh2 (funext fun a => ?_)
    match a with
    | ⟨0, _⟩ => rfl
    | ⟨1, _⟩ => exact Fin.ext (by show f + 1 - 1 = f; omega)
    | ⟨2, _⟩ => exact Fin.ext (by show τ + 2 - 2 = τ; omega)
  · rw [dif_neg (by omega), at2_of_not _ h]

/-- Slab of `main_arg3` at `(f, τ)`: the array at `(batch, f, τ)`. -/
theorem dma0_3_at (f τ : ℕ) (hf : f < 257) (hτ : τ < 4000) :
    at2 (R := 257) (C := 4000) (kernelRun0_A.sl.dma0_3 (F := Ideal) c i fh3) f τ
      = fh3 (ix3 (bat i) (⟨f, hf⟩ : Fin 257) (⟨τ, hτ⟩ : Fin 4000)) := by
  rw [at2_of_lt _ hf hτ]
  unfold kernelRun0_A.sl.dma0_3
  have hc : (Rect.unit (s := S16x257x4000) (k0_off1 i) S1x257x4000.size (k0_off1_inb i)).shape.ShapeCasts S257x4000 := by
    show S257x4000.numel = S1x257x4000.numel; decide
  show shapeCast S257x4000 ((Memref.whole main_arg3).view.readAt (Elt Ideal)
      (Rect.unit (s := S16x257x4000) (k0_off1 i) S1x257x4000.size (k0_off1_inb i)).toLoadRect fh3) hc (ix2 ⟨f, hf⟩ ⟨τ, hτ⟩) = _
  refine (shapeCast_dropUnit_apply ![257, 4000] _ hc (ix2 ⟨f, hf⟩ ⟨τ, hτ⟩)).trans ?_
  show fh3 _ = fh3 _
  refine congrArg fh3 (funext fun a => Fin.ext ?_)
  match a with
  | ⟨0, _⟩ =>
    show (k0_off1 i) 0 + 1 * 0 = (i 0).val
    rw [off1_eq]; rfl
  | ⟨1, _⟩ =>
    show (k0_off1 i) 1 + 1 * f = f
    rw [off1_eq]; show 0 + 1 * f = f; omega
  | ⟨2, _⟩ =>
    show (k0_off1 i) 2 + 1 * τ = τ
    rw [off1_eq]; show 0 + 1 * τ = τ; omega

/-- The zero-extended `main_arg3` at padded `(f + 1, τ + 2)` is its slab at `(f, τ)`. -/
theorem zext_dma0_3 (f τ : ℕ) :
    Cert.DeepFilter.zext fh3 (bat i) (f + 1) (τ + 2)
      = at2 (R := 257) (C := 4000) (kernelRun0_A.sl.dma0_3 (F := Ideal) c i fh3) f τ := by
  unfold Cert.DeepFilter.zext
  by_cases h : f < 257 ∧ τ < 4000
  · rw [dif_pos ⟨⟨by omega, by omega⟩, ⟨by omega, by omega⟩⟩, dma0_3_at c i fh3 f τ h.1 h.2]
    refine congrArg fh3 (funext fun a => ?_)
    match a with
    | ⟨0, _⟩ => rfl
    | ⟨1, _⟩ => exact Fin.ext (by show f + 1 - 1 = f; omega)
    | ⟨2, _⟩ => exact Fin.ext (by show τ + 2 - 2 = τ; omega)
  · rw [dif_neg (by omega), at2_of_not _ h]

/-- The real product of the specification at padded `(f + 1, τ + 2)`, on the slabs. -/
theorem prodR_succ (f τ : ℕ) :
    Cert.DeepFilter.prodR fh0 fh1 fh2 fh3 (bat i) (f + 1) (τ + 2)
      = at2 (R := 257) (C := 4000) (kernelRun0_A.sl.dma0 (F := Ideal) c i fh0) f τ
          * at2 (R := 257) (C := 4000) (kernelRun0_A.sl.dma0_2 (F := Ideal) c i fh2) f τ
        - at2 (R := 257) (C := 4000) (kernelRun0_A.sl.dma0_1 (F := Ideal) c i fh1) f τ
          * at2 (R := 257) (C := 4000) (kernelRun0_A.sl.dma0_3 (F := Ideal) c i fh3) f τ := by
  unfold Cert.DeepFilter.prodR
  rw [zext_dma0 c i fh0, zext_dma0_1 c i fh1, zext_dma0_2 c i fh2, zext_dma0_3 c i fh3]

/-- The imaginary product of the specification at padded `(f + 1, τ + 2)`, on the slabs. -/
theorem prodI_succ (f τ : ℕ) :
    Cert.DeepFilter.prodI fh0 fh3 (bat i) (f + 1) (τ + 2)
      = Cert.DeepFilter.two * at2 (R := 257) (C := 4000) (kernelRun0_A.sl.dma0 (F := Ideal) c i fh0) f τ
          * at2 (R := 257) (C := 4000) (kernelRun0_A.sl.dma0_3 (F := Ideal) c i fh3) f τ := by
  unfold Cert.DeepFilter.prodI
  rw [zext_dma0 c i fh0, zext_dma0_3 c i fh3]

end Cert.DeepFilter.Body

namespace Cert.DeepFilter

/-- Congruences for the shapes the payloads take. -/
theorem add_congr {a a' b b' : EReal} (h1 : a = a') (h2 : b = b') : a + b = a' + b' := by rw [h1, h2]

theorem prod4_congr {x y z w x' y' z' w' : EReal} (hx : x = x') (hy : y = y') (hz : z = z') (hw : w = w') :
    x * y - z * w = x' * y' - z' * w' := by rw [hx, hy, hz, hw]

theorem prod2_congr (u : EReal) {x y x' y' : EReal} (hx : x = x') (hy : y = y') : u * x * y = u * x' * y' := by
  rw [hx, hy]

/-- Off the array the zero extension is zero. -/
theorem zext_out (x : Arr) (b : Fin 16) (f t : ℕ) (h : f = 0 ∨ 258 ≤ f ∨ t < 2 ∨ 4002 ≤ t) : zext x b f t = 0 := by
  unfold zext
  rw [dif_neg (by omega)]

/-- The real product vanishes on the padding. -/
theorem prodR_out (ir ii fr fi : Arr) (b : Fin 16) (f t : ℕ) (h : f = 0 ∨ 258 ≤ f ∨ t < 2 ∨ 4002 ≤ t) :
    prodR ir ii fr fi b f t = 0 := by
  unfold prodR
  rw [zext_out ir b f t h, zext_out fr b f t h, zext_out ii b f t h, zext_out fi b f t h]
  simp

/-- The imaginary product vanishes on the padding. -/
theorem prodI_out (ir fi : Arr) (b : Fin 16) (f t : ℕ) (h : f = 0 ∨ 258 ≤ f ∨ t < 2 ∨ 4002 ≤ t) :
    prodI ir fi b f t = 0 := by
  unfold prodI
  rw [zext_out ir b f t h, zext_out fi b f t h]
  simp

/-- Three rows of real products in one padded column, added from zero: what the three-tap sum over bins holds. -/
def colR (ir ii fr fi : Arr) (b : Fin 16) (f t : ℕ) : EReal :=
  ((0 + prodR ir ii fr fi b f t) + prodR ir ii fr fi b (f + 1) t) + prodR ir ii fr fi b (f + 1 + 1) t

/-- Three rows of imaginary products in one padded column. -/
def colI (ir fi : Arr) (b : Fin 16) (f t : ℕ) : EReal :=
  ((0 + prodI ir fi b f t) + prodI ir fi b (f + 1) t) + prodI ir fi b (f + 1 + 1) t

theorem colR_out (ir ii fr fi : Arr) (b : Fin 16) (f t : ℕ) (h : t < 2 ∨ 4002 ≤ t) : colR ir ii fr fi b f t = 0 := by
  unfold colR
  rw [prodR_out _ _ _ _ _ _ _ (by omega), prodR_out _ _ _ _ _ _ _ (by omega), prodR_out _ _ _ _ _ _ _ (by omega)]
  simp

theorem colI_out (ir fi : Arr) (b : Fin 16) (f t : ℕ) (h : t < 2 ∨ 4002 ≤ t) : colI ir fi b f t = 0 := by
  unfold colI
  rw [prodI_out _ _ _ _ _ (by omega), prodI_out _ _ _ _ _ (by omega), prodI_out _ _ _ _ _ (by omega)]
  simp

/-- Five columns of three-row sums, added from zero one after the other, are the 3 x 5 window sum. -/
theorem sumR_of_cols (ir ii fr fi : Arr) (b : Fin 16) (f t : ℕ) :
    ((((0 + colR ir ii fr fi b f t) + colR ir ii fr fi b f (t + 1)) + colR ir ii fr fi b f (t + 2))
        + colR ir ii fr fi b f (t + 3)) + colR ir ii fr fi b f (t + 4) = sumR ir ii fr fi b f t := by
  unfold sumR colR
  simp only [Fin.sum_univ_succ, Fin.sum_univ_zero, Fin.val_zero, Fin.val_succ, Nat.add_zero, add_zero, zero_add]
  abel

theorem sumI_of_cols (ir fi : Arr) (b : Fin 16) (f t : ℕ) :
    ((((0 + colI ir fi b f t) + colI ir fi b f (t + 1)) + colI ir fi b f (t + 2))
        + colI ir fi b f (t + 3)) + colI ir fi b f (t + 4) = sumI ir fi b f t := by
  unfold sumI colI
  simp only [Fin.sum_univ_succ, Fin.sum_univ_zero, Fin.val_zero, Fin.val_succ, Nat.add_zero, add_zero, zero_add]
  abel

end Cert.DeepFilter

end
-- ==== Proof.BodyChunk0R.lean ====
/-
  Frames 0 … 511, real plane: the body's stores into its two scratch buffers for this run of frames.

  The body first forms the product `ir * fr - ii * fi` on the slab columns 0 … 513 (the run's frames and a halo of two
  on each side inside the array). A first buffer is cleared and gains, in three read-modify-write steps, the product
  one bin above, at, and one bin below each bin, a step leaving out the row whose neighbour is off the array. A second
  buffer is cleared and gains, in five steps, the first buffer two frames before … two frames after each frame, a step
  leaving out the frames whose neighbour is off the array. Read at natural coordinates each step is `new = old + source`
  on its rectangle and `new = old` off it, where the source is zero anyway because it lies on the zero padding; so the
  second buffer ends at the 3 x 5 window sum of the specification, and that is what the body stores into the output block.
-/
import proofs.«134051_j16587163697924_2_alg».proof.Proof.BodySlabs

noncomputable section

namespace Cert.DeepFilter.Body

open Idealize.ShloMosaic Idealize.ShloMosaic.ValueIdx Idealize.SL.Sem
open Cert.KernelIdeal Cert.KernelIdeal.Gen Cert.LibNatReads Cert.DeepFilter

variable (c : Dev nD) (i : grid0.Coords)
  (arg6 arg7 arg8 arg9 : Memref sig .tc .vmem S257x4000 .f32) (arg10 arg11 : Memref sig .tc .vmem S257x516 .f32)
  (arg12 arg13 : Memref sig .tc .vmem S257x512 .f32)
  (fh0 : HbBuf0 (F := Ideal) c hbM0_0) (fh1 : HbBuf0 (F := Ideal) c hbM0_1) (fh2 : HbBuf0 (F := Ideal) c hbM0_2) (fh3 : HbBuf0 (F := Ideal) c hbM0_3)

include c i arg6 arg7 arg8 arg9 arg10 arg11 arg12 arg13 fh0 fh1 fh2 fh3

/-- The bin-sum buffer after it is cleared: zero on columns below 514. -/
theorem fz_c0R (f j : ℕ) (hf : f < 257) (hj : j < 514) :
    sem arg10.view (kernelRun0_A.sl.HS4_1 (F := Ideal)) f j = 0 := by
  simp (disch := omega) only [kernelRun0_A.sl.HS4_1, k0_pay5, sem_cons_in, sem_whole, at2_shapeCast_self, at2_addf, at2_subf, at2_mulf, at2_slice_in, at2_readCov_in, at2_broadcast_in]
  exact Ideal.ofBits_zero_f32

/-- Bin tap -1: rows 1 … 256 gain the product one padded row above; the skipped row's product is on the padding, so zero. -/
theorem ft0_c0R (f j : ℕ) (hf : f < 257) (hj : j < 514) :
    sem arg10.view (kernelRun0_A.sl.HS4_2 (F := Ideal) c i arg6 arg7 arg8 arg9 arg10 fh0 fh1 fh2 fh3) f j
      = sem arg10.view (kernelRun0_A.sl.HS4_1 (F := Ideal)) f j + Cert.DeepFilter.prodR fh0 fh1 fh2 fh3 (bat i) (f) (j + 2) := by
  by_cases hin : 1 ≤ f ∧ f < 1 + 256
  ·
    obtain ⟨g, rfl⟩ : ∃ g, f = g + 1 := ⟨f - 1, by omega⟩
    rw [prodR_succ c i fh0 fh1 fh2 fh3]
    simp (disch := omega) only [kernelRun0_A.sl.HS4_2, kernelRun0_A.sl.v32, kernelRun0_A.sl.v33, kernelRun0_A.sl.v34, kernelRun0_A.sl.v35, kernelRun0_A.sl.v50, k0_pay7, k0_pay3, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_2, sem_cons_out])

/-- Bin tap 0: rows 0 … 256 gain the product one padded row at; the skipped row's product is on the padding, so zero. -/
theorem ft1_c0R (f j : ℕ) (hf : f < 257) (hj : j < 514) :
    sem arg10.view (kernelRun0_A.sl.HS4_3 (F := Ideal) c i arg6 arg7 arg8 arg9 arg10 fh0 fh1 fh2 fh3) f j
      = sem arg10.view (kernelRun0_A.sl.HS4_2 (F := Ideal) c i arg6 arg7 arg8 arg9 arg10 fh0 fh1 fh2 fh3) f j + Cert.DeepFilter.prodR fh0 fh1 fh2 fh3 (bat i) (f + 1) (j + 2) := by
  by_cases hin : 0 ≤ f ∧ f < 0 + 257
  ·
    rw [prodR_succ c i fh0 fh1 fh2 fh3]
    simp (disch := omega) only [kernelRun0_A.sl.HS4_3, kernelRun0_A.sl.r, kernelRun0_A.sl.v32, kernelRun0_A.sl.v33, kernelRun0_A.sl.v34, kernelRun0_A.sl.v35, kernelRun0_A.sl.v62, k0_pay10, k0_pay3, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_3, sem_cons_out])

/-- Bin tap 1: rows 0 … 255 gain the product one padded row below; the skipped row's product is on the padding, so zero. -/
theorem ft2_c0R (f j : ℕ) (hf : f < 257) (hj : j < 514) :
    sem arg10.view (kernelRun0_A.sl.HS4_4 (F := Ideal) c i arg6 arg7 arg8 arg9 arg10 fh0 fh1 fh2 fh3) f j
      = sem arg10.view (kernelRun0_A.sl.HS4_3 (F := Ideal) c i arg6 arg7 arg8 arg9 arg10 fh0 fh1 fh2 fh3) f j + Cert.DeepFilter.prodR fh0 fh1 fh2 fh3 (bat i) (f + 1 + 1) (j + 2) := by
  by_cases hin : 0 ≤ f ∧ f < 0 + 256
  ·
    rw [prodR_succ c i fh0 fh1 fh2 fh3]
    simp (disch := omega) only [kernelRun0_A.sl.HS4_4, kernelRun0_A.sl.r, kernelRun0_A.sl.v32, kernelRun0_A.sl.v33, kernelRun0_A.sl.v34, kernelRun0_A.sl.v35, kernelRun0_A.sl.v72, k0_pay12, k0_pay3, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_4, sem_cons_out])

/-- After the three bin taps the buffer holds, at bin `f` and local column `j`, the three padded rows `f, f + 1, f + 2` of the product in padded column `j + 2`. -/
theorem fsum_c0R (f j : ℕ) (hf : f < 257) (hj : j < 514) :
    sem arg10.view (kernelRun0_A.sl.HS4_4 (F := Ideal) c i arg6 arg7 arg8 arg9 arg10 fh0 fh1 fh2 fh3) f j = Cert.DeepFilter.colR fh0 fh1 fh2 fh3 (bat i) f (j + 2) := by
  rw [ft2_c0R c i arg6 arg7 arg8 arg9 arg10 arg11 arg12 arg13 fh0 fh1 fh2 fh3 f j hf hj, ft1_c0R c i arg6 arg7 arg8 arg9 arg10 arg11 arg12 arg13 fh0 fh1 fh2 fh3 f j hf hj, ft0_c0R c i arg6 arg7 arg8 arg9 arg10 arg11 arg12 arg13 fh0 fh1 fh2 fh3 f j hf hj, fz_c0R c i arg6 arg7 arg8 arg9 arg10 arg11 arg12 arg13 fh0 fh1 fh2 fh3 f j hf hj]
  rfl

/-- The frame-sum buffer after it is cleared: zero on columns below 512. -/
theorem oz_c0R (f j : ℕ) (hf : f < 257) (hj : j < 512) :
    sem arg12.view (kernelRun0_A.sl.HS6_1 (F := Ideal)) f j = 0 := by
  simp (disch := omega) only [kernelRun0_A.sl.HS6_1, k0_pay14, sem_cons_in, sem_whole, at2_shapeCast_self, at2_addf, at2_subf, at2_mulf, at2_slice_in, at2_readCov_in, at2_broadcast_in]
  exact Ideal.ofBits_zero_f32

/-- Frame tap -2: columns 2 … 511 gain the bin sums of padded column `j`; on a skipped column that padded column is off the array, so its bin sums are zero. -/
theorem ot0_c0R (f j : ℕ) (hf : f < 257) (hj : j < 512) :
    sem arg12.view (kernelRun0_A.sl.HS6_2 (F := Ideal) c i arg6 arg7 arg8 arg9 arg10 arg12 fh0 fh1 fh2 fh3) f j
      = sem arg12.view (kernelRun0_A.sl.HS6_1 (F := Ideal)) f j + Cert.DeepFilter.colR fh0 fh1 fh2 fh3 (bat i) f (j) := by
  by_cases hin : 2 ≤ j ∧ j < 2 + 510
  · simp (disch := omega) only [kernelRun0_A.sl.HS6_2, kernelRun0_A.sl.v92, kernelRun0_A.sl.v93, k0_pay16, sem_cons_in, sem_whole, at2_shapeCast_self, at2_addf, at2_subf, at2_mulf, at2_slice_in, at2_readCov_in, at2_broadcast_in]
    simp (disch := omega) only [Nat.zero_add, Nat.sub_zero, Nat.add_zero, fsum_c0R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_2, sem_cons_out])

/-- Frame tap -1: columns 1 … 511 gain the bin sums of padded column `j + 1`; on a skipped column that padded column is off the array, so its bin sums are zero. -/
theorem ot1_c0R (f j : ℕ) (hf : f < 257) (hj : j < 512) :
    sem arg12.view (kernelRun0_A.sl.HS6_3 (F := Ideal) c i arg6 arg7 arg8 arg9 arg10 arg12 fh0 fh1 fh2 fh3) f j
      = sem arg12.view (kernelRun0_A.sl.HS6_2 (F := Ideal) c i arg6 arg7 arg8 arg9 arg10 arg12 fh0 fh1 fh2 fh3) f j + Cert.DeepFilter.colR fh0 fh1 fh2 fh3 (bat i) f (j + 1) := by
  by_cases hin : 1 ≤ j ∧ j < 1 + 511
  · simp (disch := omega) only [kernelRun0_A.sl.HS6_3, kernelRun0_A.sl.v104, kernelRun0_A.sl.v105, k0_pay18, sem_cons_in, sem_whole, at2_shapeCast_self, at2_addf, at2_subf, at2_mulf, at2_slice_in, at2_readCov_in, at2_broadcast_in]
    simp (disch := omega) only [Nat.zero_add, Nat.sub_zero, Nat.add_zero, fsum_c0R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_3, sem_cons_out])

/-- Frame tap 0: columns 0 … 511 gain the bin sums of padded column `j + 2`; on a skipped column that padded column is off the array, so its bin sums are zero. -/
theorem ot2_c0R (f j : ℕ) (hf : f < 257) (hj : j < 512) :
    sem arg12.view (kernelRun0_A.sl.HS6_4 (F := Ideal) c i arg6 arg7 arg8 arg9 arg10 arg12 fh0 fh1 fh2 fh3) f j
      = sem arg12.view (kernelRun0_A.sl.HS6_3 (F := Ideal) c i arg6 arg7 arg8 arg9 arg10 arg12 fh0 fh1 fh2 fh3) f j + Cert.DeepFilter.colR fh0 fh1 fh2 fh3 (bat i) f (j + 2) := by
  by_cases hin : 0 ≤ j ∧ j < 0 + 512
  · simp (disch := omega) only [kernelRun0_A.sl.HS6_4, kernelRun0_A.sl.r_3, kernelRun0_A.sl.v116, kernelRun0_A.sl.v117, k0_pay21, k0_pay20, sem_cons_in, sem_whole, at2_shapeCast_self, at2_addf, at2_subf, at2_mulf, at2_slice_in, at2_readCov_in, at2_broadcast_in]
    simp (disch := omega) only [Nat.zero_add, Nat.sub_zero, Nat.add_zero, fsum_c0R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_4, sem_cons_out])

/-- Frame tap 1: columns 0 … 511 gain the bin sums of padded column `j + 3`; on a skipped column that padded column is off the array, so its bin sums are zero. -/
theorem ot3_c0R (f j : ℕ) (hf : f < 257) (hj : j < 512) :
    sem arg12.view (kernelRun0_A.sl.HS6_5 (F := Ideal) c i arg6 arg7 arg8 arg9 arg10 arg12 fh0 fh1 fh2 fh3) f j
      = sem arg12.view (kernelRun0_A.sl.HS6_4 (F := Ideal) c i arg6 arg7 arg8 arg9 arg10 arg12 fh0 fh1 fh2 fh3) f j + Cert.DeepFilter.colR fh0 fh1 fh2 fh3 (bat i) f (j + 3) := by
  by_cases hin : 0 ≤ j ∧ j < 0 + 512
  · simp (disch := omega) only [kernelRun0_A.sl.HS6_5, kernelRun0_A.sl.v128, kernelRun0_A.sl.v129, k0_pay23, sem_cons_in, sem_whole, at2_shapeCast_self, at2_addf, at2_subf, at2_mulf, at2_slice_in, at2_readCov_in, at2_broadcast_in]
    simp (disch := omega) only [Nat.zero_add, Nat.sub_zero, Nat.add_zero, fsum_c0R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_5, sem_cons_out])

/-- Frame tap 2: columns 0 … 511 gain the bin sums of padded column `j + 4`; on a skipped column that padded column is off the array, so its bin sums are zero. -/
theorem ot4_c0R (f j : ℕ) (hf : f < 257) (hj : j < 512) :
    sem arg12.view (kernelRun0_A.sl.HS6_6 (F := Ideal) c i arg6 arg7 arg8 arg9 arg10 arg12 fh0 fh1 fh2 fh3) f j
      = sem arg12.view (kernelRun0_A.sl.HS6_5 (F := Ideal) c i arg6 arg7 arg8 arg9 arg10 arg12 fh0 fh1 fh2 fh3) f j + Cert.DeepFilter.colR fh0 fh1 fh2 fh3 (bat i) f (j + 4) := by
  by_cases hin : 0 ≤ j ∧ j < 0 + 512
  · simp (disch := omega) only [kernelRun0_A.sl.HS6_6, kernelRun0_A.sl.v140, kernelRun0_A.sl.v141, k0_pay25, sem_cons_in, sem_whole, at2_shapeCast_self, at2_addf, at2_subf, at2_mulf, at2_slice_in, at2_readCov_in, at2_broadcast_in]
    simp (disch := omega) only [Nat.zero_add, Nat.sub_zero, Nat.add_zero, fsum_c0R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_6, sem_cons_out])

/-- After the five frame taps the buffer holds the 3 x 5 window sum of bin `f`, frame `j`. -/
theorem osum_c0R (f j : ℕ) (hf : f < 257) (hj : j < 512) :
    sem arg12.view (kernelRun0_A.sl.HS6_6 (F := Ideal) c i arg6 arg7 arg8 arg9 arg10 arg12 fh0 fh1 fh2 fh3) f j = Cert.DeepFilter.sumR fh0 fh1 fh2 fh3 (bat i) f (j) := by
  rw [ot4_c0R c i arg6 arg7 arg8 arg9 arg10 arg11 arg12 arg13 fh0 fh1 fh2 fh3 f j hf hj, ot3_c0R c i arg6 arg7 arg8 arg9 arg10 arg11 arg12 arg13 fh0 fh1 fh2 fh3 f j hf hj, ot2_c0R c i arg6 arg7 arg8 arg9 arg10 arg11 arg12 arg13 fh0 fh1 fh2 fh3 f j hf hj, ot1_c0R c i arg6 arg7 arg8 arg9 arg10 arg11 arg12 arg13 fh0 fh1 fh2 fh3 f j hf hj,
    ot0_c0R c i arg6 arg7 arg8 arg9 arg10 arg11 arg12 arg13 fh0 fh1 fh2 fh3 f j hf hj, oz_c0R c i arg6 arg7 arg8 arg9 arg10 arg11 arg12 arg13 fh0 fh1 fh2 fh3 f j hf hj]
  exact Cert.DeepFilter.sumR_of_cols _ _ _ _ _ _ _

/-- The payload stored into the output block for these frames: the window sums, laid out [1, 1, 257, 512]. -/
theorem piece_c0R (y : (⟨4, ![1, 1, 257, 512]⟩ : Shape).Idx) :
    k0_pay27 (kernelRun0_A.sl.v152 (F := Ideal) c i arg6 arg7 arg8 arg9 arg10 arg12 fh0 fh1 fh2 fh3) y = Cert.DeepFilter.sumR fh0 fh1 fh2 fh3 (bat i) (y 2).val ((y 3).val) := by
  have hf : (y 2).val < 257 := (y 2).isLt
  have hj : (y 3).val < 512 := (y 3).isLt
  simp only [k0_pay27]
  refine (shapeCast_addUnit2_apply (R := 257) (C := 512) _ _ y).trans ?_
  refine (at2_of_lt (R := 257) (C := 512) _ hf hj).symm.trans ?_
  simp (disch := omega) only [kernelRun0_A.sl.v152, at2_readCov_in]
  simp (disch := omega) only [Nat.zero_add, osum_c0R c i arg6 arg7 arg8 arg9 arg10 arg11 arg12 arg13 fh0 fh1 fh2 fh3]

end Cert.DeepFilter.Body

end
-- ==== Proof.BodyChunk0I.lean ====
/-
  Frames 0 … 511, imaginary plane: the body's stores into its two scratch buffers for this run of frames.

  The body first forms the product `(2 * ir) * fi` on the slab columns 0 … 513 (the run's frames and a halo of two
  on each side inside the array). A first buffer is cleared and gains, in three read-modify-write steps, the product
  one bin above, at, and one bin below each bin, a step leaving out the row whose neighbour is off the array. A second
  buffer is cleared and gains, in five steps, the first buffer two frames before … two frames after each frame, a step
  leaving out the frames whose neighbour is off the array. Read at natural coordinates each step is `new = old + source`
  on its rectangle and `new = old` off it, where the source is zero anyway because it lies on the zero padding; so the
  second buffer ends at the 3 x 5 window sum of the specification, and that is what the body stores into the output block.
-/
import proofs.«134051_j16587163697924_2_alg».proof.Proof.BodySlabs

noncomputable section

namespace Cert.DeepFilter.Body

open Idealize.ShloMosaic Idealize.ShloMosaic.ValueIdx Idealize.SL.Sem
open Cert.KernelIdeal Cert.KernelIdeal.Gen Cert.LibNatReads Cert.DeepFilter

variable (c : Dev nD) (i : grid0.Coords)
  (arg6 arg7 arg8 arg9 : Memref sig .tc .vmem S257x4000 .f32) (arg10 arg11 : Memref sig .tc .vmem S257x516 .f32)
  (arg12 arg13 : Memref sig .tc .vmem S257x512 .f32)
  (fh0 : HbBuf0 (F := Ideal) c hbM0_0) (fh1 : HbBuf0 (F := Ideal) c hbM0_1) (fh2 : HbBuf0 (F := Ideal) c hbM0_2) (fh3 : HbBuf0 (F := Ideal) c hbM0_3)

include c i arg6 arg7 arg8 arg9 arg10 arg11 arg12 arg13 fh0 fh1 fh2 fh3

/-- The bin-sum buffer after it is cleared: zero on columns below 514. -/
theorem fz_c0I (f j : ℕ) (hf : f < 257) (hj : j < 514) :
    sem arg11.view (kernelRun0_A.sl.HS5_1 (F := Ideal)) f j = 0 := by
  simp (disch := omega) only [kernelRun0_A.sl.HS5_1, k0_pay6, sem_cons_in, sem_whole, at2_shapeCast_self, at2_addf, at2_subf, at2_mulf, at2_slice_in, at2_readCov_in, at2_broadcast_in]
  exact Ideal.ofBits_zero_f32

/-- Bin tap -1: rows 1 … 256 gain the product one padded row above; the skipped row's product is on the padding, so zero. -/
theorem ft0_c0I (f j : ℕ) (hf : f < 257) (hj : j < 514) :
    sem arg11.view (kernelRun0_A.sl.HS5_2 (F := Ideal) c i arg6 arg9 arg11 fh0 fh3) f j
      = sem arg11.view (kernelRun0_A.sl.HS5_1 (F := Ideal)) f j + Cert.DeepFilter.prodI fh0 fh3 (bat i) (f) (j + 2) := by
  by_cases hin : 1 ≤ f ∧ f < 1 + 256
  ·
    obtain ⟨g, rfl⟩ : ∃ g, f = g + 1 := ⟨f - 1, by omega⟩
    rw [prodI_succ c i fh0 fh3]
    simp (disch := omega) only [kernelRun0_A.sl.HS5_2, kernelRun0_A.sl.r_2, kernelRun0_A.sl.v32, kernelRun0_A.sl.v35, kernelRun0_A.sl.v56, k0_pay9, k0_pay8, k0_pay4, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_2, sem_cons_out])

/-- Bin tap 0: rows 0 … 256 gain the product one padded row at; the skipped row's product is on the padding, so zero. -/
theorem ft1_c0I (f j : ℕ) (hf : f < 257) (hj : j < 514) :
    sem arg11.view (kernelRun0_A.sl.HS5_3 (F := Ideal) c i arg6 arg9 arg11 fh0 fh3) f j
      = sem arg11.view (kernelRun0_A.sl.HS5_2 (F := Ideal) c i arg6 arg9 arg11 fh0 fh3) f j + Cert.DeepFilter.prodI fh0 fh3 (bat i) (f + 1) (j + 2) := by
  by_cases hin : 0 ≤ f ∧ f < 0 + 257
  ·
    rw [prodI_succ c i fh0 fh3]
    simp (disch := omega) only [kernelRun0_A.sl.HS5_3, kernelRun0_A.sl.r_1, kernelRun0_A.sl.v32, kernelRun0_A.sl.v35, kernelRun0_A.sl.v67, k0_pay11, k0_pay4, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_3, sem_cons_out])

/-- Bin tap 1: rows 0 … 255 gain the product one padded row below; the skipped row's product is on the padding, so zero. -/
theorem ft2_c0I (f j : ℕ) (hf : f < 257) (hj : j < 514) :
    sem arg11.view (kernelRun0_A.sl.HS5_4 (F := Ideal) c i arg6 arg9 arg11 fh0 fh3) f j
      = sem arg11.view (kernelRun0_A.sl.HS5_3 (F := Ideal) c i arg6 arg9 arg11 fh0 fh3) f j + Cert.DeepFilter.prodI fh0 fh3 (bat i) (f + 1 + 1) (j + 2) := by
  by_cases hin : 0 ≤ f ∧ f < 0 + 256
  ·
    rw [prodI_succ c i fh0 fh3]
    simp (disch := omega) only [kernelRun0_A.sl.HS5_4, kernelRun0_A.sl.r_1, kernelRun0_A.sl.v32, kernelRun0_A.sl.v35, kernelRun0_A.sl.v78, k0_pay13, k0_pay4, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_4, sem_cons_out])

/-- After the three bin taps the buffer holds, at bin `f` and local column `j`, the three padded rows `f, f + 1, f + 2` of the product in padded column `j + 2`. -/
theorem fsum_c0I (f j : ℕ) (hf : f < 257) (hj : j < 514) :
    sem arg11.view (kernelRun0_A.sl.HS5_4 (F := Ideal) c i arg6 arg9 arg11 fh0 fh3) f j = Cert.DeepFilter.colI fh0 fh3 (bat i) f (j + 2) := by
  rw [ft2_c0I c i arg6 arg7 arg8 arg9 arg10 arg11 arg12 arg13 fh0 fh1 fh2 fh3 f j hf hj, ft1_c0I c i arg6 arg7 arg8 arg9 arg10 arg11 arg12 arg13 fh0 fh1 fh2 fh3 f j hf hj, ft0_c0I c i arg6 arg7 arg8 arg9 arg10 arg11 arg12 arg13 fh0 fh1 fh2 fh3 f j hf hj, fz_c0I c i arg6 arg7 arg8 arg9 arg10 arg11 arg12 arg13 fh0 fh1 fh2 fh3 f j hf hj]
  rfl

/-- The frame-sum buffer after it is cleared: zero on columns below 512. -/
theorem oz_c0I (f j : ℕ) (hf : f < 257) (hj : j < 512) :
    sem arg13.view (kernelRun0_A.sl.HS7_1 (F := Ideal)) f j = 0 := by
  simp (disch := omega) only [kernelRun0_A.sl.HS7_1, k0_pay15, sem_cons_in, sem_whole, at2_shapeCast_self, at2_addf, at2_subf, at2_mulf, at2_slice_in, at2_readCov_in, at2_broadcast_in]
  exact Ideal.ofBits_zero_f32

/-- Frame tap -2: columns 2 … 511 gain the bin sums of padded column `j`; on a skipped column that padded column is off the array, so its bin sums are zero. -/
theorem ot0_c0I (f j : ℕ) (hf : f < 257) (hj : j < 512) :
    sem arg13.view (kernelRun0_A.sl.HS7_2 (F := Ideal) c i arg6 arg9 arg11 arg13 fh0 fh3) f j
      = sem arg13.view (kernelRun0_A.sl.HS7_1 (F := Ideal)) f j + Cert.DeepFilter.colI fh0 fh3 (bat i) f (j) := by
  by_cases hin : 2 ≤ j ∧ j < 2 + 510
  · simp (disch := omega) only [kernelRun0_A.sl.HS7_2, kernelRun0_A.sl.v98, kernelRun0_A.sl.v99, k0_pay17, sem_cons_in, sem_whole, at2_shapeCast_self, at2_addf, at2_subf, at2_mulf, at2_slice_in, at2_readCov_in, at2_broadcast_in]
    simp (disch := omega) only [Nat.zero_add, Nat.sub_zero, Nat.add_zero, fsum_c0I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_2, sem_cons_out])

/-- Frame tap -1: columns 1 … 511 gain the bin sums of padded column `j + 1`; on a skipped column that padded column is off the array, so its bin sums are zero. -/
theorem ot1_c0I (f j : ℕ) (hf : f < 257) (hj : j < 512) :
    sem arg13.view (kernelRun0_A.sl.HS7_3 (F := Ideal) c i arg6 arg9 arg11 arg13 fh0 fh3) f j
      = sem arg13.view (kernelRun0_A.sl.HS7_2 (F := Ideal) c i arg6 arg9 arg11 arg13 fh0 fh3) f j + Cert.DeepFilter.colI fh0 fh3 (bat i) f (j + 1) := by
  by_cases hin : 1 ≤ j ∧ j < 1 + 511
  · simp (disch := omega) only [kernelRun0_A.sl.HS7_3, kernelRun0_A.sl.v110, kernelRun0_A.sl.v111, k0_pay19, sem_cons_in, sem_whole, at2_shapeCast_self, at2_addf, at2_subf, at2_mulf, at2_slice_in, at2_readCov_in, at2_broadcast_in]
    simp (disch := omega) only [Nat.zero_add, Nat.sub_zero, Nat.add_zero, fsum_c0I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_3, sem_cons_out])

/-- Frame tap 0: columns 0 … 511 gain the bin sums of padded column `j + 2`; on a skipped column that padded column is off the array, so its bin sums are zero. -/
theorem ot2_c0I (f j : ℕ) (hf : f < 257) (hj : j < 512) :
    sem arg13.view (kernelRun0_A.sl.HS7_4 (F := Ideal) c i arg6 arg9 arg11 arg13 fh0 fh3) f j
      = sem arg13.view (kernelRun0_A.sl.HS7_3 (F := Ideal) c i arg6 arg9 arg11 arg13 fh0 fh3) f j + Cert.DeepFilter.colI fh0 fh3 (bat i) f (j + 2) := by
  by_cases hin : 0 ≤ j ∧ j < 0 + 512
  · simp (disch := omega) only [kernelRun0_A.sl.HS7_4, kernelRun0_A.sl.v122, kernelRun0_A.sl.v123, k0_pay22, sem_cons_in, sem_whole, at2_shapeCast_self, at2_addf, at2_subf, at2_mulf, at2_slice_in, at2_readCov_in, at2_broadcast_in]
    simp (disch := omega) only [Nat.zero_add, Nat.sub_zero, Nat.add_zero, fsum_c0I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_4, sem_cons_out])

/-- Frame tap 1: columns 0 … 511 gain the bin sums of padded column `j + 3`; on a skipped column that padded column is off the array, so its bin sums are zero. -/
theorem ot3_c0I (f j : ℕ) (hf : f < 257) (hj : j < 512) :
    sem arg13.view (kernelRun0_A.sl.HS7_5 (F := Ideal) c i arg6 arg9 arg11 arg13 fh0 fh3) f j
      = sem arg13.view (kernelRun0_A.sl.HS7_4 (F := Ideal) c i arg6 arg9 arg11 arg13 fh0 fh3) f j + Cert.DeepFilter.colI fh0 fh3 (bat i) f (j + 3) := by
  by_cases hin : 0 ≤ j ∧ j < 0 + 512
  · simp (disch := omega) only [kernelRun0_A.sl.HS7_5, kernelRun0_A.sl.v134, kernelRun0_A.sl.v135, k0_pay24, sem_cons_in, sem_whole, at2_shapeCast_self, at2_addf, at2_subf, at2_mulf, at2_slice_in, at2_readCov_in, at2_broadcast_in]
    simp (disch := omega) only [Nat.zero_add, Nat.sub_zero, Nat.add_zero, fsum_c0I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_5, sem_cons_out])

/-- Frame tap 2: columns 0 … 511 gain the bin sums of padded column `j + 4`; on a skipped column that padded column is off the array, so its bin sums are zero. -/
theorem ot4_c0I (f j : ℕ) (hf : f < 257) (hj : j < 512) :
    sem arg13.view (kernelRun0_A.sl.HS7_6 (F := Ideal) c i arg6 arg9 arg11 arg13 fh0 fh3) f j
      = sem arg13.view (kernelRun0_A.sl.HS7_5 (F := Ideal) c i arg6 arg9 arg11 arg13 fh0 fh3) f j + Cert.DeepFilter.colI fh0 fh3 (bat i) f (j + 4) := by
  by_cases hin : 0 ≤ j ∧ j < 0 + 512
  · simp (disch := omega) only [kernelRun0_A.sl.HS7_6, kernelRun0_A.sl.v, kernelRun0_A.sl.v147, k0_pay26, sem_cons_in, sem_whole, at2_shapeCast_self, at2_addf, at2_subf, at2_mulf, at2_slice_in, at2_readCov_in, at2_broadcast_in]
    simp (disch := omega) only [Nat.zero_add, Nat.sub_zero, Nat.add_zero, fsum_c0I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_6, sem_cons_out])

/-- After the five frame taps the buffer holds the 3 x 5 window sum of bin `f`, frame `j`. -/
theorem osum_c0I (f j : ℕ) (hf : f < 257) (hj : j < 512) :
    sem arg13.view (kernelRun0_A.sl.HS7_6 (F := Ideal) c i arg6 arg9 arg11 arg13 fh0 fh3) f j = Cert.DeepFilter.sumI fh0 fh3 (bat i) f (j) := by
  rw [ot4_c0I c i arg6 arg7 arg8 arg9 arg10 arg11 arg12 arg13 fh0 fh1 fh2 fh3 f j hf hj, ot3_c0I c i arg6 arg7 arg8 arg9 arg10 arg11 arg12 arg13 fh0 fh1 fh2 fh3 f j hf hj, ot2_c0I c i arg6 arg7 arg8 arg9 arg10 arg11 arg12 arg13 fh0 fh1 fh2 fh3 f j hf hj, ot1_c0I c i arg6 arg7 arg8 arg9 arg10 arg11 arg12 arg13 fh0 fh1 fh2 fh3 f j hf hj,
    ot0_c0I c i arg6 arg7 arg8 arg9 arg10 arg11 arg12 arg13 fh0 fh1 fh2 fh3 f j hf hj, oz_c0I c i arg6 arg7 arg8 arg9 arg10 arg11 arg12 arg13 fh0 fh1 fh2 fh3 f j hf hj]
  exact Cert.DeepFilter.sumI_of_cols _ _ _ _ _

/-- The payload stored into the output block for these frames: the window sums, laid out [1, 1, 257, 512]. -/
theorem piece_c0I (y : (⟨4, ![1, 1, 257, 512]⟩ : Shape).Idx) :
    k0_pay28 (kernelRun0_A.sl.v156 (F := Ideal) c i arg6 arg9 arg11 arg13 fh0 fh3) y = Cert.DeepFilter.sumI fh0 fh3 (bat i) (y 2).val ((y 3).val) := by
  have hf : (y 2).val < 257 := (y 2).isLt
  have hj : (y 3).val < 512 := (y 3).isLt
  simp only [k0_pay28]
  refine (shapeCast_addUnit2_apply (R := 257) (C := 512) _ _ y).trans ?_
  refine (at2_of_lt (R := 257) (C := 512) _ hf hj).symm.trans ?_
  simp (disch := omega) only [kernelRun0_A.sl.v156, at2_readCov_in]
  simp (disch := omega) only [Nat.zero_add, osum_c0I c i arg6 arg7 arg8 arg9 arg10 arg11 arg12 arg13 fh0 fh1 fh2 fh3]

end Cert.DeepFilter.Body

end
-- ==== Proof.BodyChunk1R.lean ====
/-
  Frames 512 … 1023, real plane: the body's stores into its two scratch buffers for this run of frames.

  The body first forms the product `ir * fr - ii * fi` on the slab columns 510 … 1025 (the run's frames and a halo of two
  on each side inside the array). A first buffer is cleared and gains, in three read-modify-write steps, the product
  one bin above, at, and one bin below each bin, a step leaving out the row whose neighbour is off the array. A second
  buffer is cleared and gains, in five steps, the first buffer two frames before … two frames after each frame, a step
  leaving out the frames whose neighbour is off the array. Read at natural coordinates each step is `new = old + source`
  on its rectangle and `new = old` off it, where the source is zero anyway because it lies on the zero padding; so the
  second buffer ends at the 3 x 5 window sum of the specification, and that is what the body stores into the output block.
-/
import proofs.«134051_j16587163697924_2_alg».proof.Proof.BodySlabs

noncomputable section

namespace Cert.DeepFilter.Body

open Idealize.ShloMosaic Idealize.ShloMosaic.ValueIdx Idealize.SL.Sem
open Cert.KernelIdeal Cert.KernelIdeal.Gen Cert.LibNatReads Cert.DeepFilter

variable (c : Dev nD) (i : grid0.Coords)
  (arg6 arg7 arg8 arg9 : Memref sig .tc .vmem S257x4000 .f32) (arg10 arg11 : Memref sig .tc .vmem S257x516 .f32)
  (arg12 arg13 : Memref sig .tc .vmem S257x512 .f32)
  (fh0 : HbBuf0 (F := Ideal) c hbM0_0) (fh1 : HbBuf0 (F := Ideal) c hbM0_1) (fh2 : HbBuf0 (F := Ideal) c hbM0_2) (fh3 : HbBuf0 (F := Ideal) c hbM0_3)

include c i arg6 arg7 arg8 arg9 arg10 arg11 arg12 arg13 fh0 fh1 fh2 fh3

/-- The bin-sum buffer after it is cleared: zero on columns below 516. -/
theorem fz_c1R (f j : ℕ) (hf : f < 257) (hj : j < 516) :
    sem arg10.view (kernelRun0_A.sl.HS4_5 (F := Ideal) c i arg6 arg7 arg8 arg9 arg10 fh0 fh1 fh2 fh3) f j = 0 := by
  simp (disch := omega) only [kernelRun0_A.sl.HS4_5, k0_pay31, sem_cons_in, sem_whole, at2_shapeCast_self, at2_addf, at2_subf, at2_mulf, at2_slice_in, at2_readCov_in, at2_broadcast_in]
  exact Ideal.ofBits_zero_f32

/-- Bin tap -1: rows 1 … 256 gain the product one padded row above; the skipped row's product is on the padding, so zero. -/
theorem ft0_c1R (f j : ℕ) (hf : f < 257) (hj : j < 516) :
    sem arg10.view (kernelRun0_A.sl.HS4_6 (F := Ideal) c i arg6 arg7 arg8 arg9 arg10 fh0 fh1 fh2 fh3) f j
      = sem arg10.view (kernelRun0_A.sl.HS4_5 (F := Ideal) c i arg6 arg7 arg8 arg9 arg10 fh0 fh1 fh2 fh3) f j + Cert.DeepFilter.prodR fh0 fh1 fh2 fh3 (bat i) (f) (510 + j + 2) := by
  by_cases hin : 1 ≤ f ∧ f < 1 + 256
  ·
    obtain ⟨g, rfl⟩ : ∃ g, f = g + 1 := ⟨f - 1, by omega⟩
    rw [prodR_succ c i fh0 fh1 fh2 fh3]
    simp (disch := omega) only [kernelRun0_A.sl.HS4_6, kernelRun0_A.sl.r_4, kernelRun0_A.sl.v160, kernelRun0_A.sl.v161, kernelRun0_A.sl.v162, kernelRun0_A.sl.v163, kernelRun0_A.sl.v178, k0_pay33, k0_pay29, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_6, sem_cons_out])

/-- Bin tap 0: rows 0 … 256 gain the product one padded row at; the skipped row's product is on the padding, so zero. -/
theorem ft1_c1R (f j : ℕ) (hf : f < 257) (hj : j < 516) :
    sem arg10.view (kernelRun0_A.sl.HS4_7 (F := Ideal) c i arg6 arg7 arg8 arg9 arg10 fh0 fh1 fh2 fh3) f j
      = sem arg10.view (kernelRun0_A.sl.HS4_6 (F := Ideal) c i arg6 arg7 arg8 arg9 arg10 fh0 fh1 fh2 fh3) f j + Cert.DeepFilter.prodR fh0 fh1 fh2 fh3 (bat i) (f + 1) (510 + j + 2) := by
  by_cases hin : 0 ≤ f ∧ f < 0 + 257
  ·
    rw [prodR_succ c i fh0 fh1 fh2 fh3]
    simp (disch := omega) only [kernelRun0_A.sl.HS4_7, kernelRun0_A.sl.r_4, kernelRun0_A.sl.v160, kernelRun0_A.sl.v161, kernelRun0_A.sl.v162, kernelRun0_A.sl.v163, kernelRun0_A.sl.v190, k0_pay35, k0_pay29, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_7, sem_cons_out])

/-- Bin tap 1: rows 0 … 255 gain the product one padded row below; the skipped row's product is on the padding, so zero. -/
theorem ft2_c1R (f j : ℕ) (hf : f < 257) (hj : j < 516) :
    sem arg10.view (kernelRun0_A.sl.HS4_8 (F := Ideal) c i arg6 arg7 arg8 arg9 arg10 fh0 fh1 fh2 fh3) f j
      = sem arg10.view (kernelRun0_A.sl.HS4_7 (F := Ideal) c i arg6 arg7 arg8 arg9 arg10 fh0 fh1 fh2 fh3) f j + Cert.DeepFilter.prodR fh0 fh1 fh2 fh3 (bat i) (f + 1 + 1) (510 + j + 2) := by
  by_cases hin : 0 ≤ f ∧ f < 0 + 256
  ·
    rw [prodR_succ c i fh0 fh1 fh2 fh3]
    simp (disch := omega) only [kernelRun0_A.sl.HS4_8, kernelRun0_A.sl.r_4, kernelRun0_A.sl.v160, kernelRun0_A.sl.v161, kernelRun0_A.sl.v162, kernelRun0_A.sl.v163, kernelRun0_A.sl.v200, k0_pay37, k0_pay29, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_8, sem_cons_out])

/-- After the three bin taps the buffer holds, at bin `f` and local column `j`, the three padded rows `f, f + 1, f + 2` of the product in padded column `510 + j + 2`. -/
theorem fsum_c1R (f j : ℕ) (hf : f < 257) (hj : j < 516) :
    sem arg10.view (kernelRun0_A.sl.HS4_8 (F := Ideal) c i arg6 arg7 arg8 arg9 arg10 fh0 fh1 fh2 fh3) f j = Cert.DeepFilter.colR fh0 fh1 fh2 fh3 (bat i) f (510 + j + 2) := by
  rw [ft2_c1R c i arg6 arg7 arg8 arg9 arg10 arg11 arg12 arg13 fh0 fh1 fh2 fh3 f j hf hj, ft1_c1R c i arg6 arg7 arg8 arg9 arg10 arg11 arg12 arg13 fh0 fh1 fh2 fh3 f j hf hj, ft0_c1R c i arg6 arg7 arg8 arg9 arg10 arg11 arg12 arg13 fh0 fh1 fh2 fh3 f j hf hj, fz_c1R c i arg6 arg7 arg8 arg9 arg10 arg11 arg12 arg13 fh0 fh1 fh2 fh3 f j hf hj]
  rfl

/-- The frame-sum buffer after it is cleared: zero on columns below 512. -/
theorem oz_c1R (f j : ℕ) (hf : f < 257) (hj : j < 512) :
    sem arg12.view (kernelRun0_A.sl.HS6_7 (F := Ideal) c i arg6 arg7 arg8 arg9 arg10 arg12 fh0 fh1 fh2 fh3) f j = 0 := by
  simp (disch := omega) only [kernelRun0_A.sl.HS6_7, k0_pay39, sem_cons_in, sem_whole, at2_shapeCast_self, at2_addf, at2_subf, at2_mulf, at2_slice_in, at2_readCov_in, at2_broadcast_in]
  exact Ideal.ofBits_zero_f32

/-- Frame tap -2: columns 0 … 511 gain the bin sums of padded column `512 + j`; on a skipped column that padded column is off the array, so its bin sums are zero. -/
theorem ot0_c1R (f j : ℕ) (hf : f < 257) (hj : j < 512) :
    sem arg12.view (kernelRun0_A.sl.HS6_8 (F := Ideal) c i arg6 arg7 arg8 arg9 arg10 arg12 fh0 fh1 fh2 fh3) f j
      = sem arg12.view (kernelRun0_A.sl.HS6_7 (F := Ideal) c i arg6 arg7 arg8 arg9 arg10 arg12 fh0 fh1 fh2 fh3) f j + Cert.DeepFilter.colR fh0 fh1 fh2 fh3 (bat i) f (512 + j) := by
  by_cases hin : 0 ≤ j ∧ j < 0 + 512
  · simp (disch := omega) only [kernelRun0_A.sl.HS6_8, kernelRun0_A.sl.v220, kernelRun0_A.sl.v221, k0_pay41, sem_cons_in, sem_whole, at2_shapeCast_self, at2_addf, at2_subf, at2_mulf, at2_slice_in, at2_readCov_in, at2_broadcast_in]
    simp (disch := omega) only [Nat.zero_add, Nat.sub_zero, Nat.add_zero, fsum_c1R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_8, sem_cons_out])

/-- Frame tap -1: columns 0 … 511 gain the bin sums of padded column `512 + j + 1`; on a skipped column that padded column is off the array, so its bin sums are zero. -/
theorem ot1_c1R (f j : ℕ) (hf : f < 257) (hj : j < 512) :
    sem arg12.view (kernelRun0_A.sl.HS6_9 (F := Ideal) c i arg6 arg7 arg8 arg9 arg10 arg12 fh0 fh1 fh2 fh3) f j
      = sem arg12.view (kernelRun0_A.sl.HS6_8 (F := Ideal) c i arg6 arg7 arg8 arg9 arg10 arg12 fh0 fh1 fh2 fh3) f j + Cert.DeepFilter.colR fh0 fh1 fh2 fh3 (bat i) f (512 + j + 1) := by
  by_cases hin : 0 ≤ j ∧ j < 0 + 512
  · simp (disch := omega) only [kernelRun0_A.sl.HS6_9, kernelRun0_A.sl.r_6, kernelRun0_A.sl.v232, kernelRun0_A.sl.v233, k0_pay44, k0_pay43, sem_cons_in, sem_whole, at2_shapeCast_self, at2_addf, at2_subf, at2_mulf, at2_slice_in, at2_readCov_in, at2_broadcast_in]
    simp (disch := omega) only [Nat.zero_add, Nat.sub_zero, Nat.add_zero, fsum_c1R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_9, sem_cons_out])

/-- Frame tap 0: columns 0 … 511 gain the bin sums of padded column `512 + j + 2`; on a skipped column that padded column is off the array, so its bin sums are zero. -/
theorem ot2_c1R (f j : ℕ) (hf : f < 257) (hj : j < 512) :
    sem arg12.view (kernelRun0_A.sl.HS6_10 (F := Ideal) c i arg6 arg7 arg8 arg9 arg10 arg12 fh0 fh1 fh2 fh3) f j
      = sem arg12.view (kernelRun0_A.sl.HS6_9 (F := Ideal) c i arg6 arg7 arg8 arg9 arg10 arg12 fh0 fh1 fh2 fh3) f j + Cert.DeepFilter.colR fh0 fh1 fh2 fh3 (bat i) f (512 + j + 2) := by
  by_cases hin : 0 ≤ j ∧ j < 0 + 512
  · simp (disch := omega) only [kernelRun0_A.sl.HS6_10, kernelRun0_A.sl.v244, kernelRun0_A.sl.v245, k0_pay46, sem_cons_in, sem_whole, at2_shapeCast_self, at2_addf, at2_subf, at2_mulf, at2_slice_in, at2_readCov_in, at2_broadcast_in]
    simp (disch := omega) only [Nat.zero_add, Nat.sub_zero, Nat.add_zero, fsum_c1R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_10, sem_cons_out])

/-- Frame tap 1: columns 0 … 511 gain the bin sums of padded column `512 + j + 3`; on a skipped column that padded column is off the array, so its bin sums are zero. -/
theorem ot3_c1R (f j : ℕ) (hf : f < 257) (hj : j < 512) :
    sem arg12.view (kernelRun0_A.sl.HS6_11 (F := Ideal) c i arg6 arg7 arg8 arg9 arg10 arg12 fh0 fh1 fh2 fh3) f j
      = sem arg12.view (kernelRun0_A.sl.HS6_10 (F := Ideal) c i arg6 arg7 arg8 arg9 arg10 arg12 fh0 fh1 fh2 fh3) f j + Cert.DeepFilter.colR fh0 fh1 fh2 fh3 (bat i) f (512 + j + 3) := by
  by_cases hin : 0 ≤ j ∧ j < 0 + 512
  · simp (disch := omega) only [kernelRun0_A.sl.HS6_11, kernelRun0_A.sl.v256, kernelRun0_A.sl.v257, k0_pay48, sem_cons_in, sem_whole, at2_shapeCast_self, at2_addf, at2_subf, at2_mulf, at2_slice_in, at2_readCov_in, at2_broadcast_in]
    simp (disch := omega) only [Nat.zero_add, Nat.sub_zero, Nat.add_zero, fsum_c1R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_11, sem_cons_out])

/-- Frame tap 2: columns 0 … 511 gain the bin sums of padded column `512 + j + 4`; on a skipped column that padded column is off the array, so its bin sums are zero. -/
theorem ot4_c1R (f j : ℕ) (hf : f < 257) (hj : j < 512) :
    sem arg12.view (kernelRun0_A.sl.HS6_12 (F := Ideal) c i arg6 arg7 arg8 arg9 arg10 arg12 fh0 fh1 fh2 fh3) f j
      = sem arg12.view (kernelRun0_A.sl.HS6_11 (F := Ideal) c i arg6 arg7 arg8 arg9 arg10 arg12 fh0 fh1 fh2 fh3) f j + Cert.DeepFilter.colR fh0 fh1 fh2 fh3 (bat i) f (512 + j + 4) := by
  by_cases hin : 0 ≤ j ∧ j < 0 + 512
  · simp (disch := omega) only [kernelRun0_A.sl.HS6_12, kernelRun0_A.sl.v268, kernelRun0_A.sl.v269, k0_pay50, sem_cons_in, sem_whole, at2_shapeCast_self, at2_addf, at2_subf, at2_mulf, at2_slice_in, at2_readCov_in, at2_broadcast_in]
    simp (disch := omega) only [Nat.zero_add, Nat.sub_zero, Nat.add_zero, fsum_c1R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_12, sem_cons_out])

/-- After the five frame taps the buffer holds the 3 x 5 window sum of bin `f`, frame `512 + j`. -/
theorem osum_c1R (f j : ℕ) (hf : f < 257) (hj : j < 512) :
    sem arg12.view (kernelRun0_A.sl.HS6_12 (F := Ideal) c i arg6 arg7 arg8 arg9 arg10 arg12 fh0 fh1 fh2 fh3) f j = Cert.DeepFilter.sumR fh0 fh1 fh2 fh3 (bat i) f (512 + j) := by
  rw [ot4_c1R c i arg6 arg7 arg8 arg9 arg10 arg11 arg12 arg13 fh0 fh1 fh2 fh3 f j hf hj, ot3_c1R c i arg6 arg7 arg8 arg9 arg10 arg11 arg12 arg13 fh0 fh1 fh2 fh3 f j hf hj, ot2_c1R c i arg6 arg7 arg8 arg9 arg10 arg11 arg12 arg13 fh0 fh1 fh2 fh3 f j hf hj, ot1_c1R c i arg6 arg7 arg8 arg9 arg10 arg11 arg12 arg13 fh0 fh1 fh2 fh3 f j hf hj,
    ot0_c1R c i arg6 arg7 arg8 arg9 arg10 arg11 arg12 arg13 fh0 fh1 fh2 fh3 f j hf hj, oz_c1R c i arg6 arg7 arg8 arg9 arg10 arg11 arg12 arg13 fh0 fh1 fh2 fh3 f j hf hj]
  exact Cert.DeepFilter.sumR_of_cols _ _ _ _ _ _ _

/-- The payload stored into the output block for these frames: the window sums, laid out [1, 1, 257, 512]. -/
theorem piece_c1R (y : (⟨4, ![1, 1, 257, 512]⟩ : Shape).Idx) :
    k0_pay52 (kernelRun0_A.sl.v280 (F := Ideal) c i arg6 arg7 arg8 arg9 arg10 arg12 fh0 fh1 fh2 fh3) y = Cert.DeepFilter.sumR fh0 fh1 fh2 fh3 (bat i) (y 2).val (512 + (y 3).val) := by
  have hf : (y 2).val < 257 := (y 2).isLt
  have hj : (y 3).val < 512 := (y 3).isLt
  simp only [k0_pay52]
  refine (shapeCast_addUnit2_apply (R := 257) (C := 512) _ _ y).trans ?_
  refine (at2_of_lt (R := 257) (C := 512) _ hf hj).symm.trans ?_
  simp (disch := omega) only [kernelRun0_A.sl.v280, at2_readCov_in]
  simp (disch := omega) only [Nat.zero_add, osum_c1R c i arg6 arg7 arg8 arg9 arg10 arg11 arg12 arg13 fh0 fh1 fh2 fh3]

end Cert.DeepFilter.Body

end
-- ==== Proof.BodyChunk1I.lean ====
/-
  Frames 512 … 1023, imaginary plane: the body's stores into its two scratch buffers for this run of frames.

  The body first forms the product `(2 * ir) * fi` on the slab columns 510 … 1025 (the run's frames and a halo of two
  on each side inside the array). A first buffer is cleared and gains, in three read-modify-write steps, the product
  one bin above, at, and one bin below each bin, a step leaving out the row whose neighbour is off the array. A second
  buffer is cleared and gains, in five steps, the first buffer two frames before … two frames after each frame, a step
  leaving out the frames whose neighbour is off the array. Read at natural coordinates each step is `new = old + source`
  on its rectangle and `new = old` off it, where the source is zero anyway because it lies on the zero padding; so the
  second buffer ends at the 3 x 5 window sum of the specification, and that is what the body stores into the output block.
-/
import proofs.«134051_j16587163697924_2_alg».proof.Proof.BodySlabs

noncomputable section

namespace Cert.DeepFilter.Body

open Idealize.ShloMosaic Idealize.ShloMosaic.ValueIdx Idealize.SL.Sem
open Cert.KernelIdeal Cert.KernelIdeal.Gen Cert.LibNatReads Cert.DeepFilter

variable (c : Dev nD) (i : grid0.Coords)
  (arg6 arg7 arg8 arg9 : Memref sig .tc .vmem S257x4000 .f32) (arg10 arg11 : Memref sig .tc .vmem S257x516 .f32)
  (arg12 arg13 : Memref sig .tc .vmem S257x512 .f32)
  (fh0 : HbBuf0 (F := Ideal) c hbM0_0) (fh1 : HbBuf0 (F := Ideal) c hbM0_1) (fh2 : HbBuf0 (F := Ideal) c hbM0_2) (fh3 : HbBuf0 (F := Ideal) c hbM0_3)

include c i arg6 arg7 arg8 arg9 arg10 arg11 arg12 arg13 fh0 fh1 fh2 fh3

/-- The bin-sum buffer after it is cleared: zero on columns below 516. -/
theorem fz_c1I (f j : ℕ) (hf : f < 257) (hj : j < 516) :
    sem arg11.view (kernelRun0_A.sl.HS5_5 (F := Ideal) c i arg6 arg9 arg11 fh0 fh3) f j = 0 := by
  simp (disch := omega) only [kernelRun0_A.sl.HS5_5, kernelRun0_A.sl.cst_144, k0_pay32, sem_cons_in, sem_whole, at2_shapeCast_self, at2_addf, at2_subf, at2_mulf, at2_slice_in, at2_readCov_in, at2_broadcast_in]
  exact Ideal.ofBits_zero_f32

/-- Bin tap -1: rows 1 … 256 gain the product one padded row above; the skipped row's product is on the padding, so zero. -/
theorem ft0_c1I (f j : ℕ) (hf : f < 257) (hj : j < 516) :
    sem arg11.view (kernelRun0_A.sl.HS5_6 (F := Ideal) c i arg6 arg9 arg11 fh0 fh3) f j
      = sem arg11.view (kernelRun0_A.sl.HS5_5 (F := Ideal) c i arg6 arg9 arg11 fh0 fh3) f j + Cert.DeepFilter.prodI fh0 fh3 (bat i) (f) (510 + j + 2) := by
  by_cases hin : 1 ≤ f ∧ f < 1 + 256
  ·
    obtain ⟨g, rfl⟩ : ∃ g, f = g + 1 := ⟨f - 1, by omega⟩
    rw [prodI_succ c i fh0 fh3]
    simp (disch := omega) only [kernelRun0_A.sl.HS5_6, kernelRun0_A.sl.r_5, kernelRun0_A.sl.v160, kernelRun0_A.sl.v163, kernelRun0_A.sl.v184, k0_pay34, k0_pay30, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_6, sem_cons_out])

/-- Bin tap 0: rows 0 … 256 gain the product one padded row at; the skipped row's product is on the padding, so zero. -/
theorem ft1_c1I (f j : ℕ) (hf : f < 257) (hj : j < 516) :
    sem arg11.view (kernelRun0_A.sl.HS5_7 (F := Ideal) c i arg6 arg9 arg11 fh0 fh3) f j
      = sem arg11.view (kernelRun0_A.sl.HS5_6 (F := Ideal) c i arg6 arg9 arg11 fh0 fh3) f j + Cert.DeepFilter.prodI fh0 fh3 (bat i) (f + 1) (510 + j + 2) := by
  by_cases hin : 0 ≤ f ∧ f < 0 + 257
  ·
    rw [prodI_succ c i fh0 fh3]
    simp (disch := omega) only [kernelRun0_A.sl.HS5_7, kernelRun0_A.sl.r_5, kernelRun0_A.sl.v160, kernelRun0_A.sl.v163, kernelRun0_A.sl.v195, k0_pay36, k0_pay30, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_7, sem_cons_out])

/-- Bin tap 1: rows 0 … 255 gain the product one padded row below; the skipped row's product is on the padding, so zero. -/
theorem ft2_c1I (f j : ℕ) (hf : f < 257) (hj : j < 516) :
    sem arg11.view (kernelRun0_A.sl.HS5_8 (F := Ideal) c i arg6 arg9 arg11 fh0 fh3) f j
      = sem arg11.view (kernelRun0_A.sl.HS5_7 (F := Ideal) c i arg6 arg9 arg11 fh0 fh3) f j + Cert.DeepFilter.prodI fh0 fh3 (bat i) (f + 1 + 1) (510 + j + 2) := by
  by_cases hin : 0 ≤ f ∧ f < 0 + 256
  ·
    rw [prodI_succ c i fh0 fh3]
    simp (disch := omega) only [kernelRun0_A.sl.HS5_8, kernelRun0_A.sl.r_5, kernelRun0_A.sl.v160, kernelRun0_A.sl.v163, kernelRun0_A.sl.v206, k0_pay38, k0_pay30, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_8, sem_cons_out])

/-- After the three bin taps the buffer holds, at bin `f` and local column `j`, the three padded rows `f, f + 1, f + 2` of the product in padded column `510 + j + 2`. -/
theorem fsum_c1I (f j : ℕ) (hf : f < 257) (hj : j < 516) :
    sem arg11.view (kernelRun0_A.sl.HS5_8 (F := Ideal) c i arg6 arg9 arg11 fh0 fh3) f j = Cert.DeepFilter.colI fh0 fh3 (bat i) f (510 + j + 2) := by
  rw [ft2_c1I c i arg6 arg7 arg8 arg9 arg10 arg11 arg12 arg13 fh0 fh1 fh2 fh3 f j hf hj, ft1_c1I c i arg6 arg7 arg8 arg9 arg10 arg11 arg12 arg13 fh0 fh1 fh2 fh3 f j hf hj, ft0_c1I c i arg6 arg7 arg8 arg9 arg10 arg11 arg12 arg13 fh0 fh1 fh2 fh3 f j hf hj, fz_c1I c i arg6 arg7 arg8 arg9 arg10 arg11 arg12 arg13 fh0 fh1 fh2 fh3 f j hf hj]
  rfl

/-- The frame-sum buffer after it is cleared: zero on columns below 512. -/
theorem oz_c1I (f j : ℕ) (hf : f < 257) (hj : j < 512) :
    sem arg13.view (kernelRun0_A.sl.HS7_7 (F := Ideal) c i arg6 arg9 arg11 arg13 fh0 fh3) f j = 0 := by
  simp (disch := omega) only [kernelRun0_A.sl.HS7_7, k0_pay40, sem_cons_in, sem_whole, at2_shapeCast_self, at2_addf, at2_subf, at2_mulf, at2_slice_in, at2_readCov_in, at2_broadcast_in]
  exact Ideal.ofBits_zero_f32

/-- Frame tap -2: columns 0 … 511 gain the bin sums of padded column `512 + j`; on a skipped column that padded column is off the array, so its bin sums are zero. -/
theorem ot0_c1I (f j : ℕ) (hf : f < 257) (hj : j < 512) :
    sem arg13.view (kernelRun0_A.sl.HS7_8 (F := Ideal) c i arg6 arg9 arg11 arg13 fh0 fh3) f j
      = sem arg13.view (kernelRun0_A.sl.HS7_7 (F := Ideal) c i arg6 arg9 arg11 arg13 fh0 fh3) f j + Cert.DeepFilter.colI fh0 fh3 (bat i) f (512 + j) := by
  by_cases hin : 0 ≤ j ∧ j < 0 + 512
  · simp (disch := omega) only [kernelRun0_A.sl.HS7_8, kernelRun0_A.sl.v226, kernelRun0_A.sl.v227, k0_pay42, sem_cons_in, sem_whole, at2_shapeCast_self, at2_addf, at2_subf, at2_mulf, at2_slice_in, at2_readCov_in, at2_broadcast_in]
    simp (disch := omega) only [Nat.zero_add, Nat.sub_zero, Nat.add_zero, fsum_c1I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_8, sem_cons_out])

/-- Frame tap -1: columns 0 … 511 gain the bin sums of padded column `512 + j + 1`; on a skipped column that padded column is off the array, so its bin sums are zero. -/
theorem ot1_c1I (f j : ℕ) (hf : f < 257) (hj : j < 512) :
    sem arg13.view (kernelRun0_A.sl.HS7_9 (F := Ideal) c i arg6 arg9 arg11 arg13 fh0 fh3) f j
      = sem arg13.view (kernelRun0_A.sl.HS7_8 (F := Ideal) c i arg6 arg9 arg11 arg13 fh0 fh3) f j + Cert.DeepFilter.colI fh0 fh3 (bat i) f (512 + j + 1) := by
  by_cases hin : 0 ≤ j ∧ j < 0 + 512
  · simp (disch := omega) only [kernelRun0_A.sl.HS7_9, kernelRun0_A.sl.v238, kernelRun0_A.sl.v239, k0_pay45, sem_cons_in, sem_whole, at2_shapeCast_self, at2_addf, at2_subf, at2_mulf, at2_slice_in, at2_readCov_in, at2_broadcast_in]
    simp (disch := omega) only [Nat.zero_add, Nat.sub_zero, Nat.add_zero, fsum_c1I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_9, sem_cons_out])

/-- Frame tap 0: columns 0 … 511 gain the bin sums of padded column `512 + j + 2`; on a skipped column that padded column is off the array, so its bin sums are zero. -/
theorem ot2_c1I (f j : ℕ) (hf : f < 257) (hj : j < 512) :
    sem arg13.view (kernelRun0_A.sl.HS7_10 (F := Ideal) c i arg6 arg9 arg11 arg13 fh0 fh3) f j
      = sem arg13.view (kernelRun0_A.sl.HS7_9 (F := Ideal) c i arg6 arg9 arg11 arg13 fh0 fh3) f j + Cert.DeepFilter.colI fh0 fh3 (bat i) f (512 + j + 2) := by
  by_cases hin : 0 ≤ j ∧ j < 0 + 512
  · simp (disch := omega) only [kernelRun0_A.sl.HS7_10, kernelRun0_A.sl.v250, kernelRun0_A.sl.v251, k0_pay47, sem_cons_in, sem_whole, at2_shapeCast_self, at2_addf, at2_subf, at2_mulf, at2_slice_in, at2_readCov_in, at2_broadcast_in]
    simp (disch := omega) only [Nat.zero_add, Nat.sub_zero, Nat.add_zero, fsum_c1I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_10, sem_cons_out])

/-- Frame tap 1: columns 0 … 511 gain the bin sums of padded column `512 + j + 3`; on a skipped column that padded column is off the array, so its bin sums are zero. -/
theorem ot3_c1I (f j : ℕ) (hf : f < 257) (hj : j < 512) :
    sem arg13.view (kernelRun0_A.sl.HS7_11 (F := Ideal) c i arg6 arg9 arg11 arg13 fh0 fh3) f j
      = sem arg13.view (kernelRun0_A.sl.HS7_10 (F := Ideal) c i arg6 arg9 arg11 arg13 fh0 fh3) f j + Cert.DeepFilter.colI fh0 fh3 (bat i) f (512 + j + 3) := by
  by_cases hin : 0 ≤ j ∧ j < 0 + 512
  · simp (disch := omega) only [kernelRun0_A.sl.HS7_11, kernelRun0_A.sl.v262, kernelRun0_A.sl.v263, k0_pay49, sem_cons_in, sem_whole, at2_shapeCast_self, at2_addf, at2_subf, at2_mulf, at2_slice_in, at2_readCov_in, at2_broadcast_in]
    simp (disch := omega) only [Nat.zero_add, Nat.sub_zero, Nat.add_zero, fsum_c1I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_11, sem_cons_out])

/-- Frame tap 2: columns 0 … 511 gain the bin sums of padded column `512 + j + 4`; on a skipped column that padded column is off the array, so its bin sums are zero. -/
theorem ot4_c1I (f j : ℕ) (hf : f < 257) (hj : j < 512) :
    sem arg13.view (kernelRun0_A.sl.HS7_12 (F := Ideal) c i arg6 arg9 arg11 arg13 fh0 fh3) f j
      = sem arg13.view (kernelRun0_A.sl.HS7_11 (F := Ideal) c i arg6 arg9 arg11 arg13 fh0 fh3) f j + Cert.DeepFilter.colI fh0 fh3 (bat i) f (512 + j + 4) := by
  by_cases hin : 0 ≤ j ∧ j < 0 + 512
  · simp (disch := omega) only [kernelRun0_A.sl.HS7_12, kernelRun0_A.sl.v274, kernelRun0_A.sl.v275, k0_pay51, sem_cons_in, sem_whole, at2_shapeCast_self, at2_addf, at2_subf, at2_mulf, at2_slice_in, at2_readCov_in, at2_broadcast_in]
    simp (disch := omega) only [Nat.zero_add, Nat.sub_zero, Nat.add_zero, fsum_c1I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_12, sem_cons_out])

/-- After the five frame taps the buffer holds the 3 x 5 window sum of bin `f`, frame `512 + j`. -/
theorem osum_c1I (f j : ℕ) (hf : f < 257) (hj : j < 512) :
    sem arg13.view (kernelRun0_A.sl.HS7_12 (F := Ideal) c i arg6 arg9 arg11 arg13 fh0 fh3) f j = Cert.DeepFilter.sumI fh0 fh3 (bat i) f (512 + j) := by
  rw [ot4_c1I c i arg6 arg7 arg8 arg9 arg10 arg11 arg12 arg13 fh0 fh1 fh2 fh3 f j hf hj, ot3_c1I c i arg6 arg7 arg8 arg9 arg10 arg11 arg12 arg13 fh0 fh1 fh2 fh3 f j hf hj, ot2_c1I c i arg6 arg7 arg8 arg9 arg10 arg11 arg12 arg13 fh0 fh1 fh2 fh3 f j hf hj, ot1_c1I c i arg6 arg7 arg8 arg9 arg10 arg11 arg12 arg13 fh0 fh1 fh2 fh3 f j hf hj,
    ot0_c1I c i arg6 arg7 arg8 arg9 arg10 arg11 arg12 arg13 fh0 fh1 fh2 fh3 f j hf hj, oz_c1I c i arg6 arg7 arg8 arg9 arg10 arg11 arg12 arg13 fh0 fh1 fh2 fh3 f j hf hj]
  exact Cert.DeepFilter.sumI_of_cols _ _ _ _ _

/-- The payload stored into the output block for these frames: the window sums, laid out [1, 1, 257, 512]. -/
theorem piece_c1I (y : (⟨4, ![1, 1, 257, 512]⟩ : Shape).Idx) :
    k0_pay53 (kernelRun0_A.sl.v284 (F := Ideal) c i arg6 arg9 arg11 arg13 fh0 fh3) y = Cert.DeepFilter.sumI fh0 fh3 (bat i) (y 2).val (512 + (y 3).val) := by
  have hf : (y 2).val < 257 := (y 2).isLt
  have hj : (y 3).val < 512 := (y 3).isLt
  simp only [k0_pay53]
  refine (shapeCast_addUnit2_apply (R := 257) (C := 512) _ _ y).trans ?_
  refine (at2_of_lt (R := 257) (C := 512) _ hf hj).symm.trans ?_
  simp (disch := omega) only [kernelRun0_A.sl.v284, at2_readCov_in]
  simp (disch := omega) only [Nat.zero_add, osum_c1I c i arg6 arg7 arg8 arg9 arg10 arg11 arg12 arg13 fh0 fh1 fh2 fh3]

end Cert.DeepFilter.Body

end
-- ==== Proof.BodyChunk2R.lean ====
/-
  Frames 1024 … 1535, real plane: the body's stores into its two scratch buffers for this run of frames.

  The body first forms the product `ir * fr - ii * fi` on the slab columns 1022 … 1537 (the run's frames and a halo of two
  on each side inside the array). A first buffer is cleared and gains, in three read-modify-write steps, the product
  one bin above, at, and one bin below each bin, a step leaving out the row whose neighbour is off the array. A second
  buffer is cleared and gains, in five steps, the first buffer two frames before … two frames after each frame, a step
  leaving out the frames whose neighbour is off the array. Read at natural coordinates each step is `new = old + source`
  on its rectangle and `new = old` off it, where the source is zero anyway because it lies on the zero padding; so the
  second buffer ends at the 3 x 5 window sum of the specification, and that is what the body stores into the output block.
-/
import proofs.«134051_j16587163697924_2_alg».proof.Proof.BodySlabs

noncomputable section

namespace Cert.DeepFilter.Body

open Idealize.ShloMosaic Idealize.ShloMosaic.ValueIdx Idealize.SL.Sem
open Cert.KernelIdeal Cert.KernelIdeal.Gen Cert.LibNatReads Cert.DeepFilter

variable (c : Dev nD) (i : grid0.Coords)
  (arg6 arg7 arg8 arg9 : Memref sig .tc .vmem S257x4000 .f32) (arg10 arg11 : Memref sig .tc .vmem S257x516 .f32)
  (arg12 arg13 : Memref sig .tc .vmem S257x512 .f32)
  (fh0 : HbBuf0 (F := Ideal) c hbM0_0) (fh1 : HbBuf0 (F := Ideal) c hbM0_1) (fh2 : HbBuf0 (F := Ideal) c hbM0_2) (fh3 : HbBuf0 (F := Ideal) c hbM0_3)

include c i arg6 arg7 arg8 arg9 arg10 arg11 arg12 arg13 fh0 fh1 fh2 fh3

/-- The bin-sum buffer after it is cleared: zero on columns below 516. -/
theorem fz_c2R (f j : ℕ) (hf : f < 257) (hj : j < 516) :
    sem arg10.view (kernelRun0_A.sl.HS4_9 (F := Ideal) c i arg6 arg7 arg8 arg9 arg10 fh0 fh1 fh2 fh3) f j = 0 := by
  simp (disch := omega) only [kernelRun0_A.sl.HS4_9, k0_pay56, sem_cons_in, sem_whole, at2_shapeCast_self, at2_addf, at2_subf, at2_mulf, at2_slice_in, at2_readCov_in, at2_broadcast_in]
  exact Ideal.ofBits_zero_f32

/-- Bin tap -1: rows 1 … 256 gain the product one padded row above; the skipped row's product is on the padding, so zero. -/
theorem ft0_c2R (f j : ℕ) (hf : f < 257) (hj : j < 516) :
    sem arg10.view (kernelRun0_A.sl.HS4_10 (F := Ideal) c i arg6 arg7 arg8 arg9 arg10 fh0 fh1 fh2 fh3) f j
      = sem arg10.view (kernelRun0_A.sl.HS4_9 (F := Ideal) c i arg6 arg7 arg8 arg9 arg10 fh0 fh1 fh2 fh3) f j + Cert.DeepFilter.prodR fh0 fh1 fh2 fh3 (bat i) (f) (1022 + j + 2) := by
  by_cases hin : 1 ≤ f ∧ f < 1 + 256
  ·
    obtain ⟨g, rfl⟩ : ∃ g, f = g + 1 := ⟨f - 1, by omega⟩
    rw [prodR_succ c i fh0 fh1 fh2 fh3]
    simp (disch := omega) only [kernelRun0_A.sl.HS4_10, kernelRun0_A.sl.v288, kernelRun0_A.sl.v289, kernelRun0_A.sl.v290, kernelRun0_A.sl.v291, kernelRun0_A.sl.v306, k0_pay58, k0_pay54, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_10, sem_cons_out])

/-- Bin tap 0: rows 0 … 256 gain the product one padded row at; the skipped row's product is on the padding, so zero. -/
theorem ft1_c2R (f j : ℕ) (hf : f < 257) (hj : j < 516) :
    sem arg10.view (kernelRun0_A.sl.HS4_11 (F := Ideal) c i arg6 arg7 arg8 arg9 arg10 fh0 fh1 fh2 fh3) f j
      = sem arg10.view (kernelRun0_A.sl.HS4_10 (F := Ideal) c i arg6 arg7 arg8 arg9 arg10 fh0 fh1 fh2 fh3) f j + Cert.DeepFilter.prodR fh0 fh1 fh2 fh3 (bat i) (f + 1) (1022 + j + 2) := by
  by_cases hin : 0 ≤ f ∧ f < 0 + 257
  ·
    rw [prodR_succ c i fh0 fh1 fh2 fh3]
    simp (disch := omega) only [kernelRun0_A.sl.HS4_11, kernelRun0_A.sl.r_9, kernelRun0_A.sl.v288, kernelRun0_A.sl.v289, kernelRun0_A.sl.v290, kernelRun0_A.sl.v291, kernelRun0_A.sl.v318, k0_pay61, k0_pay60, k0_pay54, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_11, sem_cons_out])

/-- Bin tap 1: rows 0 … 255 gain the product one padded row below; the skipped row's product is on the padding, so zero. -/
theorem ft2_c2R (f j : ℕ) (hf : f < 257) (hj : j < 516) :
    sem arg10.view (kernelRun0_A.sl.HS4_12 (F := Ideal) c i arg6 arg7 arg8 arg9 arg10 fh0 fh1 fh2 fh3) f j
      = sem arg10.view (kernelRun0_A.sl.HS4_11 (F := Ideal) c i arg6 arg7 arg8 arg9 arg10 fh0 fh1 fh2 fh3) f j + Cert.DeepFilter.prodR fh0 fh1 fh2 fh3 (bat i) (f + 1 + 1) (1022 + j + 2) := by
  by_cases hin : 0 ≤ f ∧ f < 0 + 256
  ·
    rw [prodR_succ c i fh0 fh1 fh2 fh3]
    simp (disch := omega) only [kernelRun0_A.sl.HS4_12, kernelRun0_A.sl.r_7, kernelRun0_A.sl.v288, kernelRun0_A.sl.v289, kernelRun0_A.sl.v290, kernelRun0_A.sl.v291, kernelRun0_A.sl.v328, k0_pay63, k0_pay54, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_12, sem_cons_out])

/-- After the three bin taps the buffer holds, at bin `f` and local column `j`, the three padded rows `f, f + 1, f + 2` of the product in padded column `1022 + j + 2`. -/
theorem fsum_c2R (f j : ℕ) (hf : f < 257) (hj : j < 516) :
    sem arg10.view (kernelRun0_A.sl.HS4_12 (F := Ideal) c i arg6 arg7 arg8 arg9 arg10 fh0 fh1 fh2 fh3) f j = Cert.DeepFilter.colR fh0 fh1 fh2 fh3 (bat i) f (1022 + j + 2) := by
  rw [ft2_c2R c i arg6 arg7 arg8 arg9 arg10 arg11 arg12 arg13 fh0 fh1 fh2 fh3 f j hf hj, ft1_c2R c i arg6 arg7 arg8 arg9 arg10 arg11 arg12 arg13 fh0 fh1 fh2 fh3 f j hf hj, ft0_c2R c i arg6 arg7 arg8 arg9 arg10 arg11 arg12 arg13 fh0 fh1 fh2 fh3 f j hf hj, fz_c2R c i arg6 arg7 arg8 arg9 arg10 arg11 arg12 arg13 fh0 fh1 fh2 fh3 f j hf hj]
  rfl

/-- The frame-sum buffer after it is cleared: zero on columns below 512. -/
theorem oz_c2R (f j : ℕ) (hf : f < 257) (hj : j < 512) :
    sem arg12.view (kernelRun0_A.sl.HS6_13 (F := Ideal) c i arg6 arg7 arg8 arg9 arg10 arg12 fh0 fh1 fh2 fh3) f j = 0 := by
  simp (disch := omega) only [kernelRun0_A.sl.HS6_13, k0_pay65, sem_cons_in, sem_whole, at2_shapeCast_self, at2_addf, at2_subf, at2_mulf, at2_slice_in, at2_readCov_in, at2_broadcast_in]
  exact Ideal.ofBits_zero_f32

/-- Frame tap -2: columns 0 … 511 gain the bin sums of padded column `1024 + j`; on a skipped column that padded column is off the array, so its bin sums are zero. -/
theorem ot0_c2R (f j : ℕ) (hf : f < 257) (hj : j < 512) :
    sem arg12.view (kernelRun0_A.sl.HS6_14 (F := Ideal) c i arg6 arg7 arg8 arg9 arg10 arg12 fh0 fh1 fh2 fh3) f j
      = sem arg12.view (kernelRun0_A.sl.HS6_13 (F := Ideal) c i arg6 arg7 arg8 arg9 arg10 arg12 fh0 fh1 fh2 fh3) f j + Cert.DeepFilter.colR fh0 fh1 fh2 fh3 (bat i) f (1024 + j) := by
  by_cases hin : 0 ≤ j ∧ j < 0 + 512
  · simp (disch := omega) only [kernelRun0_A.sl.HS6_14, kernelRun0_A.sl.v348, kernelRun0_A.sl.v349, k0_pay67, sem_cons_in, sem_whole, at2_shapeCast_self, at2_addf, at2_subf, at2_mulf, at2_slice_in, at2_readCov_in, at2_broadcast_in]
    simp (disch := omega) only [Nat.zero_add, Nat.sub_zero, Nat.add_zero, fsum_c2R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_14, sem_cons_out])

/-- Frame tap -1: columns 0 … 511 gain the bin sums of padded column `1024 + j + 1`; on a skipped column that padded column is off the array, so its bin sums are zero. -/
theorem ot1_c2R (f j : ℕ) (hf : f < 257) (hj : j < 512) :
    sem arg12.view (kernelRun0_A.sl.HS6_15 (F := Ideal) c i arg6 arg7 arg8 arg9 arg10 arg12 fh0 fh1 fh2 fh3) f j
      = sem arg12.view (kernelRun0_A.sl.HS6_14 (F := Ideal) c i arg6 arg7 arg8 arg9 arg10 arg12 fh0 fh1 fh2 fh3) f j + Cert.DeepFilter.colR fh0 fh1 fh2 fh3 (bat i) f (1024 + j + 1) := by
  by_cases hin : 0 ≤ j ∧ j < 0 + 512
  · simp (disch := omega) only [kernelRun0_A.sl.HS6_15, kernelRun0_A.sl.v360, kernelRun0_A.sl.v361, k0_pay69, sem_cons_in, sem_whole, at2_shapeCast_self, at2_addf, at2_subf, at2_mulf, at2_slice_in, at2_readCov_in, at2_broadcast_in]
    simp (disch := omega) only [Nat.zero_add, Nat.sub_zero, Nat.add_zero, fsum_c2R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_15, sem_cons_out])

/-- Frame tap 0: columns 0 … 511 gain the bin sums of padded column `1024 + j + 2`; on a skipped column that padded column is off the array, so its bin sums are zero. -/
theorem ot2_c2R (f j : ℕ) (hf : f < 257) (hj : j < 512) :
    sem arg12.view (kernelRun0_A.sl.HS6_16 (F := Ideal) c i arg6 arg7 arg8 arg9 arg10 arg12 fh0 fh1 fh2 fh3) f j
      = sem arg12.view (kernelRun0_A.sl.HS6_15 (F := Ideal) c i arg6 arg7 arg8 arg9 arg10 arg12 fh0 fh1 fh2 fh3) f j + Cert.DeepFilter.colR fh0 fh1 fh2 fh3 (bat i) f (1024 + j + 2) := by
  by_cases hin : 0 ≤ j ∧ j < 0 + 512
  · simp (disch := omega) only [kernelRun0_A.sl.HS6_16, kernelRun0_A.sl.v372, kernelRun0_A.sl.v373, k0_pay71, sem_cons_in, sem_whole, at2_shapeCast_self, at2_addf, at2_subf, at2_mulf, at2_slice_in, at2_readCov_in, at2_broadcast_in]
    simp (disch := omega) only [Nat.zero_add, Nat.sub_zero, Nat.add_zero, fsum_c2R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_16, sem_cons_out])

/-- Frame tap 1: columns 0 … 511 gain the bin sums of padded column `1024 + j + 3`; on a skipped column that padded column is off the array, so its bin sums are zero. -/
theorem ot3_c2R (f j : ℕ) (hf : f < 257) (hj : j < 512) :
    sem arg12.view (kernelRun0_A.sl.HS6_17 (F := Ideal) c i arg6 arg7 arg8 arg9 arg10 arg12 fh0 fh1 fh2 fh3) f j
      = sem arg12.view (kernelRun0_A.sl.HS6_16 (F := Ideal) c i arg6 arg7 arg8 arg9 arg10 arg12 fh0 fh1 fh2 fh3) f j + Cert.DeepFilter.colR fh0 fh1 fh2 fh3 (bat i) f (1024 + j + 3) := by
  by_cases hin : 0 ≤ j ∧ j < 0 + 512
  · simp (disch := omega) only [kernelRun0_A.sl.HS6_17, kernelRun0_A.sl.v384, kernelRun0_A.sl.v385, k0_pay73, sem_cons_in, sem_whole, at2_shapeCast_self, at2_addf, at2_subf, at2_mulf, at2_slice_in, at2_readCov_in, at2_broadcast_in]
    simp (disch := omega) only [Nat.zero_add, Nat.sub_zero, Nat.add_zero, fsum_c2R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_17, sem_cons_out])

/-- Frame tap 2: columns 0 … 511 gain the bin sums of padded column `1024 + j + 4`; on a skipped column that padded column is off the array, so its bin sums are zero. -/
theorem ot4_c2R (f j : ℕ) (hf : f < 257) (hj : j < 512) :
    sem arg12.view (kernelRun0_A.sl.HS6_18 (F := Ideal) c i arg6 arg7 arg8 arg9 arg10 arg12 fh0 fh1 fh2 fh3) f j
      = sem arg12.view (kernelRun0_A.sl.HS6_17 (F := Ideal) c i arg6 arg7 arg8 arg9 arg10 arg12 fh0 fh1 fh2 fh3) f j + Cert.DeepFilter.colR fh0 fh1 fh2 fh3 (bat i) f (1024 + j + 4) := by
  by_cases hin : 0 ≤ j ∧ j < 0 + 512
  · simp (disch := omega) only [kernelRun0_A.sl.HS6_18, kernelRun0_A.sl.v396, kernelRun0_A.sl.v397, k0_pay75, sem_cons_in, sem_whole, at2_shapeCast_self, at2_addf, at2_subf, at2_mulf, at2_slice_in, at2_readCov_in, at2_broadcast_in]
    simp (disch := omega) only [Nat.zero_add, Nat.sub_zero, Nat.add_zero, fsum_c2R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_18, sem_cons_out])

/-- After the five frame taps the buffer holds the 3 x 5 window sum of bin `f`, frame `1024 + j`. -/
theorem osum_c2R (f j : ℕ) (hf : f < 257) (hj : j < 512) :
    sem arg12.view (kernelRun0_A.sl.HS6_18 (F := Ideal) c i arg6 arg7 arg8 arg9 arg10 arg12 fh0 fh1 fh2 fh3) f j = Cert.DeepFilter.sumR fh0 fh1 fh2 fh3 (bat i) f (1024 + j) := by
  rw [ot4_c2R c i arg6 arg7 arg8 arg9 arg10 arg11 arg12 arg13 fh0 fh1 fh2 fh3 f j hf hj, ot3_c2R c i arg6 arg7 arg8 arg9 arg10 arg11 arg12 arg13 fh0 fh1 fh2 fh3 f j hf hj, ot2_c2R c i arg6 arg7 arg8 arg9 arg10 arg11 arg12 arg13 fh0 fh1 fh2 fh3 f j hf hj, ot1_c2R c i arg6 arg7 arg8 arg9 arg10 arg11 arg12 arg13 fh0 fh1 fh2 fh3 f j hf hj,
    ot0_c2R c i arg6 arg7 arg8 arg9 arg10 arg11 arg12 arg13 fh0 fh1 fh2 fh3 f j hf hj, oz_c2R c i arg6 arg7 arg8 arg9 arg10 arg11 arg12 arg13 fh0 fh1 fh2 fh3 f j hf hj]
  exact Cert.DeepFilter.sumR_of_cols _ _ _ _ _ _ _

/-- The payload stored into the output block for these frames: the window sums, laid out [1, 1, 257, 512]. -/
theorem piece_c2R (y : (⟨4, ![1, 1, 257, 512]⟩ : Shape).Idx) :
    k0_pay78 (kernelRun0_A.sl.v408 (F := Ideal) c i arg6 arg7 arg8 arg9 arg10 arg12 fh0 fh1 fh2 fh3) y = Cert.DeepFilter.sumR fh0 fh1 fh2 fh3 (bat i) (y 2).val (1024 + (y 3).val) := by
  have hf : (y 2).val < 257 := (y 2).isLt
  have hj : (y 3).val < 512 := (y 3).isLt
  simp only [k0_pay78]
  refine (shapeCast_addUnit2_apply (R := 257) (C := 512) _ _ y).trans ?_
  refine (at2_of_lt (R := 257) (C := 512) _ hf hj).symm.trans ?_
  simp (disch := omega) only [kernelRun0_A.sl.v408, at2_readCov_in]
  simp (disch := omega) only [Nat.zero_add, osum_c2R c i arg6 arg7 arg8 arg9 arg10 arg11 arg12 arg13 fh0 fh1 fh2 fh3]

end Cert.DeepFilter.Body

end
-- ==== Proof.BodyChunk2I.lean ====
/-
  Frames 1024 … 1535, imaginary plane: the body's stores into its two scratch buffers for this run of frames.

  The body first forms the product `(2 * ir) * fi` on the slab columns 1022 … 1537 (the run's frames and a halo of two
  on each side inside the array). A first buffer is cleared and gains, in three read-modify-write steps, the product
  one bin above, at, and one bin below each bin, a step leaving out the row whose neighbour is off the array. A second
  buffer is cleared and gains, in five steps, the first buffer two frames before … two frames after each frame, a step
  leaving out the frames whose neighbour is off the array. Read at natural coordinates each step is `new = old + source`
  on its rectangle and `new = old` off it, where the source is zero anyway because it lies on the zero padding; so the
  second buffer ends at the 3 x 5 window sum of the specification, and that is what the body stores into the output block.
-/
import proofs.«134051_j16587163697924_2_alg».proof.Proof.BodySlabs

noncomputable section

namespace Cert.DeepFilter.Body

open Idealize.ShloMosaic Idealize.ShloMosaic.ValueIdx Idealize.SL.Sem
open Cert.KernelIdeal Cert.KernelIdeal.Gen Cert.LibNatReads Cert.DeepFilter

variable (c : Dev nD) (i : grid0.Coords)
  (arg6 arg7 arg8 arg9 : Memref sig .tc .vmem S257x4000 .f32) (arg10 arg11 : Memref sig .tc .vmem S257x516 .f32)
  (arg12 arg13 : Memref sig .tc .vmem S257x512 .f32)
  (fh0 : HbBuf0 (F := Ideal) c hbM0_0) (fh1 : HbBuf0 (F := Ideal) c hbM0_1) (fh2 : HbBuf0 (F := Ideal) c hbM0_2) (fh3 : HbBuf0 (F := Ideal) c hbM0_3)

include c i arg6 arg7 arg8 arg9 arg10 arg11 arg12 arg13 fh0 fh1 fh2 fh3

/-- The bin-sum buffer after it is cleared: zero on columns below 516. -/
theorem fz_c2I (f j : ℕ) (hf : f < 257) (hj : j < 516) :
    sem arg11.view (kernelRun0_A.sl.HS5_9 (F := Ideal) c i arg6 arg9 arg11 fh0 fh3) f j = 0 := by
  simp (disch := omega) only [kernelRun0_A.sl.HS5_9, k0_pay57, sem_cons_in, sem_whole, at2_shapeCast_self, at2_addf, at2_subf, at2_mulf, at2_slice_in, at2_readCov_in, at2_broadcast_in]
  exact Ideal.ofBits_zero_f32

/-- Bin tap -1: rows 1 … 256 gain the product one padded row above; the skipped row's product is on the padding, so zero. -/
theorem ft0_c2I (f j : ℕ) (hf : f < 257) (hj : j < 516) :
    sem arg11.view (kernelRun0_A.sl.HS5_10 (F := Ideal) c i arg6 arg9 arg11 fh0 fh3) f j
      = sem arg11.view (kernelRun0_A.sl.HS5_9 (F := Ideal) c i arg6 arg9 arg11 fh0 fh3) f j + Cert.DeepFilter.prodI fh0 fh3 (bat i) (f) (1022 + j + 2) := by
  by_cases hin : 1 ≤ f ∧ f < 1 + 256
  ·
    obtain ⟨g, rfl⟩ : ∃ g, f = g + 1 := ⟨f - 1, by omega⟩
    rw [prodI_succ c i fh0 fh3]
    simp (disch := omega) only [kernelRun0_A.sl.HS5_10, kernelRun0_A.sl.v288, kernelRun0_A.sl.v291, kernelRun0_A.sl.v312, k0_pay59, k0_pay55, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_10, sem_cons_out])

/-- Bin tap 0: rows 0 … 256 gain the product one padded row at; the skipped row's product is on the padding, so zero. -/
theorem ft1_c2I (f j : ℕ) (hf : f < 257) (hj : j < 516) :
    sem arg11.view (kernelRun0_A.sl.HS5_11 (F := Ideal) c i arg6 arg9 arg11 fh0 fh3) f j
      = sem arg11.view (kernelRun0_A.sl.HS5_10 (F := Ideal) c i arg6 arg9 arg11 fh0 fh3) f j + Cert.DeepFilter.prodI fh0 fh3 (bat i) (f + 1) (1022 + j + 2) := by
  by_cases hin : 0 ≤ f ∧ f < 0 + 257
  ·
    rw [prodI_succ c i fh0 fh3]
    simp (disch := omega) only [kernelRun0_A.sl.HS5_11, kernelRun0_A.sl.r_8, kernelRun0_A.sl.v288, kernelRun0_A.sl.v291, kernelRun0_A.sl.v323, k0_pay62, k0_pay55, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_11, sem_cons_out])

/-- Bin tap 1: rows 0 … 255 gain the product one padded row below; the skipped row's product is on the padding, so zero. -/
theorem ft2_c2I (f j : ℕ) (hf : f < 257) (hj : j < 516) :
    sem arg11.view (kernelRun0_A.sl.HS5_12 (F := Ideal) c i arg6 arg9 arg11 fh0 fh3) f j
      = sem arg11.view (kernelRun0_A.sl.HS5_11 (F := Ideal) c i arg6 arg9 arg11 fh0 fh3) f j + Cert.DeepFilter.prodI fh0 fh3 (bat i) (f + 1 + 1) (1022 + j + 2) := by
  by_cases hin : 0 ≤ f ∧ f < 0 + 256
  ·
    rw [prodI_succ c i fh0 fh3]
    simp (disch := omega) only [kernelRun0_A.sl.HS5_12, kernelRun0_A.sl.r_8, kernelRun0_A.sl.v288, kernelRun0_A.sl.v291, kernelRun0_A.sl.v334, k0_pay64, k0_pay55, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_12, sem_cons_out])

/-- After the three bin taps the buffer holds, at bin `f` and local column `j`, the three padded rows `f, f + 1, f + 2` of the product in padded column `1022 + j + 2`. -/
theorem fsum_c2I (f j : ℕ) (hf : f < 257) (hj : j < 516) :
    sem arg11.view (kernelRun0_A.sl.HS5_12 (F := Ideal) c i arg6 arg9 arg11 fh0 fh3) f j = Cert.DeepFilter.colI fh0 fh3 (bat i) f (1022 + j + 2) := by
  rw [ft2_c2I c i arg6 arg7 arg8 arg9 arg10 arg11 arg12 arg13 fh0 fh1 fh2 fh3 f j hf hj, ft1_c2I c i arg6 arg7 arg8 arg9 arg10 arg11 arg12 arg13 fh0 fh1 fh2 fh3 f j hf hj, ft0_c2I c i arg6 arg7 arg8 arg9 arg10 arg11 arg12 arg13 fh0 fh1 fh2 fh3 f j hf hj, fz_c2I c i arg6 arg7 arg8 arg9 arg10 arg11 arg12 arg13 fh0 fh1 fh2 fh3 f j hf hj]
  rfl

/-- The frame-sum buffer after it is cleared: zero on columns below 512. -/
theorem oz_c2I (f j : ℕ) (hf : f < 257) (hj : j < 512) :
    sem arg13.view (kernelRun0_A.sl.HS7_13 (F := Ideal) c i arg6 arg9 arg11 arg13 fh0 fh3) f j = 0 := by
  simp (disch := omega) only [kernelRun0_A.sl.HS7_13, k0_pay66, sem_cons_in, sem_whole, at2_shapeCast_self, at2_addf, at2_subf, at2_mulf, at2_slice_in, at2_readCov_in, at2_broadcast_in]
  exact Ideal.ofBits_zero_f32

/-- Frame tap -2: columns 0 … 511 gain the bin sums of padded column `1024 + j`; on a skipped column that padded column is off the array, so its bin sums are zero. -/
theorem ot0_c2I (f j : ℕ) (hf : f < 257) (hj : j < 512) :
    sem arg13.view (kernelRun0_A.sl.HS7_14 (F := Ideal) c i arg6 arg9 arg11 arg13 fh0 fh3) f j
      = sem arg13.view (kernelRun0_A.sl.HS7_13 (F := Ideal) c i arg6 arg9 arg11 arg13 fh0 fh3) f j + Cert.DeepFilter.colI fh0 fh3 (bat i) f (1024 + j) := by
  by_cases hin : 0 ≤ j ∧ j < 0 + 512
  · simp (disch := omega) only [kernelRun0_A.sl.HS7_14, kernelRun0_A.sl.v354, kernelRun0_A.sl.v355, k0_pay68, sem_cons_in, sem_whole, at2_shapeCast_self, at2_addf, at2_subf, at2_mulf, at2_slice_in, at2_readCov_in, at2_broadcast_in]
    simp (disch := omega) only [Nat.zero_add, Nat.sub_zero, Nat.add_zero, fsum_c2I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_14, sem_cons_out])

/-- Frame tap -1: columns 0 … 511 gain the bin sums of padded column `1024 + j + 1`; on a skipped column that padded column is off the array, so its bin sums are zero. -/
theorem ot1_c2I (f j : ℕ) (hf : f < 257) (hj : j < 512) :
    sem arg13.view (kernelRun0_A.sl.HS7_15 (F := Ideal) c i arg6 arg9 arg11 arg13 fh0 fh3) f j
      = sem arg13.view (kernelRun0_A.sl.HS7_14 (F := Ideal) c i arg6 arg9 arg11 arg13 fh0 fh3) f j + Cert.DeepFilter.colI fh0 fh3 (bat i) f (1024 + j + 1) := by
  by_cases hin : 0 ≤ j ∧ j < 0 + 512
  · simp (disch := omega) only [kernelRun0_A.sl.HS7_15, kernelRun0_A.sl.v366, kernelRun0_A.sl.v367, k0_pay70, sem_cons_in, sem_whole, at2_shapeCast_self, at2_addf, at2_subf, at2_mulf, at2_slice_in, at2_readCov_in, at2_broadcast_in]
    simp (disch := omega) only [Nat.zero_add, Nat.sub_zero, Nat.add_zero, fsum_c2I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_15, sem_cons_out])

/-- Frame tap 0: columns 0 … 511 gain the bin sums of padded column `1024 + j + 2`; on a skipped column that padded column is off the array, so its bin sums are zero. -/
theorem ot2_c2I (f j : ℕ) (hf : f < 257) (hj : j < 512) :
    sem arg13.view (kernelRun0_A.sl.HS7_16 (F := Ideal) c i arg6 arg9 arg11 arg13 fh0 fh3) f j
      = sem arg13.view (kernelRun0_A.sl.HS7_15 (F := Ideal) c i arg6 arg9 arg11 arg13 fh0 fh3) f j + Cert.DeepFilter.colI fh0 fh3 (bat i) f (1024 + j + 2) := by
  by_cases hin : 0 ≤ j ∧ j < 0 + 512
  · simp (disch := omega) only [kernelRun0_A.sl.HS7_16, kernelRun0_A.sl.v378, kernelRun0_A.sl.v379, k0_pay72, sem_cons_in, sem_whole, at2_shapeCast_self, at2_addf, at2_subf, at2_mulf, at2_slice_in, at2_readCov_in, at2_broadcast_in]
    simp (disch := omega) only [Nat.zero_add, Nat.sub_zero, Nat.add_zero, fsum_c2I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_16, sem_cons_out])

/-- Frame tap 1: columns 0 … 511 gain the bin sums of padded column `1024 + j + 3`; on a skipped column that padded column is off the array, so its bin sums are zero. -/
theorem ot3_c2I (f j : ℕ) (hf : f < 257) (hj : j < 512) :
    sem arg13.view (kernelRun0_A.sl.HS7_17 (F := Ideal) c i arg6 arg9 arg11 arg13 fh0 fh3) f j
      = sem arg13.view (kernelRun0_A.sl.HS7_16 (F := Ideal) c i arg6 arg9 arg11 arg13 fh0 fh3) f j + Cert.DeepFilter.colI fh0 fh3 (bat i) f (1024 + j + 3) := by
  by_cases hin : 0 ≤ j ∧ j < 0 + 512
  · simp (disch := omega) only [kernelRun0_A.sl.HS7_17, kernelRun0_A.sl.v390, kernelRun0_A.sl.v391, k0_pay74, sem_cons_in, sem_whole, at2_shapeCast_self, at2_addf, at2_subf, at2_mulf, at2_slice_in, at2_readCov_in, at2_broadcast_in]
    simp (disch := omega) only [Nat.zero_add, Nat.sub_zero, Nat.add_zero, fsum_c2I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_17, sem_cons_out])

/-- Frame tap 2: columns 0 … 511 gain the bin sums of padded column `1024 + j + 4`; on a skipped column that padded column is off the array, so its bin sums are zero. -/
theorem ot4_c2I (f j : ℕ) (hf : f < 257) (hj : j < 512) :
    sem arg13.view (kernelRun0_A.sl.HS7_18 (F := Ideal) c i arg6 arg9 arg11 arg13 fh0 fh3) f j
      = sem arg13.view (kernelRun0_A.sl.HS7_17 (F := Ideal) c i arg6 arg9 arg11 arg13 fh0 fh3) f j + Cert.DeepFilter.colI fh0 fh3 (bat i) f (1024 + j + 4) := by
  by_cases hin : 0 ≤ j ∧ j < 0 + 512
  · simp (disch := omega) only [kernelRun0_A.sl.HS7_18, kernelRun0_A.sl.r_10, kernelRun0_A.sl.v402, kernelRun0_A.sl.v403, k0_pay77, k0_pay76, sem_cons_in, sem_whole, at2_shapeCast_self, at2_addf, at2_subf, at2_mulf, at2_slice_in, at2_readCov_in, at2_broadcast_in]
    simp (disch := omega) only [Nat.zero_add, Nat.sub_zero, Nat.add_zero, fsum_c2I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_18, sem_cons_out])

/-- After the five frame taps the buffer holds the 3 x 5 window sum of bin `f`, frame `1024 + j`. -/
theorem osum_c2I (f j : ℕ) (hf : f < 257) (hj : j < 512) :
    sem arg13.view (kernelRun0_A.sl.HS7_18 (F := Ideal) c i arg6 arg9 arg11 arg13 fh0 fh3) f j = Cert.DeepFilter.sumI fh0 fh3 (bat i) f (1024 + j) := by
  rw [ot4_c2I c i arg6 arg7 arg8 arg9 arg10 arg11 arg12 arg13 fh0 fh1 fh2 fh3 f j hf hj, ot3_c2I c i arg6 arg7 arg8 arg9 arg10 arg11 arg12 arg13 fh0 fh1 fh2 fh3 f j hf hj, ot2_c2I c i arg6 arg7 arg8 arg9 arg10 arg11 arg12 arg13 fh0 fh1 fh2 fh3 f j hf hj, ot1_c2I c i arg6 arg7 arg8 arg9 arg10 arg11 arg12 arg13 fh0 fh1 fh2 fh3 f j hf hj,
    ot0_c2I c i arg6 arg7 arg8 arg9 arg10 arg11 arg12 arg13 fh0 fh1 fh2 fh3 f j hf hj, oz_c2I c i arg6 arg7 arg8 arg9 arg10 arg11 arg12 arg13 fh0 fh1 fh2 fh3 f j hf hj]
  exact Cert.DeepFilter.sumI_of_cols _ _ _ _ _

/-- The payload stored into the output block for these frames: the window sums, laid out [1, 1, 257, 512]. -/
theorem piece_c2I (y : (⟨4, ![1, 1, 257, 512]⟩ : Shape).Idx) :
    k0_pay79 (kernelRun0_A.sl.v412 (F := Ideal) c i arg6 arg9 arg11 arg13 fh0 fh3) y = Cert.DeepFilter.sumI fh0 fh3 (bat i) (y 2).val (1024 + (y 3).val) := by
  have hf : (y 2).val < 257 := (y 2).isLt
  have hj : (y 3).val < 512 := (y 3).isLt
  simp only [k0_pay79]
  refine (shapeCast_addUnit2_apply (R := 257) (C := 512) _ _ y).trans ?_
  refine (at2_of_lt (R := 257) (C := 512) _ hf hj).symm.trans ?_
  simp (disch := omega) only [kernelRun0_A.sl.v412, at2_readCov_in]
  simp (disch := omega) only [Nat.zero_add, osum_c2I c i arg6 arg7 arg8 arg9 arg10 arg11 arg12 arg13 fh0 fh1 fh2 fh3]

end Cert.DeepFilter.Body

end
-- ==== Proof.BodyChunk3R.lean ====
/-
  Frames 1536 … 2047, real plane: the body's stores into its two scratch buffers for this run of frames.

  The body first forms the product `ir * fr - ii * fi` on the slab columns 1534 … 2049 (the run's frames and a halo of two
  on each side inside the array). A first buffer is cleared and gains, in three read-modify-write steps, the product
  one bin above, at, and one bin below each bin, a step leaving out the row whose neighbour is off the array. A second
  buffer is cleared and gains, in five steps, the first buffer two frames before … two frames after each frame, a step
  leaving out the frames whose neighbour is off the array. Read at natural coordinates each step is `new = old + source`
  on its rectangle and `new = old` off it, where the source is zero anyway because it lies on the zero padding; so the
  second buffer ends at the 3 x 5 window sum of the specification, and that is what the body stores into the output block.
-/
import proofs.«134051_j16587163697924_2_alg».proof.Proof.BodySlabs

noncomputable section

namespace Cert.DeepFilter.Body

open Idealize.ShloMosaic Idealize.ShloMosaic.ValueIdx Idealize.SL.Sem
open Cert.KernelIdeal Cert.KernelIdeal.Gen Cert.LibNatReads Cert.DeepFilter

variable (c : Dev nD) (i : grid0.Coords)
  (arg6 arg7 arg8 arg9 : Memref sig .tc .vmem S257x4000 .f32) (arg10 arg11 : Memref sig .tc .vmem S257x516 .f32)
  (arg12 arg13 : Memref sig .tc .vmem S257x512 .f32)
  (fh0 : HbBuf0 (F := Ideal) c hbM0_0) (fh1 : HbBuf0 (F := Ideal) c hbM0_1) (fh2 : HbBuf0 (F := Ideal) c hbM0_2) (fh3 : HbBuf0 (F := Ideal) c hbM0_3)

include c i arg6 arg7 arg8 arg9 arg10 arg11 arg12 arg13 fh0 fh1 fh2 fh3

/-- The bin-sum buffer after it is cleared: zero on columns below 516. -/
theorem fz_c3R (f j : ℕ) (hf : f < 257) (hj : j < 516) :
    sem arg10.view (kernelRun0_A.sl.HS4_13 (F := Ideal) c i arg6 arg7 arg8 arg9 arg10 fh0 fh1 fh2 fh3) f j = 0 := by
  simp (disch := omega) only [kernelRun0_A.sl.HS4_13, k0_pay82, sem_cons_in, sem_whole, at2_shapeCast_self, at2_addf, at2_subf, at2_mulf, at2_slice_in, at2_readCov_in, at2_broadcast_in]
  exact Ideal.ofBits_zero_f32

/-- Bin tap -1: rows 1 … 256 gain the product one padded row above; the skipped row's product is on the padding, so zero. -/
theorem ft0_c3R (f j : ℕ) (hf : f < 257) (hj : j < 516) :
    sem arg10.view (kernelRun0_A.sl.HS4_14 (F := Ideal) c i arg6 arg7 arg8 arg9 arg10 fh0 fh1 fh2 fh3) f j
      = sem arg10.view (kernelRun0_A.sl.HS4_13 (F := Ideal) c i arg6 arg7 arg8 arg9 arg10 fh0 fh1 fh2 fh3) f j + Cert.DeepFilter.prodR fh0 fh1 fh2 fh3 (bat i) (f) (1534 + j + 2) := by
  by_cases hin : 1 ≤ f ∧ f < 1 + 256
  ·
    obtain ⟨g, rfl⟩ : ∃ g, f = g + 1 := ⟨f - 1, by omega⟩
    rw [prodR_succ c i fh0 fh1 fh2 fh3]
    simp (disch := omega) only [kernelRun0_A.sl.HS4_14, kernelRun0_A.sl.r_11, kernelRun0_A.sl.v416, kernelRun0_A.sl.v417, kernelRun0_A.sl.v418, kernelRun0_A.sl.v419, kernelRun0_A.sl.v434, k0_pay84, k0_pay80, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_14, sem_cons_out])

/-- Bin tap 0: rows 0 … 256 gain the product one padded row at; the skipped row's product is on the padding, so zero. -/
theorem ft1_c3R (f j : ℕ) (hf : f < 257) (hj : j < 516) :
    sem arg10.view (kernelRun0_A.sl.HS4_15 (F := Ideal) c i arg6 arg7 arg8 arg9 arg10 fh0 fh1 fh2 fh3) f j
      = sem arg10.view (kernelRun0_A.sl.HS4_14 (F := Ideal) c i arg6 arg7 arg8 arg9 arg10 fh0 fh1 fh2 fh3) f j + Cert.DeepFilter.prodR fh0 fh1 fh2 fh3 (bat i) (f + 1) (1534 + j + 2) := by
  by_cases hin : 0 ≤ f ∧ f < 0 + 257
  ·
    rw [prodR_succ c i fh0 fh1 fh2 fh3]
    simp (disch := omega) only [kernelRun0_A.sl.HS4_15, kernelRun0_A.sl.r_11, kernelRun0_A.sl.v416, kernelRun0_A.sl.v417, kernelRun0_A.sl.v418, kernelRun0_A.sl.v419, kernelRun0_A.sl.v446, k0_pay86, k0_pay80, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_15, sem_cons_out])

/-- Bin tap 1: rows 0 … 255 gain the product one padded row below; the skipped row's product is on the padding, so zero. -/
theorem ft2_c3R (f j : ℕ) (hf : f < 257) (hj : j < 516) :
    sem arg10.view (kernelRun0_A.sl.HS4_16 (F := Ideal) c i arg6 arg7 arg8 arg9 arg10 fh0 fh1 fh2 fh3) f j
      = sem arg10.view (kernelRun0_A.sl.HS4_15 (F := Ideal) c i arg6 arg7 arg8 arg9 arg10 fh0 fh1 fh2 fh3) f j + Cert.DeepFilter.prodR fh0 fh1 fh2 fh3 (bat i) (f + 1 + 1) (1534 + j + 2) := by
  by_cases hin : 0 ≤ f ∧ f < 0 + 256
  ·
    rw [prodR_succ c i fh0 fh1 fh2 fh3]
    simp (disch := omega) only [kernelRun0_A.sl.HS4_16, kernelRun0_A.sl.r_11, kernelRun0_A.sl.v416, kernelRun0_A.sl.v417, kernelRun0_A.sl.v418, kernelRun0_A.sl.v419, kernelRun0_A.sl.v456, k0_pay88, k0_pay80, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_16, sem_cons_out])

/-- After the three bin taps the buffer holds, at bin `f` and local column `j`, the three padded rows `f, f + 1, f + 2` of the product in padded column `1534 + j + 2`. -/
theorem fsum_c3R (f j : ℕ) (hf : f < 257) (hj : j < 516) :
    sem arg10.view (kernelRun0_A.sl.HS4_16 (F := Ideal) c i arg6 arg7 arg8 arg9 arg10 fh0 fh1 fh2 fh3) f j = Cert.DeepFilter.colR fh0 fh1 fh2 fh3 (bat i) f (1534 + j + 2) := by
  rw [ft2_c3R c i arg6 arg7 arg8 arg9 arg10 arg11 arg12 arg13 fh0 fh1 fh2 fh3 f j hf hj, ft1_c3R c i arg6 arg7 arg8 arg9 arg10 arg11 arg12 arg13 fh0 fh1 fh2 fh3 f j hf hj, ft0_c3R c i arg6 arg7 arg8 arg9 arg10 arg11 arg12 arg13 fh0 fh1 fh2 fh3 f j hf hj, fz_c3R c i arg6 arg7 arg8 arg9 arg10 arg11 arg12 arg13 fh0 fh1 fh2 fh3 f j hf hj]
  rfl

/-- The frame-sum buffer after it is cleared: zero on columns below 512. -/
theorem oz_c3R (f j : ℕ) (hf : f < 257) (hj : j < 512) :
    sem arg12.view (kernelRun0_A.sl.HS6_19 (F := Ideal) c i arg6 arg7 arg8 arg9 arg10 arg12 fh0 fh1 fh2 fh3) f j = 0 := by
  simp (disch := omega) only [kernelRun0_A.sl.HS6_19, k0_pay91, sem_cons_in, sem_whole, at2_shapeCast_self, at2_addf, at2_subf, at2_mulf, at2_slice_in, at2_readCov_in, at2_broadcast_in]
  exact Ideal.ofBits_zero_f32

/-- Frame tap -2: columns 0 … 511 gain the bin sums of padded column `1536 + j`; on a skipped column that padded column is off the array, so its bin sums are zero. -/
theorem ot0_c3R (f j : ℕ) (hf : f < 257) (hj : j < 512) :
    sem arg12.view (kernelRun0_A.sl.HS6_20 (F := Ideal) c i arg6 arg7 arg8 arg9 arg10 arg12 fh0 fh1 fh2 fh3) f j
      = sem arg12.view (kernelRun0_A.sl.HS6_19 (F := Ideal) c i arg6 arg7 arg8 arg9 arg10 arg12 fh0 fh1 fh2 fh3) f j + Cert.DeepFilter.colR fh0 fh1 fh2 fh3 (bat i) f (1536 + j) := by
  by_cases hin : 0 ≤ j ∧ j < 0 + 512
  · simp (disch := omega) only [kernelRun0_A.sl.HS6_20, kernelRun0_A.sl.v476, kernelRun0_A.sl.v477, k0_pay93, sem_cons_in, sem_whole, at2_shapeCast_self, at2_addf, at2_subf, at2_mulf, at2_slice_in, at2_readCov_in, at2_broadcast_in]
    simp (disch := omega) only [Nat.zero_add, Nat.sub_zero, Nat.add_zero, fsum_c3R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_20, sem_cons_out])

/-- Frame tap -1: columns 0 … 511 gain the bin sums of padded column `1536 + j + 1`; on a skipped column that padded column is off the array, so its bin sums are zero. -/
theorem ot1_c3R (f j : ℕ) (hf : f < 257) (hj : j < 512) :
    sem arg12.view (kernelRun0_A.sl.HS6_21 (F := Ideal) c i arg6 arg7 arg8 arg9 arg10 arg12 fh0 fh1 fh2 fh3) f j
      = sem arg12.view (kernelRun0_A.sl.HS6_20 (F := Ideal) c i arg6 arg7 arg8 arg9 arg10 arg12 fh0 fh1 fh2 fh3) f j + Cert.DeepFilter.colR fh0 fh1 fh2 fh3 (bat i) f (1536 + j + 1) := by
  by_cases hin : 0 ≤ j ∧ j < 0 + 512
  · simp (disch := omega) only [kernelRun0_A.sl.HS6_21, kernelRun0_A.sl.v488, kernelRun0_A.sl.v489, k0_pay95, sem_cons_in, sem_whole, at2_shapeCast_self, at2_addf, at2_subf, at2_mulf, at2_slice_in, at2_readCov_in, at2_broadcast_in]
    simp (disch := omega) only [Nat.zero_add, Nat.sub_zero, Nat.add_zero, fsum_c3R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_21, sem_cons_out])

/-- Frame tap 0: columns 0 … 511 gain the bin sums of padded column `1536 + j + 2`; on a skipped column that padded column is off the array, so its bin sums are zero. -/
theorem ot2_c3R (f j : ℕ) (hf : f < 257) (hj : j < 512) :
    sem arg12.view (kernelRun0_A.sl.HS6_22 (F := Ideal) c i arg6 arg7 arg8 arg9 arg10 arg12 fh0 fh1 fh2 fh3) f j
      = sem arg12.view (kernelRun0_A.sl.HS6_21 (F := Ideal) c i arg6 arg7 arg8 arg9 arg10 arg12 fh0 fh1 fh2 fh3) f j + Cert.DeepFilter.colR fh0 fh1 fh2 fh3 (bat i) f (1536 + j + 2) := by
  by_cases hin : 0 ≤ j ∧ j < 0 + 512
  · simp (disch := omega) only [kernelRun0_A.sl.HS6_22, kernelRun0_A.sl.v500, kernelRun0_A.sl.v501, k0_pay97, sem_cons_in, sem_whole, at2_shapeCast_self, at2_addf, at2_subf, at2_mulf, at2_slice_in, at2_readCov_in, at2_broadcast_in]
    simp (disch := omega) only [Nat.zero_add, Nat.sub_zero, Nat.add_zero, fsum_c3R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_22, sem_cons_out])

/-- Frame tap 1: columns 0 … 511 gain the bin sums of padded column `1536 + j + 3`; on a skipped column that padded column is off the array, so its bin sums are zero. -/
theorem ot3_c3R (f j : ℕ) (hf : f < 257) (hj : j < 512) :
    sem arg12.view (kernelRun0_A.sl.HS6_23 (F := Ideal) c i arg6 arg7 arg8 arg9 arg10 arg12 fh0 fh1 fh2 fh3) f j
      = sem arg12.view (kernelRun0_A.sl.HS6_22 (F := Ideal) c i arg6 arg7 arg8 arg9 arg10 arg12 fh0 fh1 fh2 fh3) f j + Cert.DeepFilter.colR fh0 fh1 fh2 fh3 (bat i) f (1536 + j + 3) := by
  by_cases hin : 0 ≤ j ∧ j < 0 + 512
  · simp (disch := omega) only [kernelRun0_A.sl.HS6_23, kernelRun0_A.sl.v512, kernelRun0_A.sl.v513, k0_pay99, sem_cons_in, sem_whole, at2_shapeCast_self, at2_addf, at2_subf, at2_mulf, at2_slice_in, at2_readCov_in, at2_broadcast_in]
    simp (disch := omega) only [Nat.zero_add, Nat.sub_zero, Nat.add_zero, fsum_c3R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_23, sem_cons_out])

/-- Frame tap 2: columns 0 … 511 gain the bin sums of padded column `1536 + j + 4`; on a skipped column that padded column is off the array, so its bin sums are zero. -/
theorem ot4_c3R (f j : ℕ) (hf : f < 257) (hj : j < 512) :
    sem arg12.view (kernelRun0_A.sl.HS6_24 (F := Ideal) c i arg6 arg7 arg8 arg9 arg10 arg12 fh0 fh1 fh2 fh3) f j
      = sem arg12.view (kernelRun0_A.sl.HS6_23 (F := Ideal) c i arg6 arg7 arg8 arg9 arg10 arg12 fh0 fh1 fh2 fh3) f j + Cert.DeepFilter.colR fh0 fh1 fh2 fh3 (bat i) f (1536 + j + 4) := by
  by_cases hin : 0 ≤ j ∧ j < 0 + 512
  · simp (disch := omega) only [kernelRun0_A.sl.HS6_24, kernelRun0_A.sl.v524, kernelRun0_A.sl.v525, k0_pay102, sem_cons_in, sem_whole, at2_shapeCast_self, at2_addf, at2_subf, at2_mulf, at2_slice_in, at2_readCov_in, at2_broadcast_in]
    simp (disch := omega) only [Nat.zero_add, Nat.sub_zero, Nat.add_zero, fsum_c3R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_24, sem_cons_out])

/-- After the five frame taps the buffer holds the 3 x 5 window sum of bin `f`, frame `1536 + j`. -/
theorem osum_c3R (f j : ℕ) (hf : f < 257) (hj : j < 512) :
    sem arg12.view (kernelRun0_A.sl.HS6_24 (F := Ideal) c i arg6 arg7 arg8 arg9 arg10 arg12 fh0 fh1 fh2 fh3) f j = Cert.DeepFilter.sumR fh0 fh1 fh2 fh3 (bat i) f (1536 + j) := by
  rw [ot4_c3R c i arg6 arg7 arg8 arg9 arg10 arg11 arg12 arg13 fh0 fh1 fh2 fh3 f j hf hj, ot3_c3R c i arg6 arg7 arg8 arg9 arg10 arg11 arg12 arg13 fh0 fh1 fh2 fh3 f j hf hj, ot2_c3R c i arg6 arg7 arg8 arg9 arg10 arg11 arg12 arg13 fh0 fh1 fh2 fh3 f j hf hj, ot1_c3R c i arg6 arg7 arg8 arg9 arg10 arg11 arg12 arg13 fh0 fh1 fh2 fh3 f j hf hj,
    ot0_c3R c i arg6 arg7 arg8 arg9 arg10 arg11 arg12 arg13 fh0 fh1 fh2 fh3 f j hf hj, oz_c3R c i arg6 arg7 arg8 arg9 arg10 arg11 arg12 arg13 fh0 fh1 fh2 fh3 f j hf hj]
  exact Cert.DeepFilter.sumR_of_cols _ _ _ _ _ _ _

/-- The payload stored into the output block for these frames: the window sums, laid out [1, 1, 257, 512]. -/
theorem piece_c3R (y : (⟨4, ![1, 1, 257, 512]⟩ : Shape).Idx) :
    k0_pay104 (kernelRun0_A.sl.v536 (F := Ideal) c i arg6 arg7 arg8 arg9 arg10 arg12 fh0 fh1 fh2 fh3) y = Cert.DeepFilter.sumR fh0 fh1 fh2 fh3 (bat i) (y 2).val (1536 + (y 3).val) := by
  have hf : (y 2).val < 257 := (y 2).isLt
  have hj : (y 3).val < 512 := (y 3).isLt
  simp only [k0_pay104]
  refine (shapeCast_addUnit2_apply (R := 257) (C := 512) _ _ y).trans ?_
  refine (at2_of_lt (R := 257) (C := 512) _ hf hj).symm.trans ?_
  simp (disch := omega) only [kernelRun0_A.sl.v536, at2_readCov_in]
  simp (disch := omega) only [Nat.zero_add, osum_c3R c i arg6 arg7 arg8 arg9 arg10 arg11 arg12 arg13 fh0 fh1 fh2 fh3]

end Cert.DeepFilter.Body

end
-- ==== Proof.BodyChunk3I.lean ====
/-
  Frames 1536 … 2047, imaginary plane: the body's stores into its two scratch buffers for this run of frames.

  The body first forms the product `(2 * ir) * fi` on the slab columns 1534 … 2049 (the run's frames and a halo of two
  on each side inside the array). A first buffer is cleared and gains, in three read-modify-write steps, the product
  one bin above, at, and one bin below each bin, a step leaving out the row whose neighbour is off the array. A second
  buffer is cleared and gains, in five steps, the first buffer two frames before … two frames after each frame, a step
  leaving out the frames whose neighbour is off the array. Read at natural coordinates each step is `new = old + source`
  on its rectangle and `new = old` off it, where the source is zero anyway because it lies on the zero padding; so the
  second buffer ends at the 3 x 5 window sum of the specification, and that is what the body stores into the output block.
-/
import proofs.«134051_j16587163697924_2_alg».proof.Proof.BodySlabs

noncomputable section

namespace Cert.DeepFilter.Body

open Idealize.ShloMosaic Idealize.ShloMosaic.ValueIdx Idealize.SL.Sem
open Cert.KernelIdeal Cert.KernelIdeal.Gen Cert.LibNatReads Cert.DeepFilter

variable (c : Dev nD) (i : grid0.Coords)
  (arg6 arg7 arg8 arg9 : Memref sig .tc .vmem S257x4000 .f32) (arg10 arg11 : Memref sig .tc .vmem S257x516 .f32)
  (arg12 arg13 : Memref sig .tc .vmem S257x512 .f32)
  (fh0 : HbBuf0 (F := Ideal) c hbM0_0) (fh1 : HbBuf0 (F := Ideal) c hbM0_1) (fh2 : HbBuf0 (F := Ideal) c hbM0_2) (fh3 : HbBuf0 (F := Ideal) c hbM0_3)

include c i arg6 arg7 arg8 arg9 arg10 arg11 arg12 arg13 fh0 fh1 fh2 fh3

/-- The bin-sum buffer after it is cleared: zero on columns below 516. -/
theorem fz_c3I (f j : ℕ) (hf : f < 257) (hj : j < 516) :
    sem arg11.view (kernelRun0_A.sl.HS5_13 (F := Ideal) c i arg6 arg9 arg11 fh0 fh3) f j = 0 := by
  simp (disch := omega) only [kernelRun0_A.sl.HS5_13, k0_pay83, sem_cons_in, sem_whole, at2_shapeCast_self, at2_addf, at2_subf, at2_mulf, at2_slice_in, at2_readCov_in, at2_broadcast_in]
  exact Ideal.ofBits_zero_f32

/-- Bin tap -1: rows 1 … 256 gain the product one padded row above; the skipped row's product is on the padding, so zero. -/
theorem ft0_c3I (f j : ℕ) (hf : f < 257) (hj : j < 516) :
    sem arg11.view (kernelRun0_A.sl.HS5_14 (F := Ideal) c i arg6 arg9 arg11 fh0 fh3) f j
      = sem arg11.view (kernelRun0_A.sl.HS5_13 (F := Ideal) c i arg6 arg9 arg11 fh0 fh3) f j + Cert.DeepFilter.prodI fh0 fh3 (bat i) (f) (1534 + j + 2) := by
  by_cases hin : 1 ≤ f ∧ f < 1 + 256
  ·
    obtain ⟨g, rfl⟩ : ∃ g, f = g + 1 := ⟨f - 1, by omega⟩
    rw [prodI_succ c i fh0 fh3]
    simp (disch := omega) only [kernelRun0_A.sl.HS5_14, kernelRun0_A.sl.r_12, kernelRun0_A.sl.v416, kernelRun0_A.sl.v419, kernelRun0_A.sl.v440, k0_pay85, k0_pay81, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_14, sem_cons_out])

/-- Bin tap 0: rows 0 … 256 gain the product one padded row at; the skipped row's product is on the padding, so zero. -/
theorem ft1_c3I (f j : ℕ) (hf : f < 257) (hj : j < 516) :
    sem arg11.view (kernelRun0_A.sl.HS5_15 (F := Ideal) c i arg6 arg9 arg11 fh0 fh3) f j
      = sem arg11.view (kernelRun0_A.sl.HS5_14 (F := Ideal) c i arg6 arg9 arg11 fh0 fh3) f j + Cert.DeepFilter.prodI fh0 fh3 (bat i) (f + 1) (1534 + j + 2) := by
  by_cases hin : 0 ≤ f ∧ f < 0 + 257
  ·
    rw [prodI_succ c i fh0 fh3]
    simp (disch := omega) only [kernelRun0_A.sl.HS5_15, kernelRun0_A.sl.r_12, kernelRun0_A.sl.v416, kernelRun0_A.sl.v419, kernelRun0_A.sl.v451, k0_pay87, k0_pay81, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_15, sem_cons_out])

/-- Bin tap 1: rows 0 … 255 gain the product one padded row below; the skipped row's product is on the padding, so zero. -/
theorem ft2_c3I (f j : ℕ) (hf : f < 257) (hj : j < 516) :
    sem arg11.view (kernelRun0_A.sl.HS5_16 (F := Ideal) c i arg6 arg9 arg11 fh0 fh3) f j
      = sem arg11.view (kernelRun0_A.sl.HS5_15 (F := Ideal) c i arg6 arg9 arg11 fh0 fh3) f j + Cert.DeepFilter.prodI fh0 fh3 (bat i) (f + 1 + 1) (1534 + j + 2) := by
  by_cases hin : 0 ≤ f ∧ f < 0 + 256
  ·
    rw [prodI_succ c i fh0 fh3]
    simp (disch := omega) only [kernelRun0_A.sl.HS5_16, kernelRun0_A.sl.r_13, kernelRun0_A.sl.r_12, kernelRun0_A.sl.v416, kernelRun0_A.sl.v419, kernelRun0_A.sl.v462, k0_pay90, k0_pay89, k0_pay81, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_16, sem_cons_out])

/-- After the three bin taps the buffer holds, at bin `f` and local column `j`, the three padded rows `f, f + 1, f + 2` of the product in padded column `1534 + j + 2`. -/
theorem fsum_c3I (f j : ℕ) (hf : f < 257) (hj : j < 516) :
    sem arg11.view (kernelRun0_A.sl.HS5_16 (F := Ideal) c i arg6 arg9 arg11 fh0 fh3) f j = Cert.DeepFilter.colI fh0 fh3 (bat i) f (1534 + j + 2) := by
  rw [ft2_c3I c i arg6 arg7 arg8 arg9 arg10 arg11 arg12 arg13 fh0 fh1 fh2 fh3 f j hf hj, ft1_c3I c i arg6 arg7 arg8 arg9 arg10 arg11 arg12 arg13 fh0 fh1 fh2 fh3 f j hf hj, ft0_c3I c i arg6 arg7 arg8 arg9 arg10 arg11 arg12 arg13 fh0 fh1 fh2 fh3 f j hf hj, fz_c3I c i arg6 arg7 arg8 arg9 arg10 arg11 arg12 arg13 fh0 fh1 fh2 fh3 f j hf hj]
  rfl

/-- The frame-sum buffer after it is cleared: zero on columns below 512. -/
theorem oz_c3I (f j : ℕ) (hf : f < 257) (hj : j < 512) :
    sem arg13.view (kernelRun0_A.sl.HS7_19 (F := Ideal) c i arg6 arg9 arg11 arg13 fh0 fh3) f j = 0 := by
  simp (disch := omega) only [kernelRun0_A.sl.HS7_19, k0_pay92, sem_cons_in, sem_whole, at2_shapeCast_self, at2_addf, at2_subf, at2_mulf, at2_slice_in, at2_readCov_in, at2_broadcast_in]
  exact Ideal.ofBits_zero_f32

/-- Frame tap -2: columns 0 … 511 gain the bin sums of padded column `1536 + j`; on a skipped column that padded column is off the array, so its bin sums are zero. -/
theorem ot0_c3I (f j : ℕ) (hf : f < 257) (hj : j < 512) :
    sem arg13.view (kernelRun0_A.sl.HS7_20 (F := Ideal) c i arg6 arg9 arg11 arg13 fh0 fh3) f j
      = sem arg13.view (kernelRun0_A.sl.HS7_19 (F := Ideal) c i arg6 arg9 arg11 arg13 fh0 fh3) f j + Cert.DeepFilter.colI fh0 fh3 (bat i) f (1536 + j) := by
  by_cases hin : 0 ≤ j ∧ j < 0 + 512
  · simp (disch := omega) only [kernelRun0_A.sl.HS7_20, kernelRun0_A.sl.v482, kernelRun0_A.sl.v483, k0_pay94, sem_cons_in, sem_whole, at2_shapeCast_self, at2_addf, at2_subf, at2_mulf, at2_slice_in, at2_readCov_in, at2_broadcast_in]
    simp (disch := omega) only [Nat.zero_add, Nat.sub_zero, Nat.add_zero, fsum_c3I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_20, sem_cons_out])

/-- Frame tap -1: columns 0 … 511 gain the bin sums of padded column `1536 + j + 1`; on a skipped column that padded column is off the array, so its bin sums are zero. -/
theorem ot1_c3I (f j : ℕ) (hf : f < 257) (hj : j < 512) :
    sem arg13.view (kernelRun0_A.sl.HS7_21 (F := Ideal) c i arg6 arg9 arg11 arg13 fh0 fh3) f j
      = sem arg13.view (kernelRun0_A.sl.HS7_20 (F := Ideal) c i arg6 arg9 arg11 arg13 fh0 fh3) f j + Cert.DeepFilter.colI fh0 fh3 (bat i) f (1536 + j + 1) := by
  by_cases hin : 0 ≤ j ∧ j < 0 + 512
  · simp (disch := omega) only [kernelRun0_A.sl.HS7_21, kernelRun0_A.sl.v494, kernelRun0_A.sl.v495, k0_pay96, sem_cons_in, sem_whole, at2_shapeCast_self, at2_addf, at2_subf, at2_mulf, at2_slice_in, at2_readCov_in, at2_broadcast_in]
    simp (disch := omega) only [Nat.zero_add, Nat.sub_zero, Nat.add_zero, fsum_c3I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_21, sem_cons_out])

/-- Frame tap 0: columns 0 … 511 gain the bin sums of padded column `1536 + j + 2`; on a skipped column that padded column is off the array, so its bin sums are zero. -/
theorem ot2_c3I (f j : ℕ) (hf : f < 257) (hj : j < 512) :
    sem arg13.view (kernelRun0_A.sl.HS7_22 (F := Ideal) c i arg6 arg9 arg11 arg13 fh0 fh3) f j
      = sem arg13.view (kernelRun0_A.sl.HS7_21 (F := Ideal) c i arg6 arg9 arg11 arg13 fh0 fh3) f j + Cert.DeepFilter.colI fh0 fh3 (bat i) f (1536 + j + 2) := by
  by_cases hin : 0 ≤ j ∧ j < 0 + 512
  · simp (disch := omega) only [kernelRun0_A.sl.HS7_22, kernelRun0_A.sl.v506, kernelRun0_A.sl.v507, k0_pay98, sem_cons_in, sem_whole, at2_shapeCast_self, at2_addf, at2_subf, at2_mulf, at2_slice_in, at2_readCov_in, at2_broadcast_in]
    simp (disch := omega) only [Nat.zero_add, Nat.sub_zero, Nat.add_zero, fsum_c3I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_22, sem_cons_out])

/-- Frame tap 1: columns 0 … 511 gain the bin sums of padded column `1536 + j + 3`; on a skipped column that padded column is off the array, so its bin sums are zero. -/
theorem ot3_c3I (f j : ℕ) (hf : f < 257) (hj : j < 512) :
    sem arg13.view (kernelRun0_A.sl.HS7_23 (F := Ideal) c i arg6 arg9 arg11 arg13 fh0 fh3) f j
      = sem arg13.view (kernelRun0_A.sl.HS7_22 (F := Ideal) c i arg6 arg9 arg11 arg13 fh0 fh3) f j + Cert.DeepFilter.colI fh0 fh3 (bat i) f (1536 + j + 3) := by
  by_cases hin : 0 ≤ j ∧ j < 0 + 512
  · simp (disch := omega) only [kernelRun0_A.sl.HS7_23, kernelRun0_A.sl.r_14, kernelRun0_A.sl.v518, kernelRun0_A.sl.v519, k0_pay101, k0_pay100, sem_cons_in, sem_whole, at2_shapeCast_self, at2_addf, at2_subf, at2_mulf, at2_slice_in, at2_readCov_in, at2_broadcast_in]
    simp (disch := omega) only [Nat.zero_add, Nat.sub_zero, Nat.add_zero, fsum_c3I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_23, sem_cons_out])

/-- Frame tap 2: columns 0 … 511 gain the bin sums of padded column `1536 + j + 4`; on a skipped column that padded column is off the array, so its bin sums are zero. -/
theorem ot4_c3I (f j : ℕ) (hf : f < 257) (hj : j < 512) :
    sem arg13.view (kernelRun0_A.sl.HS7_24 (F := Ideal) c i arg6 arg9 arg11 arg13 fh0 fh3) f j
      = sem arg13.view (kernelRun0_A.sl.HS7_23 (F := Ideal) c i arg6 arg9 arg11 arg13 fh0 fh3) f j + Cert.DeepFilter.colI fh0 fh3 (bat i) f (1536 + j + 4) := by
  by_cases hin : 0 ≤ j ∧ j < 0 + 512
  · simp (disch := omega) only [kernelRun0_A.sl.HS7_24, kernelRun0_A.sl.v530, kernelRun0_A.sl.v531, k0_pay103, sem_cons_in, sem_whole, at2_shapeCast_self, at2_addf, at2_subf, at2_mulf, at2_slice_in, at2_readCov_in, at2_broadcast_in]
    simp (disch := omega) only [Nat.zero_add, Nat.sub_zero, Nat.add_zero, fsum_c3I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_24, sem_cons_out])

/-- After the five frame taps the buffer holds the 3 x 5 window sum of bin `f`, frame `1536 + j`. -/
theorem osum_c3I (f j : ℕ) (hf : f < 257) (hj : j < 512) :
    sem arg13.view (kernelRun0_A.sl.HS7_24 (F := Ideal) c i arg6 arg9 arg11 arg13 fh0 fh3) f j = Cert.DeepFilter.sumI fh0 fh3 (bat i) f (1536 + j) := by
  rw [ot4_c3I c i arg6 arg7 arg8 arg9 arg10 arg11 arg12 arg13 fh0 fh1 fh2 fh3 f j hf hj, ot3_c3I c i arg6 arg7 arg8 arg9 arg10 arg11 arg12 arg13 fh0 fh1 fh2 fh3 f j hf hj, ot2_c3I c i arg6 arg7 arg8 arg9 arg10 arg11 arg12 arg13 fh0 fh1 fh2 fh3 f j hf hj, ot1_c3I c i arg6 arg7 arg8 arg9 arg10 arg11 arg12 arg13 fh0 fh1 fh2 fh3 f j hf hj,
    ot0_c3I c i arg6 arg7 arg8 arg9 arg10 arg11 arg12 arg13 fh0 fh1 fh2 fh3 f j hf hj, oz_c3I c i arg6 arg7 arg8 arg9 arg10 arg11 arg12 arg13 fh0 fh1 fh2 fh3 f j hf hj]
  exact Cert.DeepFilter.sumI_of_cols _ _ _ _ _

/-- The payload stored into the output block for these frames: the window sums, laid out [1, 1, 257, 512]. -/
theorem piece_c3I (y : (⟨4, ![1, 1, 257, 512]⟩ : Shape).Idx) :
    k0_pay105 (kernelRun0_A.sl.v540 (F := Ideal) c i arg6 arg9 arg11 arg13 fh0 fh3) y = Cert.DeepFilter.sumI fh0 fh3 (bat i) (y 2).val (1536 + (y 3).val) := by
  have hf : (y 2).val < 257 := (y 2).isLt
  have hj : (y 3).val < 512 := (y 3).isLt
  simp only [k0_pay105]
  refine (shapeCast_addUnit2_apply (R := 257) (C := 512) _ _ y).trans ?_
  refine (at2_of_lt (R := 257) (C := 512) _ hf hj).symm.trans ?_
  simp (disch := omega) only [kernelRun0_A.sl.v540, at2_readCov_in]
  simp (disch := omega) only [Nat.zero_add, osum_c3I c i arg6 arg7 arg8 arg9 arg10 arg11 arg12 arg13 fh0 fh1 fh2 fh3]

end Cert.DeepFilter.Body

end
-- ==== Proof.BodyChunk4R.lean ====
/-
  Frames 2048 … 2559, real plane: the body's stores into its two scratch buffers for this run of frames.

  The body first forms the product `ir * fr - ii * fi` on the slab columns 2046 … 2561 (the run's frames and a halo of two
  on each side inside the array). A first buffer is cleared and gains, in three read-modify-write steps, the product
  one bin above, at, and one bin below each bin, a step leaving out the row whose neighbour is off the array. A second
  buffer is cleared and gains, in five steps, the first buffer two frames before … two frames after each frame, a step
  leaving out the frames whose neighbour is off the array. Read at natural coordinates each step is `new = old + source`
  on its rectangle and `new = old` off it, where the source is zero anyway because it lies on the zero padding; so the
  second buffer ends at the 3 x 5 window sum of the specification, and that is what the body stores into the output block.
-/
import proofs.«134051_j16587163697924_2_alg».proof.Proof.BodySlabs

noncomputable section

namespace Cert.DeepFilter.Body

open Idealize.ShloMosaic Idealize.ShloMosaic.ValueIdx Idealize.SL.Sem
open Cert.KernelIdeal Cert.KernelIdeal.Gen Cert.LibNatReads Cert.DeepFilter

variable (c : Dev nD) (i : grid0.Coords)
  (arg6 arg7 arg8 arg9 : Memref sig .tc .vmem S257x4000 .f32) (arg10 arg11 : Memref sig .tc .vmem S257x516 .f32)
  (arg12 arg13 : Memref sig .tc .vmem S257x512 .f32)
  (fh0 : HbBuf0 (F := Ideal) c hbM0_0) (fh1 : HbBuf0 (F := Ideal) c hbM0_1) (fh2 : HbBuf0 (F := Ideal) c hbM0_2) (fh3 : HbBuf0 (F := Ideal) c hbM0_3)

include c i arg6 arg7 arg8 arg9 arg10 arg11 arg12 arg13 fh0 fh1 fh2 fh3

/-- The bin-sum buffer after it is cleared: zero on columns below 516. -/
theorem fz_c4R (f j : ℕ) (hf : f < 257) (hj : j < 516) :
    sem arg10.view (kernelRun0_A.sl.HS4_17 (F := Ideal) c i arg6 arg7 arg8 arg9 arg10 fh0 fh1 fh2 fh3) f j = 0 := by
  simp (disch := omega) only [kernelRun0_A.sl.HS4_17, k0_pay108, sem_cons_in, sem_whole, at2_shapeCast_self, at2_addf, at2_subf, at2_mulf, at2_slice_in, at2_readCov_in, at2_broadcast_in]
  exact Ideal.ofBits_zero_f32

/-- Bin tap -1: rows 1 … 256 gain the product one padded row above; the skipped row's product is on the padding, so zero. -/
theorem ft0_c4R (f j : ℕ) (hf : f < 257) (hj : j < 516) :
    sem arg10.view (kernelRun0_A.sl.HS4_18 (F := Ideal) c i arg6 arg7 arg8 arg9 arg10 fh0 fh1 fh2 fh3) f j
      = sem arg10.view (kernelRun0_A.sl.HS4_17 (F := Ideal) c i arg6 arg7 arg8 arg9 arg10 fh0 fh1 fh2 fh3) f j + Cert.DeepFilter.prodR fh0 fh1 fh2 fh3 (bat i) (f) (2046 + j + 2) := by
  by_cases hin : 1 ≤ f ∧ f < 1 + 256
  ·
    obtain ⟨g, rfl⟩ : ∃ g, f = g + 1 := ⟨f - 1, by omega⟩
    rw [prodR_succ c i fh0 fh1 fh2 fh3]
    simp (disch := omega) only [kernelRun0_A.sl.HS4_18, kernelRun0_A.sl.v544, kernelRun0_A.sl.v545, kernelRun0_A.sl.v546, kernelRun0_A.sl.v547, kernelRun0_A.sl.v562, k0_pay110, k0_pay106, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_18, sem_cons_out])

/-- Bin tap 0: rows 0 … 256 gain the product one padded row at; the skipped row's product is on the padding, so zero. -/
theorem ft1_c4R (f j : ℕ) (hf : f < 257) (hj : j < 516) :
    sem arg10.view (kernelRun0_A.sl.HS4_19 (F := Ideal) c i arg6 arg7 arg8 arg9 arg10 fh0 fh1 fh2 fh3) f j
      = sem arg10.view (kernelRun0_A.sl.HS4_18 (F := Ideal) c i arg6 arg7 arg8 arg9 arg10 fh0 fh1 fh2 fh3) f j + Cert.DeepFilter.prodR fh0 fh1 fh2 fh3 (bat i) (f + 1) (2046 + j + 2) := by
  by_cases hin : 0 ≤ f ∧ f < 0 + 257
  ·
    rw [prodR_succ c i fh0 fh1 fh2 fh3]
    simp (disch := omega) only [kernelRun0_A.sl.HS4_19, kernelRun0_A.sl.v544, kernelRun0_A.sl.v545, kernelRun0_A.sl.v546, kernelRun0_A.sl.v547, kernelRun0_A.sl.v574, k0_pay112, k0_pay106, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_19, sem_cons_out])

/-- Bin tap 1: rows 0 … 255 gain the product one padded row below; the skipped row's product is on the padding, so zero. -/
theorem ft2_c4R (f j : ℕ) (hf : f < 257) (hj : j < 516) :
    sem arg10.view (kernelRun0_A.sl.HS4_20 (F := Ideal) c i arg6 arg7 arg8 arg9 arg10 fh0 fh1 fh2 fh3) f j
      = sem arg10.view (kernelRun0_A.sl.HS4_19 (F := Ideal) c i arg6 arg7 arg8 arg9 arg10 fh0 fh1 fh2 fh3) f j + Cert.DeepFilter.prodR fh0 fh1 fh2 fh3 (bat i) (f + 1 + 1) (2046 + j + 2) := by
  by_cases hin : 0 ≤ f ∧ f < 0 + 256
  ·
    rw [prodR_succ c i fh0 fh1 fh2 fh3]
    simp (disch := omega) only [kernelRun0_A.sl.HS4_20, kernelRun0_A.sl.r_15, kernelRun0_A.sl.v544, kernelRun0_A.sl.v545, kernelRun0_A.sl.v546, kernelRun0_A.sl.v547, kernelRun0_A.sl.v584, k0_pay114, k0_pay106, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_20, sem_cons_out])

/-- After the three bin taps the buffer holds, at bin `f` and local column `j`, the three padded rows `f, f + 1, f + 2` of the product in padded column `2046 + j + 2`. -/
theorem fsum_c4R (f j : ℕ) (hf : f < 257) (hj : j < 516) :
    sem arg10.view (kernelRun0_A.sl.HS4_20 (F := Ideal) c i arg6 arg7 arg8 arg9 arg10 fh0 fh1 fh2 fh3) f j = Cert.DeepFilter.colR fh0 fh1 fh2 fh3 (bat i) f (2046 + j + 2) := by
  rw [ft2_c4R c i arg6 arg7 arg8 arg9 arg10 arg11 arg12 arg13 fh0 fh1 fh2 fh3 f j hf hj, ft1_c4R c i arg6 arg7 arg8 arg9 arg10 arg11 arg12 arg13 fh0 fh1 fh2 fh3 f j hf hj, ft0_c4R c i arg6 arg7 arg8 arg9 arg10 arg11 arg12 arg13 fh0 fh1 fh2 fh3 f j hf hj, fz_c4R c i arg6 arg7 arg8 arg9 arg10 arg11 arg12 arg13 fh0 fh1 fh2 fh3 f j hf hj]
  rfl

/-- The frame-sum buffer after it is cleared: zero on columns below 512. -/
theorem oz_c4R (f j : ℕ) (hf : f < 257) (hj : j < 512) :
    sem arg12.view (kernelRun0_A.sl.HS6_25 (F := Ideal) c i arg6 arg7 arg8 arg9 arg10 arg12 fh0 fh1 fh2 fh3) f j = 0 := by
  simp (disch := omega) only [kernelRun0_A.sl.HS6_25, k0_pay116, sem_cons_in, sem_whole, at2_shapeCast_self, at2_addf, at2_subf, at2_mulf, at2_slice_in, at2_readCov_in, at2_broadcast_in]
  exact Ideal.ofBits_zero_f32

/-- Frame tap -2: columns 0 … 511 gain the bin sums of padded column `2048 + j`; on a skipped column that padded column is off the array, so its bin sums are zero. -/
theorem ot0_c4R (f j : ℕ) (hf : f < 257) (hj : j < 512) :
    sem arg12.view (kernelRun0_A.sl.HS6_26 (F := Ideal) c i arg6 arg7 arg8 arg9 arg10 arg12 fh0 fh1 fh2 fh3) f j
      = sem arg12.view (kernelRun0_A.sl.HS6_25 (F := Ideal) c i arg6 arg7 arg8 arg9 arg10 arg12 fh0 fh1 fh2 fh3) f j + Cert.DeepFilter.colR fh0 fh1 fh2 fh3 (bat i) f (2048 + j) := by
  by_cases hin : 0 ≤ j ∧ j < 0 + 512
  · simp (disch := omega) only [kernelRun0_A.sl.HS6_26, kernelRun0_A.sl.r_17, kernelRun0_A.sl.v604, kernelRun0_A.sl.v605, k0_pay118, sem_cons_in, sem_whole, at2_shapeCast_self, at2_addf, at2_subf, at2_mulf, at2_slice_in, at2_readCov_in, at2_broadcast_in]
    simp (disch := omega) only [Nat.zero_add, Nat.sub_zero, Nat.add_zero, fsum_c4R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_26, sem_cons_out])

/-- Frame tap -1: columns 0 … 511 gain the bin sums of padded column `2048 + j + 1`; on a skipped column that padded column is off the array, so its bin sums are zero. -/
theorem ot1_c4R (f j : ℕ) (hf : f < 257) (hj : j < 512) :
    sem arg12.view (kernelRun0_A.sl.HS6_27 (F := Ideal) c i arg6 arg7 arg8 arg9 arg10 arg12 fh0 fh1 fh2 fh3) f j
      = sem arg12.view (kernelRun0_A.sl.HS6_26 (F := Ideal) c i arg6 arg7 arg8 arg9 arg10 arg12 fh0 fh1 fh2 fh3) f j + Cert.DeepFilter.colR fh0 fh1 fh2 fh3 (bat i) f (2048 + j + 1) := by
  by_cases hin : 0 ≤ j ∧ j < 0 + 512
  · simp (disch := omega) only [kernelRun0_A.sl.HS6_27, kernelRun0_A.sl.v616, kernelRun0_A.sl.v617, k0_pay120, sem_cons_in, sem_whole, at2_shapeCast_self, at2_addf, at2_subf, at2_mulf, at2_slice_in, at2_readCov_in, at2_broadcast_in]
    simp (disch := omega) only [Nat.zero_add, Nat.sub_zero, Nat.add_zero, fsum_c4R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_27, sem_cons_out])

/-- Frame tap 0: columns 0 … 511 gain the bin sums of padded column `2048 + j + 2`; on a skipped column that padded column is off the array, so its bin sums are zero. -/
theorem ot2_c4R (f j : ℕ) (hf : f < 257) (hj : j < 512) :
    sem arg12.view (kernelRun0_A.sl.HS6_28 (F := Ideal) c i arg6 arg7 arg8 arg9 arg10 arg12 fh0 fh1 fh2 fh3) f j
      = sem arg12.view (kernelRun0_A.sl.HS6_27 (F := Ideal) c i arg6 arg7 arg8 arg9 arg10 arg12 fh0 fh1 fh2 fh3) f j + Cert.DeepFilter.colR fh0 fh1 fh2 fh3 (bat i) f (2048 + j + 2) := by
  by_cases hin : 0 ≤ j ∧ j < 0 + 512
  · simp (disch := omega) only [kernelRun0_A.sl.HS6_28, kernelRun0_A.sl.v628, kernelRun0_A.sl.v629, k0_pay122, sem_cons_in, sem_whole, at2_shapeCast_self, at2_addf, at2_subf, at2_mulf, at2_slice_in, at2_readCov_in, at2_broadcast_in]
    simp (disch := omega) only [Nat.zero_add, Nat.sub_zero, Nat.add_zero, fsum_c4R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_28, sem_cons_out])

/-- Frame tap 1: columns 0 … 511 gain the bin sums of padded column `2048 + j + 3`; on a skipped column that padded column is off the array, so its bin sums are zero. -/
theorem ot3_c4R (f j : ℕ) (hf : f < 257) (hj : j < 512) :
    sem arg12.view (kernelRun0_A.sl.HS6_29 (F := Ideal) c i arg6 arg7 arg8 arg9 arg10 arg12 fh0 fh1 fh2 fh3) f j
      = sem arg12.view (kernelRun0_A.sl.HS6_28 (F := Ideal) c i arg6 arg7 arg8 arg9 arg10 arg12 fh0 fh1 fh2 fh3) f j + Cert.DeepFilter.colR fh0 fh1 fh2 fh3 (bat i) f (2048 + j + 3) := by
  by_cases hin : 0 ≤ j ∧ j < 0 + 512
  · simp (disch := omega) only [kernelRun0_A.sl.HS6_29, kernelRun0_A.sl.v640, kernelRun0_A.sl.v641, k0_pay125, sem_cons_in, sem_whole, at2_shapeCast_self, at2_addf, at2_subf, at2_mulf, at2_slice_in, at2_readCov_in, at2_broadcast_in]
    simp (disch := omega) only [Nat.zero_add, Nat.sub_zero, Nat.add_zero, fsum_c4R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_29, sem_cons_out])

/-- Frame tap 2: columns 0 … 511 gain the bin sums of padded column `2048 + j + 4`; on a skipped column that padded column is off the array, so its bin sums are zero. -/
theorem ot4_c4R (f j : ℕ) (hf : f < 257) (hj : j < 512) :
    sem arg12.view (kernelRun0_A.sl.HS6_30 (F := Ideal) c i arg6 arg7 arg8 arg9 arg10 arg12 fh0 fh1 fh2 fh3) f j
      = sem arg12.view (kernelRun0_A.sl.HS6_29 (F := Ideal) c i arg6 arg7 arg8 arg9 arg10 arg12 fh0 fh1 fh2 fh3) f j + Cert.DeepFilter.colR fh0 fh1 fh2 fh3 (bat i) f (2048 + j + 4) := by
  by_cases hin : 0 ≤ j ∧ j < 0 + 512
  · simp (disch := omega) only [kernelRun0_A.sl.HS6_30, kernelRun0_A.sl.v652, kernelRun0_A.sl.v653, k0_pay127, sem_cons_in, sem_whole, at2_shapeCast_self, at2_addf, at2_subf, at2_mulf, at2_slice_in, at2_readCov_in, at2_broadcast_in]
    simp (disch := omega) only [Nat.zero_add, Nat.sub_zero, Nat.add_zero, fsum_c4R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_30, sem_cons_out])

/-- After the five frame taps the buffer holds the 3 x 5 window sum of bin `f`, frame `2048 + j`. -/
theorem osum_c4R (f j : ℕ) (hf : f < 257) (hj : j < 512) :
    sem arg12.view (kernelRun0_A.sl.HS6_30 (F := Ideal) c i arg6 arg7 arg8 arg9 arg10 arg12 fh0 fh1 fh2 fh3) f j = Cert.DeepFilter.sumR fh0 fh1 fh2 fh3 (bat i) f (2048 + j) := by
  rw [ot4_c4R c i arg6 arg7 arg8 arg9 arg10 arg11 arg12 arg13 fh0 fh1 fh2 fh3 f j hf hj, ot3_c4R c i arg6 arg7 arg8 arg9 arg10 arg11 arg12 arg13 fh0 fh1 fh2 fh3 f j hf hj, ot2_c4R c i arg6 arg7 arg8 arg9 arg10 arg11 arg12 arg13 fh0 fh1 fh2 fh3 f j hf hj, ot1_c4R c i arg6 arg7 arg8 arg9 arg10 arg11 arg12 arg13 fh0 fh1 fh2 fh3 f j hf hj,
    ot0_c4R c i arg6 arg7 arg8 arg9 arg10 arg11 arg12 arg13 fh0 fh1 fh2 fh3 f j hf hj, oz_c4R c i arg6 arg7 arg8 arg9 arg10 arg11 arg12 arg13 fh0 fh1 fh2 fh3 f j hf hj]
  exact Cert.DeepFilter.sumR_of_cols _ _ _ _ _ _ _

/-- The payload stored into the output block for these frames: the window sums, laid out [1, 1, 257, 512]. -/
theorem piece_c4R (y : (⟨4, ![1, 1, 257, 512]⟩ : Shape).Idx) :
    k0_pay129 (kernelRun0_A.sl.v664 (F := Ideal) c i arg6 arg7 arg8 arg9 arg10 arg12 fh0 fh1 fh2 fh3) y = Cert.DeepFilter.sumR fh0 fh1 fh2 fh3 (bat i) (y 2).val (2048 + (y 3).val) := by
  have hf : (y 2).val < 257 := (y 2).isLt
  have hj : (y 3).val < 512 := (y 3).isLt
  simp only [k0_pay129]
  refine (shapeCast_addUnit2_apply (R := 257) (C := 512) _ _ y).trans ?_
  refine (at2_of_lt (R := 257) (C := 512) _ hf hj).symm.trans ?_
  simp (disch := omega) only [kernelRun0_A.sl.v664, at2_readCov_in]
  simp (disch := omega) only [Nat.zero_add, osum_c4R c i arg6 arg7 arg8 arg9 arg10 arg11 arg12 arg13 fh0 fh1 fh2 fh3]

end Cert.DeepFilter.Body

end
-- ==== Proof.BodyChunk4I.lean ====
/-
  Frames 2048 … 2559, imaginary plane: the body's stores into its two scratch buffers for this run of frames.

  The body first forms the product `(2 * ir) * fi` on the slab columns 2046 … 2561 (the run's frames and a halo of two
  on each side inside the array). A first buffer is cleared and gains, in three read-modify-write steps, the product
  one bin above, at, and one bin below each bin, a step leaving out the row whose neighbour is off the array. A second
  buffer is cleared and gains, in five steps, the first buffer two frames before … two frames after each frame, a step
  leaving out the frames whose neighbour is off the array. Read at natural coordinates each step is `new = old + source`
  on its rectangle and `new = old` off it, where the source is zero anyway because it lies on the zero padding; so the
  second buffer ends at the 3 x 5 window sum of the specification, and that is what the body stores into the output block.
-/
import proofs.«134051_j16587163697924_2_alg».proof.Proof.BodySlabs

noncomputable section

namespace Cert.DeepFilter.Body

open Idealize.ShloMosaic Idealize.ShloMosaic.ValueIdx Idealize.SL.Sem
open Cert.KernelIdeal Cert.KernelIdeal.Gen Cert.LibNatReads Cert.DeepFilter

variable (c : Dev nD) (i : grid0.Coords)
  (arg6 arg7 arg8 arg9 : Memref sig .tc .vmem S257x4000 .f32) (arg10 arg11 : Memref sig .tc .vmem S257x516 .f32)
  (arg12 arg13 : Memref sig .tc .vmem S257x512 .f32)
  (fh0 : HbBuf0 (F := Ideal) c hbM0_0) (fh1 : HbBuf0 (F := Ideal) c hbM0_1) (fh2 : HbBuf0 (F := Ideal) c hbM0_2) (fh3 : HbBuf0 (F := Ideal) c hbM0_3)

include c i arg6 arg7 arg8 arg9 arg10 arg11 arg12 arg13 fh0 fh1 fh2 fh3

/-- The bin-sum buffer after it is cleared: zero on columns below 516. -/
theorem fz_c4I (f j : ℕ) (hf : f < 257) (hj : j < 516) :
    sem arg11.view (kernelRun0_A.sl.HS5_17 (F := Ideal) c i arg6 arg9 arg11 fh0 fh3) f j = 0 := by
  simp (disch := omega) only [kernelRun0_A.sl.HS5_17, k0_pay109, sem_cons_in, sem_whole, at2_shapeCast_self, at2_addf, at2_subf, at2_mulf, at2_slice_in, at2_readCov_in, at2_broadcast_in]
  exact Ideal.ofBits_zero_f32

/-- Bin tap -1: rows 1 … 256 gain the product one padded row above; the skipped row's product is on the padding, so zero. -/
theorem ft0_c4I (f j : ℕ) (hf : f < 257) (hj : j < 516) :
    sem arg11.view (kernelRun0_A.sl.HS5_18 (F := Ideal) c i arg6 arg9 arg11 fh0 fh3) f j
      = sem arg11.view (kernelRun0_A.sl.HS5_17 (F := Ideal) c i arg6 arg9 arg11 fh0 fh3) f j + Cert.DeepFilter.prodI fh0 fh3 (bat i) (f) (2046 + j + 2) := by
  by_cases hin : 1 ≤ f ∧ f < 1 + 256
  ·
    obtain ⟨g, rfl⟩ : ∃ g, f = g + 1 := ⟨f - 1, by omega⟩
    rw [prodI_succ c i fh0 fh3]
    simp (disch := omega) only [kernelRun0_A.sl.HS5_18, kernelRun0_A.sl.v544, kernelRun0_A.sl.v547, kernelRun0_A.sl.v568, k0_pay111, k0_pay107, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_18, sem_cons_out])

/-- Bin tap 0: rows 0 … 256 gain the product one padded row at; the skipped row's product is on the padding, so zero. -/
theorem ft1_c4I (f j : ℕ) (hf : f < 257) (hj : j < 516) :
    sem arg11.view (kernelRun0_A.sl.HS5_19 (F := Ideal) c i arg6 arg9 arg11 fh0 fh3) f j
      = sem arg11.view (kernelRun0_A.sl.HS5_18 (F := Ideal) c i arg6 arg9 arg11 fh0 fh3) f j + Cert.DeepFilter.prodI fh0 fh3 (bat i) (f + 1) (2046 + j + 2) := by
  by_cases hin : 0 ≤ f ∧ f < 0 + 257
  ·
    rw [prodI_succ c i fh0 fh3]
    simp (disch := omega) only [kernelRun0_A.sl.HS5_19, kernelRun0_A.sl.r_16, kernelRun0_A.sl.v544, kernelRun0_A.sl.v547, kernelRun0_A.sl.v579, k0_pay113, k0_pay107, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_19, sem_cons_out])

/-- Bin tap 1: rows 0 … 255 gain the product one padded row below; the skipped row's product is on the padding, so zero. -/
theorem ft2_c4I (f j : ℕ) (hf : f < 257) (hj : j < 516) :
    sem arg11.view (kernelRun0_A.sl.HS5_20 (F := Ideal) c i arg6 arg9 arg11 fh0 fh3) f j
      = sem arg11.view (kernelRun0_A.sl.HS5_19 (F := Ideal) c i arg6 arg9 arg11 fh0 fh3) f j + Cert.DeepFilter.prodI fh0 fh3 (bat i) (f + 1 + 1) (2046 + j + 2) := by
  by_cases hin : 0 ≤ f ∧ f < 0 + 256
  ·
    rw [prodI_succ c i fh0 fh3]
    simp (disch := omega) only [kernelRun0_A.sl.HS5_20, kernelRun0_A.sl.r_16, kernelRun0_A.sl.v544, kernelRun0_A.sl.v547, kernelRun0_A.sl.v590, k0_pay115, k0_pay107, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_20, sem_cons_out])

/-- After the three bin taps the buffer holds, at bin `f` and local column `j`, the three padded rows `f, f + 1, f + 2` of the product in padded column `2046 + j + 2`. -/
theorem fsum_c4I (f j : ℕ) (hf : f < 257) (hj : j < 516) :
    sem arg11.view (kernelRun0_A.sl.HS5_20 (F := Ideal) c i arg6 arg9 arg11 fh0 fh3) f j = Cert.DeepFilter.colI fh0 fh3 (bat i) f (2046 + j + 2) := by
  rw [ft2_c4I c i arg6 arg7 arg8 arg9 arg10 arg11 arg12 arg13 fh0 fh1 fh2 fh3 f j hf hj, ft1_c4I c i arg6 arg7 arg8 arg9 arg10 arg11 arg12 arg13 fh0 fh1 fh2 fh3 f j hf hj, ft0_c4I c i arg6 arg7 arg8 arg9 arg10 arg11 arg12 arg13 fh0 fh1 fh2 fh3 f j hf hj, fz_c4I c i arg6 arg7 arg8 arg9 arg10 arg11 arg12 arg13 fh0 fh1 fh2 fh3 f j hf hj]
  rfl

/-- The frame-sum buffer after it is cleared: zero on columns below 512. -/
theorem oz_c4I (f j : ℕ) (hf : f < 257) (hj : j < 512) :
    sem arg13.view (kernelRun0_A.sl.HS7_25 (F := Ideal) c i arg6 arg9 arg11 arg13 fh0 fh3) f j = 0 := by
  simp (disch := omega) only [kernelRun0_A.sl.HS7_25, k0_pay117, sem_cons_in, sem_whole, at2_shapeCast_self, at2_addf, at2_subf, at2_mulf, at2_slice_in, at2_readCov_in, at2_broadcast_in]
  exact Ideal.ofBits_zero_f32

/-- Frame tap -2: columns 0 … 511 gain the bin sums of padded column `2048 + j`; on a skipped column that padded column is off the array, so its bin sums are zero. -/
theorem ot0_c4I (f j : ℕ) (hf : f < 257) (hj : j < 512) :
    sem arg13.view (kernelRun0_A.sl.HS7_26 (F := Ideal) c i arg6 arg9 arg11 arg13 fh0 fh3) f j
      = sem arg13.view (kernelRun0_A.sl.HS7_25 (F := Ideal) c i arg6 arg9 arg11 arg13 fh0 fh3) f j + Cert.DeepFilter.colI fh0 fh3 (bat i) f (2048 + j) := by
  by_cases hin : 0 ≤ j ∧ j < 0 + 512
  · simp (disch := omega) only [kernelRun0_A.sl.HS7_26, kernelRun0_A.sl.v610, kernelRun0_A.sl.v611, k0_pay119, sem_cons_in, sem_whole, at2_shapeCast_self, at2_addf, at2_subf, at2_mulf, at2_slice_in, at2_readCov_in, at2_broadcast_in]
    simp (disch := omega) only [Nat.zero_add, Nat.sub_zero, Nat.add_zero, fsum_c4I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_26, sem_cons_out])

/-- Frame tap -1: columns 0 … 511 gain the bin sums of padded column `2048 + j + 1`; on a skipped column that padded column is off the array, so its bin sums are zero. -/
theorem ot1_c4I (f j : ℕ) (hf : f < 257) (hj : j < 512) :
    sem arg13.view (kernelRun0_A.sl.HS7_27 (F := Ideal) c i arg6 arg9 arg11 arg13 fh0 fh3) f j
      = sem arg13.view (kernelRun0_A.sl.HS7_26 (F := Ideal) c i arg6 arg9 arg11 arg13 fh0 fh3) f j + Cert.DeepFilter.colI fh0 fh3 (bat i) f (2048 + j + 1) := by
  by_cases hin : 0 ≤ j ∧ j < 0 + 512
  · simp (disch := omega) only [kernelRun0_A.sl.HS7_27, kernelRun0_A.sl.v622, kernelRun0_A.sl.v623, k0_pay121, sem_cons_in, sem_whole, at2_shapeCast_self, at2_addf, at2_subf, at2_mulf, at2_slice_in, at2_readCov_in, at2_broadcast_in]
    simp (disch := omega) only [Nat.zero_add, Nat.sub_zero, Nat.add_zero, fsum_c4I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_27, sem_cons_out])

/-- Frame tap 0: columns 0 … 511 gain the bin sums of padded column `2048 + j + 2`; on a skipped column that padded column is off the array, so its bin sums are zero. -/
theorem ot2_c4I (f j : ℕ) (hf : f < 257) (hj : j < 512) :
    sem arg13.view (kernelRun0_A.sl.HS7_28 (F := Ideal) c i arg6 arg9 arg11 arg13 fh0 fh3) f j
      = sem arg13.view (kernelRun0_A.sl.HS7_27 (F := Ideal) c i arg6 arg9 arg11 arg13 fh0 fh3) f j + Cert.DeepFilter.colI fh0 fh3 (bat i) f (2048 + j + 2) := by
  by_cases hin : 0 ≤ j ∧ j < 0 + 512
  · simp (disch := omega) only [kernelRun0_A.sl.HS7_28, kernelRun0_A.sl.r_18, kernelRun0_A.sl.v634, kernelRun0_A.sl.v635, k0_pay124, k0_pay123, sem_cons_in, sem_whole, at2_shapeCast_self, at2_addf, at2_subf, at2_mulf, at2_slice_in, at2_readCov_in, at2_broadcast_in]
    simp (disch := omega) only [Nat.zero_add, Nat.sub_zero, Nat.add_zero, fsum_c4I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_28, sem_cons_out])

/-- Frame tap 1: columns 0 … 511 gain the bin sums of padded column `2048 + j + 3`; on a skipped column that padded column is off the array, so its bin sums are zero. -/
theorem ot3_c4I (f j : ℕ) (hf : f < 257) (hj : j < 512) :
    sem arg13.view (kernelRun0_A.sl.HS7_29 (F := Ideal) c i arg6 arg9 arg11 arg13 fh0 fh3) f j
      = sem arg13.view (kernelRun0_A.sl.HS7_28 (F := Ideal) c i arg6 arg9 arg11 arg13 fh0 fh3) f j + Cert.DeepFilter.colI fh0 fh3 (bat i) f (2048 + j + 3) := by
  by_cases hin : 0 ≤ j ∧ j < 0 + 512
  · simp (disch := omega) only [kernelRun0_A.sl.HS7_29, kernelRun0_A.sl.v646, kernelRun0_A.sl.v647, k0_pay126, sem_cons_in, sem_whole, at2_shapeCast_self, at2_addf, at2_subf, at2_mulf, at2_slice_in, at2_readCov_in, at2_broadcast_in]
    simp (disch := omega) only [Nat.zero_add, Nat.sub_zero, Nat.add_zero, fsum_c4I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_29, sem_cons_out])

/-- Frame tap 2: columns 0 … 511 gain the bin sums of padded column `2048 + j + 4`; on a skipped column that padded column is off the array, so its bin sums are zero. -/
theorem ot4_c4I (f j : ℕ) (hf : f < 257) (hj : j < 512) :
    sem arg13.view (kernelRun0_A.sl.HS7_30 (F := Ideal) c i arg6 arg9 arg11 arg13 fh0 fh3) f j
      = sem arg13.view (kernelRun0_A.sl.HS7_29 (F := Ideal) c i arg6 arg9 arg11 arg13 fh0 fh3) f j + Cert.DeepFilter.colI fh0 fh3 (bat i) f (2048 + j + 4) := by
  by_cases hin : 0 ≤ j ∧ j < 0 + 512
  · simp (disch := omega) only [kernelRun0_A.sl.HS7_30, kernelRun0_A.sl.v658, kernelRun0_A.sl.v659, k0_pay128, sem_cons_in, sem_whole, at2_shapeCast_self, at2_addf, at2_subf, at2_mulf, at2_slice_in, at2_readCov_in, at2_broadcast_in]
    simp (disch := omega) only [Nat.zero_add, Nat.sub_zero, Nat.add_zero, fsum_c4I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_30, sem_cons_out])

/-- After the five frame taps the buffer holds the 3 x 5 window sum of bin `f`, frame `2048 + j`. -/
theorem osum_c4I (f j : ℕ) (hf : f < 257) (hj : j < 512) :
    sem arg13.view (kernelRun0_A.sl.HS7_30 (F := Ideal) c i arg6 arg9 arg11 arg13 fh0 fh3) f j = Cert.DeepFilter.sumI fh0 fh3 (bat i) f (2048 + j) := by
  rw [ot4_c4I c i arg6 arg7 arg8 arg9 arg10 arg11 arg12 arg13 fh0 fh1 fh2 fh3 f j hf hj, ot3_c4I c i arg6 arg7 arg8 arg9 arg10 arg11 arg12 arg13 fh0 fh1 fh2 fh3 f j hf hj, ot2_c4I c i arg6 arg7 arg8 arg9 arg10 arg11 arg12 arg13 fh0 fh1 fh2 fh3 f j hf hj, ot1_c4I c i arg6 arg7 arg8 arg9 arg10 arg11 arg12 arg13 fh0 fh1 fh2 fh3 f j hf hj,
    ot0_c4I c i arg6 arg7 arg8 arg9 arg10 arg11 arg12 arg13 fh0 fh1 fh2 fh3 f j hf hj, oz_c4I c i arg6 arg7 arg8 arg9 arg10 arg11 arg12 arg13 fh0 fh1 fh2 fh3 f j hf hj]
  exact Cert.DeepFilter.sumI_of_cols _ _ _ _ _

/-- The payload stored into the output block for these frames: the window sums, laid out [1, 1, 257, 512]. -/
theorem piece_c4I (y : (⟨4, ![1, 1, 257, 512]⟩ : Shape).Idx) :
    k0_pay130 (kernelRun0_A.sl.v668 (F := Ideal) c i arg6 arg9 arg11 arg13 fh0 fh3) y = Cert.DeepFilter.sumI fh0 fh3 (bat i) (y 2).val (2048 + (y 3).val) := by
  have hf : (y 2).val < 257 := (y 2).isLt
  have hj : (y 3).val < 512 := (y 3).isLt
  simp only [k0_pay130]
  refine (shapeCast_addUnit2_apply (R := 257) (C := 512) _ _ y).trans ?_
  refine (at2_of_lt (R := 257) (C := 512) _ hf hj).symm.trans ?_
  simp (disch := omega) only [kernelRun0_A.sl.v668, at2_readCov_in]
  simp (disch := omega) only [Nat.zero_add, osum_c4I c i arg6 arg7 arg8 arg9 arg10 arg11 arg12 arg13 fh0 fh1 fh2 fh3]

end Cert.DeepFilter.Body

end
-- ==== Proof.BodyChunk5R.lean ====
/-
  Frames 2560 … 3071, real plane: the body's stores into its two scratch buffers for this run of frames.

  The body first forms the product `ir * fr - ii * fi` on the slab columns 2558 … 3073 (the run's frames and a halo of two
  on each side inside the array). A first buffer is cleared and gains, in three read-modify-write steps, the product
  one bin above, at, and one bin below each bin, a step leaving out the row whose neighbour is off the array. A second
  buffer is cleared and gains, in five steps, the first buffer two frames before … two frames after each frame, a step
  leaving out the frames whose neighbour is off the array. Read at natural coordinates each step is `new = old + source`
  on its rectangle and `new = old` off it, where the source is zero anyway because it lies on the zero padding; so the
  second buffer ends at the 3 x 5 window sum of the specification, and that is what the body stores into the output block.
-/
import proofs.«134051_j16587163697924_2_alg».proof.Proof.BodySlabs

noncomputable section

namespace Cert.DeepFilter.Body

open Idealize.ShloMosaic Idealize.ShloMosaic.ValueIdx Idealize.SL.Sem
open Cert.KernelIdeal Cert.KernelIdeal.Gen Cert.LibNatReads Cert.DeepFilter

variable (c : Dev nD) (i : grid0.Coords)
  (arg6 arg7 arg8 arg9 : Memref sig .tc .vmem S257x4000 .f32) (arg10 arg11 : Memref sig .tc .vmem S257x516 .f32)
  (arg12 arg13 : Memref sig .tc .vmem S257x512 .f32)
  (fh0 : HbBuf0 (F := Ideal) c hbM0_0) (fh1 : HbBuf0 (F := Ideal) c hbM0_1) (fh2 : HbBuf0 (F := Ideal) c hbM0_2) (fh3 : HbBuf0 (F := Ideal) c hbM0_3)

include c i arg6 arg7 arg8 arg9 arg10 arg11 arg12 arg13 fh0 fh1 fh2 fh3

/-- The bin-sum buffer after it is cleared: zero on columns below 516. -/
theorem fz_c5R (f j : ℕ) (hf : f < 257) (hj : j < 516) :
    sem arg10.view (kernelRun0_A.sl.HS4_21 (F := Ideal) c i arg6 arg7 arg8 arg9 arg10 fh0 fh1 fh2 fh3) f j = 0 := by
  simp (disch := omega) only [kernelRun0_A.sl.HS4_21, k0_pay133, sem_cons_in, sem_whole, at2_shapeCast_self, at2_addf, at2_subf, at2_mulf, at2_slice_in, at2_readCov_in, at2_broadcast_in]
  exact Ideal.ofBits_zero_f32

/-- Bin tap -1: rows 1 … 256 gain the product one padded row above; the skipped row's product is on the padding, so zero. -/
theorem ft0_c5R (f j : ℕ) (hf : f < 257) (hj : j < 516) :
    sem arg10.view (kernelRun0_A.sl.HS4_22 (F := Ideal) c i arg6 arg7 arg8 arg9 arg10 fh0 fh1 fh2 fh3) f j
      = sem arg10.view (kernelRun0_A.sl.HS4_21 (F := Ideal) c i arg6 arg7 arg8 arg9 arg10 fh0 fh1 fh2 fh3) f j + Cert.DeepFilter.prodR fh0 fh1 fh2 fh3 (bat i) (f) (2558 + j + 2) := by
  by_cases hin : 1 ≤ f ∧ f < 1 + 256
  ·
    obtain ⟨g, rfl⟩ : ∃ g, f = g + 1 := ⟨f - 1, by omega⟩
    rw [prodR_succ c i fh0 fh1 fh2 fh3]
    simp (disch := omega) only [kernelRun0_A.sl.HS4_22, kernelRun0_A.sl.r_21, kernelRun0_A.sl.v672, kernelRun0_A.sl.v673, kernelRun0_A.sl.v674, kernelRun0_A.sl.v675, kernelRun0_A.sl.v690, k0_pay136, k0_pay135, k0_pay131, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_22, sem_cons_out])

/-- Bin tap 0: rows 0 … 256 gain the product one padded row at; the skipped row's product is on the padding, so zero. -/
theorem ft1_c5R (f j : ℕ) (hf : f < 257) (hj : j < 516) :
    sem arg10.view (kernelRun0_A.sl.HS4_23 (F := Ideal) c i arg6 arg7 arg8 arg9 arg10 fh0 fh1 fh2 fh3) f j
      = sem arg10.view (kernelRun0_A.sl.HS4_22 (F := Ideal) c i arg6 arg7 arg8 arg9 arg10 fh0 fh1 fh2 fh3) f j + Cert.DeepFilter.prodR fh0 fh1 fh2 fh3 (bat i) (f + 1) (2558 + j + 2) := by
  by_cases hin : 0 ≤ f ∧ f < 0 + 257
  ·
    rw [prodR_succ c i fh0 fh1 fh2 fh3]
    simp (disch := omega) only [kernelRun0_A.sl.HS4_23, kernelRun0_A.sl.r_19, kernelRun0_A.sl.v672, kernelRun0_A.sl.v673, kernelRun0_A.sl.v674, kernelRun0_A.sl.v675, kernelRun0_A.sl.v702, k0_pay138, k0_pay131, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_23, sem_cons_out])

/-- Bin tap 1: rows 0 … 255 gain the product one padded row below; the skipped row's product is on the padding, so zero. -/
theorem ft2_c5R (f j : ℕ) (hf : f < 257) (hj : j < 516) :
    sem arg10.view (kernelRun0_A.sl.HS4_24 (F := Ideal) c i arg6 arg7 arg8 arg9 arg10 fh0 fh1 fh2 fh3) f j
      = sem arg10.view (kernelRun0_A.sl.HS4_23 (F := Ideal) c i arg6 arg7 arg8 arg9 arg10 fh0 fh1 fh2 fh3) f j + Cert.DeepFilter.prodR fh0 fh1 fh2 fh3 (bat i) (f + 1 + 1) (2558 + j + 2) := by
  by_cases hin : 0 ≤ f ∧ f < 0 + 256
  ·
    rw [prodR_succ c i fh0 fh1 fh2 fh3]
    simp (disch := omega) only [kernelRun0_A.sl.HS4_24, kernelRun0_A.sl.r_19, kernelRun0_A.sl.v672, kernelRun0_A.sl.v673, kernelRun0_A.sl.v674, kernelRun0_A.sl.v675, kernelRun0_A.sl.v712, k0_pay140, k0_pay131, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_24, sem_cons_out])

/-- After the three bin taps the buffer holds, at bin `f` and local column `j`, the three padded rows `f, f + 1, f + 2` of the product in padded column `2558 + j + 2`. -/
theorem fsum_c5R (f j : ℕ) (hf : f < 257) (hj : j < 516) :
    sem arg10.view (kernelRun0_A.sl.HS4_24 (F := Ideal) c i arg6 arg7 arg8 arg9 arg10 fh0 fh1 fh2 fh3) f j = Cert.DeepFilter.colR fh0 fh1 fh2 fh3 (bat i) f (2558 + j + 2) := by
  rw [ft2_c5R c i arg6 arg7 arg8 arg9 arg10 arg11 arg12 arg13 fh0 fh1 fh2 fh3 f j hf hj, ft1_c5R c i arg6 arg7 arg8 arg9 arg10 arg11 arg12 arg13 fh0 fh1 fh2 fh3 f j hf hj, ft0_c5R c i arg6 arg7 arg8 arg9 arg10 arg11 arg12 arg13 fh0 fh1 fh2 fh3 f j hf hj, fz_c5R c i arg6 arg7 arg8 arg9 arg10 arg11 arg12 arg13 fh0 fh1 fh2 fh3 f j hf hj]
  rfl

/-- The frame-sum buffer after it is cleared: zero on columns below 512. -/
theorem oz_c5R (f j : ℕ) (hf : f < 257) (hj : j < 512) :
    sem arg12.view (kernelRun0_A.sl.HS6_31 (F := Ideal) c i arg6 arg7 arg8 arg9 arg10 arg12 fh0 fh1 fh2 fh3) f j = 0 := by
  simp (disch := omega) only [kernelRun0_A.sl.HS6_31, kernelRun0_A.sl.cst_144, k0_pay142, sem_cons_in, sem_whole, at2_shapeCast_self, at2_addf, at2_subf, at2_mulf, at2_slice_in, at2_readCov_in, at2_broadcast_in]
  exact Ideal.ofBits_zero_f32

/-- Frame tap -2: columns 0 … 511 gain the bin sums of padded column `2560 + j`; on a skipped column that padded column is off the array, so its bin sums are zero. -/
theorem ot0_c5R (f j : ℕ) (hf : f < 257) (hj : j < 512) :
    sem arg12.view (kernelRun0_A.sl.HS6_32 (F := Ideal) c i arg6 arg7 arg8 arg9 arg10 arg12 fh0 fh1 fh2 fh3) f j
      = sem arg12.view (kernelRun0_A.sl.HS6_31 (F := Ideal) c i arg6 arg7 arg8 arg9 arg10 arg12 fh0 fh1 fh2 fh3) f j + Cert.DeepFilter.colR fh0 fh1 fh2 fh3 (bat i) f (2560 + j) := by
  by_cases hin : 0 ≤ j ∧ j < 0 + 512
  · simp (disch := omega) only [kernelRun0_A.sl.HS6_32, kernelRun0_A.sl.v732, kernelRun0_A.sl.v733, k0_pay144, sem_cons_in, sem_whole, at2_shapeCast_self, at2_addf, at2_subf, at2_mulf, at2_slice_in, at2_readCov_in, at2_broadcast_in]
    simp (disch := omega) only [Nat.zero_add, Nat.sub_zero, Nat.add_zero, fsum_c5R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_32, sem_cons_out])

/-- Frame tap -1: columns 0 … 511 gain the bin sums of padded column `2560 + j + 1`; on a skipped column that padded column is off the array, so its bin sums are zero. -/
theorem ot1_c5R (f j : ℕ) (hf : f < 257) (hj : j < 512) :
    sem arg12.view (kernelRun0_A.sl.HS6_33 (F := Ideal) c i arg6 arg7 arg8 arg9 arg10 arg12 fh0 fh1 fh2 fh3) f j
      = sem arg12.view (kernelRun0_A.sl.HS6_32 (F := Ideal) c i arg6 arg7 arg8 arg9 arg10 arg12 fh0 fh1 fh2 fh3) f j + Cert.DeepFilter.colR fh0 fh1 fh2 fh3 (bat i) f (2560 + j + 1) := by
  by_cases hin : 0 ≤ j ∧ j < 0 + 512
  · simp (disch := omega) only [kernelRun0_A.sl.HS6_33, kernelRun0_A.sl.v744, kernelRun0_A.sl.v745, k0_pay146, sem_cons_in, sem_whole, at2_shapeCast_self, at2_addf, at2_subf, at2_mulf, at2_slice_in, at2_readCov_in, at2_broadcast_in]
    simp (disch := omega) only [Nat.zero_add, Nat.sub_zero, Nat.add_zero, fsum_c5R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_33, sem_cons_out])

/-- Frame tap 0: columns 0 … 511 gain the bin sums of padded column `2560 + j + 2`; on a skipped column that padded column is off the array, so its bin sums are zero. -/
theorem ot2_c5R (f j : ℕ) (hf : f < 257) (hj : j < 512) :
    sem arg12.view (kernelRun0_A.sl.HS6_34 (F := Ideal) c i arg6 arg7 arg8 arg9 arg10 arg12 fh0 fh1 fh2 fh3) f j
      = sem arg12.view (kernelRun0_A.sl.HS6_33 (F := Ideal) c i arg6 arg7 arg8 arg9 arg10 arg12 fh0 fh1 fh2 fh3) f j + Cert.DeepFilter.colR fh0 fh1 fh2 fh3 (bat i) f (2560 + j + 2) := by
  by_cases hin : 0 ≤ j ∧ j < 0 + 512
  · simp (disch := omega) only [kernelRun0_A.sl.HS6_34, kernelRun0_A.sl.v756, kernelRun0_A.sl.v757, k0_pay148, sem_cons_in, sem_whole, at2_shapeCast_self, at2_addf, at2_subf, at2_mulf, at2_slice_in, at2_readCov_in, at2_broadcast_in]
    simp (disch := omega) only [Nat.zero_add, Nat.sub_zero, Nat.add_zero, fsum_c5R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_34, sem_cons_out])

/-- Frame tap 1: columns 0 … 511 gain the bin sums of padded column `2560 + j + 3`; on a skipped column that padded column is off the array, so its bin sums are zero. -/
theorem ot3_c5R (f j : ℕ) (hf : f < 257) (hj : j < 512) :
    sem arg12.view (kernelRun0_A.sl.HS6_35 (F := Ideal) c i arg6 arg7 arg8 arg9 arg10 arg12 fh0 fh1 fh2 fh3) f j
      = sem arg12.view (kernelRun0_A.sl.HS6_34 (F := Ideal) c i arg6 arg7 arg8 arg9 arg10 arg12 fh0 fh1 fh2 fh3) f j + Cert.DeepFilter.colR fh0 fh1 fh2 fh3 (bat i) f (2560 + j + 3) := by
  by_cases hin : 0 ≤ j ∧ j < 0 + 512
  · simp (disch := omega) only [kernelRun0_A.sl.HS6_35, kernelRun0_A.sl.v768, kernelRun0_A.sl.v769, k0_pay150, sem_cons_in, sem_whole, at2_shapeCast_self, at2_addf, at2_subf, at2_mulf, at2_slice_in, at2_readCov_in, at2_broadcast_in]
    simp (disch := omega) only [Nat.zero_add, Nat.sub_zero, Nat.add_zero, fsum_c5R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_35, sem_cons_out])

/-- Frame tap 2: columns 0 … 511 gain the bin sums of padded column `2560 + j + 4`; on a skipped column that padded column is off the array, so its bin sums are zero. -/
theorem ot4_c5R (f j : ℕ) (hf : f < 257) (hj : j < 512) :
    sem arg12.view (kernelRun0_A.sl.HS6_36 (F := Ideal) c i arg6 arg7 arg8 arg9 arg10 arg12 fh0 fh1 fh2 fh3) f j
      = sem arg12.view (kernelRun0_A.sl.HS6_35 (F := Ideal) c i arg6 arg7 arg8 arg9 arg10 arg12 fh0 fh1 fh2 fh3) f j + Cert.DeepFilter.colR fh0 fh1 fh2 fh3 (bat i) f (2560 + j + 4) := by
  by_cases hin : 0 ≤ j ∧ j < 0 + 512
  · simp (disch := omega) only [kernelRun0_A.sl.HS6_36, kernelRun0_A.sl.v780, kernelRun0_A.sl.v781, k0_pay152, sem_cons_in, sem_whole, at2_shapeCast_self, at2_addf, at2_subf, at2_mulf, at2_slice_in, at2_readCov_in, at2_broadcast_in]
    simp (disch := omega) only [Nat.zero_add, Nat.sub_zero, Nat.add_zero, fsum_c5R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_36, sem_cons_out])

/-- After the five frame taps the buffer holds the 3 x 5 window sum of bin `f`, frame `2560 + j`. -/
theorem osum_c5R (f j : ℕ) (hf : f < 257) (hj : j < 512) :
    sem arg12.view (kernelRun0_A.sl.HS6_36 (F := Ideal) c i arg6 arg7 arg8 arg9 arg10 arg12 fh0 fh1 fh2 fh3) f j = Cert.DeepFilter.sumR fh0 fh1 fh2 fh3 (bat i) f (2560 + j) := by
  rw [ot4_c5R c i arg6 arg7 arg8 arg9 arg10 arg11 arg12 arg13 fh0 fh1 fh2 fh3 f j hf hj, ot3_c5R c i arg6 arg7 arg8 arg9 arg10 arg11 arg12 arg13 fh0 fh1 fh2 fh3 f j hf hj, ot2_c5R c i arg6 arg7 arg8 arg9 arg10 arg11 arg12 arg13 fh0 fh1 fh2 fh3 f j hf hj, ot1_c5R c i arg6 arg7 arg8 arg9 arg10 arg11 arg12 arg13 fh0 fh1 fh2 fh3 f j hf hj,
    ot0_c5R c i arg6 arg7 arg8 arg9 arg10 arg11 arg12 arg13 fh0 fh1 fh2 fh3 f j hf hj, oz_c5R c i arg6 arg7 arg8 arg9 arg10 arg11 arg12 arg13 fh0 fh1 fh2 fh3 f j hf hj]
  exact Cert.DeepFilter.sumR_of_cols _ _ _ _ _ _ _

/-- The payload stored into the output block for these frames: the window sums, laid out [1, 1, 257, 512]. -/
theorem piece_c5R (y : (⟨4, ![1, 1, 257, 512]⟩ : Shape).Idx) :
    k0_pay154 (kernelRun0_A.sl.v792 (F := Ideal) c i arg6 arg7 arg8 arg9 arg10 arg12 fh0 fh1 fh2 fh3) y = Cert.DeepFilter.sumR fh0 fh1 fh2 fh3 (bat i) (y 2).val (2560 + (y 3).val) := by
  have hf : (y 2).val < 257 := (y 2).isLt
  have hj : (y 3).val < 512 := (y 3).isLt
  simp only [k0_pay154]
  refine (shapeCast_addUnit2_apply (R := 257) (C := 512) _ _ y).trans ?_
  refine (at2_of_lt (R := 257) (C := 512) _ hf hj).symm.trans ?_
  simp (disch := omega) only [kernelRun0_A.sl.v792, at2_readCov_in]
  simp (disch := omega) only [Nat.zero_add, osum_c5R c i arg6 arg7 arg8 arg9 arg10 arg11 arg12 arg13 fh0 fh1 fh2 fh3]

end Cert.DeepFilter.Body

end
-- ==== Proof.BodyChunk5I.lean ====
/-
  Frames 2560 … 3071, imaginary plane: the body's stores into its two scratch buffers for this run of frames.

  The body first forms the product `(2 * ir) * fi` on the slab columns 2558 … 3073 (the run's frames and a halo of two
  on each side inside the array). A first buffer is cleared and gains, in three read-modify-write steps, the product
  one bin above, at, and one bin below each bin, a step leaving out the row whose neighbour is off the array. A second
  buffer is cleared and gains, in five steps, the first buffer two frames before … two frames after each frame, a step
  leaving out the frames whose neighbour is off the array. Read at natural coordinates each step is `new = old + source`
  on its rectangle and `new = old` off it, where the source is zero anyway because it lies on the zero padding; so the
  second buffer ends at the 3 x 5 window sum of the specification, and that is what the body stores into the output block.
-/
import proofs.«134051_j16587163697924_2_alg».proof.Proof.BodySlabs

noncomputable section

namespace Cert.DeepFilter.Body

open Idealize.ShloMosaic Idealize.ShloMosaic.ValueIdx Idealize.SL.Sem
open Cert.KernelIdeal Cert.KernelIdeal.Gen Cert.LibNatReads Cert.DeepFilter

variable (c : Dev nD) (i : grid0.Coords)
  (arg6 arg7 arg8 arg9 : Memref sig .tc .vmem S257x4000 .f32) (arg10 arg11 : Memref sig .tc .vmem S257x516 .f32)
  (arg12 arg13 : Memref sig .tc .vmem S257x512 .f32)
  (fh0 : HbBuf0 (F := Ideal) c hbM0_0) (fh1 : HbBuf0 (F := Ideal) c hbM0_1) (fh2 : HbBuf0 (F := Ideal) c hbM0_2) (fh3 : HbBuf0 (F := Ideal) c hbM0_3)

include c i arg6 arg7 arg8 arg9 arg10 arg11 arg12 arg13 fh0 fh1 fh2 fh3

/-- The bin-sum buffer after it is cleared: zero on columns below 516. -/
theorem fz_c5I (f j : ℕ) (hf : f < 257) (hj : j < 516) :
    sem arg11.view (kernelRun0_A.sl.HS5_21 (F := Ideal) c i arg6 arg9 arg11 fh0 fh3) f j = 0 := by
  simp (disch := omega) only [kernelRun0_A.sl.HS5_21, k0_pay134, sem_cons_in, sem_whole, at2_shapeCast_self, at2_addf, at2_subf, at2_mulf, at2_slice_in, at2_readCov_in, at2_broadcast_in]
  exact Ideal.ofBits_zero_f32

/-- Bin tap -1: rows 1 … 256 gain the product one padded row above; the skipped row's product is on the padding, so zero. -/
theorem ft0_c5I (f j : ℕ) (hf : f < 257) (hj : j < 516) :
    sem arg11.view (kernelRun0_A.sl.HS5_22 (F := Ideal) c i arg6 arg9 arg11 fh0 fh3) f j
      = sem arg11.view (kernelRun0_A.sl.HS5_21 (F := Ideal) c i arg6 arg9 arg11 fh0 fh3) f j + Cert.DeepFilter.prodI fh0 fh3 (bat i) (f) (2558 + j + 2) := by
  by_cases hin : 1 ≤ f ∧ f < 1 + 256
  ·
    obtain ⟨g, rfl⟩ : ∃ g, f = g + 1 := ⟨f - 1, by omega⟩
    rw [prodI_succ c i fh0 fh3]
    simp (disch := omega) only [kernelRun0_A.sl.HS5_22, kernelRun0_A.sl.r_20, kernelRun0_A.sl.v672, kernelRun0_A.sl.v675, kernelRun0_A.sl.v696, k0_pay137, k0_pay132, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_22, sem_cons_out])

/-- Bin tap 0: rows 0 … 256 gain the product one padded row at; the skipped row's product is on the padding, so zero. -/
theorem ft1_c5I (f j : ℕ) (hf : f < 257) (hj : j < 516) :
    sem arg11.view (kernelRun0_A.sl.HS5_23 (F := Ideal) c i arg6 arg9 arg11 fh0 fh3) f j
      = sem arg11.view (kernelRun0_A.sl.HS5_22 (F := Ideal) c i arg6 arg9 arg11 fh0 fh3) f j + Cert.DeepFilter.prodI fh0 fh3 (bat i) (f + 1) (2558 + j + 2) := by
  by_cases hin : 0 ≤ f ∧ f < 0 + 257
  ·
    rw [prodI_succ c i fh0 fh3]
    simp (disch := omega) only [kernelRun0_A.sl.HS5_23, kernelRun0_A.sl.r_20, kernelRun0_A.sl.v672, kernelRun0_A.sl.v675, kernelRun0_A.sl.v707, k0_pay139, k0_pay132, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_23, sem_cons_out])

/-- Bin tap 1: rows 0 … 255 gain the product one padded row below; the skipped row's product is on the padding, so zero. -/
theorem ft2_c5I (f j : ℕ) (hf : f < 257) (hj : j < 516) :
    sem arg11.view (kernelRun0_A.sl.HS5_24 (F := Ideal) c i arg6 arg9 arg11 fh0 fh3) f j
      = sem arg11.view (kernelRun0_A.sl.HS5_23 (F := Ideal) c i arg6 arg9 arg11 fh0 fh3) f j + Cert.DeepFilter.prodI fh0 fh3 (bat i) (f + 1 + 1) (2558 + j + 2) := by
  by_cases hin : 0 ≤ f ∧ f < 0 + 256
  ·
    rw [prodI_succ c i fh0 fh3]
    simp (disch := omega) only [kernelRun0_A.sl.HS5_24, kernelRun0_A.sl.r_20, kernelRun0_A.sl.v672, kernelRun0_A.sl.v675, kernelRun0_A.sl.v718, k0_pay141, k0_pay132, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_24, sem_cons_out])

/-- After the three bin taps the buffer holds, at bin `f` and local column `j`, the three padded rows `f, f + 1, f + 2` of the product in padded column `2558 + j + 2`. -/
theorem fsum_c5I (f j : ℕ) (hf : f < 257) (hj : j < 516) :
    sem arg11.view (kernelRun0_A.sl.HS5_24 (F := Ideal) c i arg6 arg9 arg11 fh0 fh3) f j = Cert.DeepFilter.colI fh0 fh3 (bat i) f (2558 + j + 2) := by
  rw [ft2_c5I c i arg6 arg7 arg8 arg9 arg10 arg11 arg12 arg13 fh0 fh1 fh2 fh3 f j hf hj, ft1_c5I c i arg6 arg7 arg8 arg9 arg10 arg11 arg12 arg13 fh0 fh1 fh2 fh3 f j hf hj, ft0_c5I c i arg6 arg7 arg8 arg9 arg10 arg11 arg12 arg13 fh0 fh1 fh2 fh3 f j hf hj, fz_c5I c i arg6 arg7 arg8 arg9 arg10 arg11 arg12 arg13 fh0 fh1 fh2 fh3 f j hf hj]
  rfl

/-- The frame-sum buffer after it is cleared: zero on columns below 512. -/
theorem oz_c5I (f j : ℕ) (hf : f < 257) (hj : j < 512) :
    sem arg13.view (kernelRun0_A.sl.HS7_31 (F := Ideal) c i arg6 arg9 arg11 arg13 fh0 fh3) f j = 0 := by
  simp (disch := omega) only [kernelRun0_A.sl.HS7_31, k0_pay143, sem_cons_in, sem_whole, at2_shapeCast_self, at2_addf, at2_subf, at2_mulf, at2_slice_in, at2_readCov_in, at2_broadcast_in]
  exact Ideal.ofBits_zero_f32

/-- Frame tap -2: columns 0 … 511 gain the bin sums of padded column `2560 + j`; on a skipped column that padded column is off the array, so its bin sums are zero. -/
theorem ot0_c5I (f j : ℕ) (hf : f < 257) (hj : j < 512) :
    sem arg13.view (kernelRun0_A.sl.HS7_32 (F := Ideal) c i arg6 arg9 arg11 arg13 fh0 fh3) f j
      = sem arg13.view (kernelRun0_A.sl.HS7_31 (F := Ideal) c i arg6 arg9 arg11 arg13 fh0 fh3) f j + Cert.DeepFilter.colI fh0 fh3 (bat i) f (2560 + j) := by
  by_cases hin : 0 ≤ j ∧ j < 0 + 512
  · simp (disch := omega) only [kernelRun0_A.sl.HS7_32, kernelRun0_A.sl.v738, kernelRun0_A.sl.v739, k0_pay145, sem_cons_in, sem_whole, at2_shapeCast_self, at2_addf, at2_subf, at2_mulf, at2_slice_in, at2_readCov_in, at2_broadcast_in]
    simp (disch := omega) only [Nat.zero_add, Nat.sub_zero, Nat.add_zero, fsum_c5I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_32, sem_cons_out])

/-- Frame tap -1: columns 0 … 511 gain the bin sums of padded column `2560 + j + 1`; on a skipped column that padded column is off the array, so its bin sums are zero. -/
theorem ot1_c5I (f j : ℕ) (hf : f < 257) (hj : j < 512) :
    sem arg13.view (kernelRun0_A.sl.HS7_33 (F := Ideal) c i arg6 arg9 arg11 arg13 fh0 fh3) f j
      = sem arg13.view (kernelRun0_A.sl.HS7_32 (F := Ideal) c i arg6 arg9 arg11 arg13 fh0 fh3) f j + Cert.DeepFilter.colI fh0 fh3 (bat i) f (2560 + j + 1) := by
  by_cases hin : 0 ≤ j ∧ j < 0 + 512
  · simp (disch := omega) only [kernelRun0_A.sl.HS7_33, kernelRun0_A.sl.v750, kernelRun0_A.sl.v751, k0_pay147, sem_cons_in, sem_whole, at2_shapeCast_self, at2_addf, at2_subf, at2_mulf, at2_slice_in, at2_readCov_in, at2_broadcast_in]
    simp (disch := omega) only [Nat.zero_add, Nat.sub_zero, Nat.add_zero, fsum_c5I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_33, sem_cons_out])

/-- Frame tap 0: columns 0 … 511 gain the bin sums of padded column `2560 + j + 2`; on a skipped column that padded column is off the array, so its bin sums are zero. -/
theorem ot2_c5I (f j : ℕ) (hf : f < 257) (hj : j < 512) :
    sem arg13.view (kernelRun0_A.sl.HS7_34 (F := Ideal) c i arg6 arg9 arg11 arg13 fh0 fh3) f j
      = sem arg13.view (kernelRun0_A.sl.HS7_33 (F := Ideal) c i arg6 arg9 arg11 arg13 fh0 fh3) f j + Cert.DeepFilter.colI fh0 fh3 (bat i) f (2560 + j + 2) := by
  by_cases hin : 0 ≤ j ∧ j < 0 + 512
  · simp (disch := omega) only [kernelRun0_A.sl.HS7_34, kernelRun0_A.sl.v762, kernelRun0_A.sl.v763, k0_pay149, sem_cons_in, sem_whole, at2_shapeCast_self, at2_addf, at2_subf, at2_mulf, at2_slice_in, at2_readCov_in, at2_broadcast_in]
    simp (disch := omega) only [Nat.zero_add, Nat.sub_zero, Nat.add_zero, fsum_c5I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_34, sem_cons_out])

/-- Frame tap 1: columns 0 … 511 gain the bin sums of padded column `2560 + j + 3`; on a skipped column that padded column is off the array, so its bin sums are zero. -/
theorem ot3_c5I (f j : ℕ) (hf : f < 257) (hj : j < 512) :
    sem arg13.view (kernelRun0_A.sl.HS7_35 (F := Ideal) c i arg6 arg9 arg11 arg13 fh0 fh3) f j
      = sem arg13.view (kernelRun0_A.sl.HS7_34 (F := Ideal) c i arg6 arg9 arg11 arg13 fh0 fh3) f j + Cert.DeepFilter.colI fh0 fh3 (bat i) f (2560 + j + 3) := by
  by_cases hin : 0 ≤ j ∧ j < 0 + 512
  · simp (disch := omega) only [kernelRun0_A.sl.HS7_35, kernelRun0_A.sl.v774, kernelRun0_A.sl.v775, k0_pay151, sem_cons_in, sem_whole, at2_shapeCast_self, at2_addf, at2_subf, at2_mulf, at2_slice_in, at2_readCov_in, at2_broadcast_in]
    simp (disch := omega) only [Nat.zero_add, Nat.sub_zero, Nat.add_zero, fsum_c5I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_35, sem_cons_out])

/-- Frame tap 2: columns 0 … 511 gain the bin sums of padded column `2560 + j + 4`; on a skipped column that padded column is off the array, so its bin sums are zero. -/
theorem ot4_c5I (f j : ℕ) (hf : f < 257) (hj : j < 512) :
    sem arg13.view (kernelRun0_A.sl.HS7_36 (F := Ideal) c i arg6 arg9 arg11 arg13 fh0 fh3) f j
      = sem arg13.view (kernelRun0_A.sl.HS7_35 (F := Ideal) c i arg6 arg9 arg11 arg13 fh0 fh3) f j + Cert.DeepFilter.colI fh0 fh3 (bat i) f (2560 + j + 4) := by
  by_cases hin : 0 ≤ j ∧ j < 0 + 512
  · simp (disch := omega) only [kernelRun0_A.sl.HS7_36, kernelRun0_A.sl.v786, kernelRun0_A.sl.v787, k0_pay153, sem_cons_in, sem_whole, at2_shapeCast_self, at2_addf, at2_subf, at2_mulf, at2_slice_in, at2_readCov_in, at2_broadcast_in]
    simp (disch := omega) only [Nat.zero_add, Nat.sub_zero, Nat.add_zero, fsum_c5I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_36, sem_cons_out])

/-- After the five frame taps the buffer holds the 3 x 5 window sum of bin `f`, frame `2560 + j`. -/
theorem osum_c5I (f j : ℕ) (hf : f < 257) (hj : j < 512) :
    sem arg13.view (kernelRun0_A.sl.HS7_36 (F := Ideal) c i arg6 arg9 arg11 arg13 fh0 fh3) f j = Cert.DeepFilter.sumI fh0 fh3 (bat i) f (2560 + j) := by
  rw [ot4_c5I c i arg6 arg7 arg8 arg9 arg10 arg11 arg12 arg13 fh0 fh1 fh2 fh3 f j hf hj, ot3_c5I c i arg6 arg7 arg8 arg9 arg10 arg11 arg12 arg13 fh0 fh1 fh2 fh3 f j hf hj, ot2_c5I c i arg6 arg7 arg8 arg9 arg10 arg11 arg12 arg13 fh0 fh1 fh2 fh3 f j hf hj, ot1_c5I c i arg6 arg7 arg8 arg9 arg10 arg11 arg12 arg13 fh0 fh1 fh2 fh3 f j hf hj,
    ot0_c5I c i arg6 arg7 arg8 arg9 arg10 arg11 arg12 arg13 fh0 fh1 fh2 fh3 f j hf hj, oz_c5I c i arg6 arg7 arg8 arg9 arg10 arg11 arg12 arg13 fh0 fh1 fh2 fh3 f j hf hj]
  exact Cert.DeepFilter.sumI_of_cols _ _ _ _ _

/-- The payload stored into the output block for these frames: the window sums, laid out [1, 1, 257, 512]. -/
theorem piece_c5I (y : (⟨4, ![1, 1, 257, 512]⟩ : Shape).Idx) :
    k0_pay155 (kernelRun0_A.sl.v796 (F := Ideal) c i arg6 arg9 arg11 arg13 fh0 fh3) y = Cert.DeepFilter.sumI fh0 fh3 (bat i) (y 2).val (2560 + (y 3).val) := by
  have hf : (y 2).val < 257 := (y 2).isLt
  have hj : (y 3).val < 512 := (y 3).isLt
  simp only [k0_pay155]
  refine (shapeCast_addUnit2_apply (R := 257) (C := 512) _ _ y).trans ?_
  refine (at2_of_lt (R := 257) (C := 512) _ hf hj).symm.trans ?_
  simp (disch := omega) only [kernelRun0_A.sl.v796, at2_readCov_in]
  simp (disch := omega) only [Nat.zero_add, osum_c5I c i arg6 arg7 arg8 arg9 arg10 arg11 arg12 arg13 fh0 fh1 fh2 fh3]

end Cert.DeepFilter.Body

end
-- ==== Proof.BodyChunk6R.lean ====
/-
  Frames 3072 … 3583, real plane: the body's stores into its two scratch buffers for this run of frames.

  The body first forms the product `ir * fr - ii * fi` on the slab columns 3070 … 3585 (the run's frames and a halo of two
  on each side inside the array). A first buffer is cleared and gains, in three read-modify-write steps, the product
  one bin above, at, and one bin below each bin, a step leaving out the row whose neighbour is off the array. A second
  buffer is cleared and gains, in five steps, the first buffer two frames before … two frames after each frame, a step
  leaving out the frames whose neighbour is off the array. Read at natural coordinates each step is `new = old + source`
  on its rectangle and `new = old` off it, where the source is zero anyway because it lies on the zero padding; so the
  second buffer ends at the 3 x 5 window sum of the specification, and that is what the body stores into the output block.
-/
import proofs.«134051_j16587163697924_2_alg».proof.Proof.BodySlabs

noncomputable section

namespace Cert.DeepFilter.Body

open Idealize.ShloMosaic Idealize.ShloMosaic.ValueIdx Idealize.SL.Sem
open Cert.KernelIdeal Cert.KernelIdeal.Gen Cert.LibNatReads Cert.DeepFilter

variable (c : Dev nD) (i : grid0.Coords)
  (arg6 arg7 arg8 arg9 : Memref sig .tc .vmem S257x4000 .f32) (arg10 arg11 : Memref sig .tc .vmem S257x516 .f32)
  (arg12 arg13 : Memref sig .tc .vmem S257x512 .f32)
  (fh0 : HbBuf0 (F := Ideal) c hbM0_0) (fh1 : HbBuf0 (F := Ideal) c hbM0_1) (fh2 : HbBuf0 (F := Ideal) c hbM0_2) (fh3 : HbBuf0 (F := Ideal) c hbM0_3)

include c i arg6 arg7 arg8 arg9 arg10 arg11 arg12 arg13 fh0 fh1 fh2 fh3

/-- The bin-sum buffer after it is cleared: zero on columns below 516. -/
theorem fz_c6R (f j : ℕ) (hf : f < 257) (hj : j < 516) :
    sem arg10.view (kernelRun0_A.sl.HS4_25 (F := Ideal) c i arg6 arg7 arg8 arg9 arg10 fh0 fh1 fh2 fh3) f j = 0 := by
  simp (disch := omega) only [kernelRun0_A.sl.HS4_25, k0_pay159, sem_cons_in, sem_whole, at2_shapeCast_self, at2_addf, at2_subf, at2_mulf, at2_slice_in, at2_readCov_in, at2_broadcast_in]
  exact Ideal.ofBits_zero_f32

/-- Bin tap -1: rows 1 … 256 gain the product one padded row above; the skipped row's product is on the padding, so zero. -/
theorem ft0_c6R (f j : ℕ) (hf : f < 257) (hj : j < 516) :
    sem arg10.view (kernelRun0_A.sl.HS4_26 (F := Ideal) c i arg6 arg7 arg8 arg9 arg10 fh0 fh1 fh2 fh3) f j
      = sem arg10.view (kernelRun0_A.sl.HS4_25 (F := Ideal) c i arg6 arg7 arg8 arg9 arg10 fh0 fh1 fh2 fh3) f j + Cert.DeepFilter.prodR fh0 fh1 fh2 fh3 (bat i) (f) (3070 + j + 2) := by
  by_cases hin : 1 ≤ f ∧ f < 1 + 256
  ·
    obtain ⟨g, rfl⟩ : ∃ g, f = g + 1 := ⟨f - 1, by omega⟩
    rw [prodR_succ c i fh0 fh1 fh2 fh3]
    simp (disch := omega) only [kernelRun0_A.sl.HS4_26, kernelRun0_A.sl.v801, kernelRun0_A.sl.v803, kernelRun0_A.sl.r_22, kernelRun0_A.sl.v800, kernelRun0_A.sl.v802, kernelRun0_A.sl.v818, k0_pay161, k0_pay157, k0_pay156, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_26, sem_cons_out])

/-- Bin tap 0: rows 0 … 256 gain the product one padded row at; the skipped row's product is on the padding, so zero. -/
theorem ft1_c6R (f j : ℕ) (hf : f < 257) (hj : j < 516) :
    sem arg10.view (kernelRun0_A.sl.HS4_27 (F := Ideal) c i arg6 arg7 arg8 arg9 arg10 fh0 fh1 fh2 fh3) f j
      = sem arg10.view (kernelRun0_A.sl.HS4_26 (F := Ideal) c i arg6 arg7 arg8 arg9 arg10 fh0 fh1 fh2 fh3) f j + Cert.DeepFilter.prodR fh0 fh1 fh2 fh3 (bat i) (f + 1) (3070 + j + 2) := by
  by_cases hin : 0 ≤ f ∧ f < 0 + 257
  ·
    rw [prodR_succ c i fh0 fh1 fh2 fh3]
    simp (disch := omega) only [kernelRun0_A.sl.HS4_27, kernelRun0_A.sl.v801, kernelRun0_A.sl.v803, kernelRun0_A.sl.r_22, kernelRun0_A.sl.v800, kernelRun0_A.sl.v802, kernelRun0_A.sl.v830, k0_pay163, k0_pay157, k0_pay156, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_27, sem_cons_out])

/-- Bin tap 1: rows 0 … 255 gain the product one padded row below; the skipped row's product is on the padding, so zero. -/
theorem ft2_c6R (f j : ℕ) (hf : f < 257) (hj : j < 516) :
    sem arg10.view (kernelRun0_A.sl.HS4_28 (F := Ideal) c i arg6 arg7 arg8 arg9 arg10 fh0 fh1 fh2 fh3) f j
      = sem arg10.view (kernelRun0_A.sl.HS4_27 (F := Ideal) c i arg6 arg7 arg8 arg9 arg10 fh0 fh1 fh2 fh3) f j + Cert.DeepFilter.prodR fh0 fh1 fh2 fh3 (bat i) (f + 1 + 1) (3070 + j + 2) := by
  by_cases hin : 0 ≤ f ∧ f < 0 + 256
  ·
    rw [prodR_succ c i fh0 fh1 fh2 fh3]
    simp (disch := omega) only [kernelRun0_A.sl.HS4_28, kernelRun0_A.sl.r_23, kernelRun0_A.sl.v801, kernelRun0_A.sl.v803, kernelRun0_A.sl.r_22, kernelRun0_A.sl.v800, kernelRun0_A.sl.v802, kernelRun0_A.sl.v840, k0_pay166, k0_pay157, k0_pay156, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_28, sem_cons_out])

/-- After the three bin taps the buffer holds, at bin `f` and local column `j`, the three padded rows `f, f + 1, f + 2` of the product in padded column `3070 + j + 2`. -/
theorem fsum_c6R (f j : ℕ) (hf : f < 257) (hj : j < 516) :
    sem arg10.view (kernelRun0_A.sl.HS4_28 (F := Ideal) c i arg6 arg7 arg8 arg9 arg10 fh0 fh1 fh2 fh3) f j = Cert.DeepFilter.colR fh0 fh1 fh2 fh3 (bat i) f (3070 + j + 2) := by
  rw [ft2_c6R c i arg6 arg7 arg8 arg9 arg10 arg11 arg12 arg13 fh0 fh1 fh2 fh3 f j hf hj, ft1_c6R c i arg6 arg7 arg8 arg9 arg10 arg11 arg12 arg13 fh0 fh1 fh2 fh3 f j hf hj, ft0_c6R c i arg6 arg7 arg8 arg9 arg10 arg11 arg12 arg13 fh0 fh1 fh2 fh3 f j hf hj, fz_c6R c i arg6 arg7 arg8 arg9 arg10 arg11 arg12 arg13 fh0 fh1 fh2 fh3 f j hf hj]
  rfl

/-- The frame-sum buffer after it is cleared: zero on columns below 512. -/
theorem oz_c6R (f j : ℕ) (hf : f < 257) (hj : j < 512) :
    sem arg12.view (kernelRun0_A.sl.HS6_37 (F := Ideal) c i arg6 arg7 arg8 arg9 arg10 arg12 fh0 fh1 fh2 fh3) f j = 0 := by
  simp (disch := omega) only [kernelRun0_A.sl.HS6_37, k0_pay168, sem_cons_in, sem_whole, at2_shapeCast_self, at2_addf, at2_subf, at2_mulf, at2_slice_in, at2_readCov_in, at2_broadcast_in]
  exact Ideal.ofBits_zero_f32

/-- Frame tap -2: columns 0 … 511 gain the bin sums of padded column `3072 + j`; on a skipped column that padded column is off the array, so its bin sums are zero. -/
theorem ot0_c6R (f j : ℕ) (hf : f < 257) (hj : j < 512) :
    sem arg12.view (kernelRun0_A.sl.HS6_38 (F := Ideal) c i arg6 arg7 arg8 arg9 arg10 arg12 fh0 fh1 fh2 fh3) f j
      = sem arg12.view (kernelRun0_A.sl.HS6_37 (F := Ideal) c i arg6 arg7 arg8 arg9 arg10 arg12 fh0 fh1 fh2 fh3) f j + Cert.DeepFilter.colR fh0 fh1 fh2 fh3 (bat i) f (3072 + j) := by
  by_cases hin : 0 ≤ j ∧ j < 0 + 512
  · simp (disch := omega) only [kernelRun0_A.sl.HS6_38, kernelRun0_A.sl.v860, kernelRun0_A.sl.v861, k0_pay170, sem_cons_in, sem_whole, at2_shapeCast_self, at2_addf, at2_subf, at2_mulf, at2_slice_in, at2_readCov_in, at2_broadcast_in]
    simp (disch := omega) only [Nat.zero_add, Nat.sub_zero, Nat.add_zero, fsum_c6R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_38, sem_cons_out])

/-- Frame tap -1: columns 0 … 511 gain the bin sums of padded column `3072 + j + 1`; on a skipped column that padded column is off the array, so its bin sums are zero. -/
theorem ot1_c6R (f j : ℕ) (hf : f < 257) (hj : j < 512) :
    sem arg12.view (kernelRun0_A.sl.HS6_39 (F := Ideal) c i arg6 arg7 arg8 arg9 arg10 arg12 fh0 fh1 fh2 fh3) f j
      = sem arg12.view (kernelRun0_A.sl.HS6_38 (F := Ideal) c i arg6 arg7 arg8 arg9 arg10 arg12 fh0 fh1 fh2 fh3) f j + Cert.DeepFilter.colR fh0 fh1 fh2 fh3 (bat i) f (3072 + j + 1) := by
  by_cases hin : 0 ≤ j ∧ j < 0 + 512
  · simp (disch := omega) only [kernelRun0_A.sl.HS6_39, kernelRun0_A.sl.v872, kernelRun0_A.sl.v873, k0_pay172, sem_cons_in, sem_whole, at2_shapeCast_self, at2_addf, at2_subf, at2_mulf, at2_slice_in, at2_readCov_in, at2_broadcast_in]
    simp (disch := omega) only [Nat.zero_add, Nat.sub_zero, Nat.add_zero, fsum_c6R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_39, sem_cons_out])

/-- Frame tap 0: columns 0 … 511 gain the bin sums of padded column `3072 + j + 2`; on a skipped column that padded column is off the array, so its bin sums are zero. -/
theorem ot2_c6R (f j : ℕ) (hf : f < 257) (hj : j < 512) :
    sem arg12.view (kernelRun0_A.sl.HS6_40 (F := Ideal) c i arg6 arg7 arg8 arg9 arg10 arg12 fh0 fh1 fh2 fh3) f j
      = sem arg12.view (kernelRun0_A.sl.HS6_39 (F := Ideal) c i arg6 arg7 arg8 arg9 arg10 arg12 fh0 fh1 fh2 fh3) f j + Cert.DeepFilter.colR fh0 fh1 fh2 fh3 (bat i) f (3072 + j + 2) := by
  by_cases hin : 0 ≤ j ∧ j < 0 + 512
  · simp (disch := omega) only [kernelRun0_A.sl.HS6_40, kernelRun0_A.sl.v884, kernelRun0_A.sl.v885, k0_pay174, sem_cons_in, sem_whole, at2_shapeCast_self, at2_addf, at2_subf, at2_mulf, at2_slice_in, at2_readCov_in, at2_broadcast_in]
    simp (disch := omega) only [Nat.zero_add, Nat.sub_zero, Nat.add_zero, fsum_c6R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_40, sem_cons_out])

/-- Frame tap 1: columns 0 … 511 gain the bin sums of padded column `3072 + j + 3`; on a skipped column that padded column is off the array, so its bin sums are zero. -/
theorem ot3_c6R (f j : ℕ) (hf : f < 257) (hj : j < 512) :
    sem arg12.view (kernelRun0_A.sl.HS6_41 (F := Ideal) c i arg6 arg7 arg8 arg9 arg10 arg12 fh0 fh1 fh2 fh3) f j
      = sem arg12.view (kernelRun0_A.sl.HS6_40 (F := Ideal) c i arg6 arg7 arg8 arg9 arg10 arg12 fh0 fh1 fh2 fh3) f j + Cert.DeepFilter.colR fh0 fh1 fh2 fh3 (bat i) f (3072 + j + 3) := by
  by_cases hin : 0 ≤ j ∧ j < 0 + 512
  · simp (disch := omega) only [kernelRun0_A.sl.HS6_41, kernelRun0_A.sl.v896, kernelRun0_A.sl.v897, k0_pay176, sem_cons_in, sem_whole, at2_shapeCast_self, at2_addf, at2_subf, at2_mulf, at2_slice_in, at2_readCov_in, at2_broadcast_in]
    simp (disch := omega) only [Nat.zero_add, Nat.sub_zero, Nat.add_zero, fsum_c6R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_41, sem_cons_out])

/-- Frame tap 2: columns 0 … 511 gain the bin sums of padded column `3072 + j + 4`; on a skipped column that padded column is off the array, so its bin sums are zero. -/
theorem ot4_c6R (f j : ℕ) (hf : f < 257) (hj : j < 512) :
    sem arg12.view (kernelRun0_A.sl.HS6_42 (F := Ideal) c i arg6 arg7 arg8 arg9 arg10 arg12 fh0 fh1 fh2 fh3) f j
      = sem arg12.view (kernelRun0_A.sl.HS6_41 (F := Ideal) c i arg6 arg7 arg8 arg9 arg10 arg12 fh0 fh1 fh2 fh3) f j + Cert.DeepFilter.colR fh0 fh1 fh2 fh3 (bat i) f (3072 + j + 4) := by
  by_cases hin : 0 ≤ j ∧ j < 0 + 512
  · simp (disch := omega) only [kernelRun0_A.sl.HS6_42, kernelRun0_A.sl.v908, kernelRun0_A.sl.v909, k0_pay178, sem_cons_in, sem_whole, at2_shapeCast_self, at2_addf, at2_subf, at2_mulf, at2_slice_in, at2_readCov_in, at2_broadcast_in]
    simp (disch := omega) only [Nat.zero_add, Nat.sub_zero, Nat.add_zero, fsum_c6R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_42, sem_cons_out])

/-- After the five frame taps the buffer holds the 3 x 5 window sum of bin `f`, frame `3072 + j`. -/
theorem osum_c6R (f j : ℕ) (hf : f < 257) (hj : j < 512) :
    sem arg12.view (kernelRun0_A.sl.HS6_42 (F := Ideal) c i arg6 arg7 arg8 arg9 arg10 arg12 fh0 fh1 fh2 fh3) f j = Cert.DeepFilter.sumR fh0 fh1 fh2 fh3 (bat i) f (3072 + j) := by
  rw [ot4_c6R c i arg6 arg7 arg8 arg9 arg10 arg11 arg12 arg13 fh0 fh1 fh2 fh3 f j hf hj, ot3_c6R c i arg6 arg7 arg8 arg9 arg10 arg11 arg12 arg13 fh0 fh1 fh2 fh3 f j hf hj, ot2_c6R c i arg6 arg7 arg8 arg9 arg10 arg11 arg12 arg13 fh0 fh1 fh2 fh3 f j hf hj, ot1_c6R c i arg6 arg7 arg8 arg9 arg10 arg11 arg12 arg13 fh0 fh1 fh2 fh3 f j hf hj,
    ot0_c6R c i arg6 arg7 arg8 arg9 arg10 arg11 arg12 arg13 fh0 fh1 fh2 fh3 f j hf hj, oz_c6R c i arg6 arg7 arg8 arg9 arg10 arg11 arg12 arg13 fh0 fh1 fh2 fh3 f j hf hj]
  exact Cert.DeepFilter.sumR_of_cols _ _ _ _ _ _ _

/-- The payload stored into the output block for these frames: the window sums, laid out [1, 1, 257, 512]. -/
theorem piece_c6R (y : (⟨4, ![1, 1, 257, 512]⟩ : Shape).Idx) :
    k0_pay180 (kernelRun0_A.sl.v920 (F := Ideal) c i arg6 arg7 arg8 arg9 arg10 arg12 fh0 fh1 fh2 fh3) y = Cert.DeepFilter.sumR fh0 fh1 fh2 fh3 (bat i) (y 2).val (3072 + (y 3).val) := by
  have hf : (y 2).val < 257 := (y 2).isLt
  have hj : (y 3).val < 512 := (y 3).isLt
  simp only [k0_pay180]
  refine (shapeCast_addUnit2_apply (R := 257) (C := 512) _ _ y).trans ?_
  refine (at2_of_lt (R := 257) (C := 512) _ hf hj).symm.trans ?_
  simp (disch := omega) only [kernelRun0_A.sl.v920, at2_readCov_in]
  simp (disch := omega) only [Nat.zero_add, osum_c6R c i arg6 arg7 arg8 arg9 arg10 arg11 arg12 arg13 fh0 fh1 fh2 fh3]

end Cert.DeepFilter.Body

end
-- ==== Proof.BodyChunk6I.lean ====
/-
  Frames 3072 … 3583, imaginary plane: the body's stores into its two scratch buffers for this run of frames.

  The body first forms the product `(2 * ir) * fi` on the slab columns 3070 … 3585 (the run's frames and a halo of two
  on each side inside the array). A first buffer is cleared and gains, in three read-modify-write steps, the product
  one bin above, at, and one bin below each bin, a step leaving out the row whose neighbour is off the array. A second
  buffer is cleared and gains, in five steps, the first buffer two frames before … two frames after each frame, a step
  leaving out the frames whose neighbour is off the array. Read at natural coordinates each step is `new = old + source`
  on its rectangle and `new = old` off it, where the source is zero anyway because it lies on the zero padding; so the
  second buffer ends at the 3 x 5 window sum of the specification, and that is what the body stores into the output block.
-/
import proofs.«134051_j16587163697924_2_alg».proof.Proof.BodySlabs

noncomputable section

namespace Cert.DeepFilter.Body

open Idealize.ShloMosaic Idealize.ShloMosaic.ValueIdx Idealize.SL.Sem
open Cert.KernelIdeal Cert.KernelIdeal.Gen Cert.LibNatReads Cert.DeepFilter

variable (c : Dev nD) (i : grid0.Coords)
  (arg6 arg7 arg8 arg9 : Memref sig .tc .vmem S257x4000 .f32) (arg10 arg11 : Memref sig .tc .vmem S257x516 .f32)
  (arg12 arg13 : Memref sig .tc .vmem S257x512 .f32)
  (fh0 : HbBuf0 (F := Ideal) c hbM0_0) (fh1 : HbBuf0 (F := Ideal) c hbM0_1) (fh2 : HbBuf0 (F := Ideal) c hbM0_2) (fh3 : HbBuf0 (F := Ideal) c hbM0_3)

include c i arg6 arg7 arg8 arg9 arg10 arg11 arg12 arg13 fh0 fh1 fh2 fh3

/-- The bin-sum buffer after it is cleared: zero on columns below 516. -/
theorem fz_c6I (f j : ℕ) (hf : f < 257) (hj : j < 516) :
    sem arg11.view (kernelRun0_A.sl.HS5_25 (F := Ideal) c i arg6 arg9 arg11 fh0 fh3) f j = 0 := by
  simp (disch := omega) only [kernelRun0_A.sl.HS5_25, k0_pay160, sem_cons_in, sem_whole, at2_shapeCast_self, at2_addf, at2_subf, at2_mulf, at2_slice_in, at2_readCov_in, at2_broadcast_in]
  exact Ideal.ofBits_zero_f32

/-- Bin tap -1: rows 1 … 256 gain the product one padded row above; the skipped row's product is on the padding, so zero. -/
theorem ft0_c6I (f j : ℕ) (hf : f < 257) (hj : j < 516) :
    sem arg11.view (kernelRun0_A.sl.HS5_26 (F := Ideal) c i arg6 arg9 arg11 fh0 fh3) f j
      = sem arg11.view (kernelRun0_A.sl.HS5_25 (F := Ideal) c i arg6 arg9 arg11 fh0 fh3) f j + Cert.DeepFilter.prodI fh0 fh3 (bat i) (f) (3070 + j + 2) := by
  by_cases hin : 1 ≤ f ∧ f < 1 + 256
  ·
    obtain ⟨g, rfl⟩ : ∃ g, f = g + 1 := ⟨f - 1, by omega⟩
    rw [prodI_succ c i fh0 fh3]
    simp (disch := omega) only [kernelRun0_A.sl.HS5_26, kernelRun0_A.sl.v800, kernelRun0_A.sl.v803, kernelRun0_A.sl.v824, k0_pay162, k0_pay158, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_26, sem_cons_out])

/-- Bin tap 0: rows 0 … 256 gain the product one padded row at; the skipped row's product is on the padding, so zero. -/
theorem ft1_c6I (f j : ℕ) (hf : f < 257) (hj : j < 516) :
    sem arg11.view (kernelRun0_A.sl.HS5_27 (F := Ideal) c i arg6 arg9 arg11 fh0 fh3) f j
      = sem arg11.view (kernelRun0_A.sl.HS5_26 (F := Ideal) c i arg6 arg9 arg11 fh0 fh3) f j + Cert.DeepFilter.prodI fh0 fh3 (bat i) (f + 1) (3070 + j + 2) := by
  by_cases hin : 0 ≤ f ∧ f < 0 + 257
  ·
    rw [prodI_succ c i fh0 fh3]
    simp (disch := omega) only [kernelRun0_A.sl.HS5_27, kernelRun0_A.sl.r_25, kernelRun0_A.sl.v800, kernelRun0_A.sl.v803, kernelRun0_A.sl.v835, k0_pay165, k0_pay164, k0_pay158, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_27, sem_cons_out])

/-- Bin tap 1: rows 0 … 255 gain the product one padded row below; the skipped row's product is on the padding, so zero. -/
theorem ft2_c6I (f j : ℕ) (hf : f < 257) (hj : j < 516) :
    sem arg11.view (kernelRun0_A.sl.HS5_28 (F := Ideal) c i arg6 arg9 arg11 fh0 fh3) f j
      = sem arg11.view (kernelRun0_A.sl.HS5_27 (F := Ideal) c i arg6 arg9 arg11 fh0 fh3) f j + Cert.DeepFilter.prodI fh0 fh3 (bat i) (f + 1 + 1) (3070 + j + 2) := by
  by_cases hin : 0 ≤ f ∧ f < 0 + 256
  ·
    rw [prodI_succ c i fh0 fh3]
    simp (disch := omega) only [kernelRun0_A.sl.HS5_28, kernelRun0_A.sl.r_24, kernelRun0_A.sl.v800, kernelRun0_A.sl.v803, kernelRun0_A.sl.v846, k0_pay167, k0_pay158, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_28, sem_cons_out])

/-- After the three bin taps the buffer holds, at bin `f` and local column `j`, the three padded rows `f, f + 1, f + 2` of the product in padded column `3070 + j + 2`. -/
theorem fsum_c6I (f j : ℕ) (hf : f < 257) (hj : j < 516) :
    sem arg11.view (kernelRun0_A.sl.HS5_28 (F := Ideal) c i arg6 arg9 arg11 fh0 fh3) f j = Cert.DeepFilter.colI fh0 fh3 (bat i) f (3070 + j + 2) := by
  rw [ft2_c6I c i arg6 arg7 arg8 arg9 arg10 arg11 arg12 arg13 fh0 fh1 fh2 fh3 f j hf hj, ft1_c6I c i arg6 arg7 arg8 arg9 arg10 arg11 arg12 arg13 fh0 fh1 fh2 fh3 f j hf hj, ft0_c6I c i arg6 arg7 arg8 arg9 arg10 arg11 arg12 arg13 fh0 fh1 fh2 fh3 f j hf hj, fz_c6I c i arg6 arg7 arg8 arg9 arg10 arg11 arg12 arg13 fh0 fh1 fh2 fh3 f j hf hj]
  rfl

/-- The frame-sum buffer after it is cleared: zero on columns below 512. -/
theorem oz_c6I (f j : ℕ) (hf : f < 257) (hj : j < 512) :
    sem arg13.view (kernelRun0_A.sl.HS7_37 (F := Ideal) c i arg6 arg9 arg11 arg13 fh0 fh3) f j = 0 := by
  simp (disch := omega) only [kernelRun0_A.sl.HS7_37, k0_pay169, sem_cons_in, sem_whole, at2_shapeCast_self, at2_addf, at2_subf, at2_mulf, at2_slice_in, at2_readCov_in, at2_broadcast_in]
  exact Ideal.ofBits_zero_f32

/-- Frame tap -2: columns 0 … 511 gain the bin sums of padded column `3072 + j`; on a skipped column that padded column is off the array, so its bin sums are zero. -/
theorem ot0_c6I (f j : ℕ) (hf : f < 257) (hj : j < 512) :
    sem arg13.view (kernelRun0_A.sl.HS7_38 (F := Ideal) c i arg6 arg9 arg11 arg13 fh0 fh3) f j
      = sem arg13.view (kernelRun0_A.sl.HS7_37 (F := Ideal) c i arg6 arg9 arg11 arg13 fh0 fh3) f j + Cert.DeepFilter.colI fh0 fh3 (bat i) f (3072 + j) := by
  by_cases hin : 0 ≤ j ∧ j < 0 + 512
  · simp (disch := omega) only [kernelRun0_A.sl.HS7_38, kernelRun0_A.sl.v_1, kernelRun0_A.sl.v867, k0_pay171, sem_cons_in, sem_whole, at2_shapeCast_self, at2_addf, at2_subf, at2_mulf, at2_slice_in, at2_readCov_in, at2_broadcast_in]
    simp (disch := omega) only [Nat.zero_add, Nat.sub_zero, Nat.add_zero, fsum_c6I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_38, sem_cons_out])

/-- Frame tap -1: columns 0 … 511 gain the bin sums of padded column `3072 + j + 1`; on a skipped column that padded column is off the array, so its bin sums are zero. -/
theorem ot1_c6I (f j : ℕ) (hf : f < 257) (hj : j < 512) :
    sem arg13.view (kernelRun0_A.sl.HS7_39 (F := Ideal) c i arg6 arg9 arg11 arg13 fh0 fh3) f j
      = sem arg13.view (kernelRun0_A.sl.HS7_38 (F := Ideal) c i arg6 arg9 arg11 arg13 fh0 fh3) f j + Cert.DeepFilter.colI fh0 fh3 (bat i) f (3072 + j + 1) := by
  by_cases hin : 0 ≤ j ∧ j < 0 + 512
  · simp (disch := omega) only [kernelRun0_A.sl.HS7_39, kernelRun0_A.sl.v878, kernelRun0_A.sl.v879, k0_pay173, sem_cons_in, sem_whole, at2_shapeCast_self, at2_addf, at2_subf, at2_mulf, at2_slice_in, at2_readCov_in, at2_broadcast_in]
    simp (disch := omega) only [Nat.zero_add, Nat.sub_zero, Nat.add_zero, fsum_c6I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_39, sem_cons_out])

/-- Frame tap 0: columns 0 … 511 gain the bin sums of padded column `3072 + j + 2`; on a skipped column that padded column is off the array, so its bin sums are zero. -/
theorem ot2_c6I (f j : ℕ) (hf : f < 257) (hj : j < 512) :
    sem arg13.view (kernelRun0_A.sl.HS7_40 (F := Ideal) c i arg6 arg9 arg11 arg13 fh0 fh3) f j
      = sem arg13.view (kernelRun0_A.sl.HS7_39 (F := Ideal) c i arg6 arg9 arg11 arg13 fh0 fh3) f j + Cert.DeepFilter.colI fh0 fh3 (bat i) f (3072 + j + 2) := by
  by_cases hin : 0 ≤ j ∧ j < 0 + 512
  · simp (disch := omega) only [kernelRun0_A.sl.HS7_40, kernelRun0_A.sl.v890, kernelRun0_A.sl.v891, k0_pay175, sem_cons_in, sem_whole, at2_shapeCast_self, at2_addf, at2_subf, at2_mulf, at2_slice_in, at2_readCov_in, at2_broadcast_in]
    simp (disch := omega) only [Nat.zero_add, Nat.sub_zero, Nat.add_zero, fsum_c6I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_40, sem_cons_out])

/-- Frame tap 1: columns 0 … 511 gain the bin sums of padded column `3072 + j + 3`; on a skipped column that padded column is off the array, so its bin sums are zero. -/
theorem ot3_c6I (f j : ℕ) (hf : f < 257) (hj : j < 512) :
    sem arg13.view (kernelRun0_A.sl.HS7_41 (F := Ideal) c i arg6 arg9 arg11 arg13 fh0 fh3) f j
      = sem arg13.view (kernelRun0_A.sl.HS7_40 (F := Ideal) c i arg6 arg9 arg11 arg13 fh0 fh3) f j + Cert.DeepFilter.colI fh0 fh3 (bat i) f (3072 + j + 3) := by
  by_cases hin : 0 ≤ j ∧ j < 0 + 512
  · simp (disch := omega) only [kernelRun0_A.sl.HS7_41, kernelRun0_A.sl.v902, kernelRun0_A.sl.v903, k0_pay177, sem_cons_in, sem_whole, at2_shapeCast_self, at2_addf, at2_subf, at2_mulf, at2_slice_in, at2_readCov_in, at2_broadcast_in]
    simp (disch := omega) only [Nat.zero_add, Nat.sub_zero, Nat.add_zero, fsum_c6I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_41, sem_cons_out])

/-- Frame tap 2: columns 0 … 511 gain the bin sums of padded column `3072 + j + 4`; on a skipped column that padded column is off the array, so its bin sums are zero. -/
theorem ot4_c6I (f j : ℕ) (hf : f < 257) (hj : j < 512) :
    sem arg13.view (kernelRun0_A.sl.HS7_42 (F := Ideal) c i arg6 arg9 arg11 arg13 fh0 fh3) f j
      = sem arg13.view (kernelRun0_A.sl.HS7_41 (F := Ideal) c i arg6 arg9 arg11 arg13 fh0 fh3) f j + Cert.DeepFilter.colI fh0 fh3 (bat i) f (3072 + j + 4) := by
  by_cases hin : 0 ≤ j ∧ j < 0 + 512
  · simp (disch := omega) only [kernelRun0_A.sl.HS7_42, kernelRun0_A.sl.v914, kernelRun0_A.sl.v915, k0_pay179, sem_cons_in, sem_whole, at2_shapeCast_self, at2_addf, at2_subf, at2_mulf, at2_slice_in, at2_readCov_in, at2_broadcast_in]
    simp (disch := omega) only [Nat.zero_add, Nat.sub_zero, Nat.add_zero, fsum_c6I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_42, sem_cons_out])

/-- After the five frame taps the buffer holds the 3 x 5 window sum of bin `f`, frame `3072 + j`. -/
theorem osum_c6I (f j : ℕ) (hf : f < 257) (hj : j < 512) :
    sem arg13.view (kernelRun0_A.sl.HS7_42 (F := Ideal) c i arg6 arg9 arg11 arg13 fh0 fh3) f j = Cert.DeepFilter.sumI fh0 fh3 (bat i) f (3072 + j) := by
  rw [ot4_c6I c i arg6 arg7 arg8 arg9 arg10 arg11 arg12 arg13 fh0 fh1 fh2 fh3 f j hf hj, ot3_c6I c i arg6 arg7 arg8 arg9 arg10 arg11 arg12 arg13 fh0 fh1 fh2 fh3 f j hf hj, ot2_c6I c i arg6 arg7 arg8 arg9 arg10 arg11 arg12 arg13 fh0 fh1 fh2 fh3 f j hf hj, ot1_c6I c i arg6 arg7 arg8 arg9 arg10 arg11 arg12 arg13 fh0 fh1 fh2 fh3 f j hf hj,
    ot0_c6I c i arg6 arg7 arg8 arg9 arg10 arg11 arg12 arg13 fh0 fh1 fh2 fh3 f j hf hj, oz_c6I c i arg6 arg7 arg8 arg9 arg10 arg11 arg12 arg13 fh0 fh1 fh2 fh3 f j hf hj]
  exact Cert.DeepFilter.sumI_of_cols _ _ _ _ _

/-- The payload stored into the output block for these frames: the window sums, laid out [1, 1, 257, 512]. -/
theorem piece_c6I (y : (⟨4, ![1, 1, 257, 512]⟩ : Shape).Idx) :
    k0_pay181 (kernelRun0_A.sl.v924 (F := Ideal) c i arg6 arg9 arg11 arg13 fh0 fh3) y = Cert.DeepFilter.sumI fh0 fh3 (bat i) (y 2).val (3072 + (y 3).val) := by
  have hf : (y 2).val < 257 := (y 2).isLt
  have hj : (y 3).val < 512 := (y 3).isLt
  simp only [k0_pay181]
  refine (shapeCast_addUnit2_apply (R := 257) (C := 512) _ _ y).trans ?_
  refine (at2_of_lt (R := 257) (C := 512) _ hf hj).symm.trans ?_
  simp (disch := omega) only [kernelRun0_A.sl.v924, at2_readCov_in]
  simp (disch := omega) only [Nat.zero_add, osum_c6I c i arg6 arg7 arg8 arg9 arg10 arg11 arg12 arg13 fh0 fh1 fh2 fh3]

end Cert.DeepFilter.Body

end
-- ==== Proof.BodyChunk7R.lean ====
/-
  Frames 3584 … 3999, real plane: the body's stores into its two scratch buffers for this run of frames.

  The body first forms the product `ir * fr - ii * fi` on the slab columns 3582 … 3999 (the run's frames and a halo of two
  on each side inside the array). A first buffer is cleared and gains, in three read-modify-write steps, the product
  one bin above, at, and one bin below each bin, a step leaving out the row whose neighbour is off the array. A second
  buffer is cleared and gains, in five steps, the first buffer two frames before … two frames after each frame, a step
  leaving out the frames whose neighbour is off the array. Read at natural coordinates each step is `new = old + source`
  on its rectangle and `new = old` off it, where the source is zero anyway because it lies on the zero padding; so the
  second buffer ends at the 3 x 5 window sum of the specification, and that is what the body stores into the output block.
-/
import proofs.«134051_j16587163697924_2_alg».proof.Proof.BodySlabs

noncomputable section

namespace Cert.DeepFilter.Body

open Idealize.ShloMosaic Idealize.ShloMosaic.ValueIdx Idealize.SL.Sem
open Cert.KernelIdeal Cert.KernelIdeal.Gen Cert.LibNatReads Cert.DeepFilter

variable (c : Dev nD) (i : grid0.Coords)
  (arg6 arg7 arg8 arg9 : Memref sig .tc .vmem S257x4000 .f32) (arg10 arg11 : Memref sig .tc .vmem S257x516 .f32)
  (arg12 arg13 : Memref sig .tc .vmem S257x512 .f32)
  (fh0 : HbBuf0 (F := Ideal) c hbM0_0) (fh1 : HbBuf0 (F := Ideal) c hbM0_1) (fh2 : HbBuf0 (F := Ideal) c hbM0_2) (fh3 : HbBuf0 (F := Ideal) c hbM0_3)

include c i arg6 arg7 arg8 arg9 arg10 arg11 arg12 arg13 fh0 fh1 fh2 fh3

/-- The bin-sum buffer after it is cleared: zero on columns below 418. -/
theorem fz_c7R (f j : ℕ) (hf : f < 257) (hj : j < 418) :
    sem arg10.view (kernelRun0_A.sl.HS4_29 (F := Ideal) c i arg6 arg7 arg8 arg9 arg10 fh0 fh1 fh2 fh3) f j = 0 := by
  simp (disch := omega) only [kernelRun0_A.sl.HS4_29, k0_pay184, sem_cons_in, sem_whole, at2_shapeCast_self, at2_addf, at2_subf, at2_mulf, at2_slice_in, at2_readCov_in, at2_broadcast_in]
  exact Ideal.ofBits_zero_f32

/-- Bin tap -1: rows 1 … 256 gain the product one padded row above; the skipped row's product is on the padding, so zero. -/
theorem ft0_c7R (f j : ℕ) (hf : f < 257) (hj : j < 418) :
    sem arg10.view (kernelRun0_A.sl.HS4_30 (F := Ideal) c i arg6 arg7 arg8 arg9 arg10 fh0 fh1 fh2 fh3) f j
      = sem arg10.view (kernelRun0_A.sl.HS4_29 (F := Ideal) c i arg6 arg7 arg8 arg9 arg10 fh0 fh1 fh2 fh3) f j + Cert.DeepFilter.prodR fh0 fh1 fh2 fh3 (bat i) (f) (3582 + j + 2) := by
  by_cases hin : 1 ≤ f ∧ f < 1 + 256
  ·
    obtain ⟨g, rfl⟩ : ∃ g, f = g + 1 := ⟨f - 1, by omega⟩
    rw [prodR_succ c i fh0 fh1 fh2 fh3]
    simp (disch := omega) only [kernelRun0_A.sl.HS4_30, kernelRun0_A.sl.v928, kernelRun0_A.sl.v929, kernelRun0_A.sl.v930, kernelRun0_A.sl.v931, kernelRun0_A.sl.v946, k0_pay186, k0_pay182, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_30, sem_cons_out])

/-- Bin tap 0: rows 0 … 256 gain the product one padded row at; the skipped row's product is on the padding, so zero. -/
theorem ft1_c7R (f j : ℕ) (hf : f < 257) (hj : j < 418) :
    sem arg10.view (kernelRun0_A.sl.HS4_31 (F := Ideal) c i arg6 arg7 arg8 arg9 arg10 fh0 fh1 fh2 fh3) f j
      = sem arg10.view (kernelRun0_A.sl.HS4_30 (F := Ideal) c i arg6 arg7 arg8 arg9 arg10 fh0 fh1 fh2 fh3) f j + Cert.DeepFilter.prodR fh0 fh1 fh2 fh3 (bat i) (f + 1) (3582 + j + 2) := by
  by_cases hin : 0 ≤ f ∧ f < 0 + 257
  ·
    rw [prodR_succ c i fh0 fh1 fh2 fh3]
    simp (disch := omega) only [kernelRun0_A.sl.HS4_31, kernelRun0_A.sl.r_26, kernelRun0_A.sl.v928, kernelRun0_A.sl.v929, kernelRun0_A.sl.v930, kernelRun0_A.sl.v931, kernelRun0_A.sl.v958, k0_pay188, k0_pay182, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_31, sem_cons_out])

/-- Bin tap 1: rows 0 … 255 gain the product one padded row below; the skipped row's product is on the padding, so zero. -/
theorem ft2_c7R (f j : ℕ) (hf : f < 257) (hj : j < 418) :
    sem arg10.view (kernelRun0_A.sl.HS4_32 (F := Ideal) c i arg6 arg7 arg8 arg9 arg10 fh0 fh1 fh2 fh3) f j
      = sem arg10.view (kernelRun0_A.sl.HS4_31 (F := Ideal) c i arg6 arg7 arg8 arg9 arg10 fh0 fh1 fh2 fh3) f j + Cert.DeepFilter.prodR fh0 fh1 fh2 fh3 (bat i) (f + 1 + 1) (3582 + j + 2) := by
  by_cases hin : 0 ≤ f ∧ f < 0 + 256
  ·
    rw [prodR_succ c i fh0 fh1 fh2 fh3]
    simp (disch := omega) only [kernelRun0_A.sl.HS4_32, kernelRun0_A.sl.r_26, kernelRun0_A.sl.v928, kernelRun0_A.sl.v929, kernelRun0_A.sl.v930, kernelRun0_A.sl.v931, kernelRun0_A.sl.v968, k0_pay190, k0_pay182, sem_cons_in, sem_whole, at2_shapeCast_self, at2_addf, at2_subf, at2_mulf, at2_slice_in, at2_readCov_in, at2_broadcast_in, Ideal.ofBits_def]
    all_goals exact add_congr (sem_congr _ _ (by omega) (by omega)) (prod4_congr (at2_congr _ (by omega) (by omega)) (at2_congr _ (by omega) (by omega)) (at2_congr _ (by omega) (by omega)) (at2_congr _ (by omega) (by omega)))
  ·
    first
      | (exfalso; omega)
      | (rw [Cert.DeepFilter.prodR_out _ _ _ _ _ _ _ (by omega), add_zero]
         simp (disch := omega) only [kernelRun0_A.sl.HS4_32, sem_cons_out])

/-- After the three bin taps the buffer holds, at bin `f` and local column `j`, the three padded rows `f, f + 1, f + 2` of the product in padded column `3582 + j + 2`. -/
theorem fsum_c7R (f j : ℕ) (hf : f < 257) (hj : j < 418) :
    sem arg10.view (kernelRun0_A.sl.HS4_32 (F := Ideal) c i arg6 arg7 arg8 arg9 arg10 fh0 fh1 fh2 fh3) f j = Cert.DeepFilter.colR fh0 fh1 fh2 fh3 (bat i) f (3582 + j + 2) := by
  rw [ft2_c7R c i arg6 arg7 arg8 arg9 arg10 arg11 arg12 arg13 fh0 fh1 fh2 fh3 f j hf hj, ft1_c7R c i arg6 arg7 arg8 arg9 arg10 arg11 arg12 arg13 fh0 fh1 fh2 fh3 f j hf hj, ft0_c7R c i arg6 arg7 arg8 arg9 arg10 arg11 arg12 arg13 fh0 fh1 fh2 fh3 f j hf hj, fz_c7R c i arg6 arg7 arg8 arg9 arg10 arg11 arg12 arg13 fh0 fh1 fh2 fh3 f j hf hj]
  rfl

/-- The frame-sum buffer after it is cleared: zero on columns below 416. -/
theorem oz_c7R (f j : ℕ) (hf : f < 257) (hj : j < 416) :
    sem arg12.view (kernelRun0_A.sl.HS6_43 (F := Ideal) c i arg6 arg7 arg8 arg9 arg10 arg12 fh0 fh1 fh2 fh3) f j = 0 := by
  simp (disch := omega) only [kernelRun0_A.sl.HS6_43, k0_pay192, sem_cons_in, sem_whole, at2_shapeCast_self, at2_addf, at2_subf, at2_mulf, at2_slice_in, at2_readCov_in, at2_broadcast_in]
  exact Ideal.ofBits_zero_f32

/-- Frame tap -2: columns 0 … 415 gain the bin sums of padded column `3584 + j`; on a skipped column that padded column is off the array, so its bin sums are zero. -/
theorem ot0_c7R (f j : ℕ) (hf : f < 257) (hj : j < 416) :
    sem arg12.view (kernelRun0_A.sl.HS6_44 (F := Ideal) c i arg6 arg7 arg8 arg9 arg10 arg12 fh0 fh1 fh2 fh3) f j
      = sem arg12.view (kernelRun0_A.sl.HS6_43 (F := Ideal) c i arg6 arg7 arg8 arg9 arg10 arg12 fh0 fh1 fh2 fh3) f j + Cert.DeepFilter.colR fh0 fh1 fh2 fh3 (bat i) f (3584 + j) := by
  by_cases hin : 0 ≤ j ∧ j < 0 + 416
  · simp (disch := omega) only [kernelRun0_A.sl.HS6_44, kernelRun0_A.sl.v988, kernelRun0_A.sl.v989, k0_pay194, sem_cons_in, sem_whole, at2_shapeCast_self, at2_addf, at2_subf, at2_mulf, at2_slice_in, at2_readCov_in, at2_broadcast_in]
    simp (disch := omega) only [Nat.zero_add, Nat.sub_zero, Nat.add_zero, fsum_c7R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_44, sem_cons_out])

/-- Frame tap -1: columns 0 … 415 gain the bin sums of padded column `3584 + j + 1`; on a skipped column that padded column is off the array, so its bin sums are zero. -/
theorem ot1_c7R (f j : ℕ) (hf : f < 257) (hj : j < 416) :
    sem arg12.view (kernelRun0_A.sl.HS6_45 (F := Ideal) c i arg6 arg7 arg8 arg9 arg10 arg12 fh0 fh1 fh2 fh3) f j
      = sem arg12.view (kernelRun0_A.sl.HS6_44 (F := Ideal) c i arg6 arg7 arg8 arg9 arg10 arg12 fh0 fh1 fh2 fh3) f j + Cert.DeepFilter.colR fh0 fh1 fh2 fh3 (bat i) f (3584 + j + 1) := by
  by_cases hin : 0 ≤ j ∧ j < 0 + 416
  · simp (disch := omega) only [kernelRun0_A.sl.HS6_45, kernelRun0_A.sl.v1000, kernelRun0_A.sl.v1001, k0_pay196, sem_cons_in, sem_whole, at2_shapeCast_self, at2_addf, at2_subf, at2_mulf, at2_slice_in, at2_readCov_in, at2_broadcast_in]
    simp (disch := omega) only [Nat.zero_add, Nat.sub_zero, Nat.add_zero, fsum_c7R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_45, sem_cons_out])

/-- Frame tap 0: columns 0 … 415 gain the bin sums of padded column `3584 + j + 2`; on a skipped column that padded column is off the array, so its bin sums are zero. -/
theorem ot2_c7R (f j : ℕ) (hf : f < 257) (hj : j < 416) :
    sem arg12.view (kernelRun0_A.sl.HS6_46 (F := Ideal) c i arg6 arg7 arg8 arg9 arg10 arg12 fh0 fh1 fh2 fh3) f j
      = sem arg12.view (kernelRun0_A.sl.HS6_45 (F := Ideal) c i arg6 arg7 arg8 arg9 arg10 arg12 fh0 fh1 fh2 fh3) f j + Cert.DeepFilter.colR fh0 fh1 fh2 fh3 (bat i) f (3584 + j + 2) := by
  by_cases hin : 0 ≤ j ∧ j < 0 + 416
  · simp (disch := omega) only [kernelRun0_A.sl.HS6_46, kernelRun0_A.sl.v1012, kernelRun0_A.sl.v1013, k0_pay198, sem_cons_in, sem_whole, at2_shapeCast_self, at2_addf, at2_subf, at2_mulf, at2_slice_in, at2_readCov_in, at2_broadcast_in]
    simp (disch := omega) only [Nat.zero_add, Nat.sub_zero, Nat.add_zero, fsum_c7R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_46, sem_cons_out])

/-- Frame tap 1: columns 0 … 414 gain the bin sums of padded column `3584 + j + 3`; on a skipped column that padded column is off the array, so its bin sums are zero. -/
theorem ot3_c7R (f j : ℕ) (hf : f < 257) (hj : j < 416) :
    sem arg12.view (kernelRun0_A.sl.HS6_47 (F := Ideal) c i arg6 arg7 arg8 arg9 arg10 arg12 fh0 fh1 fh2 fh3) f j
      = sem arg12.view (kernelRun0_A.sl.HS6_46 (F := Ideal) c i arg6 arg7 arg8 arg9 arg10 arg12 fh0 fh1 fh2 fh3) f j + Cert.DeepFilter.colR fh0 fh1 fh2 fh3 (bat i) f (3584 + j + 3) := by
  by_cases hin : 0 ≤ j ∧ j < 0 + 415
  · simp (disch := omega) only [kernelRun0_A.sl.HS6_47, kernelRun0_A.sl.v1024, kernelRun0_A.sl.v1025, k0_pay200, sem_cons_in, sem_whole, at2_shapeCast_self, at2_addf, at2_subf, at2_mulf, at2_slice_in, at2_readCov_in, at2_broadcast_in]
    simp (disch := omega) only [Nat.zero_add, Nat.sub_zero, Nat.add_zero, fsum_c7R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_47, sem_cons_out])

/-- Frame tap 2: columns 0 … 413 gain the bin sums of padded column `3584 + j + 4`; on a skipped column that padded column is off the array, so its bin sums are zero. -/
theorem ot4_c7R (f j : ℕ) (hf : f < 257) (hj : j < 416) :
    sem arg12.view (kernelRun0_A.sl.HS6_48 (F := Ideal) c i arg6 arg7 arg8 arg9 arg10 arg12 fh0 fh1 fh2 fh3) f j
      = sem arg12.view (kernelRun0_A.sl.HS6_47 (F := Ideal) c i arg6 arg7 arg8 arg9 arg10 arg12 fh0 fh1 fh2 fh3) f j + Cert.DeepFilter.colR fh0 fh1 fh2 fh3 (bat i) f (3584 + j + 4) := by
  by_cases hin : 0 ≤ j ∧ j < 0 + 414
  · simp (disch := omega) only [kernelRun0_A.sl.HS6_48, kernelRun0_A.sl.r_29, kernelRun0_A.sl.v1036, kernelRun0_A.sl.v1037, k0_pay203, k0_pay202, sem_cons_in, sem_whole, at2_shapeCast_self, at2_addf, at2_subf, at2_mulf, at2_slice_in, at2_readCov_in, at2_broadcast_in]
    simp (disch := omega) only [Nat.zero_add, Nat.sub_zero, Nat.add_zero, fsum_c7R c i arg6 arg7 arg8 arg9 arg10 arg11 arg12 arg13 fh0 fh1 fh2 fh3]
    all_goals exact add_congr (sem_congr _ _ (by omega) (by omega)) (congrArg (Cert.DeepFilter.colR fh0 fh1 fh2 fh3 (bat i) f) (by omega))
  · first
      | (exfalso; omega)
      | (rw [Cert.DeepFilter.colR_out _ _ _ _ _ _ _ (by omega), add_zero]
         simp (disch := omega) only [kernelRun0_A.sl.HS6_48, sem_cons_out])

/-- After the five frame taps the buffer holds the 3 x 5 window sum of bin `f`, frame `3584 + j`. -/
theorem osum_c7R (f j : ℕ) (hf : f < 257) (hj : j < 416) :
    sem arg12.view (kernelRun0_A.sl.HS6_48 (F := Ideal) c i arg6 arg7 arg8 arg9 arg10 arg12 fh0 fh1 fh2 fh3) f j = Cert.DeepFilter.sumR fh0 fh1 fh2 fh3 (bat i) f (3584 + j) := by
  rw [ot4_c7R c i arg6 arg7 arg8 arg9 arg10 arg11 arg12 arg13 fh0 fh1 fh2 fh3 f j hf hj, ot3_c7R c i arg6 arg7 arg8 arg9 arg10 arg11 arg12 arg13 fh0 fh1 fh2 fh3 f j hf hj, ot2_c7R c i arg6 arg7 arg8 arg9 arg10 arg11 arg12 arg13 fh0 fh1 fh2 fh3 f j hf hj, ot1_c7R c i arg6 arg7 arg8 arg9 arg10 arg11 arg12 arg13 fh0 fh1 fh2 fh3 f j hf hj,
    ot0_c7R c i arg6 arg7 arg8 arg9 arg10 arg11 arg12 arg13 fh0 fh1 fh2 fh3 f j hf hj, oz_c7R c i arg6 arg7 arg8 arg9 arg10 arg11 arg12 arg13 fh0 fh1 fh2 fh3 f j hf hj]
  exact Cert.DeepFilter.sumR_of_cols _ _ _ _ _ _ _

/-- The payload stored into the output block for these frames: the window sums, laid out [1, 1, 257, 416]. -/
theorem piece_c7R (y : (⟨4, ![1, 1, 257, 416]⟩ : Shape).Idx) :
    k0_pay1 (kernelRun0_A.sl.v_2 (F := Ideal) c i arg6 arg7 arg8 arg9 arg10 arg12 fh0 fh1 fh2 fh3) y = Cert.DeepFilter.sumR fh0 fh1 fh2 fh3 (bat i) (y 2).val (3584 + (y 3).val) := by
  have hf : (y 2).val < 257 := (y 2).isLt
  have hj : (y 3).val < 416 := (y 3).isLt
  simp only [k0_pay1]
  refine (shapeCast_addUnit2_apply (R := 257) (C := 416) _ _ y).trans ?_
  refine (at2_of_lt (R := 257) (C := 416) _ hf hj).symm.trans ?_
  simp (disch := omega) only [kernelRun0_A.sl.v_2, at2_readCov_in]
  simp (disch := omega) only [Nat.zero_add, osum_c7R c i arg6 arg7 arg8 arg9 arg10 arg11 arg12 arg13 fh0 fh1 fh2 fh3]

end Cert.DeepFilter.Body

end
-- ==== Proof.BodyChunk7I.lean ====
/-
  Frames 3584 … 3999, imaginary plane: the body's stores into its two scratch buffers for this run of frames.

  The body first forms the product `(2 * ir) * fi` on the slab columns 3582 … 3999 (the run's frames and a halo of two
  on each side inside the array). A first buffer is cleared and gains, in three read-modify-write steps, the product
  one bin above, at, and one bin below each bin, a step leaving out the row whose neighbour is off the array. A second
  buffer is cleared and gains, in five steps, the first buffer two frames before … two frames after each frame, a step
  leaving out the frames whose neighbour is off the array. Read at natural coordinates each step is `new = old + source`
  on its rectangle and `new = old` off it, where the source is zero anyway because it lies on the zero padding; so the
  second buffer ends at the 3 x 5 window sum of the specification, and that is what the body stores into the output block.
-/
import proofs.«134051_j16587163697924_2_alg».proof.Proof.BodySlabs

noncomputable section

namespace Cert.DeepFilter.Body

open Idealize.ShloMosaic Idealize.ShloMosaic.ValueIdx Idealize.SL.Sem
open Cert.KernelIdeal Cert.KernelIdeal.Gen Cert.LibNatReads Cert.DeepFilter

variable (c : Dev nD) (i : grid0.Coords)
  (arg6 arg7 arg8 arg9 : Memref sig .tc .vmem S257x4000 .f32) (arg10 arg11 : Memref sig .tc .vmem S257x516 .f32)
  (arg12 arg13 : Memref sig .tc .vmem S257x512 .f32)
  (fh0 : HbBuf0 (F := Ideal) c hbM0_0) (fh1 : HbBuf0 (F := Ideal) c hbM0_1) (fh2 : HbBuf0 (F := Ideal) c hbM0_2) (fh3 : HbBuf0 (F := Ideal) c hbM0_3)

include c i arg6 arg7 arg8 arg9 arg10 arg11 arg12 arg13 fh0 fh1 fh2 fh3

/-- The bin-sum buffer after it is cleared: zero on columns below 418. -/
theorem fz_c7I (f j : ℕ) (hf : f < 257) (hj : j < 418) :
    sem arg11.view (kernelRun0_A.sl.HS5_29 (F := Ideal) c i arg6 arg9 arg11 fh0 fh3) f j = 0 := by
  simp (disch := omega) only [kernelRun0_A.sl.HS5_29, k0_pay185, sem_cons_in, sem_whole, at2_shapeCast_self, at2_addf, at2_subf, at2_mulf, at2_slice_in, at2_readCov_in, at2_broadcast_in]
  exact Ideal.ofBits_zero_f32

/-- Bin tap -1: rows 1 … 256 gain the product one padded row above; the skipped row's product is on the padding, so zero. -/
theorem ft0_c7I (f j : ℕ) (hf : f < 257) (hj : j < 418) :
    sem arg11.view (kernelRun0_A.sl.HS5_30 (F := Ideal) c i arg6 arg9 arg11 fh0 fh3) f j
      = sem arg11.view (kernelRun0_A.sl.HS5_29 (F := Ideal) c i arg6 arg9 arg11 fh0 fh3) f j + Cert.DeepFilter.prodI fh0 fh3 (bat i) (f) (3582 + j + 2) := by
  by_cases hin : 1 ≤ f ∧ f < 1 + 256
  ·
    obtain ⟨g, rfl⟩ : ∃ g, f = g + 1 := ⟨f - 1, by omega⟩
    rw [prodI_succ c i fh0 fh3]
    simp (disch := omega) only [kernelRun0_A.sl.HS5_30, kernelRun0_A.sl.r_27, kernelRun0_A.sl.v928, kernelRun0_A.sl.v931, kernelRun0_A.sl.v952, k0_pay187, k0_pay183, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_30, sem_cons_out])

/-- Bin tap 0: rows 0 … 256 gain the product one padded row at; the skipped row's product is on the padding, so zero. -/
theorem ft1_c7I (f j : ℕ) (hf : f < 257) (hj : j < 418) :
    sem arg11.view (kernelRun0_A.sl.HS5_31 (F := Ideal) c i arg6 arg9 arg11 fh0 fh3) f j
      = sem arg11.view (kernelRun0_A.sl.HS5_30 (F := Ideal) c i arg6 arg9 arg11 fh0 fh3) f j + Cert.DeepFilter.prodI fh0 fh3 (bat i) (f + 1) (3582 + j + 2) := by
  by_cases hin : 0 ≤ f ∧ f < 0 + 257
  ·
    rw [prodI_succ c i fh0 fh3]
    simp (disch := omega) only [kernelRun0_A.sl.HS5_31, kernelRun0_A.sl.r_27, kernelRun0_A.sl.v928, kernelRun0_A.sl.v931, kernelRun0_A.sl.v963, k0_pay189, k0_pay183, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_31, sem_cons_out])

/-- Bin tap 1: rows 0 … 255 gain the product one padded row below; the skipped row's product is on the padding, so zero. -/
theorem ft2_c7I (f j : ℕ) (hf : f < 257) (hj : j < 418) :
    sem arg11.view (kernelRun0_A.sl.HS5_32 (F := Ideal) c i arg6 arg9 arg11 fh0 fh3) f j
      = sem arg11.view (kernelRun0_A.sl.HS5_31 (F := Ideal) c i arg6 arg9 arg11 fh0 fh3) f j + Cert.DeepFilter.prodI fh0 fh3 (bat i) (f + 1 + 1) (3582 + j + 2) := by
  by_cases hin : 0 ≤ f ∧ f < 0 + 256
  ·
    rw [prodI_succ c i fh0 fh3]
    simp (disch := omega) only [kernelRun0_A.sl.HS5_32, kernelRun0_A.sl.r_27, kernelRun0_A.sl.v928, kernelRun0_A.sl.v931, kernelRun0_A.sl.v974, k0_pay191, k0_pay183, sem_cons_in, sem_whole, at2_shapeCast_self, at2_addf, at2_subf, at2_mulf, at2_slice_in, at2_readCov_in, at2_broadcast_in, Ideal.ofBits_def]
    all_goals exact add_congr (sem_congr _ _ (by omega) (by omega)) (prod2_congr _ (at2_congr _ (by omega) (by omega)) (at2_congr _ (by omega) (by omega)))
  ·
    first
      | (exfalso; omega)
      | (rw [Cert.DeepFilter.prodI_out _ _ _ _ _ (by omega), add_zero]
         simp (disch := omega) only [kernelRun0_A.sl.HS5_32, sem_cons_out])

/-- After the three bin taps the buffer holds, at bin `f` and local column `j`, the three padded rows `f, f + 1, f + 2` of the product in padded column `3582 + j + 2`. -/
theorem fsum_c7I (f j : ℕ) (hf : f < 257) (hj : j < 418) :
    sem arg11.view (kernelRun0_A.sl.HS5_32 (F := Ideal) c i arg6 arg9 arg11 fh0 fh3) f j = Cert.DeepFilter.colI fh0 fh3 (bat i) f (3582 + j + 2) := by
  rw [ft2_c7I c i arg6 arg7 arg8 arg9 arg10 arg11 arg12 arg13 fh0 fh1 fh2 fh3 f j hf hj, ft1_c7I c i arg6 arg7 arg8 arg9 arg10 arg11 arg12 arg13 fh0 fh1 fh2 fh3 f j hf hj, ft0_c7I c i arg6 arg7 arg8 arg9 arg10 arg11 arg12 arg13 fh0 fh1 fh2 fh3 f j hf hj, fz_c7I c i arg6 arg7 arg8 arg9 arg10 arg11 arg12 arg13 fh0 fh1 fh2 fh3 f j hf hj]
  rfl

/-- The frame-sum buffer after it is cleared: zero on columns below 416. -/
theorem oz_c7I (f j : ℕ) (hf : f < 257) (hj : j < 416) :
    sem arg13.view (kernelRun0_A.sl.HS7_43 (F := Ideal) c i arg6 arg9 arg11 arg13 fh0 fh3) f j = 0 := by
  simp (disch := omega) only [kernelRun0_A.sl.HS7_43, k0_pay193, sem_cons_in, sem_whole, at2_shapeCast_self, at2_addf, at2_subf, at2_mulf, at2_slice_in, at2_readCov_in, at2_broadcast_in]
  exact Ideal.ofBits_zero_f32

/-- Frame tap -2: columns 0 … 415 gain the bin sums of padded column `3584 + j`; on a skipped column that padded column is off the array, so its bin sums are zero. -/
theorem ot0_c7I (f j : ℕ) (hf : f < 257) (hj : j < 416) :
    sem arg13.view (kernelRun0_A.sl.HS7_44 (F := Ideal) c i arg6 arg9 arg11 arg13 fh0 fh3) f j
      = sem arg13.view (kernelRun0_A.sl.HS7_43 (F := Ideal) c i arg6 arg9 arg11 arg13 fh0 fh3) f j + Cert.DeepFilter.colI fh0 fh3 (bat i) f (3584 + j) := by
  by_cases hin : 0 ≤ j ∧ j < 0 + 416
  · simp (disch := omega) only [kernelRun0_A.sl.HS7_44, kernelRun0_A.sl.v994, kernelRun0_A.sl.v995, k0_pay195, sem_cons_in, sem_whole, at2_shapeCast_self, at2_addf, at2_subf, at2_mulf, at2_slice_in, at2_readCov_in, at2_broadcast_in]
    simp (disch := omega) only [Nat.zero_add, Nat.sub_zero, Nat.add_zero, fsum_c7I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_44, sem_cons_out])

/-- Frame tap -1: columns 0 … 415 gain the bin sums of padded column `3584 + j + 1`; on a skipped column that padded column is off the array, so its bin sums are zero. -/
theorem ot1_c7I (f j : ℕ) (hf : f < 257) (hj : j < 416) :
    sem arg13.view (kernelRun0_A.sl.HS7_45 (F := Ideal) c i arg6 arg9 arg11 arg13 fh0 fh3) f j
      = sem arg13.view (kernelRun0_A.sl.HS7_44 (F := Ideal) c i arg6 arg9 arg11 arg13 fh0 fh3) f j + Cert.DeepFilter.colI fh0 fh3 (bat i) f (3584 + j + 1) := by
  by_cases hin : 0 ≤ j ∧ j < 0 + 416
  · simp (disch := omega) only [kernelRun0_A.sl.HS7_45, kernelRun0_A.sl.r_28, kernelRun0_A.sl.v1006, kernelRun0_A.sl.v1007, k0_pay197, sem_cons_in, sem_whole, at2_shapeCast_self, at2_addf, at2_subf, at2_mulf, at2_slice_in, at2_readCov_in, at2_broadcast_in]
    simp (disch := omega) only [Nat.zero_add, Nat.sub_zero, Nat.add_zero, fsum_c7I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_45, sem_cons_out])

/-- Frame tap 0: columns 0 … 415 gain the bin sums of padded column `3584 + j + 2`; on a skipped column that padded column is off the array, so its bin sums are zero. -/
theorem ot2_c7I (f j : ℕ) (hf : f < 257) (hj : j < 416) :
    sem arg13.view (kernelRun0_A.sl.HS7_46 (F := Ideal) c i arg6 arg9 arg11 arg13 fh0 fh3) f j
      = sem arg13.view (kernelRun0_A.sl.HS7_45 (F := Ideal) c i arg6 arg9 arg11 arg13 fh0 fh3) f j + Cert.DeepFilter.colI fh0 fh3 (bat i) f (3584 + j + 2) := by
  by_cases hin : 0 ≤ j ∧ j < 0 + 416
  · simp (disch := omega) only [kernelRun0_A.sl.HS7_46, kernelRun0_A.sl.v1018, kernelRun0_A.sl.v1019, k0_pay199, sem_cons_in, sem_whole, at2_shapeCast_self, at2_addf, at2_subf, at2_mulf, at2_slice_in, at2_readCov_in, at2_broadcast_in]
    simp (disch := omega) only [Nat.zero_add, Nat.sub_zero, Nat.add_zero, fsum_c7I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_46, sem_cons_out])

/-- Frame tap 1: columns 0 … 414 gain the bin sums of padded column `3584 + j + 3`; on a skipped column that padded column is off the array, so its bin sums are zero. -/
theorem ot3_c7I (f j : ℕ) (hf : f < 257) (hj : j < 416) :
    sem arg13.view (kernelRun0_A.sl.HS7_47 (F := Ideal) c i arg6 arg9 arg11 arg13 fh0 fh3) f j
      = sem arg13.view (kernelRun0_A.sl.HS7_46 (F := Ideal) c i arg6 arg9 arg11 arg13 fh0 fh3) f j + Cert.DeepFilter.colI fh0 fh3 (bat i) f (3584 + j + 3) := by
  by_cases hin : 0 ≤ j ∧ j < 0 + 415
  · simp (disch := omega) only [kernelRun0_A.sl.HS7_47, kernelRun0_A.sl.v1030, kernelRun0_A.sl.v1031, k0_pay201, sem_cons_in, sem_whole, at2_shapeCast_self, at2_addf, at2_subf, at2_mulf, at2_slice_in, at2_readCov_in, at2_broadcast_in]
    simp (disch := omega) only [Nat.zero_add, Nat.sub_zero, Nat.add_zero, fsum_c7I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_47, sem_cons_out])

/-- Frame tap 2: columns 0 … 413 gain the bin sums of padded column `3584 + j + 4`; on a skipped column that padded column is off the array, so its bin sums are zero. -/
theorem ot4_c7I (f j : ℕ) (hf : f < 257) (hj : j < 416) :
    sem arg13.view (kernelRun0_A.sl.HS7_48 (F := Ideal) c i arg6 arg9 arg11 arg13 fh0 fh3) f j
      = sem arg13.view (kernelRun0_A.sl.HS7_47 (F := Ideal) c i arg6 arg9 arg11 arg13 fh0 fh3) f j + Cert.DeepFilter.colI fh0 fh3 (bat i) f (3584 + j + 4) := by
  by_cases hin : 0 ≤ j ∧ j < 0 + 414
  · simp (disch := omega) only [kernelRun0_A.sl.HS7_48, kernelRun0_A.sl.v1042, kernelRun0_A.sl.v1043, k0_pay204, sem_cons_in, sem_whole, at2_shapeCast_self, at2_addf, at2_subf, at2_mulf, at2_slice_in, at2_readCov_in, at2_broadcast_in]
    simp (disch := omega) only [Nat.zero_add, Nat.sub_zero, Nat.add_zero, fsum_c7I c i arg6 arg7 arg8 arg9 arg10 arg11 arg12 arg13 fh0 fh1 fh2 fh3]
    all_goals exact add_congr (sem_congr _ _ (by omega) (by omega)) (congrArg (Cert.DeepFilter.colI fh0 fh3 (bat i) f) (by omega))
  · first
      | (exfalso; omega)
      | (rw [Cert.DeepFilter.colI_out _ _ _ _ _ (by omega), add_zero]
         simp (disch := omega) only [kernelRun0_A.sl.HS7_48, sem_cons_out])

/-- After the five frame taps the buffer holds the 3 x 5 window sum of bin `f`, frame `3584 + j`. -/
theorem osum_c7I (f j : ℕ) (hf : f < 257) (hj : j < 416) :
    sem arg13.view (kernelRun0_A.sl.HS7_48 (F := Ideal) c i arg6 arg9 arg11 arg13 fh0 fh3) f j = Cert.DeepFilter.sumI fh0 fh3 (bat i) f (3584 + j) := by
  rw [ot4_c7I c i arg6 arg7 arg8 arg9 arg10 arg11 arg12 arg13 fh0 fh1 fh2 fh3 f j hf hj, ot3_c7I c i arg6 arg7 arg8 arg9 arg10 arg11 arg12 arg13 fh0 fh1 fh2 fh3 f j hf hj, ot2_c7I c i arg6 arg7 arg8 arg9 arg10 arg11 arg12 arg13 fh0 fh1 fh2 fh3 f j hf hj, ot1_c7I c i arg6 arg7 arg8 arg9 arg10 arg11 arg12 arg13 fh0 fh1 fh2 fh3 f j hf hj,
    ot0_c7I c i arg6 arg7 arg8 arg9 arg10 arg11 arg12 arg13 fh0 fh1 fh2 fh3 f j hf hj, oz_c7I c i arg6 arg7 arg8 arg9 arg10 arg11 arg12 arg13 fh0 fh1 fh2 fh3 f j hf hj]
  exact Cert.DeepFilter.sumI_of_cols _ _ _ _ _

/-- The payload stored into the output block for these frames: the window sums, laid out [1, 1, 257, 416]. -/
theorem piece_c7I (y : (⟨4, ![1, 1, 257, 416]⟩ : Shape).Idx) :
    k0_pay2 (kernelRun0_A.sl.v1052 (F := Ideal) c i arg6 arg9 arg11 arg13 fh0 fh3) y = Cert.DeepFilter.sumI fh0 fh3 (bat i) (y 2).val (3584 + (y 3).val) := by
  have hf : (y 2).val < 257 := (y 2).isLt
  have hj : (y 3).val < 416 := (y 3).isLt
  simp only [k0_pay2]
  refine (shapeCast_addUnit2_apply (R := 257) (C := 416) _ _ y).trans ?_
  refine (at2_of_lt (R := 257) (C := 416) _ hf hj).symm.trans ?_
  simp (disch := omega) only [kernelRun0_A.sl.v1052, at2_readCov_in]
  simp (disch := omega) only [Nat.zero_add, osum_c7I c i arg6 arg7 arg8 arg9 arg10 arg11 arg12 arg13 fh0 fh1 fh2 fh3]

end Cert.DeepFilter.Body

end
-- ==== Proof.LibNatReads4.lean ====
/-
  Rank-4 arrays and lists of stores read at natural-number coordinates.

  The rank-4 companion of the rank-2 readings: an array of shape [A, B, R, C] over the extended reals at four
  naturals, `0` outside the shape (`at4`); what a list of stores leaves in a rank-4 buffer (`sem4`); and the
  newest store, through a unit-stride box, giving its payload at the coordinates minus the box's offsets inside
  the box (`sem4_cons_in`) and leaving the older stores' contents outside it (`sem4_cons_out`).
-/
import proofs.«134051_j16587163697924_2_alg».proof.Proof.LibNatReads

noncomputable section

namespace Cert.LibNatReads

open Idealize.ShloMosaic Idealize.ShloMosaic.ValueIdx

/-- A rank-4 array at `(a, b, f, j)`; `0` outside the shape. -/
def at4 {A B R C : ℕ} (x : (⟨4, ![A, B, R, C]⟩ : Shape).Idx → EReal) (a b f j : ℕ) : EReal :=
  if h : (a < A ∧ b < B) ∧ (f < R ∧ j < C) then x (ix4 ⟨a, h.1.1⟩ ⟨b, h.1.2⟩ ⟨f, h.2.1⟩ ⟨j, h.2.2⟩) else 0

theorem at4_of_lt {A B R C : ℕ} (x : (⟨4, ![A, B, R, C]⟩ : Shape).Idx → EReal) {a b f j : ℕ}
    (ha : a < A) (hb : b < B) (hf : f < R) (hj : j < C) :
    at4 x a b f j = x (ix4 ⟨a, ha⟩ ⟨b, hb⟩ ⟨f, hf⟩ ⟨j, hj⟩) := dif_pos ⟨⟨ha, hb⟩, ⟨hf, hj⟩⟩

section Stores

variable {sig : RefSig} {κ : Kind} {sp : Space} {A B R C : ℕ}

/-- What a list of stores leaves in a rank-4 buffer, at `(a, b, f, j)`. -/
def sem4 (v : View sig κ sp (⟨4, ![A, B, R, C]⟩ : Shape) .f32)
    (L : List (View.Piece (Elt Ideal) (⟨4, ![A, B, R, C]⟩ : Shape) .f32)) (a b f j : ℕ) : EReal :=
  at4 (A := A) (B := B) (R := R) (C := C) (v.read (Elt Ideal) (v.writes (Elt Ideal) v.junk L)) a b f j

/-- The contents at an index are the reading at its coordinates. -/
theorem read_eq_sem4 (v : View sig κ sp (⟨4, ![A, B, R, C]⟩ : Shape) .f32)
    (L : List (View.Piece (Elt Ideal) (⟨4, ![A, B, R, C]⟩ : Shape) .f32)) (a : Fin A) (b : Fin B) (f : Fin R) (j : Fin C) :
    v.read (Elt Ideal) (v.writes (Elt Ideal) v.junk L) (ix4 a b f j) = sem4 v L a.val b.val f.val j.val := by
  unfold sem4
  rw [at4_of_lt _ a.isLt b.isLt f.isLt j.isLt]

/-- Inside the newest store's box: its payload at the coordinates minus the offsets. -/
theorem sem4_cons_in (v : View sig κ sp (⟨4, ![A, B, R, C]⟩ : Shape) .f32) (o0 o1 o2 o3 s0 s1 s2 s3 : ℕ)
    (inb : ∀ x, (![o0, o1, o2, o3] : Fin 4 → ℕ) x + (![s0, s1, s2, s3] : Fin 4 → ℕ) x ≤ (⟨4, ![A, B, R, C]⟩ : Shape).size x)
    (w : (Rect.unit (s := (⟨4, ![A, B, R, C]⟩ : Shape)) ![o0, o1, o2, o3] ![s0, s1, s2, s3] inb).shape.Idx → Elt Ideal .f32)
    (L : List (View.Piece (Elt Ideal) (⟨4, ![A, B, R, C]⟩ : Shape) .f32)) (a b f j : ℕ)
    (ha : a < A) (hb : b < B) (hf : f < R) (hj : j < C)
    (h : ((o0 ≤ a ∧ a < o0 + s0) ∧ (o1 ≤ b ∧ b < o1 + s1)) ∧ ((o2 ≤ f ∧ f < o2 + s2) ∧ (o3 ≤ j ∧ j < o3 + s3))) :
    sem4 v ((⟨Rect.unit ![o0, o1, o2, o3] ![s0, s1, s2, s3] inb, w⟩ : View.Piece (Elt Ideal) (⟨4, ![A, B, R, C]⟩ : Shape) .f32) :: L) a b f j
      = at4 (A := s0) (B := s1) (R := s2) (C := s3) w (a - o0) (b - o1) (f - o2) (j - o3) := by
  unfold sem4
  rw [at4_of_lt _ ha hb hf hj]
  have h0 : a - o0 < s0 := by omega
  have h1 : b - o1 < s1 := by omega
  have h2 : f - o2 < s2 := by omega
  have h3 : j - o3 < s3 := by omega
  rw [at4_of_lt _ h0 h1 h2 h3]
  refine View.read_writes_cons_unit_of_mem v v.junk inb w L _ (ix4 ⟨a - o0, h0⟩ ⟨b - o1, h1⟩ ⟨f - o2, h2⟩ ⟨j - o3, h3⟩) rfl
    (fun x => ?_)
  match x with
  | ⟨0, _⟩ => show a = o0 + (a - o0); omega
  | ⟨1, _⟩ => show b = o1 + (b - o1); omega
  | ⟨2, _⟩ => show f = o2 + (f - o2); omega
  | ⟨3, _⟩ => show j = o3 + (j - o3); omega

/-- Outside the newest store's box: the older stores. -/
theorem sem4_cons_out (v : View sig κ sp (⟨4, ![A, B, R, C]⟩ : Shape) .f32) (o0 o1 o2 o3 s0 s1 s2 s3 : ℕ)
    (inb : ∀ x, (![o0, o1, o2, o3] : Fin 4 → ℕ) x + (![s0, s1, s2, s3] : Fin 4 → ℕ) x ≤ (⟨4, ![A, B, R, C]⟩ : Shape).size x)
    (w : (Rect.unit (s := (⟨4, ![A, B, R, C]⟩ : Shape)) ![o0, o1, o2, o3] ![s0, s1, s2, s3] inb).shape.Idx → Elt Ideal .f32)
    (L : List (View.Piece (Elt Ideal) (⟨4, ![A, B, R, C]⟩ : Shape) .f32)) (a b f j : ℕ)
    (ha : a < A) (hb : b < B) (hf : f < R) (hj : j < C)
    (h : ¬ (((o0 ≤ a ∧ a < o0 + s0) ∧ (o1 ≤ b ∧ b < o1 + s1)) ∧ ((o2 ≤ f ∧ f < o2 + s2) ∧ (o3 ≤ j ∧ j < o3 + s3)))) :
    sem4 v ((⟨Rect.unit ![o0, o1, o2, o3] ![s0, s1, s2, s3] inb, w⟩ : View.Piece (Elt Ideal) (⟨4, ![A, B, R, C]⟩ : Shape) .f32) :: L) a b f j
      = sem4 v L a b f j := by
  unfold sem4
  rw [at4_of_lt _ ha hb hf hj, at4_of_lt _ ha hb hf hj]
  by_cases c0 : o0 ≤ a ∧ a < o0 + s0
  · by_cases c1 : o1 ≤ b ∧ b < o1 + s1
    · by_cases c2 : o2 ≤ f ∧ f < o2 + s2
      · have c3 : ¬ (o3 ≤ j ∧ j < o3 + s3) := fun c3 => h ⟨⟨c0, c1⟩, ⟨c2, c3⟩⟩
        exact View.read_writes_cons_unit_of_not_mem v v.junk inb w L _ rfl (3 : Fin 4) (by show j < o3 ∨ o3 + s3 ≤ j; omega)
      · exact View.read_writes_cons_unit_of_not_mem v v.junk inb w L _ rfl (2 : Fin 4) (by show f < o2 ∨ o2 + s2 ≤ f; omega)
    · exact View.read_writes_cons_unit_of_not_mem v v.junk inb w L _ rfl (1 : Fin 4) (by show b < o1 ∨ o1 + s1 ≤ b; omega)
  · exact View.read_writes_cons_unit_of_not_mem v v.junk inb w L _ rfl (0 : Fin 4) (by show a < o0 ∨ o0 + s0 ≤ a; omega)

end Stores

end Cert.LibNatReads

end
-- ==== Proof.BodyValue.lean ====
/-
  What the body leaves in the output block at a grid point.

  The body's sixteen stores into the output block — for each of eight runs of frames, the real and the imaginary
  plane — are disjoint boxes, so an element of the block is read from the one store whose box holds it, and that
  store's payload is the window sum of the element's bin and frame (the per-run modules). Grid point `t` works on
  batch `t`: the grid has one axis.
-/
import proofs.«134051_j16587163697924_2_alg».proof.Proof.BodyChunk0R
import proofs.«134051_j16587163697924_2_alg».proof.Proof.BodyChunk0I
import proofs.«134051_j16587163697924_2_alg».proof.Proof.BodyChunk1R
import proofs.«134051_j16587163697924_2_alg».proof.Proof.BodyChunk1I
import proofs.«134051_j16587163697924_2_alg».proof.Proof.BodyChunk2R
import proofs.«134051_j16587163697924_2_alg».proof.Proof.BodyChunk2I
import proofs.«134051_j16587163697924_2_alg».proof.Proof.BodyChunk3R
import proofs.«134051_j16587163697924_2_alg».proof.Proof.BodyChunk3I
import proofs.«134051_j16587163697924_2_alg».proof.Proof.BodyChunk4R
import proofs.«134051_j16587163697924_2_alg».proof.Proof.BodyChunk4I
import proofs.«134051_j16587163697924_2_alg».proof.Proof.BodyChunk5R
import proofs.«134051_j16587163697924_2_alg».proof.Proof.BodyChunk5I
import proofs.«134051_j16587163697924_2_alg».proof.Proof.BodyChunk6R
import proofs.«134051_j16587163697924_2_alg».proof.Proof.BodyChunk6I
import proofs.«134051_j16587163697924_2_alg».proof.Proof.BodyChunk7R
import proofs.«134051_j16587163697924_2_alg».proof.Proof.BodyChunk7I
import proofs.«134051_j16587163697924_2_alg».proof.Proof.LibNatReads4

noncomputable section

namespace Cert.DeepFilter.Body

open Idealize.ShloMosaic Idealize.ShloMosaic.ValueIdx Idealize.SL.Sem
open Cert.KernelIdeal Cert.KernelIdeal.Gen Cert.LibNatReads Cert.DeepFilter

/-- The stores the body's run makes into the output block, newest first. -/
theorem pieces_eq (c : Dev nD) (i : grid0.Coords) (arg5 : Memref sig .tc .vmem S1x2x257x4000 .f32) (harg5 : arg5.IsWhole) (arg6 : Memref sig .tc .vmem S257x4000 .f32) (harg6 : arg6.IsWhole) (arg7 : Memref sig .tc .vmem S257x4000 .f32) (harg7 : arg7.IsWhole) (arg8 : Memref sig .tc .vmem S257x4000 .f32) (harg8 : arg8.IsWhole) (arg9 : Memref sig .tc .vmem S257x4000 .f32) (harg9 : arg9.IsWhole) (arg10 : Memref sig .tc .vmem S257x516 .f32) (harg10 : arg10.IsWhole) (arg11 : Memref sig .tc .vmem S257x516 .f32) (harg11 : arg11.IsWhole) (arg12 : Memref sig .tc .vmem S257x512 .f32) (harg12 : arg12.IsWhole) (arg13 : Memref sig .tc .vmem S257x512 .f32) (harg13 : arg13.IsWhole)
    (fh0 : HbBuf0 (F := Ideal) c hbM0_0) (fh1 : HbBuf0 (F := Ideal) c hbM0_1) (fh2 : HbBuf0 (F := Ideal) c hbM0_2) (fh3 : HbBuf0 (F := Ideal) c hbM0_3) :
    (kernelRun0_A (F := Ideal) c i arg5 harg5 arg6 harg6 arg7 harg7 arg8 harg8 arg9 harg9 arg10 harg10 arg11 harg11 arg12 harg12 arg13 harg13 fh0 fh1 fh2 fh3).1
      = [⟨Rect.unit ![0, 1, 0, 3584] ![1, 1, 257, 416] inb_S1x2x257x4000_S1x1x257x416_0_1_0_3584,
        k0_pay2 (kernelRun0_A.sl.v1052 (F := Ideal) c i arg6 arg9 arg11 arg13 fh0 fh3)⟩,
      ⟨Rect.unit ![0, 0, 0, 3584] ![1, 1, 257, 416] inb_S1x2x257x4000_S1x1x257x416_0_0_0_3584,
        k0_pay1 (kernelRun0_A.sl.v_2 (F := Ideal) c i arg6 arg7 arg8 arg9 arg10 arg12 fh0 fh1 fh2 fh3)⟩,
      ⟨Rect.unit ![0, 1, 0, 3072] ![1, 1, 257, 512] inb_S1x2x257x4000_S1x1x257x512_0_1_0_3072,
        k0_pay181 (kernelRun0_A.sl.v924 (F := Ideal) c i arg6 arg9 arg11 arg13 fh0 fh3)⟩,
      ⟨Rect.unit ![0, 0, 0, 3072] ![1, 1, 257, 512] inb_S1x2x257x4000_S1x1x257x512_0_0_0_3072,
        k0_pay180 (kernelRun0_A.sl.v920 (F := Ideal) c i arg6 arg7 arg8 arg9 arg10 arg12 fh0 fh1 fh2 fh3)⟩,
      ⟨Rect.unit ![0, 1, 0, 2560] ![1, 1, 257, 512] inb_S1x2x257x4000_S1x1x257x512_0_1_0_2560,
        k0_pay155 (kernelRun0_A.sl.v796 (F := Ideal) c i arg6 arg9 arg11 arg13 fh0 fh3)⟩,
      ⟨Rect.unit ![0, 0, 0, 2560] ![1, 1, 257, 512] inb_S1x2x257x4000_S1x1x257x512_0_0_0_2560,
        k0_pay154 (kernelRun0_A.sl.v792 (F := Ideal) c i arg6 arg7 arg8 arg9 arg10 arg12 fh0 fh1 fh2 fh3)⟩,
      ⟨Rect.unit ![0, 1, 0, 2048] ![1, 1, 257, 512] inb_S1x2x257x4000_S1x1x257x512_0_1_0_2048,
        k0_pay130 (kernelRun0_A.sl.v668 (F := Ideal) c i arg6 arg9 arg11 arg13 fh0 fh3)⟩,
      ⟨Rect.unit ![0, 0, 0, 2048] ![1, 1, 257, 512] inb_S1x2x257x4000_S1x1x257x512_0_0_0_2048,
        k0_pay129 (kernelRun0_A.sl.v664 (F := Ideal) c i arg6 arg7 arg8 arg9 arg10 arg12 fh0 fh1 fh2 fh3)⟩,
      ⟨Rect.unit ![0, 1, 0, 1536] ![1, 1, 257, 512] inb_S1x2x257x4000_S1x1x257x512_0_1_0_1536,
        k0_pay105 (kernelRun0_A.sl.v540 (F := Ideal) c i arg6 arg9 arg11 arg13 fh0 fh3)⟩,
      ⟨Rect.unit ![0, 0, 0, 1536] ![1, 1, 257, 512] inb_S1x2x257x4000_S1x1x257x512_0_0_0_1536,
        k0_pay104 (kernelRun0_A.sl.v536 (F := Ideal) c i arg6 arg7 arg8 arg9 arg10 arg12 fh0 fh1 fh2 fh3)⟩,
      ⟨Rect.unit ![0, 1, 0, 1024] ![1, 1, 257, 512] inb_S1x2x257x4000_S1x1x257x512_0_1_0_1024,
        k0_pay79 (kernelRun0_A.sl.v412 (F := Ideal) c i arg6 arg9 arg11 arg13 fh0 fh3)⟩,
      ⟨Rect.unit ![0, 0, 0, 1024] ![1, 1, 257, 512] inb_S1x2x257x4000_S1x1x257x512_0_0_0_1024,
        k0_pay78 (kernelRun0_A.sl.v408 (F := Ideal) c i arg6 arg7 arg8 arg9 arg10 arg12 fh0 fh1 fh2 fh3)⟩,
      ⟨Rect.unit ![0, 1, 0, 512] ![1, 1, 257, 512] inb_S1x2x257x4000_S1x1x257x512_0_1_0_512,
        k0_pay53 (kernelRun0_A.sl.v284 (F := Ideal) c i arg6 arg9 arg11 arg13 fh0 fh3)⟩,
      ⟨Rect.unit ![0, 0, 0, 512] ![1, 1, 257, 512] inb_S1x2x257x4000_S1x1x257x512_0_0_0_512,
        k0_pay52 (kernelRun0_A.sl.v280 (F := Ideal) c i arg6 arg7 arg8 arg9 arg10 arg12 fh0 fh1 fh2 fh3)⟩,
      ⟨Rect.unit ![0, 1, 0, 0] ![1, 1, 257, 512] inb_S1x2x257x4000_S1x1x257x512_0_1_0_0,
        k0_pay28 (kernelRun0_A.sl.v156 (F := Ideal) c i arg6 arg9 arg11 arg13 fh0 fh3)⟩,
      ⟨Rect.unit ![0, 0, 0, 0] ![1, 1, 257, 512] inb_S1x2x257x4000_S1x1x257x512_0_0_0_0,
        k0_pay27 (kernelRun0_A.sl.v152 (F := Ideal) c i arg6 arg7 arg8 arg9 arg10 arg12 fh0 fh1 fh2 fh3)⟩] := rfl

/-- On a one-axis grid the point's coordinate is the point. -/
theorem coords0 (t : Fin cfg0.N) : ((grid0.coords t) 0).val = t.val := by
  have h1 := t.isLt
  have h2 : cfg0.N = 16 := N_0
  show t.val / grid0.stride 0 % grid0.bound 0 = t.val
  have hs : grid0.stride 0 = 1 := by decide
  have hb : grid0.bound 0 = 16 := by decide
  rw [hs, hb, Nat.div_one, Nat.mod_eq_of_lt (by omega)]

/-- Plane 0 of the kernel's layout holds the real sums. -/
theorem K4_plane0 (ir ii fr fi : Arr) (y : (⟨4, ![16, 2, 257, 4000]⟩ : Shape).Idx) (h : (y 1).val = 0) :
    K4 ir ii fr fi y = sumR ir ii fr fi (y 0) (y 2).val (y 3).val := by
  unfold K4; rw [if_pos h]

/-- Plane 1 holds the imaginary sums. -/
theorem K4_plane1 (ir ii fr fi : Arr) (y : (⟨4, ![16, 2, 257, 4000]⟩ : Shape).Idx) (h : (y 1).val = 1) :
    K4 ir ii fr fi y = sumI ir fi (y 0) (y 2).val (y 3).val := by
  unfold K4; rw [if_neg (by omega)]

/-- Equal batch, bin and frame, equal real window sum. -/
theorem sumR_congr (ir ii fr fi : Arr) {b b' : Fin 16} {f f' t t' : ℕ} (hb : b = b') (hf : f = f') (ht : t = t') :
    sumR ir ii fr fi b f t = sumR ir ii fr fi b' f' t' := by subst hb; subst hf; subst ht; rfl

/-- Equal batch, bin and frame, equal imaginary window sum. -/
theorem sumI_congr (ir fi : Arr) {b b' : Fin 16} {f f' t t' : ℕ} (hb : b = b') (hf : f = f') (ht : t = t') :
    sumI ir fi b f t = sumI ir fi b' f' t' := by subst hb; subst hf; subst ht; rfl

/-- What the body leaves in the output's staging buffer at grid point `t`: plane, bin and frame of batch `t` of
    the window sums. -/
theorem body_value (m : (ℓ : Loc nD τ sig) → Buf (Elt Ideal) ℓ) (c : Dev nD) (t : Fin cfg0.N) (y : S1x2x257x4000.Idx) :
    outsAt0 (F := Ideal) m c t y
      = Cert.DeepFilter.K4 (V m c main_arg0) (V m c main_arg1) (V m c main_arg2) (V m c main_arg3)
          (ix4 (⟨t.val, by have h1 := t.isLt; have h2 : cfg0.N = 16 := N_0; omega⟩ : Fin 16) (y 1) (y 2) (y 3)) := by
  obtain ⟨y0, p, f, tt, rfl⟩ : ∃ (y0 : Fin 1) (p : Fin 2) (f : Fin 257) (tt : Fin 4000), y = ix4 y0 p f tt :=
    ⟨y 0, y 1, y 2, y 3, eq_ix4 y⟩
  unfold outsAt0 out0_A_0
  rw [pieces_eq, read_eq_sem4]
  have h0 : y0.val = 0 := by omega
  have hpf := p.isLt
  have hff := f.isLt
  have htf := tt.isLt
  rw [h0]
  show _ = K4 _ _ _ _ (ix4 _ p f tt)
  have hp : p.val = 0 ∨ p.val = 1 := by omega
  have htt : tt.val < 512 ∨ (512 ≤ tt.val ∧ tt.val < 1024) ∨ (1024 ≤ tt.val ∧ tt.val < 1536) ∨ (1536 ≤ tt.val ∧ tt.val < 2048)
      ∨ (2048 ≤ tt.val ∧ tt.val < 2560) ∨ (2560 ≤ tt.val ∧ tt.val < 3072) ∨ (3072 ≤ tt.val ∧ tt.val < 3584) ∨ 3584 ≤ tt.val := by omega
  rcases hp with hp | hp <;> rcases htt with h | h | h | h | h | h | h | h
  · -- plane 0, frames 0 … 511
    simp (disch := omega) only [sem4_cons_out, sem4_cons_in]
    rw [at4_of_lt _ (by omega) (by omega) (by omega) (by omega), piece_c0R c (grid0.coords t) scM0_0 scM0_1 scM0_2 scM0_3 scM0_4 scM0_5 scM0_6 scM0_7 (V m c main_arg0) (V m c main_arg1) (V m c main_arg2) (V m c main_arg3), K4_plane0 _ _ _ _ _ (by exact hp)]
    exact sumR_congr _ _ _ _ (Fin.ext (coords0 t)) (by show f.val - 0 = f.val; omega) (by show (tt.val - 0) = tt.val; omega)
  · -- plane 0, frames 512 … 1023
    simp (disch := omega) only [sem4_cons_out, sem4_cons_in]
    rw [at4_of_lt _ (by omega) (by omega) (by omega) (by omega), piece_c1R c (grid0.coords t) scM0_0 scM0_1 scM0_2 scM0_3 scM0_4 scM0_5 scM0_6 scM0_7 (V m c main_arg0) (V m c main_arg1) (V m c main_arg2) (V m c main_arg3), K4_plane0 _ _ _ _ _ (by exact hp)]
    exact sumR_congr _ _ _ _ (Fin.ext (coords0 t)) (by show f.val - 0 = f.val; omega) (by show 512 + (tt.val - 512) = tt.val; omega)
  · -- plane 0, frames 1024 … 1535
    simp (disch := omega) only [sem4_cons_out, sem4_cons_in]
    rw [at4_of_lt _ (by omega) (by omega) (by omega) (by omega), piece_c2R c (grid0.coords t) scM0_0 scM0_1 scM0_2 scM0_3 scM0_4 scM0_5 scM0_6 scM0_7 (V m c main_arg0) (V m c main_arg1) (V m c main_arg2) (V m c main_arg3), K4_plane0 _ _ _ _ _ (by exact hp)]
    exact sumR_congr _ _ _ _ (Fin.ext (coords0 t)) (by show f.val - 0 = f.val; omega) (by show 1024 + (tt.val - 1024) = tt.val; omega)
  · -- plane 0, frames 1536 … 2047
    simp (disch := omega) only [sem4_cons_out, sem4_cons_in]
    rw [at4_of_lt _ (by omega) (by omega) (by omega) (by omega), piece_c3R c (grid0.coords t) scM0_0 scM0_1 scM0_2 scM0_3 scM0_4 scM0_5 scM0_6 scM0_7 (V m c main_arg0) (V m c main_arg1) (V m c main_arg2) (V m c main_arg3), K4_plane0 _ _ _ _ _ (by exact hp)]
    exact sumR_congr _ _ _ _ (Fin.ext (coords0 t)) (by show f.val - 0 = f.val; omega) (by show 1536 + (tt.val - 1536) = tt.val; omega)
  · -- plane 0, frames 2048 … 2559
    simp (disch := omega) only [sem4_cons_out, sem4_cons_in]
    rw [at4_of_lt _ (by omega) (by omega) (by omega) (by omega), piece_c4R c (grid0.coords t) scM0_0 scM0_1 scM0_2 scM0_3 scM0_4 scM0_5 scM0_6 scM0_7 (V m c main_arg0) (V m c main_arg1) (V m c main_arg2) (V m c main_arg3), K4_plane0 _ _ _ _ _ (by exact hp)]
    exact sumR_congr _ _ _ _ (Fin.ext (coords0 t)) (by show f.val - 0 = f.val; omega) (by show 2048 + (tt.val - 2048) = tt.val; omega)
  · -- plane 0, frames 2560 … 3071
    simp (disch := omega) only [sem4_cons_out, sem4_cons_in]
    rw [at4_of_lt _ (by omega) (by omega) (by omega) (by omega), piece_c5R c (grid0.coords t) scM0_0 scM0_1 scM0_2 scM0_3 scM0_4 scM0_5 scM0_6 scM0_7 (V m c main_arg0) (V m c main_arg1) (V m c main_arg2) (V m c main_arg3), K4_plane0 _ _ _ _ _ (by exact hp)]
    exact sumR_congr _ _ _ _ (Fin.ext (coords0 t)) (by show f.val - 0 = f.val; omega) (by show 2560 + (tt.val - 2560) = tt.val; omega)
  · -- plane 0, frames 3072 … 3583
    simp (disch := omega) only [sem4_cons_out, sem4_cons_in]
    rw [at4_of_lt _ (by omega) (by omega) (by omega) (by omega), piece_c6R c (grid0.coords t) scM0_0 scM0_1 scM0_2 scM0_3 scM0_4 scM0_5 scM0_6 scM0_7 (V m c main_arg0) (V m c main_arg1) (V m c main_arg2) (V m c main_arg3), K4_plane0 _ _ _ _ _ (by exact hp)]
    exact sumR_congr _ _ _ _ (Fin.ext (coords0 t)) (by show f.val - 0 = f.val; omega) (by show 3072 + (tt.val - 3072) = tt.val; omega)
  · -- plane 0, frames 3584 … 3999
    simp (disch := omega) only [sem4_cons_out, sem4_cons_in]
    rw [at4_of_lt _ (by omega) (by omega) (by omega) (by omega), piece_c7R c (grid0.coords t) scM0_0 scM0_1 scM0_2 scM0_3 scM0_4 scM0_5 scM0_6 scM0_7 (V m c main_arg0) (V m c main_arg1) (V m c main_arg2) (V m c main_arg3), K4_plane0 _ _ _ _ _ (by exact hp)]
    exact sumR_congr _ _ _ _ (Fin.ext (coords0 t)) (by show f.val - 0 = f.val; omega) (by show 3584 + (tt.val - 3584) = tt.val; omega)
  · -- plane 1, frames 0 … 511
    simp (disch := omega) only [sem4_cons_out, sem4_cons_in]
    rw [at4_of_lt _ (by omega) (by omega) (by omega) (by omega), piece_c0I c (grid0.coords t) scM0_0 scM0_1 scM0_2 scM0_3 scM0_4 scM0_5 scM0_6 scM0_7 (V m c main_arg0) (V m c main_arg1) (V m c main_arg2) (V m c main_arg3), K4_plane1 _ _ _ _ _ (by exact hp)]
    exact sumI_congr _ _ (Fin.ext (coords0 t)) (by show f.val - 0 = f.val; omega) (by show (tt.val - 0) = tt.val; omega)
  · -- plane 1, frames 512 … 1023
    simp (disch := omega) only [sem4_cons_out, sem4_cons_in]
    rw [at4_of_lt _ (by omega) (by omega) (by omega) (by omega), piece_c1I c (grid0.coords t) scM0_0 scM0_1 scM0_2 scM0_3 scM0_4 scM0_5 scM0_6 scM0_7 (V m c main_arg0) (V m c main_arg1) (V m c main_arg2) (V m c main_arg3), K4_plane1 _ _ _ _ _ (by exact hp)]
    exact sumI_congr _ _ (Fin.ext (coords0 t)) (by show f.val - 0 = f.val; omega) (by show 512 + (tt.val - 512) = tt.val; omega)
  · -- plane 1, frames 1024 … 1535
    simp (disch := omega) only [sem4_cons_out, sem4_cons_in]
    rw [at4_of_lt _ (by omega) (by omega) (by omega) (by omega), piece_c2I c (grid0.coords t) scM0_0 scM0_1 scM0_2 scM0_3 scM0_4 scM0_5 scM0_6 scM0_7 (V m c main_arg0) (V m c main_arg1) (V m c main_arg2) (V m c main_arg3), K4_plane1 _ _ _ _ _ (by exact hp)]
    exact sumI_congr _ _ (Fin.ext (coords0 t)) (by show f.val - 0 = f.val; omega) (by show 1024 + (tt.val - 1024) = tt.val; omega)
  · -- plane 1, frames 1536 … 2047
    simp (disch := omega) only [sem4_cons_out, sem4_cons_in]
    rw [at4_of_lt _ (by omega) (by omega) (by omega) (by omega), piece_c3I c (grid0.coords t) scM0_0 scM0_1 scM0_2 scM0_3 scM0_4 scM0_5 scM0_6 scM0_7 (V m c main_arg0) (V m c main_arg1) (V m c main_arg2) (V m c main_arg3), K4_plane1 _ _ _ _ _ (by exact hp)]
    exact sumI_congr _ _ (Fin.ext (coords0 t)) (by show f.val - 0 = f.val; omega) (by show 1536 + (tt.val - 1536) = tt.val; omega)
  · -- plane 1, frames 2048 … 2559
    simp (disch := omega) only [sem4_cons_out, sem4_cons_in]
    rw [at4_of_lt _ (by omega) (by omega) (by omega) (by omega), piece_c4I c (grid0.coords t) scM0_0 scM0_1 scM0_2 scM0_3 scM0_4 scM0_5 scM0_6 scM0_7 (V m c main_arg0) (V m c main_arg1) (V m c main_arg2) (V m c main_arg3), K4_plane1 _ _ _ _ _ (by exact hp)]
    exact sumI_congr _ _ (Fin.ext (coords0 t)) (by show f.val - 0 = f.val; omega) (by show 2048 + (tt.val - 2048) = tt.val; omega)
  · -- plane 1, frames 2560 … 3071
    simp (disch := omega) only [sem4_cons_out, sem4_cons_in]
    rw [at4_of_lt _ (by omega) (by omega) (by omega) (by omega), piece_c5I c (grid0.coords t) scM0_0 scM0_1 scM0_2 scM0_3 scM0_4 scM0_5 scM0_6 scM0_7 (V m c main_arg0) (V m c main_arg1) (V m c main_arg2) (V m c main_arg3), K4_plane1 _ _ _ _ _ (by exact hp)]
    exact sumI_congr _ _ (Fin.ext (coords0 t)) (by show f.val - 0 = f.val; omega) (by show 2560 + (tt.val - 2560) = tt.val; omega)
  · -- plane 1, frames 3072 … 3583
    simp (disch := omega) only [sem4_cons_out, sem4_cons_in]
    rw [at4_of_lt _ (by omega) (by omega) (by omega) (by omega), piece_c6I c (grid0.coords t) scM0_0 scM0_1 scM0_2 scM0_3 scM0_4 scM0_5 scM0_6 scM0_7 (V m c main_arg0) (V m c main_arg1) (V m c main_arg2) (V m c main_arg3), K4_plane1 _ _ _ _ _ (by exact hp)]
    exact sumI_congr _ _ (Fin.ext (coords0 t)) (by show f.val - 0 = f.val; omega) (by show 3072 + (tt.val - 3072) = tt.val; omega)
  · -- plane 1, frames 3584 … 3999
    simp (disch := omega) only [sem4_cons_out, sem4_cons_in]
    rw [at4_of_lt _ (by omega) (by omega) (by omega) (by omega), piece_c7I c (grid0.coords t) scM0_0 scM0_1 scM0_2 scM0_3 scM0_4 scM0_5 scM0_6 scM0_7 (V m c main_arg0) (V m c main_arg1) (V m c main_arg2) (V m c main_arg3), K4_plane1 _ _ _ _ _ (by exact hp)]
    exact sumI_congr _ _ (Fin.ext (coords0 t)) (by show f.val - 0 = f.val; omega) (by show 3584 + (tt.val - 3584) = tt.val; omega)

end Cert.DeepFilter.Body

end
-- ==== Proof.KernArray.lean ====
/-
  From the blocks to the output array.

  The grid has one point per batch. Point `t` writes back the block [1, 2, 257, 4000] at block index
  (t, 0, 0, 0) of the output array [16, 2, 257, 4000], so the block's element (0, p, f, s) sits at (t, p, f, s).
  What the body leaves at point `t` is the window sums of batch `t` (plane, bin, frame); hence every written
  block is the restriction of one function `K4` of the four argument arrays, the blocks cover the array (batch `b`
  by point `b`), and the array after the region is `K4` of the arguments.
-/
import proofs.«134051_j16587163697924_2_alg».proof.Proof.BodyValue
import Idealize.ShloMosaic.Lib.Pipeline.Value

set_option maxRecDepth 16384

noncomputable section

namespace Cert.DeepFilter.Kern

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The output window's block index at grid point `t` is `(t, 0, 0, 0)`: the block is the whole slab of batch `t`. -/
theorem block_index : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

/-- What grid point `t` writes back is block `t` of the window sums in the layout [16, 2, 257, 4000]. -/
theorem flushed_eq (c : Dev nD) (t : Fin cfg0.N) :
    (dats (F := Ideal) m 0 c).flushed 0 t
      = ((cfg0.win 0).blk t).view.read (Elt Ideal)
          (Cert.DeepFilter.K4 (V m c main_arg0) (V m c main_arg1) (V m c main_arg2) (V m c main_arg3)) := by
  show (cfg0.win 0).cut (grid0.coords t) ((dats m 0 c).after 0 t) = _
  rw [after0_0]
  funext y
  rw [View.read_apply]
  show outsAt0 m c t (win0_0.xinj (grid0.coords t) y)
    = Cert.DeepFilter.K4 (V m c main_arg0) (V m c main_arg1) (V m c main_arg2) (V m c main_arg3) (((cfg0.win 0).blk t).view.emb y)
  rw [Cert.DeepFilter.Body.body_value]
  refine congrArg (Cert.DeepFilter.K4 (V m c main_arg0) (V m c main_arg1) (V m c main_arg2) (V m c main_arg3)) ?_
  obtain ⟨e0, e1, e2, e3⟩ := block_index t
  have h0 : (y 0).val < 1 := Nat.lt_of_lt_of_le (y 0).isLt (win0_0.xsize_le (grid0.coords t) 0)
  funext a
  apply Fin.ext
  match a with
  | ⟨0, _⟩ => show t.val = win0_0.index t (0 : Fin 4) * 1 + 1 * (y 0).val; omega
  | ⟨1, _⟩ => show (y 1).val = win0_0.index t (1 : Fin 4) * 2 + 1 * (y 1).val; omega
  | ⟨2, _⟩ => show (y 2).val = win0_0.index t (2 : Fin 4) * 257 + 1 * (y 2).val; omega
  | ⟨3, _⟩ => show (y 3).val = win0_0.index t (3 : Fin 4) * 4000 + 1 * (y 3).val; omega

/-- An index of the output array lies in grid point `t`'s block iff each coordinate is in the block's range on its axis. -/
theorem mem_blk (t : Fin cfg0.N) (i : S16x2x257x4000.Idx) :
    i ∈ ((cfg0.win 0).blk t).view.set ↔ ∀ a : Fin 4, win0_0.index t a * win0_0.size a ≤ (i a).val
      ∧ (i a).val < win0_0.index t a * win0_0.size a + win0_0.xsize (grid0.coords t) a := by
  show i ∈ ((View.whole main_v0).slice (win0_0.rect t)).set ↔ _
  rw [View.set_slice_whole, Rect.mem_set_unit]
  exact Iff.rfl

/-- The block's extents at any grid point: nothing is clipped. -/
theorem block_extent : ∀ t : Fin cfg0.N, win0_0.xsize (grid0.coords t) (0 : Fin 4) = 1 ∧ win0_0.xsize (grid0.coords t) (1 : Fin 4) = 2
    ∧ win0_0.xsize (grid0.coords t) (2 : Fin 4) = 257 ∧ win0_0.xsize (grid0.coords t) (3 : Fin 4) = 4000 :=
  (by decide +kernel : ∀ t : Fin grid0.N, _)

/-- The output array after the region: the window sums in the layout [16, 2, 257, 4000]. The block of grid point
    `b` covers batch `b`. -/
theorem final (c : Dev nD) :
    (dats (F := Ideal) m 0 c).arrAt 0 cfg0.N
      = Cert.DeepFilter.K4 (V m c main_arg0) (V m c main_arg1) (V m c main_arg2) (V m c main_arg3) :=
  (dats (F := Ideal) m 0 c).arrAt_eq_of_cover 0
    (Cert.DeepFilter.K4 (V m c main_arg0) (V m c main_arg1) (V m c main_arg2) (V m c main_arg3))
    (fun t _ => flushed_eq m c t) fun i => by
      have hN : cfg0.N = 16 := N_0
      have hi0 : (i 0).val < 16 := (i 0).isLt
      have hi1 : (i 1).val < 2 := (i 1).isLt
      have hi2 : (i 2).val < 257 := (i 2).isLt
      have hi3 : (i 3).val < 4000 := (i 3).isLt
      obtain ⟨tb, htb⟩ : ∃ tb : Fin cfg0.N, tb.val = (i 0).val := ⟨⟨(i 0).val, by omega⟩, rfl⟩
      refine ⟨tb, flush0_0 tb, ?_⟩
      rw [mem_blk]
      obtain ⟨e0, e1, e2, e3⟩ := block_index tb
      obtain ⟨x0, x1, x2, x3⟩ := block_extent tb
      intro a
      match a with
      | ⟨0, _⟩ => show win0_0.index tb (0 : Fin 4) * 1 ≤ (i 0).val ∧ (i 0).val < win0_0.index tb (0 : Fin 4) * 1 + win0_0.xsize (grid0.coords tb) (0 : Fin 4); rw [e0, x0]; omega
      | ⟨1, _⟩ => show win0_0.index tb (1 : Fin 4) * 2 ≤ (i 1).val ∧ (i 1).val < win0_0.index tb (1 : Fin 4) * 2 + win0_0.xsize (grid0.coords tb) (1 : Fin 4); rw [e1, x1]; omega
      | ⟨2, _⟩ => show win0_0.index tb (2 : Fin 4) * 257 ≤ (i 2).val ∧ (i 2).val < win0_0.index tb (2 : Fin 4) * 257 + win0_0.xsize (grid0.coords tb) (2 : Fin 4); rw [e2, x2]; omega
      | ⟨3, _⟩ => show win0_0.index tb (3 : Fin 4) * 4000 ≤ (i 3).val ∧ (i 3).val < win0_0.index tb (3 : Fin 4) * 4000 + win0_0.xsize (grid0.coords tb) (3 : Fin 4); rw [e3, x3]; omega

end Cert.DeepFilter.Kern
end
-- ==== Proof.KernTail.lean ====
/-
  From the output array to the program's result.

  After the region one host operation reshapes the output array [16, 2, 257, 4000] to [16, 514, 4000]. A reshape
  keeps row-major positions: index (b, r, s) of the result reads index (b, r / 257, r % 257, s) of the operand.
  Plane 0 of the operand holds the real window sums and plane 1 the imaginary ones, so row `r` of the result is the
  real sum of bin `r` for `r < 257` and the imaginary sum of bin `r - 257` otherwise: the function `G`.
-/
import proofs.«134051_j16587163697924_2_alg».proof.Proof.KernArray
import Idealize.ShloMosaic.Lib.Pipeline.Value
import Idealize.ShloMosaic.Lib.Pipeline.FrameSuffix
import Idealize.ShloMosaic.Lib.StableHlo.Run

set_option maxRecDepth 16384

noncomputable section

namespace Cert.DeepFilter.Kern

open Idealize.ShloMosaic Idealize.ShloMosaic.TcCoe Idealize.ShloMosaic.ValueIdx Idealize.SL.Sem
open Idealize.ShloMosaic.Pipeline (Dat)
open Idealize.ShloMosaic.StableHlo
open Cert.KernelIdeal Cert.KernelIdeal.Gen

variable (m : (ℓ : Loc nD τ sig) → Buf (Elt Ideal) ℓ)

/-- Row `r` of the [16, 514, 4000] result is plane `r / 257`, bin `r % 257` of the [16, 2, 257, 4000] layout:
    the real sums below row 257, the imaginary sums from row 257. -/
theorem K4_plane_bin (ir ii fr fi : Cert.DeepFilter.Arr) (y : S16x514x4000.Idx)
    (hq : (y 1).val / 257 < 2) (hr : (y 1).val % 257 < 257) :
    Cert.DeepFilter.K4 ir ii fr fi (ix4 (y 0) (⟨(y 1).val / 257, hq⟩ : Fin 2) (⟨(y 1).val % 257, hr⟩ : Fin 257) (y 2))
      = Cert.DeepFilter.G ir ii fr fi y := by
  have h1 : (y 1).val < 514 := (y 1).isLt
  show (if (y 1).val / 257 = 0 then Cert.DeepFilter.sumR ir ii fr fi (y 0) ((y 1).val % 257) (y 2).val
        else Cert.DeepFilter.sumI ir fi (y 0) ((y 1).val % 257) (y 2).val)
      = if (y 1).val < 257 then Cert.DeepFilter.sumR ir ii fr fi (y 0) (y 1).val (y 2).val
        else Cert.DeepFilter.sumI ir fi (y 0) ((y 1).val - 257) (y 2).val
  by_cases h : (y 1).val < 257
  · rw [if_pos (by omega), if_pos h, show (y 1).val % 257 = (y 1).val from by omega]
  · rw [if_neg (by omega), if_neg h, show (y 1).val % 257 = (y 1).val - 257 from by omega]

/-- The reshape [16, 2, 257, 4000] → [16, 514, 4000] read at an index: row-major, index (b, r, s) of the result has
    the position of index (b, r / 257, r % 257, s) of the operand. -/
theorem reshape_K4 (ir ii fr fi : Cert.DeepFilter.Arr) (y : S16x514x4000.Idx) :
    shapeCast S16x514x4000 (Cert.DeepFilter.K4 ir ii fr fi) shapeCasts_S16x2x257x4000_S16x514x4000 y
      = Cert.DeepFilter.G ir ii fr fi y := by
  have h0 : (y 0).val < 16 := (y 0).isLt
  have h1 : (y 1).val < 514 := (y 1).isLt
  have h2 : (y 2).val < 4000 := (y 2).isLt
  have hq : (y 1).val / 257 < 2 := by omega
  have hr : (y 1).val % 257 < 257 := by omega
  refine (shapeCast_apply _ _ y (ix4 (y 0) (⟨(y 1).val / 257, hq⟩ : Fin 2) (⟨(y 1).val % 257, hr⟩ : Fin 257) (y 2)) ?_).trans
    (K4_plane_bin _ _ _ _ y hq hr)
  rw [Shape.rowMajor_val_four, Shape.rowMajor_val_three]
  show (((y 0).val * 2 + (y 1).val / 257) * 257 + (y 1).val % 257) * 4000 + (y 2).val = ((y 0).val * 514 + (y 1).val) * 4000 + (y 2).val
  omega

/-- The program's result buffer after the reshape that follows the region: the window sums as one function `G` of the
    four argument arrays. -/
theorem result (c : Dev nD) :
    Pipeline.afterTail₀ cfgs (dats (F := Ideal) m) 0 (V0 m) [hostOps1] c main_v1
      = Cert.DeepFilter.G (V m c main_arg0) (V m c main_arg1) (V m c main_arg2) (V m c main_arg3) := by
  unfold Pipeline.afterTail₀
  show StableHlo.after hostOps1 _ (Proc.devRef .tc main_v1) = _
  after_results
  have hA : Pipeline.withArrays (cfgs 0).spec c (V0 m c) (fun w => (dats (F := Ideal) m 0 c).arrAt w (cfgs 0).N) (Proc.devRef .tc main_v0)
      = Cert.DeepFilter.K4 (V m c main_arg0) (V m c main_arg1) (V m c main_arg2) (V m c main_arg3) :=
    (Pipeline.withArrays_arr spec0 launch0.win.arr_inj c (V0 m c) (fun w => (dats (F := Ideal) m 0 c).arrAt w cfg0.N) 0).trans (final m c)
  rw [hA]
  funext y
  exact reshape_K4 _ _ _ _ y

end Cert.DeepFilter.Kern
end
-- ==== Proof.KernRun.lean ====
/-
  The kernel program's run, read.

  The program is the pipelined region followed by one reshape. Its frame run ends with every buffer the region does
  not stage at what the operations after the region leave: the result buffer at the reshape of the output array,
  which is the function `G` of the four arguments, and the four arguments, which no operation writes, at their
  launch contents.
-/
import proofs.«134051_j16587163697924_2_alg».proof.Proof.KernTail

set_option maxRecDepth 16384

noncomputable section

namespace Cert.DeepFilter.Kern

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- On every device, from any memory with zero counters: every weakly fair execution of the kernel program
    terminates with the result buffer at the window sums `G` of the four arguments' launch contents and the
    arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v1)
          = Cert.DeepFilter.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v1 (Pipeline.mem_restRefs_of main_v1 (by decide) (by decide))).trans
          ((result m c).trans (by rw [V_main_arg0 m c, V_main_arg1 m c, V_main_arg2 m c, V_main_arg3 m c])),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

end Cert.DeepFilter.Kern
end
-- ==== Proof.RefRunA.lean ====
/-
  The reference program's statements 1 … 60 as a straight line of operations.

  The first window of the program's statements is, in order, the list of operations below (an outlined
  function's two operations stand where it is called). The window equals the straight line of that list by
  unfolding; every operation touches TensorCore buffers only and determines its results; and none of them writes
  an argument buffer, so the arguments keep their contents through the window.
-/
import proofs.«134051_j16587163697924_2_alg».proof.Proof.Gen.ReferenceIdeal
import Idealize.ShloMosaic.Lib.StableHlo.Run

noncomputable section

namespace Cert.DeepFilter.Ref

open Cert.ReferenceIdeal Cert.ReferenceIdeal.Gen Idealize.ShloMosaic Idealize.ShloMosaic.TcCoe Idealize.SL.Sem Idealize.ShloMosaic.StableHlo

variable {F : FTy → Type} [FloatOps F]

/-- The operations of statements 1 … 60, in order. -/
abbrev ops0 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S16x257x4000, .f32⟩) main_arg0) (TRef.of (T := ⟨S_, .f32⟩) main_call0_v0) (TRef.of (T := ⟨S16x259x4004, .f32⟩) main_v0) (fun x v => pad S16x259x4004 ![0, 1, 2] ![0, 1, 2] ![0, 0, 0] x v pads_S16x257x4000_S16x259x4004_000_110_220 h_S_),
    nullary main_c_0 (constantI S_ 32 0#32),
    TRef.unary (TRef.of (T := ⟨S_, .i32⟩) main_c_0) (TRef.of (T := ⟨S_, .f32⟩) main_call1_v0) (sitofp .f32),
    TRef.binary (TRef.of (T := ⟨S16x257x4000, .f32⟩) main_arg1) (TRef.of (T := ⟨S_, .f32⟩) main_call1_v0) (TRef.of (T := ⟨S16x259x4004, .f32⟩) main_v1) (fun x v => pad S16x259x4004 ![0, 1, 2] ![0, 1, 2] ![0, 0, 0] x v pads_S16x257x4000_S16x259x4004_000_110_220 h_S_),
    nullary main_c_1 (constantI S_ 32 0#32),
    TRef.unary (TRef.of (T := ⟨S_, .i32⟩) main_c_1) (TRef.of (T := ⟨S_, .f32⟩) main_call2_v0) (sitofp .f32),
    TRef.binary (TRef.of (T := ⟨S16x257x4000, .f32⟩) main_arg2) (TRef.of (T := ⟨S_, .f32⟩) main_call2_v0) (TRef.of (T := ⟨S16x259x4004, .f32⟩) main_v2) (fun x v => pad S16x259x4004 ![0, 1, 2] ![0, 1, 2] ![0, 0, 0] x v pads_S16x257x4000_S16x259x4004_000_110_220 h_S_),
    nullary main_c_2 (constantI S_ 32 0#32),
    TRef.unary (TRef.of (T := ⟨S_, .i32⟩) main_c_2) (TRef.of (T := ⟨S_, .f32⟩) main_call3_v0) (sitofp .f32),
    TRef.binary (TRef.of (T := ⟨S16x257x4000, .f32⟩) main_arg3) (TRef.of (T := ⟨S_, .f32⟩) main_call3_v0) (TRef.of (T := ⟨S16x259x4004, .f32⟩) main_v3) (fun x v => pad S16x259x4004 ![0, 1, 2] ![0, 1, 2] ![0, 0, 0] x v pads_S16x257x4000_S16x259x4004_000_110_220 h_S_),
    nullary main_cst (constant S_ .f32 0x00000000#32),
    unary main_cst main_v4 (broadcastInDim S16x257x4000 ![] bcast_S_S16x257x4000 : (⟨S_, .f32⟩ : BufTy).Contents (Elt F) → (⟨S16x257x4000, .f32⟩ : BufTy).Contents (Elt F)),
    nullary main_cst_3 (constant S_ .f32 0x00000000#32),
    unary main_cst_3 main_v5 (broadcastInDim S16x257x4000 ![] bcast_S_S16x257x4000 : (⟨S_, .f32⟩ : BufTy).Contents (Elt F) → (⟨S16x257x4000, .f32⟩ : BufTy).Contents (Elt F)),
    unary main_v0 main_v6 ((extractStridedSlice S16x257x4000 ![0, 0, 0] · slices_S16x259x4004_S16x257x4000_0_0_0) : (⟨S16x259x4004, .f32⟩ : BufTy).Contents (Elt F) → (⟨S16x257x4000, .f32⟩ : BufTy).Contents (Elt F)),
    unary main_v1 main_v7 ((extractStridedSlice S16x257x4000 ![0, 0, 0] · slices_S16x259x4004_S16x257x4000_0_0_0) : (⟨S16x259x4004, .f32⟩ : BufTy).Contents (Elt F) → (⟨S16x257x4000, .f32⟩ : BufTy).Contents (Elt F)),
    unary main_v2 main_v8 ((extractStridedSlice S16x257x4000 ![0, 0, 0] · slices_S16x259x4004_S16x257x4000_0_0_0) : (⟨S16x259x4004, .f32⟩ : BufTy).Contents (Elt F) → (⟨S16x257x4000, .f32⟩ : BufTy).Contents (Elt F)),
    unary main_v3 main_v9 ((extractStridedSlice S16x257x4000 ![0, 0, 0] · slices_S16x259x4004_S16x257x4000_0_0_0) : (⟨S16x259x4004, .f32⟩ : BufTy).Contents (Elt F) → (⟨S16x257x4000, .f32⟩ : BufTy).Contents (Elt F)),
    binary main_v6 main_v8 main_v10 (mulf : (⟨S16x257x4000, .f32⟩ : BufTy).Contents (Elt F) → (⟨S16x257x4000, .f32⟩ : BufTy).Contents (Elt F) → (⟨S16x257x4000, .f32⟩ : BufTy).Contents (Elt F)),
    binary main_v4 main_v10 main_v11 (addf : (⟨S16x257x4000, .f32⟩ : BufTy).Contents (Elt F) → (⟨S16x257x4000, .f32⟩ : BufTy).Contents (Elt F) → (⟨S16x257x4000, .f32⟩ : BufTy).Contents (Elt F)),
    binary main_v7 main_v9 main_v12 (mulf : (⟨S16x257x4000, .f32⟩ : BufTy).Contents (Elt F) → (⟨S16x257x4000, .f32⟩ : BufTy).Contents (Elt F) → (⟨S16x257x4000, .f32⟩ : BufTy).Contents (Elt F)),
    binary main_v11 main_v12 main_v13 (subf : (⟨S16x257x4000, .f32⟩ : BufTy).Contents (Elt F) → (⟨S16x257x4000, .f32⟩ : BufTy).Contents (Elt F) → (⟨S16x257x4000, .f32⟩ : BufTy).Contents (Elt F)),
    nullary main_cst_4 (constant S_ .f32 0x40000000#32),
    unary main_cst_4 main_v14 (broadcastInDim S16x257x4000 ![] bcast_S_S16x257x4000 : (⟨S_, .f32⟩ : BufTy).Contents (Elt F) → (⟨S16x257x4000, .f32⟩ : BufTy).Contents (Elt F)),
    binary main_v14 main_v6 main_v15 (mulf : (⟨S16x257x4000, .f32⟩ : BufTy).Contents (Elt F) → (⟨S16x257x4000, .f32⟩ : BufTy).Contents (Elt F) → (⟨S16x257x4000, .f32⟩ : BufTy).Contents (Elt F)),
    binary main_v15 main_v9 main_v16 (mulf : (⟨S16x257x4000, .f32⟩ : BufTy).Contents (Elt F) → (⟨S16x257x4000, .f32⟩ : BufTy).Contents (Elt F) → (⟨S16x257x4000, .f32⟩ : BufTy).Contents (Elt F)),
    binary main_v5 main_v16 main_v17 (addf : (⟨S16x257x4000, .f32⟩ : BufTy).Contents (Elt F) → (⟨S16x257x4000, .f32⟩ : BufTy).Contents (Elt F) → (⟨S16x257x4000, .f32⟩ : BufTy).Contents (Elt F)),
    unary main_v0 main_v18 ((extractStridedSlice S16x257x4000 ![0, 0, 1] · slices_S16x259x4004_S16x257x4000_0_0_1) : (⟨S16x259x4004, .f32⟩ : BufTy).Contents (Elt F) → (⟨S16x257x4000, .f32⟩ : BufTy).Contents (Elt F)),
    unary main_v1 main_v19 ((extractStridedSlice S16x257x4000 ![0, 0, 1] · slices_S16x259x4004_S16x257x4000_0_0_1) : (⟨S16x259x4004, .f32⟩ : BufTy).Contents (Elt F) → (⟨S16x257x4000, .f32⟩ : BufTy).Contents (Elt F)),
    unary main_v2 main_v20 ((extractStridedSlice S16x257x4000 ![0, 0, 1] · slices_S16x259x4004_S16x257x4000_0_0_1) : (⟨S16x259x4004, .f32⟩ : BufTy).Contents (Elt F) → (⟨S16x257x4000, .f32⟩ : BufTy).Contents (Elt F)),
    unary main_v3 main_v21 ((extractStridedSlice S16x257x4000 ![0, 0, 1] · slices_S16x259x4004_S16x257x4000_0_0_1) : (⟨S16x259x4004, .f32⟩ : BufTy).Contents (Elt F) → (⟨S16x257x4000, .f32⟩ : BufTy).Contents (Elt F)),
    binary main_v18 main_v20 main_v22 (mulf : (⟨S16x257x4000, .f32⟩ : BufTy).Contents (Elt F) → (⟨S16x257x4000, .f32⟩ : BufTy).Contents (Elt F) → (⟨S16x257x4000, .f32⟩ : BufTy).Contents (Elt F)),
    binary main_v13 main_v22 main_v23 (addf : (⟨S16x257x4000, .f32⟩ : BufTy).Contents (Elt F) → (⟨S16x257x4000, .f32⟩ : BufTy).Contents (Elt F) → (⟨S16x257x4000, .f32⟩ : BufTy).Contents (Elt F)),
    binary main_v19 main_v21 main_v24 (mulf : (⟨S16x257x4000, .f32⟩ : BufTy).Contents (Elt F) → (⟨S16x257x4000, .f32⟩ : BufTy).Contents (Elt F) → (⟨S16x257x4000, .f32⟩ : BufTy).Contents (Elt F)),
    binary main_v23 main_v24 main_v25 (subf : (⟨S16x257x4000, .f32⟩ : BufTy).Contents (Elt F) → (⟨S16x257x4000, .f32⟩ : BufTy).Contents (Elt F) → (⟨S16x257x4000, .f32⟩ : BufTy).Contents (Elt F)),
    nullary main_cst_5 (constant S_ .f32 0x40000000#32),
    unary main_cst_5 main_v26 (broadcastInDim S16x257x4000 ![] bcast_S_S16x257x4000 : (⟨S_, .f32⟩ : BufTy).Contents (Elt F) → (⟨S16x257x4000, .f32⟩ : BufTy).Contents (Elt F)),
    binary main_v26 main_v18 main_v27 (mulf : (⟨S16x257x4000, .f32⟩ : BufTy).Contents (Elt F) → (⟨S16x257x4000, .f32⟩ : BufTy).Contents (Elt F) → (⟨S16x257x4000, .f32⟩ : BufTy).Contents (Elt F)),
    binary main_v27 main_v21 main_v28 (mulf : (⟨S16x257x4000, .f32⟩ : BufTy).Contents (Elt F) → (⟨S16x257x4000, .f32⟩ : BufTy).Contents (Elt F) → (⟨S16x257x4000, .f32⟩ : BufTy).Contents (Elt F)),
    binary main_v17 main_v28 main_v29 (addf : (⟨S16x257x4000, .f32⟩ : BufTy).Contents (Elt F) → (⟨S16x257x4000, .f32⟩ : BufTy).Contents (Elt F) → (⟨S16x257x4000, .f32⟩ : BufTy).Contents (Elt F)),
    unary main_v0 main_v30 ((extractStridedSlice S16x257x4000 ![0, 0, 2] · slices_S16x259x4004_S16x257x4000_0_0_2) : (⟨S16x259x4004, .f32⟩ : BufTy).Contents (Elt F) → (⟨S16x257x4000, .f32⟩ : BufTy).Contents (Elt F)),
    unary main_v1 main_v31 ((extractStridedSlice S16x257x4000 ![0, 0, 2] · slices_S16x259x4004_S16x257x4000_0_0_2) : (⟨S16x259x4004, .f32⟩ : BufTy).Contents (Elt F) → (⟨S16x257x4000, .f32⟩ : BufTy).Contents (Elt F)),
    unary main_v2 main_v32 ((extractStridedSlice S16x257x4000 ![0, 0, 2] · slices_S16x259x4004_S16x257x4000_0_0_2) : (⟨S16x259x4004, .f32⟩ : BufTy).Contents (Elt F) → (⟨S16x257x4000, .f32⟩ : BufTy).Contents (Elt F)),
    unary main_v3 main_v33 ((extractStridedSlice S16x257x4000 ![0, 0, 2] · slices_S16x259x4004_S16x257x4000_0_0_2) : (⟨S16x259x4004, .f32⟩ : BufTy).Contents (Elt F) → (⟨S16x257x4000, .f32⟩ : BufTy).Contents (Elt F)),
    binary main_v30 main_v32 main_v34 (mulf : (⟨S16x257x4000, .f32⟩ : BufTy).Contents (Elt F) → (⟨S16x257x4000, .f32⟩ : BufTy).Contents (Elt F) → (⟨S16x257x4000, .f32⟩ : BufTy).Contents (Elt F)),
    binary main_v25 main_v34 main_v35 (addf : (⟨S16x257x4000, .f32⟩ : BufTy).Contents (Elt F) → (⟨S16x257x4000, .f32⟩ : BufTy).Contents (Elt F) → (⟨S16x257x4000, .f32⟩ : BufTy).Contents (Elt F)),
    binary main_v31 main_v33 main_v36 (mulf : (⟨S16x257x4000, .f32⟩ : BufTy).Contents (Elt F) → (⟨S16x257x4000, .f32⟩ : BufTy).Contents (Elt F) → (⟨S16x257x4000, .f32⟩ : BufTy).Contents (Elt F)),
    binary main_v35 main_v36 main_v37 (subf : (⟨S16x257x4000, .f32⟩ : BufTy).Contents (Elt F) → (⟨S16x257x4000, .f32⟩ : BufTy).Contents (Elt F) → (⟨S16x257x4000, .f32⟩ : BufTy).Contents (Elt F)),
    nullary main_cst_6 (constant S_ .f32 0x40000000#32),
    unary main_cst_6 main_v38 (broadcastInDim S16x257x4000 ![] bcast_S_S16x257x4000 : (⟨S_, .f32⟩ : BufTy).Contents (Elt F) → (⟨S16x257x4000, .f32⟩ : BufTy).Contents (Elt F)),
    binary main_v38 main_v30 main_v39 (mulf : (⟨S16x257x4000, .f32⟩ : BufTy).Contents (Elt F) → (⟨S16x257x4000, .f32⟩ : BufTy).Contents (Elt F) → (⟨S16x257x4000, .f32⟩ : BufTy).Contents (Elt F)),
    binary main_v39 main_v33 main_v40 (mulf : (⟨S16x257x4000, .f32⟩ : BufTy).Contents (Elt F) → (⟨S16x257x4000, .f32⟩ : BufTy).Contents (Elt F) → (⟨S16x257x4000, .f32⟩ : BufTy).Contents (Elt F)),
    binary main_v29 main_v40 main_v41 (addf : (⟨S16x257x4000, .f32⟩ : BufTy).Contents (Elt F) → (⟨S16x257x4000, .f32⟩ : BufTy).Contents (Elt F) → (⟨S16x257x4000, .f32⟩ : BufTy).Contents (Elt F)),
    unary main_v0 main_v42 ((extractStridedSlice S16x257x4000 ![0, 0, 3] · slices_S16x259x4004_S16x257x4000_0_0_3) : (⟨S16x259x4004, .f32⟩ : BufTy).Contents (Elt F) → (⟨S16x257x4000, .f32⟩ : BufTy).Contents (Elt F)),
    unary main_v1 main_v43 ((extractStridedSlice S16x257x4000 ![0, 0, 3] · slices_S16x259x4004_S16x257x4000_0_0_3) : (⟨S16x259x4004, .f32⟩ : BufTy).Contents (Elt F) → (⟨S16x257x4000, .f32⟩ : BufTy).Contents (Elt F)),
    unary main_v2 main_v44 ((extractStridedSlice S16x257x4000 ![0, 0, 3] · slices_S16x259x4004_S16x257x4000_0_0_3) : (⟨S16x259x4004, .f32⟩ : BufTy).Contents (Elt F) → (⟨S16x257x4000, .f32⟩ : BufTy).Contents (Elt F)),
    unary main_v3 main_v45 ((extractStridedSlice S16x257x4000 ![0, 0, 3] · slices_S16x259x4004_S16x257x4000_0_0_3) : (⟨S16x259x4004, .f32⟩ : BufTy).Contents (Elt F) → (⟨S16x257x4000, .f32⟩ : BufTy).Contents (Elt F)),
    binary main_v42 main_v44 main_v46 (mulf : (⟨S16x257x4000, .f32⟩ : BufTy).Contents (Elt F) → (⟨S16x257x4000, .f32⟩ : BufTy).Contents (Elt F) → (⟨S16x257x4000, .f32⟩ : BufTy).Contents (Elt F)),
    binary main_v37 main_v46 main_v47 (addf : (⟨S16x257x4000, .f32⟩ : BufTy).Contents (Elt F) → (⟨S16x257x4000, .f32⟩ : BufTy).Contents (Elt F) → (⟨S16x257x4000, .f32⟩ : BufTy).Contents (Elt F)),
    binary main_v43 main_v45 main_v48 (mulf : (⟨S16x257x4000, .f32⟩ : BufTy).Contents (Elt F) → (⟨S16x257x4000, .f32⟩ : BufTy).Contents (Elt F) → (⟨S16x257x4000, .f32⟩ : BufTy).Contents (Elt F)),
    binary main_v47 main_v48 main_v49 (subf : (⟨S16x257x4000, .f32⟩ : BufTy).Contents (Elt F) → (⟨S16x257x4000, .f32⟩ : BufTy).Contents (Elt F) → (⟨S16x257x4000, .f32⟩ : BufTy).Contents (Elt F)),
    nullary main_cst_7 (constant S_ .f32 0x40000000#32) ]

set_option maxRecDepth 8192 in
set_option maxHeartbeats 4000000 in
/-- The window is the straight line of its operations. -/
theorem part0_eq (c : Dev nD) : main_part0 (F := F) c = seq ops0 := rfl

set_option maxRecDepth 8192 in
/-- Every operation of the window touches TensorCore buffers only. -/
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., nullary_bufs_sub .., unary_bufs_sub .., unary_bufs_sub .., unary_bufs_sub .., unary_bufs_sub .., unary_bufs_sub .., binary_bufs_sub .., binary_bufs_sub .., binary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., binary_bufs_sub .., binary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., binary_bufs_sub .., binary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., binary_bufs_sub .., binary_bufs_sub .., binary_bufs_sub .., nullary_bufs_sub ..⟩

set_option maxRecDepth 8192 in
/-- Every operation of the window determines its results. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 4000000 in
/-- The window writes no argument buffer. -/
theorem keep0 (V : Valuation τ sig (Elt F)) :
    after ops0 V (Proc.devRef .tc main_arg0) = V (Proc.devRef .tc main_arg0)
      ∧ after ops0 V (Proc.devRef .tc main_arg1) = V (Proc.devRef .tc main_arg1)
      ∧ after ops0 V (Proc.devRef .tc main_arg2) = V (Proc.devRef .tc main_arg2)
      ∧ after ops0 V (Proc.devRef .tc main_arg3) = V (Proc.devRef .tc main_arg3) := by
  refine ⟨?_, ?_, ?_, ?_⟩ <;> after_results_simp <;> rfl

end Cert.DeepFilter.Ref

end
-- ==== Proof.RefRunB.lean ====
/-
  The reference program's statements 61 … 120 as a straight line of operations.

  The second window of the program's statements is, in order, the list of operations below (an outlined
  function's two operations stand where it is called). The window equals the straight line of that list by
  unfolding; every operation touches TensorCore buffers only and determines its results; and none of them writes
  an argument buffer, so the arguments keep their contents through the window.
-/
import proofs.«134051_j16587163697924_2_alg».proof.Proof.Gen.ReferenceIdeal
import Idealize.ShloMosaic.Lib.StableHlo.Run

noncomputable section

namespace Cert.DeepFilter.Ref

open Cert.ReferenceIdeal Cert.ReferenceIdeal.Gen Idealize.ShloMosaic Idealize.ShloMosaic.TcCoe Idealize.SL.Sem Idealize.ShloMosaic.StableHlo

variable {F : FTy → Type} [FloatOps F]

/-- The operations of statements 61 … 120, in order. -/
abbrev ops1 : List (HloOp τ sig (Elt F)) :=
  [ unary main_cst_7 main_v50 (broadcastInDim S16x257x4000 ![] bcast_S_S16x257x4000 : (⟨S_, .f32⟩ : BufTy).Contents (Elt F) → (⟨S16x257x4000, .f32⟩ : BufTy).Contents (Elt F)),
    binary main_v50 main_v42 main_v51 (mulf : (⟨S16x257x4000, .f32⟩ : BufTy).Contents (Elt F) → (⟨S16x257x4000, .f32⟩ : BufTy).Contents (Elt F) → (⟨S16x257x4000, .f32⟩ : BufTy).Contents (Elt F)),
    binary main_v51 main_v45 main_v52 (mulf : (⟨S16x257x4000, .f32⟩ : BufTy).Contents (Elt F) → (⟨S16x257x4000, .f32⟩ : BufTy).Contents (Elt F) → (⟨S16x257x4000, .f32⟩ : BufTy).Contents (Elt F)),
    binary main_v41 main_v52 main_v53 (addf : (⟨S16x257x4000, .f32⟩ : BufTy).Contents (Elt F) → (⟨S16x257x4000, .f32⟩ : BufTy).Contents (Elt F) → (⟨S16x257x4000, .f32⟩ : BufTy).Contents (Elt F)),
    unary main_v0 main_v54 ((extractStridedSlice S16x257x4000 ![0, 0, 4] · slices_S16x259x4004_S16x257x4000_0_0_4) : (⟨S16x259x4004, .f32⟩ : BufTy).Contents (Elt F) → (⟨S16x257x4000, .f32⟩ : BufTy).Contents (Elt F)),
    unary main_v1 main_v55 ((extractStridedSlice S16x257x4000 ![0, 0, 4] · slices_S16x259x4004_S16x257x4000_0_0_4) : (⟨S16x259x4004, .f32⟩ : BufTy).Contents (Elt F) → (⟨S16x257x4000, .f32⟩ : BufTy).Contents (Elt F)),
    unary main_v2 main_v56 ((extractStridedSlice S16x257x4000 ![0, 0, 4] · slices_S16x259x4004_S16x257x4000_0_0_4) : (⟨S16x259x4004, .f32⟩ : BufTy).Contents (Elt F) → (⟨S16x257x4000, .f32⟩ : BufTy).Contents (Elt F)),
    unary main_v3 main_v57 ((extractStridedSlice S16x257x4000 ![0, 0, 4] · slices_S16x259x4004_S16x257x4000_0_0_4) : (⟨S16x259x4004, .f32⟩ : BufTy).Contents (Elt F) → (⟨S16x257x4000, .f32⟩ : BufTy).Contents (Elt F)),
    binary main_v54 main_v56 main_v58 (mulf : (⟨S16x257x4000, .f32⟩ : BufTy).Contents (Elt F) → (⟨S16x257x4000, .f32⟩ : BufTy).Contents (Elt F) → (⟨S16x257x4000, .f32⟩ : BufTy).Contents (Elt F)),
    binary main_v49 main_v58 main_v59 (addf : (⟨S16x257x4000, .f32⟩ : BufTy).Contents (Elt F) → (⟨S16x257x4000, .f32⟩ : BufTy).Contents (Elt F) → (⟨S16x257x4000, .f32⟩ : BufTy).Contents (Elt F)),
    binary main_v55 main_v57 main_v60 (mulf : (⟨S16x257x4000, .f32⟩ : BufTy).Contents (Elt F) → (⟨S16x257x4000, .f32⟩ : BufTy).Contents (Elt F) → (⟨S16x257x4000, .f32⟩ : BufTy).Contents (Elt F)),
    binary main_v59 main_v60 main_v61 (subf : (⟨S16x257x4000, .f32⟩ : BufTy).Contents (Elt F) → (⟨S16x257x4000, .f32⟩ : BufTy).Contents (Elt F) → (⟨S16x257x4000, .f32⟩ : BufTy).Contents (Elt F)),
    nullary main_cst_8 (constant S_ .f32 0x40000000#32),
    unary main_cst_8 main_v62 (broadcastInDim S16x257x4000 ![] bcast_S_S16x257x4000 : (⟨S_, .f32⟩ : BufTy).Contents (Elt F) → (⟨S16x257x4000, .f32⟩ : BufTy).Contents (Elt F)),
    binary main_v62 main_v54 main_v63 (mulf : (⟨S16x257x4000, .f32⟩ : BufTy).Contents (Elt F) → (⟨S16x257x4000, .f32⟩ : BufTy).Contents (Elt F) → (⟨S16x257x4000, .f32⟩ : BufTy).Contents (Elt F)),
    binary main_v63 main_v57 main_v64 (mulf : (⟨S16x257x4000, .f32⟩ : BufTy).Contents (Elt F) → (⟨S16x257x4000, .f32⟩ : BufTy).Contents (Elt F) → (⟨S16x257x4000, .f32⟩ : BufTy).Contents (Elt F)),
    binary main_v53 main_v64 main_v65 (addf : (⟨S16x257x4000, .f32⟩ : BufTy).Contents (Elt F) → (⟨S16x257x4000, .f32⟩ : BufTy).Contents (Elt F) → (⟨S16x257x4000, .f32⟩ : BufTy).Contents (Elt F)),
    unary main_v0 main_v66 ((extractStridedSlice S16x257x4000 ![0, 1, 0] · slices_S16x259x4004_S16x257x4000_0_1_0) : (⟨S16x259x4004, .f32⟩ : BufTy).Contents (Elt F) → (⟨S16x257x4000, .f32⟩ : BufTy).Contents (Elt F)),
    unary main_v1 main_v67 ((extractStridedSlice S16x257x4000 ![0, 1, 0] · slices_S16x259x4004_S16x257x4000_0_1_0) : (⟨S16x259x4004, .f32⟩ : BufTy).Contents (Elt F) → (⟨S16x257x4000, .f32⟩ : BufTy).Contents (Elt F)),
    unary main_v2 main_v68 ((extractStridedSlice S16x257x4000 ![0, 1, 0] · slices_S16x259x4004_S16x257x4000_0_1_0) : (⟨S16x259x4004, .f32⟩ : BufTy).Contents (Elt F) → (⟨S16x257x4000, .f32⟩ : BufTy).Contents (Elt F)),
    unary main_v3 main_v69 ((extractStridedSlice S16x257x4000 ![0, 1, 0] · slices_S16x259x4004_S16x257x4000_0_1_0) : (⟨S16x259x4004, .f32⟩ : BufTy).Contents (Elt F) → (⟨S16x257x4000, .f32⟩ : BufTy).Contents (Elt F)),
    binary main_v66 main_v68 main_v70 (mulf : (⟨S16x257x4000, .f32⟩ : BufTy).Contents (Elt F) → (⟨S16x257x4000, .f32⟩ : BufTy).Contents (Elt F) → (⟨S16x257x4000, .f32⟩ : BufTy).Contents (Elt F)),
    binary main_v61 main_v70 main_v71 (addf : (⟨S16x257x4000, .f32⟩ : BufTy).Contents (Elt F) → (⟨S16x257x4000, .f32⟩ : BufTy).Contents (Elt F) → (⟨S16x257x4000, .f32⟩ : BufTy).Contents (Elt F)),
    binary main_v67 main_v69 main_v72 (mulf : (⟨S16x257x4000, .f32⟩ : BufTy).Contents (Elt F) → (⟨S16x257x4000, .f32⟩ : BufTy).Contents (Elt F) → (⟨S16x257x4000, .f32⟩ : BufTy).Contents (Elt F)),
    binary main_v71 main_v72 main_v73 (subf : (⟨S16x257x4000, .f32⟩ : BufTy).Contents (Elt F) → (⟨S16x257x4000, .f32⟩ : BufTy).Contents (Elt F) → (⟨S16x257x4000, .f32⟩ : BufTy).Contents (Elt F)),
    nullary main_cst_9 (constant S_ .f32 0x40000000#32),
    unary main_cst_9 main_v74 (broadcastInDim S16x257x4000 ![] bcast_S_S16x257x4000 : (⟨S_, .f32⟩ : BufTy).Contents (Elt F) → (⟨S16x257x4000, .f32⟩ : BufTy).Contents (Elt F)),
    binary main_v74 main_v66 main_v75 (mulf : (⟨S16x257x4000, .f32⟩ : BufTy).Contents (Elt F) → (⟨S16x257x4000, .f32⟩ : BufTy).Contents (Elt F) → (⟨S16x257x4000, .f32⟩ : BufTy).Contents (Elt F)),
    binary main_v75 main_v69 main_v76 (mulf : (⟨S16x257x4000, .f32⟩ : BufTy).Contents (Elt F) → (⟨S16x257x4000, .f32⟩ : BufTy).Contents (Elt F) → (⟨S16x257x4000, .f32⟩ : BufTy).Contents (Elt F)),
    binary main_v65 main_v76 main_v77 (addf : (⟨S16x257x4000, .f32⟩ : BufTy).Contents (Elt F) → (⟨S16x257x4000, .f32⟩ : BufTy).Contents (Elt F) → (⟨S16x257x4000, .f32⟩ : BufTy).Contents (Elt F)),
    unary main_v0 main_v78 ((extractStridedSlice S16x257x4000 ![0, 1, 1] · slices_S16x259x4004_S16x257x4000_0_1_1) : (⟨S16x259x4004, .f32⟩ : BufTy).Contents (Elt F) → (⟨S16x257x4000, .f32⟩ : BufTy).Contents (Elt F)),
    unary main_v1 main_v79 ((extractStridedSlice S16x257x4000 ![0, 1, 1] · slices_S16x259x4004_S16x257x4000_0_1_1) : (⟨S16x259x4004, .f32⟩ : BufTy).Contents (Elt F) → (⟨S16x257x4000, .f32⟩ : BufTy).Contents (Elt F)),
    unary main_v2 main_v80 ((extractStridedSlice S16x257x4000 ![0, 1, 1] · slices_S16x259x4004_S16x257x4000_0_1_1) : (⟨S16x259x4004, .f32⟩ : BufTy).Contents (Elt F) → (⟨S16x257x4000, .f32⟩ : BufTy).Contents (Elt F)),
    unary main_v3 main_v81 ((extractStridedSlice S16x257x4000 ![0, 1, 1] · slices_S16x259x4004_S16x257x4000_0_1_1) : (⟨S16x259x4004, .f32⟩ : BufTy).Contents (Elt F) → (⟨S16x257x4000, .f32⟩ : BufTy).Contents (Elt F)),
    binary main_v78 main_v80 main_v82 (mulf : (⟨S16x257x4000, .f32⟩ : BufTy).Contents (Elt F) → (⟨S16x257x4000, .f32⟩ : BufTy).Contents (Elt F) → (⟨S16x257x4000, .f32⟩ : BufTy).Contents (Elt F)),
    binary main_v73 main_v82 main_v83 (addf : (⟨S16x257x4000, .f32⟩ : BufTy).Contents (Elt F) → (⟨S16x257x4000, .f32⟩ : BufTy).Contents (Elt F) → (⟨S16x257x4000, .f32⟩ : BufTy).Contents (Elt F)),
    binary main_v79 main_v81 main_v84 (mulf : (⟨S16x257x4000, .f32⟩ : BufTy).Contents (Elt F) → (⟨S16x257x4000, .f32⟩ : BufTy).Contents (Elt F) → (⟨S16x257x4000, .f32⟩ : BufTy).Contents (Elt F)),
    binary main_v83 main_v84 main_v85 (subf : (⟨S16x257x4000, .f32⟩ : BufTy).Contents (Elt F) → (⟨S16x257x4000, .f32⟩ : BufTy).Contents (Elt F) → (⟨S16x257x4000, .f32⟩ : BufTy).Contents (Elt F)),
    nullary main_cst_10 (constant S_ .f32 0x40000000#32),
    unary main_cst_10 main_v86 (broadcastInDim S16x257x4000 ![] bcast_S_S16x257x4000 : (⟨S_, .f32⟩ : BufTy).Contents (Elt F) → (⟨S16x257x4000, .f32⟩ : BufTy).Contents (Elt F)),
    binary main_v86 main_v78 main_v87 (mulf : (⟨S16x257x4000, .f32⟩ : BufTy).Contents (Elt F) → (⟨S16x257x4000, .f32⟩ : BufTy).Contents (Elt F) → (⟨S16x257x4000, .f32⟩ : BufTy).Contents (Elt F)),
    binary main_v87 main_v81 main_v88 (mulf : (⟨S16x257x4000, .f32⟩ : BufTy).Contents (Elt F) → (⟨S16x257x4000, .f32⟩ : BufTy).Contents (Elt F) → (⟨S16x257x4000, .f32⟩ : BufTy).Contents (Elt F)),
    binary main_v77 main_v88 main_v89 (addf : (⟨S16x257x4000, .f32⟩ : BufTy).Contents (Elt F) → (⟨S16x257x4000, .f32⟩ : BufTy).Contents (Elt F) → (⟨S16x257x4000, .f32⟩ : BufTy).Contents (Elt F)),
    unary main_v0 main_v90 ((extractStridedSlice S16x257x4000 ![0, 1, 2] · slices_S16x259x4004_S16x257x4000_0_1_2) : (⟨S16x259x4004, .f32⟩ : BufTy).Contents (Elt F) → (⟨S16x257x4000, .f32⟩ : BufTy).Contents (Elt F)),
    unary main_v1 main_v91 ((extractStridedSlice S16x257x4000 ![0, 1, 2] · slices_S16x259x4004_S16x257x4000_0_1_2) : (⟨S16x259x4004, .f32⟩ : BufTy).Contents (Elt F) → (⟨S16x257x4000, .f32⟩ : BufTy).Contents (Elt F)),
    unary main_v2 main_v92 ((extractStridedSlice S16x257x4000 ![0, 1, 2] · slices_S16x259x4004_S16x257x4000_0_1_2) : (⟨S16x259x4004, .f32⟩ : BufTy).Contents (Elt F) → (⟨S16x257x4000, .f32⟩ : BufTy).Contents (Elt F)),
    unary main_v3 main_v93 ((extractStridedSlice S16x257x4000 ![0, 1, 2] · slices_S16x259x4004_S16x257x4000_0_1_2) : (⟨S16x259x4004, .f32⟩ : BufTy).Contents (Elt F) → (⟨S16x257x4000, .f32⟩ : BufTy).Contents (Elt F)),
    binary main_v90 main_v92 main_v94 (mulf : (⟨S16x257x4000, .f32⟩ : BufTy).Contents (Elt F) → (⟨S16x257x4000, .f32⟩ : BufTy).Contents (Elt F) → (⟨S16x257x4000, .f32⟩ : BufTy).Contents (Elt F)),
    binary main_v85 main_v94 main_v95 (addf : (⟨S16x257x4000, .f32⟩ : BufTy).Contents (Elt F) → (⟨S16x257x4000, .f32⟩ : BufTy).Contents (Elt F) → (⟨S16x257x4000, .f32⟩ : BufTy).Contents (Elt F)),
    binary main_v91 main_v93 main_v96 (mulf : (⟨S16x257x4000, .f32⟩ : BufTy).Contents (Elt F) → (⟨S16x257x4000, .f32⟩ : BufTy).Contents (Elt F) → (⟨S16x257x4000, .f32⟩ : BufTy).Contents (Elt F)),
    binary main_v95 main_v96 main_v97 (subf : (⟨S16x257x4000, .f32⟩ : BufTy).Contents (Elt F) → (⟨S16x257x4000, .f32⟩ : BufTy).Contents (Elt F) → (⟨S16x257x4000, .f32⟩ : BufTy).Contents (Elt F)),
    nullary main_cst_11 (constant S_ .f32 0x40000000#32),
    unary main_cst_11 main_v98 (broadcastInDim S16x257x4000 ![] bcast_S_S16x257x4000 : (⟨S_, .f32⟩ : BufTy).Contents (Elt F) → (⟨S16x257x4000, .f32⟩ : BufTy).Contents (Elt F)),
    binary main_v98 main_v90 main_v99 (mulf : (⟨S16x257x4000, .f32⟩ : BufTy).Contents (Elt F) → (⟨S16x257x4000, .f32⟩ : BufTy).Contents (Elt F) → (⟨S16x257x4000, .f32⟩ : BufTy).Contents (Elt F)),
    binary main_v99 main_v93 main_v100 (mulf : (⟨S16x257x4000, .f32⟩ : BufTy).Contents (Elt F) → (⟨S16x257x4000, .f32⟩ : BufTy).Contents (Elt F) → (⟨S16x257x4000, .f32⟩ : BufTy).Contents (Elt F)),
    binary main_v89 main_v100 main_v101 (addf : (⟨S16x257x4000, .f32⟩ : BufTy).Contents (Elt F) → (⟨S16x257x4000, .f32⟩ : BufTy).Contents (Elt F) → (⟨S16x257x4000, .f32⟩ : BufTy).Contents (Elt F)),
    unary main_v0 main_v102 ((extractStridedSlice S16x257x4000 ![0, 1, 3] · slices_S16x259x4004_S16x257x4000_0_1_3) : (⟨S16x259x4004, .f32⟩ : BufTy).Contents (Elt F) → (⟨S16x257x4000, .f32⟩ : BufTy).Contents (Elt F)),
    unary main_v1 main_v103 ((extractStridedSlice S16x257x4000 ![0, 1, 3] · slices_S16x259x4004_S16x257x4000_0_1_3) : (⟨S16x259x4004, .f32⟩ : BufTy).Contents (Elt F) → (⟨S16x257x4000, .f32⟩ : BufTy).Contents (Elt F)),
    unary main_v2 main_v104 ((extractStridedSlice S16x257x4000 ![0, 1, 3] · slices_S16x259x4004_S16x257x4000_0_1_3) : (⟨S16x259x4004, .f32⟩ : BufTy).Contents (Elt F) → (⟨S16x257x4000, .f32⟩ : BufTy).Contents (Elt F)),
    unary main_v3 main_v105 ((extractStridedSlice S16x257x4000 ![0, 1, 3] · slices_S16x259x4004_S16x257x4000_0_1_3) : (⟨S16x259x4004, .f32⟩ : BufTy).Contents (Elt F) → (⟨S16x257x4000, .f32⟩ : BufTy).Contents (Elt F)) ]

set_option maxRecDepth 8192 in
set_option maxHeartbeats 4000000 in
/-- The window is the straight line of its operations. -/
theorem part1_eq (c : Dev nD) : main_part1 (F := F) c = seq ops1 := rfl

set_option maxRecDepth 8192 in
/-- Every operation of the window touches TensorCore buffers only. -/
theorem ops1_sub : (ops1 : List (HloOp τ sig (Elt F))).Forall fun op => op.bufs ⊆ tcRefs τ sig :=
  ⟨unary_bufs_sub .., binary_bufs_sub .., binary_bufs_sub .., binary_bufs_sub .., unary_bufs_sub .., unary_bufs_sub .., unary_bufs_sub .., unary_bufs_sub .., binary_bufs_sub .., binary_bufs_sub .., binary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., binary_bufs_sub .., binary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., binary_bufs_sub .., binary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., binary_bufs_sub .., binary_bufs_sub .., binary_bufs_sub .., nullary_bufs_sub .., unary_bufs_sub .., binary_bufs_sub .., binary_bufs_sub .., binary_bufs_sub .., unary_bufs_sub .., unary_bufs_sub .., unary_bufs_sub .., unary_bufs_sub ..⟩

set_option maxRecDepth 8192 in
/-- Every operation of the window determines its results. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 4000000 in
/-- The window writes no argument buffer. -/
theorem keep1 (V : Valuation τ sig (Elt F)) :
    after ops1 V (Proc.devRef .tc main_arg0) = V (Proc.devRef .tc main_arg0)
      ∧ after ops1 V (Proc.devRef .tc main_arg1) = V (Proc.devRef .tc main_arg1)
      ∧ after ops1 V (Proc.devRef .tc main_arg2) = V (Proc.devRef .tc main_arg2)
      ∧ after ops1 V (Proc.devRef .tc main_arg3) = V (Proc.devRef .tc main_arg3) := by
  refine ⟨?_, ?_, ?_, ?_⟩ <;> after_results_simp <;> rfl

end Cert.DeepFilter.Ref

end
-- ==== Proof.RefRunC.lean ====
/-
  The reference program's statements 121 … 180 as a straight line of operations.

  The third window of the program's statements is, in order, the list of operations below (an outlined
  function's two operations stand where it is called). The window equals the straight line of that list by
  unfolding; every operation touches TensorCore buffers only and determines its results; and none of them writes
  an argument buffer, so the arguments keep their contents through the window.
-/
import proofs.«134051_j16587163697924_2_alg».proof.Proof.Gen.ReferenceIdeal
import Idealize.ShloMosaic.Lib.StableHlo.Run

noncomputable section

namespace Cert.DeepFilter.Ref

open Cert.ReferenceIdeal Cert.ReferenceIdeal.Gen Idealize.ShloMosaic Idealize.ShloMosaic.TcCoe Idealize.SL.Sem Idealize.ShloMosaic.StableHlo

variable {F : FTy → Type} [FloatOps F]

/-- The operations of statements 121 … 180, in order. -/
abbrev ops2 : List (HloOp τ sig (Elt F)) :=
  [ binary main_v102 main_v104 main_v106 (mulf : (⟨S16x257x4000, .f32⟩ : BufTy).Contents (Elt F) → (⟨S16x257x4000, .f32⟩ : BufTy).Contents (Elt F) → (⟨S16x257x4000, .f32⟩ : BufTy).Contents (Elt F)),
    binary main_v97 main_v106 main_v107 (addf : (⟨S16x257x4000, .f32⟩ : BufTy).Contents (Elt F) → (⟨S16x257x4000, .f32⟩ : BufTy).Contents (Elt F) → (⟨S16x257x4000, .f32⟩ : BufTy).Contents (Elt F)),
    binary main_v103 main_v105 main_v108 (mulf : (⟨S16x257x4000, .f32⟩ : BufTy).Contents (Elt F) → (⟨S16x257x4000, .f32⟩ : BufTy).Contents (Elt F) → (⟨S16x257x4000, .f32⟩ : BufTy).Contents (Elt F)),
    binary main_v107 main_v108 main_v109 (subf : (⟨S16x257x4000, .f32⟩ : BufTy).Contents (Elt F) → (⟨S16x257x4000, .f32⟩ : BufTy).Contents (Elt F) → (⟨S16x257x4000, .f32⟩ : BufTy).Contents (Elt F)),
    nullary main_cst_12 (constant S_ .f32 0x40000000#32),
    unary main_cst_12 main_v110 (broadcastInDim S16x257x4000 ![] bcast_S_S16x257x4000 : (⟨S_, .f32⟩ : BufTy).Contents (Elt F) → (⟨S16x257x4000, .f32⟩ : BufTy).Contents (Elt F)),
    binary main_v110 main_v102 main_v111 (mulf : (⟨S16x257x4000, .f32⟩ : BufTy).Contents (Elt F) → (⟨S16x257x4000, .f32⟩ : BufTy).Contents (Elt F) → (⟨S16x257x4000, .f32⟩ : BufTy).Contents (Elt F)),
    binary main_v111 main_v105 main_v112 (mulf : (⟨S16x257x4000, .f32⟩ : BufTy).Contents (Elt F) → (⟨S16x257x4000, .f32⟩ : BufTy).Contents (Elt F) → (⟨S16x257x4000, .f32⟩ : BufTy).Contents (Elt F)),
    binary main_v101 main_v112 main_v113 (addf : (⟨S16x257x4000, .f32⟩ : BufTy).Contents (Elt F) → (⟨S16x257x4000, .f32⟩ : BufTy).Contents (Elt F) → (⟨S16x257x4000, .f32⟩ : BufTy).Contents (Elt F)),
    unary main_v0 main_v114 ((extractStridedSlice S16x257x4000 ![0, 1, 4] · slices_S16x259x4004_S16x257x4000_0_1_4) : (⟨S16x259x4004, .f32⟩ : BufTy).Contents (Elt F) → (⟨S16x257x4000, .f32⟩ : BufTy).Contents (Elt F)),
    unary main_v1 main_v115 ((extractStridedSlice S16x257x4000 ![0, 1, 4] · slices_S16x259x4004_S16x257x4000_0_1_4) : (⟨S16x259x4004, .f32⟩ : BufTy).Contents (Elt F) → (⟨S16x257x4000, .f32⟩ : BufTy).Contents (Elt F)),
    unary main_v2 main_v116 ((extractStridedSlice S16x257x4000 ![0, 1, 4] · slices_S16x259x4004_S16x257x4000_0_1_4) : (⟨S16x259x4004, .f32⟩ : BufTy).Contents (Elt F) → (⟨S16x257x4000, .f32⟩ : BufTy).Contents (Elt F)),
    unary main_v3 main_v117 ((extractStridedSlice S16x257x4000 ![0, 1, 4] · slices_S16x259x4004_S16x257x4000_0_1_4) : (⟨S16x259x4004, .f32⟩ : BufTy).Contents (Elt F) → (⟨S16x257x4000, .f32⟩ : BufTy).Contents (Elt F)),
    binary main_v114 main_v116 main_v118 (mulf : (⟨S16x257x4000, .f32⟩ : BufTy).Contents (Elt F) → (⟨S16x257x4000, .f32⟩ : BufTy).Contents (Elt F) → (⟨S16x257x4000, .f32⟩ : BufTy).Contents (Elt F)),
    binary main_v109 main_v118 main_v119 (addf : (⟨S16x257x4000, .f32⟩ : BufTy).Contents (Elt F) → (⟨S16x257x4000, .f32⟩ : BufTy).Contents (Elt F) → (⟨S16x257x4000, .f32⟩ : BufTy).Contents (Elt F)),
    binary main_v115 main_v117 main_v120 (mulf : (⟨S16x257x4000, .f32⟩ : BufTy).Contents (Elt F) → (⟨S16x257x4000, .f32⟩ : BufTy).Contents (Elt F) → (⟨S16x257x4000, .f32⟩ : BufTy).Contents (Elt F)),
    binary main_v119 main_v120 main_v121 (subf : (⟨S16x257x4000, .f32⟩ : BufTy).Contents (Elt F) → (⟨S16x257x4000, .f32⟩ : BufTy).Contents (Elt F) → (⟨S16x257x4000, .f32⟩ : BufTy).Contents (Elt F)),
    nullary main_cst_13 (constant S_ .f32 0x40000000#32),
    unary main_cst_13 main_v122 (broadcastInDim S16x257x4000 ![] bcast_S_S16x257x4000 : (⟨S_, .f32⟩ : BufTy).Contents (Elt F) → (⟨S16x257x4000, .f32⟩ : BufTy).Contents (Elt F)),
    binary main_v122 main_v114 main_v123 (mulf : (⟨S16x257x4000, .f32⟩ : BufTy).Contents (Elt F) → (⟨S16x257x4000, .f32⟩ : BufTy).Contents (Elt F) → (⟨S16x257x4000, .f32⟩ : BufTy).Contents (Elt F)),
    binary main_v123 main_v117 main_v124 (mulf : (⟨S16x257x4000, .f32⟩ : BufTy).Contents (Elt F) → (⟨S16x257x4000, .f32⟩ : BufTy).Contents (Elt F) → (⟨S16x257x4000, .f32⟩ : BufTy).Contents (Elt F)),
    binary main_v113 main_v124 main_v125 (addf : (⟨S16x257x4000, .f32⟩ : BufTy).Contents (Elt F) → (⟨S16x257x4000, .f32⟩ : BufTy).Contents (Elt F) → (⟨S16x257x4000, .f32⟩ : BufTy).Contents (Elt F)),
    unary main_v0 main_v126 ((extractStridedSlice S16x257x4000 ![0, 2, 0] · slices_S16x259x4004_S16x257x4000_0_2_0) : (⟨S16x259x4004, .f32⟩ : BufTy).Contents (Elt F) → (⟨S16x257x4000, .f32⟩ : BufTy).Contents (Elt F)),
    unary main_v1 main_v127 ((extractStridedSlice S16x257x4000 ![0, 2, 0] · slices_S16x259x4004_S16x257x4000_0_2_0) : (⟨S16x259x4004, .f32⟩ : BufTy).Contents (Elt F) → (⟨S16x257x4000, .f32⟩ : BufTy).Contents (Elt F)),
    unary main_v2 main_v128 ((extractStridedSlice S16x257x4000 ![0, 2, 0] · slices_S16x259x4004_S16x257x4000_0_2_0) : (⟨S16x259x4004, .f32⟩ : BufTy).Contents (Elt F) → (⟨S16x257x4000, .f32⟩ : BufTy).Contents (Elt F)),
    unary main_v3 main_v129 ((extractStridedSlice S16x257x4000 ![0, 2, 0] · slices_S16x259x4004_S16x257x4000_0_2_0) : (⟨S16x259x4004, .f32⟩ : BufTy).Contents (Elt F) → (⟨S16x257x4000, .f32⟩ : BufTy).Contents (Elt F)),
    binary main_v126 main_v128 main_v130 (mulf : (⟨S16x257x4000, .f32⟩ : BufTy).Contents (Elt F) → (⟨S16x257x4000, .f32⟩ : BufTy).Contents (Elt F) → (⟨S16x257x4000, .f32⟩ : BufTy).Contents (Elt F)),
    binary main_v121 main_v130 main_v131 (addf : (⟨S16x257x4000, .f32⟩ : BufTy).Contents (Elt F) → (⟨S16x257x4000, .f32⟩ : BufTy).Contents (Elt F) → (⟨S16x257x4000, .f32⟩ : BufTy).Contents (Elt F)),
    binary main_v127 main_v129 main_v132 (mulf : (⟨S16x257x4000, .f32⟩ : BufTy).Contents (Elt F) → (⟨S16x257x4000, .f32⟩ : BufTy).Contents (Elt F) → (⟨S16x257x4000, .f32⟩ : BufTy).Contents (Elt F)),
    binary main_v131 main_v132 main_v133 (subf : (⟨S16x257x4000, .f32⟩ : BufTy).Contents (Elt F) → (⟨S16x257x4000, .f32⟩ : BufTy).Contents (Elt F) → (⟨S16x257x4000, .f32⟩ : BufTy).Contents (Elt F)),
    nullary main_cst_14 (constant S_ .f32 0x40000000#32),
    unary main_cst_14 main_v134 (broadcastInDim S16x257x4000 ![] bcast_S_S16x257x4000 : (⟨S_, .f32⟩ : BufTy).Contents (Elt F) → (⟨S16x257x4000, .f32⟩ : BufTy).Contents (Elt F)),
    binary main_v134 main_v126 main_v135 (mulf : (⟨S16x257x4000, .f32⟩ : BufTy).Contents (Elt F) → (⟨S16x257x4000, .f32⟩ : BufTy).Contents (Elt F) → (⟨S16x257x4000, .f32⟩ : BufTy).Contents (Elt F)),
    binary main_v135 main_v129 main_v136 (mulf : (⟨S16x257x4000, .f32⟩ : BufTy).Contents (Elt F) → (⟨S16x257x4000, .f32⟩ : BufTy).Contents (Elt F) → (⟨S16x257x4000, .f32⟩ : BufTy).Contents (Elt F)),
    binary main_v125 main_v136 main_v137 (addf : (⟨S16x257x4000, .f32⟩ : BufTy).Contents (Elt F) → (⟨S16x257x4000, .f32⟩ : BufTy).Contents (Elt F) → (⟨S16x257x4000, .f32⟩ : BufTy).Contents (Elt F)),
    unary main_v0 main_v138 ((extractStridedSlice S16x257x4000 ![0, 2, 1] · slices_S16x259x4004_S16x257x4000_0_2_1) : (⟨S16x259x4004, .f32⟩ : BufTy).Contents (Elt F) → (⟨S16x257x4000, .f32⟩ : BufTy).Contents (Elt F)),
    unary main_v1 main_v139 ((extractStridedSlice S16x257x4000 ![0, 2, 1] · slices_S16x259x4004_S16x257x4000_0_2_1) : (⟨S16x259x4004, .f32⟩ : BufTy).Contents (Elt F) → (⟨S16x257x4000, .f32⟩ : BufTy).Contents (Elt F)),
    unary main_v2 main_v140 ((extractStridedSlice S16x257x4000 ![0, 2, 1] · slices_S16x259x4004_S16x257x4000_0_2_1) : (⟨S16x259x4004, .f32⟩ : BufTy).Contents (Elt F) → (⟨S16x257x4000, .f32⟩ : BufTy).Contents (Elt F)),
    unary main_v3 main_v141 ((extractStridedSlice S16x257x4000 ![0, 2, 1] · slices_S16x259x4004_S16x257x4000_0_2_1) : (⟨S16x259x4004, .f32⟩ : BufTy).Contents (Elt F) → (⟨S16x257x4000, .f32⟩ : BufTy).Contents (Elt F)),
    binary main_v138 main_v140 main_v142 (mulf : (⟨S16x257x4000, .f32⟩ : BufTy).Contents (Elt F) → (⟨S16x257x4000, .f32⟩ : BufTy).Contents (Elt F) → (⟨S16x257x4000, .f32⟩ : BufTy).Contents (Elt F)),
    binary main_v133 main_v142 main_v143 (addf : (⟨S16x257x4000, .f32⟩ : BufTy).Contents (Elt F) → (⟨S16x257x4000, .f32⟩ : BufTy).Contents (Elt F) → (⟨S16x257x4000, .f32⟩ : BufTy).Contents (Elt F)),
    binary main_v139 main_v141 main_v144 (mulf : (⟨S16x257x4000, .f32⟩ : BufTy).Contents (Elt F) → (⟨S16x257x4000, .f32⟩ : BufTy).Contents (Elt F) → (⟨S16x257x4000, .f32⟩ : BufTy).Contents (Elt F)),
    binary main_v143 main_v144 main_v145 (subf : (⟨S16x257x4000, .f32⟩ : BufTy).Contents (Elt F) → (⟨S16x257x4000, .f32⟩ : BufTy).Contents (Elt F) → (⟨S16x257x4000, .f32⟩ : BufTy).Contents (Elt F)),
    nullary main_cst_15 (constant S_ .f32 0x40000000#32),
    unary main_cst_15 main_v146 (broadcastInDim S16x257x4000 ![] bcast_S_S16x257x4000 : (⟨S_, .f32⟩ : BufTy).Contents (Elt F) → (⟨S16x257x4000, .f32⟩ : BufTy).Contents (Elt F)),
    binary main_v146 main_v138 main_v147 (mulf : (⟨S16x257x4000, .f32⟩ : BufTy).Contents (Elt F) → (⟨S16x257x4000, .f32⟩ : BufTy).Contents (Elt F) → (⟨S16x257x4000, .f32⟩ : BufTy).Contents (Elt F)),
    binary main_v147 main_v141 main_v148 (mulf : (⟨S16x257x4000, .f32⟩ : BufTy).Contents (Elt F) → (⟨S16x257x4000, .f32⟩ : BufTy).Contents (Elt F) → (⟨S16x257x4000, .f32⟩ : BufTy).Contents (Elt F)),
    binary main_v137 main_v148 main_v149 (addf : (⟨S16x257x4000, .f32⟩ : BufTy).Contents (Elt F) → (⟨S16x257x4000, .f32⟩ : BufTy).Contents (Elt F) → (⟨S16x257x4000, .f32⟩ : BufTy).Contents (Elt F)),
    unary main_v0 main_v150 ((extractStridedSlice S16x257x4000 ![0, 2, 2] · slices_S16x259x4004_S16x257x4000_0_2_2) : (⟨S16x259x4004, .f32⟩ : BufTy).Contents (Elt F) → (⟨S16x257x4000, .f32⟩ : BufTy).Contents (Elt F)),
    unary main_v1 main_v151 ((extractStridedSlice S16x257x4000 ![0, 2, 2] · slices_S16x259x4004_S16x257x4000_0_2_2) : (⟨S16x259x4004, .f32⟩ : BufTy).Contents (Elt F) → (⟨S16x257x4000, .f32⟩ : BufTy).Contents (Elt F)),
    unary main_v2 main_v152 ((extractStridedSlice S16x257x4000 ![0, 2, 2] · slices_S16x259x4004_S16x257x4000_0_2_2) : (⟨S16x259x4004, .f32⟩ : BufTy).Contents (Elt F) → (⟨S16x257x4000, .f32⟩ : BufTy).Contents (Elt F)),
    unary main_v3 main_v153 ((extractStridedSlice S16x257x4000 ![0, 2, 2] · slices_S16x259x4004_S16x257x4000_0_2_2) : (⟨S16x259x4004, .f32⟩ : BufTy).Contents (Elt F) → (⟨S16x257x4000, .f32⟩ : BufTy).Contents (Elt F)),
    binary main_v150 main_v152 main_v154 (mulf : (⟨S16x257x4000, .f32⟩ : BufTy).Contents (Elt F) → (⟨S16x257x4000, .f32⟩ : BufTy).Contents (Elt F) → (⟨S16x257x4000, .f32⟩ : BufTy).Contents (Elt F)),
    binary main_v145 main_v154 main_v155 (addf : (⟨S16x257x4000, .f32⟩ : BufTy).Contents (Elt F) → (⟨S16x257x4000, .f32⟩ : BufTy).Contents (Elt F) → (⟨S16x257x4000, .f32⟩ : BufTy).Contents (Elt F)),
    binary main_v151 main_v153 main_v156 (mulf : (⟨S16x257x4000, .f32⟩ : BufTy).Contents (Elt F) → (⟨S16x257x4000, .f32⟩ : BufTy).Contents (Elt F) → (⟨S16x257x4000, .f32⟩ : BufTy).Contents (Elt F)),
    binary main_v155 main_v156 main_v157 (subf : (⟨S16x257x4000, .f32⟩ : BufTy).Contents (Elt F) → (⟨S16x257x4000, .f32⟩ : BufTy).Contents (Elt F) → (⟨S16x257x4000, .f32⟩ : BufTy).Contents (Elt F)),
    nullary main_cst_16 (constant S_ .f32 0x40000000#32),
    unary main_cst_16 main_v158 (broadcastInDim S16x257x4000 ![] bcast_S_S16x257x4000 : (⟨S_, .f32⟩ : BufTy).Contents (Elt F) → (⟨S16x257x4000, .f32⟩ : BufTy).Contents (Elt F)),
    binary main_v158 main_v150 main_v159 (mulf : (⟨S16x257x4000, .f32⟩ : BufTy).Contents (Elt F) → (⟨S16x257x4000, .f32⟩ : BufTy).Contents (Elt F) → (⟨S16x257x4000, .f32⟩ : BufTy).Contents (Elt F)),
    binary main_v159 main_v153 main_v160 (mulf : (⟨S16x257x4000, .f32⟩ : BufTy).Contents (Elt F) → (⟨S16x257x4000, .f32⟩ : BufTy).Contents (Elt F) → (⟨S16x257x4000, .f32⟩ : BufTy).Contents (Elt F)) ]

set_option maxRecDepth 8192 in
set_option maxHeartbeats 4000000 in
/-- The window is the straight line of its operations. -/
theorem part2_eq (c : Dev nD) : main_part2 (F := F) c = seq ops2 := rfl

set_option maxRecDepth 8192 in
/-- Every operation of the window touches TensorCore buffers only. -/
theorem ops2_sub : (ops2 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., binary_bufs_sub .., binary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., binary_bufs_sub .., binary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., binary_bufs_sub .., binary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., binary_bufs_sub .., binary_bufs_sub .., binary_bufs_sub .., nullary_bufs_sub .., unary_bufs_sub .., binary_bufs_sub .., binary_bufs_sub ..⟩

set_option maxRecDepth 8192 in
/-- Every operation of the window determines its results. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 4000000 in
/-- The window writes no argument buffer. -/
theorem keep2 (V : Valuation τ sig (Elt F)) :
    after ops2 V (Proc.devRef .tc main_arg0) = V (Proc.devRef .tc main_arg0)
      ∧ after ops2 V (Proc.devRef .tc main_arg1) = V (Proc.devRef .tc main_arg1)
      ∧ after ops2 V (Proc.devRef .tc main_arg2) = V (Proc.devRef .tc main_arg2)
      ∧ after ops2 V (Proc.devRef .tc main_arg3) = V (Proc.devRef .tc main_arg3) := by
  refine ⟨?_, ?_, ?_, ?_⟩ <;> after_results_simp <;> rfl

end Cert.DeepFilter.Ref

end
-- ==== Proof.RefRunD.lean ====
/-
  The reference program's statements 181 … 209 as a straight line of operations.

  The fourth window of the program's statements is, in order, the list of operations below (an outlined
  function's two operations stand where it is called). The window equals the straight line of that list by
  unfolding; every operation touches TensorCore buffers only and determines its results; and none of them writes
  an argument buffer, so the arguments keep their contents through the window.
-/
import proofs.«134051_j16587163697924_2_alg».proof.Proof.Gen.ReferenceIdeal
import Idealize.ShloMosaic.Lib.StableHlo.Run

noncomputable section

namespace Cert.DeepFilter.Ref

open Cert.ReferenceIdeal Cert.ReferenceIdeal.Gen Idealize.ShloMosaic Idealize.ShloMosaic.TcCoe Idealize.SL.Sem Idealize.ShloMosaic.StableHlo

variable {F : FTy → Type} [FloatOps F]

/-- The operations of statements 181 … 209, in order. -/
abbrev ops3 : List (HloOp τ sig (Elt F)) :=
  [ binary main_v149 main_v160 main_v161 (addf : (⟨S16x257x4000, .f32⟩ : BufTy).Contents (Elt F) → (⟨S16x257x4000, .f32⟩ : BufTy).Contents (Elt F) → (⟨S16x257x4000, .f32⟩ : BufTy).Contents (Elt F)),
    unary main_v0 main_v162 ((extractStridedSlice S16x257x4000 ![0, 2, 3] · slices_S16x259x4004_S16x257x4000_0_2_3) : (⟨S16x259x4004, .f32⟩ : BufTy).Contents (Elt F) → (⟨S16x257x4000, .f32⟩ : BufTy).Contents (Elt F)),
    unary main_v1 main_v163 ((extractStridedSlice S16x257x4000 ![0, 2, 3] · slices_S16x259x4004_S16x257x4000_0_2_3) : (⟨S16x259x4004, .f32⟩ : BufTy).Contents (Elt F) → (⟨S16x257x4000, .f32⟩ : BufTy).Contents (Elt F)),
    unary main_v2 main_v164 ((extractStridedSlice S16x257x4000 ![0, 2, 3] · slices_S16x259x4004_S16x257x4000_0_2_3) : (⟨S16x259x4004, .f32⟩ : BufTy).Contents (Elt F) → (⟨S16x257x4000, .f32⟩ : BufTy).Contents (Elt F)),
    unary main_v3 main_v165 ((extractStridedSlice S16x257x4000 ![0, 2, 3] · slices_S16x259x4004_S16x257x4000_0_2_3) : (⟨S16x259x4004, .f32⟩ : BufTy).Contents (Elt F) → (⟨S16x257x4000, .f32⟩ : BufTy).Contents (Elt F)),
    binary main_v162 main_v164 main_v166 (mulf : (⟨S16x257x4000, .f32⟩ : BufTy).Contents (Elt F) → (⟨S16x257x4000, .f32⟩ : BufTy).Contents (Elt F) → (⟨S16x257x4000, .f32⟩ : BufTy).Contents (Elt F)),
    binary main_v157 main_v166 main_v167 (addf : (⟨S16x257x4000, .f32⟩ : BufTy).Contents (Elt F) → (⟨S16x257x4000, .f32⟩ : BufTy).Contents (Elt F) → (⟨S16x257x4000, .f32⟩ : BufTy).Contents (Elt F)),
    binary main_v163 main_v165 main_v168 (mulf : (⟨S16x257x4000, .f32⟩ : BufTy).Contents (Elt F) → (⟨S16x257x4000, .f32⟩ : BufTy).Contents (Elt F) → (⟨S16x257x4000, .f32⟩ : BufTy).Contents (Elt F)),
    binary main_v167 main_v168 main_v169 (subf : (⟨S16x257x4000, .f32⟩ : BufTy).Contents (Elt F) → (⟨S16x257x4000, .f32⟩ : BufTy).Contents (Elt F) → (⟨S16x257x4000, .f32⟩ : BufTy).Contents (Elt F)),
    nullary main_cst_17 (constant S_ .f32 0x40000000#32),
    unary main_cst_17 main_v170 (broadcastInDim S16x257x4000 ![] bcast_S_S16x257x4000 : (⟨S_, .f32⟩ : BufTy).Contents (Elt F) → (⟨S16x257x4000, .f32⟩ : BufTy).Contents (Elt F)),
    binary main_v170 main_v162 main_v171 (mulf : (⟨S16x257x4000, .f32⟩ : BufTy).Contents (Elt F) → (⟨S16x257x4000, .f32⟩ : BufTy).Contents (Elt F) → (⟨S16x257x4000, .f32⟩ : BufTy).Contents (Elt F)),
    binary main_v171 main_v165 main_v172 (mulf : (⟨S16x257x4000, .f32⟩ : BufTy).Contents (Elt F) → (⟨S16x257x4000, .f32⟩ : BufTy).Contents (Elt F) → (⟨S16x257x4000, .f32⟩ : BufTy).Contents (Elt F)),
    binary main_v161 main_v172 main_v173 (addf : (⟨S16x257x4000, .f32⟩ : BufTy).Contents (Elt F) → (⟨S16x257x4000, .f32⟩ : BufTy).Contents (Elt F) → (⟨S16x257x4000, .f32⟩ : BufTy).Contents (Elt F)),
    unary main_v0 main_v174 ((extractStridedSlice S16x257x4000 ![0, 2, 4] · slices_S16x259x4004_S16x257x4000_0_2_4) : (⟨S16x259x4004, .f32⟩ : BufTy).Contents (Elt F) → (⟨S16x257x4000, .f32⟩ : BufTy).Contents (Elt F)),
    unary main_v1 main_v175 ((extractStridedSlice S16x257x4000 ![0, 2, 4] · slices_S16x259x4004_S16x257x4000_0_2_4) : (⟨S16x259x4004, .f32⟩ : BufTy).Contents (Elt F) → (⟨S16x257x4000, .f32⟩ : BufTy).Contents (Elt F)),
    unary main_v2 main_v176 ((extractStridedSlice S16x257x4000 ![0, 2, 4] · slices_S16x259x4004_S16x257x4000_0_2_4) : (⟨S16x259x4004, .f32⟩ : BufTy).Contents (Elt F) → (⟨S16x257x4000, .f32⟩ : BufTy).Contents (Elt F)),
    unary main_v3 main_v177 ((extractStridedSlice S16x257x4000 ![0, 2, 4] · slices_S16x259x4004_S16x257x4000_0_2_4) : (⟨S16x259x4004, .f32⟩ : BufTy).Contents (Elt F) → (⟨S16x257x4000, .f32⟩ : BufTy).Contents (Elt F)),
    binary main_v174 main_v176 main_v178 (mulf : (⟨S16x257x4000, .f32⟩ : BufTy).Contents (Elt F) → (⟨S16x257x4000, .f32⟩ : BufTy).Contents (Elt F) → (⟨S16x257x4000, .f32⟩ : BufTy).Contents (Elt F)),
    binary main_v169 main_v178 main_v179 (addf : (⟨S16x257x4000, .f32⟩ : BufTy).Contents (Elt F) → (⟨S16x257x4000, .f32⟩ : BufTy).Contents (Elt F) → (⟨S16x257x4000, .f32⟩ : BufTy).Contents (Elt F)),
    binary main_v175 main_v177 main_v180 (mulf : (⟨S16x257x4000, .f32⟩ : BufTy).Contents (Elt F) → (⟨S16x257x4000, .f32⟩ : BufTy).Contents (Elt F) → (⟨S16x257x4000, .f32⟩ : BufTy).Contents (Elt F)),
    binary main_v179 main_v180 main_v181 (subf : (⟨S16x257x4000, .f32⟩ : BufTy).Contents (Elt F) → (⟨S16x257x4000, .f32⟩ : BufTy).Contents (Elt F) → (⟨S16x257x4000, .f32⟩ : BufTy).Contents (Elt F)),
    nullary main_cst_18 (constant S_ .f32 0x40000000#32),
    unary main_cst_18 main_v182 (broadcastInDim S16x257x4000 ![] bcast_S_S16x257x4000 : (⟨S_, .f32⟩ : BufTy).Contents (Elt F) → (⟨S16x257x4000, .f32⟩ : BufTy).Contents (Elt F)),
    binary main_v182 main_v174 main_v183 (mulf : (⟨S16x257x4000, .f32⟩ : BufTy).Contents (Elt F) → (⟨S16x257x4000, .f32⟩ : BufTy).Contents (Elt F) → (⟨S16x257x4000, .f32⟩ : BufTy).Contents (Elt F)),
    binary main_v183 main_v177 main_v184 (mulf : (⟨S16x257x4000, .f32⟩ : BufTy).Contents (Elt F) → (⟨S16x257x4000, .f32⟩ : BufTy).Contents (Elt F) → (⟨S16x257x4000, .f32⟩ : BufTy).Contents (Elt F)),
    binary main_v173 main_v184 main_v185 (addf : (⟨S16x257x4000, .f32⟩ : BufTy).Contents (Elt F) → (⟨S16x257x4000, .f32⟩ : BufTy).Contents (Elt F) → (⟨S16x257x4000, .f32⟩ : BufTy).Contents (Elt F)),
    binary main_v181 main_v185 main_v186 ((fun a b => concatenate S16x514x4000 1 [⟨S16x257x4000, a⟩, ⟨S16x257x4000, b⟩] concatenates_S16x257x4000_S16x257x4000_S16x514x4000_d1) : (⟨S16x257x4000, .f32⟩ : BufTy).Contents (Elt F) → (⟨S16x257x4000, .f32⟩ : BufTy).Contents (Elt F) → (⟨S16x514x4000, .f32⟩ : BufTy).Contents (Elt F)) ]

set_option maxRecDepth 8192 in
set_option maxHeartbeats 4000000 in
/-- The window is the straight line of its operations. -/
theorem part3_eq (c : Dev nD) : main_part3 (F := F) c = seq ops3 := rfl

set_option maxRecDepth 8192 in
/-- Every operation of the window touches TensorCore buffers only. -/
theorem ops3_sub : (ops3 : List (HloOp τ sig (Elt F))).Forall fun op => op.bufs ⊆ tcRefs τ sig :=
  ⟨binary_bufs_sub .., unary_bufs_sub .., unary_bufs_sub .., unary_bufs_sub .., unary_bufs_sub .., binary_bufs_sub .., binary_bufs_sub .., binary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub ..⟩

set_option maxRecDepth 8192 in
/-- Every operation of the window determines its results. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 4000000 in
/-- The window writes no argument buffer. -/
theorem keep3 (V : Valuation τ sig (Elt F)) :
    after ops3 V (Proc.devRef .tc main_arg0) = V (Proc.devRef .tc main_arg0)
      ∧ after ops3 V (Proc.devRef .tc main_arg1) = V (Proc.devRef .tc main_arg1)
      ∧ after ops3 V (Proc.devRef .tc main_arg2) = V (Proc.devRef .tc main_arg2)
      ∧ after ops3 V (Proc.devRef .tc main_arg3) = V (Proc.devRef .tc main_arg3) := by
  refine ⟨?_, ?_, ?_, ?_⟩ <;> after_results_simp <;> rfl

end Cert.DeepFilter.Ref

end
-- ==== Proof.RefPad.lean ====
/-
  The zero-padded array and its shifted windows, read at an index.

  The reference extends each input by zero (one bin below and above, two frames before and after) and then cuts,
  for every tap (i, j) of the 3 x 5 window, the sub-array starting at bin i and frame j. Read at batch b, bin f,
  frame t, that sub-array is the extension at the padded coordinates (f + i, t + j): the function zext of
  the specification. This module proves the two readings over the literal shapes, for any padding value that is
  zero, and the reading of the joined result (real rows first, imaginary rows after).
-/
import Idealize.ShloMosaic.Lib.KernelVsHost
import Idealize.ShloMosaic.Lib.Pipeline.Value
import Idealize.ShloMosaic.PureOps.Ideal
import Idealize.ShloMosaic.Lib.ValueIdx
import proofs.«134051_j16587163697924_2_alg».proof.Proof.Spec

noncomputable section

open scoped BigOperators

namespace Cert.DeepFilter.Ref

open Idealize.ShloMosaic Idealize.ShloMosaic.ValueIdx

/-- The shape of an input. -/
abbrev SIn : Shape := ⟨3, ![16, 257, 4000]⟩
/-- The shape of an input extended by zero. -/
abbrev SPad : Shape := ⟨3, ![16, 259, 4004]⟩
/-- The shape of the result. -/
abbrev SOut : Shape := ⟨3, ![16, 514, 4000]⟩
/-- The shape of a scalar. -/
abbrev SUnit : Shape := ⟨0, ![]⟩

/-- The array padded by a value that is zero, read at the padded coordinates, is the extension by zero. -/
theorem pad_at (x : Arr) (v : SUnit.Idx → EReal)
    (hp : SIn.Pads (![0, 1, 2] : Fin 3 → Nat) ![0, 1, 2] ![0, 0, 0] SPad) (hu : 0 < SUnit.numel)
    (hv : v (Shape.Idx.first hu) = 0) (b : Fin 16) (f : Fin 259) (t : Fin 4004) :
    pad SPad ![0, 1, 2] ![0, 1, 2] ![0, 0, 0] x v hp hu (ix3 b f t) = zext x b f.val t.val := by
  unfold zext
  by_cases h : (1 ≤ f.val ∧ f.val < 258) ∧ (2 ≤ t.val ∧ t.val < 4002)
  · rw [dif_pos h]
    exact pad_apply_of_inside _ _ _ x v hp hu _ (ix3 b ⟨f.val - 1, by omega⟩ ⟨t.val - 2, by omega⟩) (fun a => by
      match a with
      | ⟨0, _⟩ => show b.val = 0 + b.val * (0 + 1); omega
      | ⟨1, _⟩ => show f.val = 1 + (f.val - 1) * (0 + 1); omega
      | ⟨2, _⟩ => show t.val = 2 + (t.val - 2) * (0 + 1); omega)
  · rw [dif_neg h, ← hv]
    by_cases h1 : 1 ≤ f.val ∧ f.val < 258
    · have h2 : ¬(2 ≤ t.val ∧ t.val < 4002) := fun h2 => h ⟨h1, h2⟩
      exact pad_apply_of_not_inside _ _ _ x v hp hu _ (2 : Fin 3) (fun hin => by
        have e : 2 ≤ t.val ∧ (t.val - 2) % 1 = 0 ∧ (t.val - 2) / 1 < 4000 := hin
        omega)
    · exact pad_apply_of_not_inside _ _ _ x v hp hu _ (1 : Fin 3) (fun hin => by
        have e : 1 ≤ f.val ∧ (f.val - 1) % 1 = 0 ∧ (f.val - 1) / 1 < 257 := hin
        omega)

/-- The window of the padded array starting at bin di and frame dj, read at (b, f, t), is the padded array at
    (b, f + di, t + dj). -/
theorem slice_at (p : SPad.Idx → EReal) (di dj : Nat) (hs : SPad.Slices ![0, di, dj] SIn)
    (b : Fin 16) (f : Fin 257) (t : Fin 4000) (hf : f.val + di < 259) (ht : t.val + dj < 4004) :
    extractStridedSlice SIn ![0, di, dj] p hs (ix3 b f t) = p (ix3 b ⟨f.val + di, hf⟩ ⟨t.val + dj, ht⟩) :=
  extractStridedSlice_apply _ p hs (ix3 b f t) _ (fun a => by
    match a with
    | ⟨0, _⟩ => show b.val = 0 + b.val; omega
    | ⟨1, _⟩ => show f.val + di = di + f.val; omega
    | ⟨2, _⟩ => show t.val + dj = dj + t.val; omega)

/-- A window of the array padded by zero, read at (b, f, t), is the extension by zero at (f + di, t + dj). -/
theorem window_at (x : Arr) (v : SUnit.Idx → EReal)
    (hp : SIn.Pads (![0, 1, 2] : Fin 3 → Nat) ![0, 1, 2] ![0, 0, 0] SPad) (hu : 0 < SUnit.numel)
    (hv : v (Shape.Idx.first hu) = 0) (di dj : Nat) (hs : SPad.Slices ![0, di, dj] SIn)
    (b : Fin 16) (f : Fin 257) (t : Fin 4000) :
    extractStridedSlice SIn ![0, di, dj] (pad SPad ![0, 1, 2] ![0, 1, 2] ![0, 0, 0] x v hp hu) hs (ix3 b f t)
      = zext x b (f.val + di) (t.val + dj) := by
  have e1 : di + 257 ≤ 259 := hs.2 (1 : Fin 3)
  have e2 : dj + 4000 ≤ 4004 := hs.2 (2 : Fin 3)
  have hf : f.val + di < 259 := by omega
  have ht : t.val + dj < 4004 := by omega
  rw [slice_at _ di dj hs b f t hf ht]
  exact pad_at x v hp hu hv b ⟨f.val + di, hf⟩ ⟨t.val + dj, ht⟩

/-- A scalar spread over the whole array, read anywhere, is the scalar. -/
theorem splat_at (w : SUnit.Idx → EReal) (hb : SUnit.BroadcastsInDim SIn (![] : Fin 0 → Fin SIn.rank)) (i : SIn.Idx) :
    broadcastInDim SIn ![] hb w i = w ix0 :=
  broadcastInDim_apply _ hb w i ix0 (fun a => a.elim0)

/-- One tap of the real part: the accumulator plus the product of the first pair of windows minus the product of the
    second pair, read at (b, f, t), is the accumulator there plus the real product at (f + di, t + dj). -/
theorem tapR_at (acc x0 x1 x2 x3 : Arr) (v0 v1 v2 v3 : SUnit.Idx → EReal)
    (hp : SIn.Pads (![0, 1, 2] : Fin 3 → Nat) ![0, 1, 2] ![0, 0, 0] SPad) (hu : 0 < SUnit.numel)
    (h0 : v0 (Shape.Idx.first hu) = 0) (h1 : v1 (Shape.Idx.first hu) = 0)
    (h2 : v2 (Shape.Idx.first hu) = 0) (h3 : v3 (Shape.Idx.first hu) = 0)
    (di dj : Nat) (hs : SPad.Slices ![0, di, dj] SIn) (b : Fin 16) (f : Fin 257) (t : Fin 4000) :
    subf (F := Ideal) (φ := .f32) (addf (F := Ideal) (φ := .f32) acc
        (mulf (F := Ideal) (φ := .f32) (extractStridedSlice SIn ![0, di, dj] (pad SPad ![0, 1, 2] ![0, 1, 2] ![0, 0, 0] x0 v0 hp hu) hs)
          (extractStridedSlice SIn ![0, di, dj] (pad SPad ![0, 1, 2] ![0, 1, 2] ![0, 0, 0] x2 v2 hp hu) hs)))
      (mulf (F := Ideal) (φ := .f32) (extractStridedSlice SIn ![0, di, dj] (pad SPad ![0, 1, 2] ![0, 1, 2] ![0, 0, 0] x1 v1 hp hu) hs)
        (extractStridedSlice SIn ![0, di, dj] (pad SPad ![0, 1, 2] ![0, 1, 2] ![0, 0, 0] x3 v3 hp hu) hs)) (ix3 b f t)
      = acc (ix3 b f t) + prodR x0 x1 x2 x3 b (f.val + di) (t.val + dj) := by
  rw [subf_apply, addf_apply, mulf_apply, mulf_apply,
    window_at x0 v0 hp hu h0 di dj hs b f t, window_at x1 v1 hp hu h1 di dj hs b f t,
    window_at x2 v2 hp hu h2 di dj hs b f t, window_at x3 v3 hp hu h3 di dj hs b f t]
  unfold prodR
  rw [sub_eq_add_neg, sub_eq_add_neg, add_assoc]

/-- One tap of the imaginary part: the accumulator plus the spread scalar times the first window times the second,
    read at (b, f, t), is the accumulator there plus the imaginary product at (f + di, t + dj). -/
theorem tapI_at (acc x0 x3 : Arr) (v0 v3 w : SUnit.Idx → EReal)
    (hp : SIn.Pads (![0, 1, 2] : Fin 3 → Nat) ![0, 1, 2] ![0, 0, 0] SPad) (hu : 0 < SUnit.numel)
    (hb : SUnit.BroadcastsInDim SIn (![] : Fin 0 → Fin SIn.rank))
    (h0 : v0 (Shape.Idx.first hu) = 0) (h3 : v3 (Shape.Idx.first hu) = 0) (hw : w ix0 = two)
    (di dj : Nat) (hs : SPad.Slices ![0, di, dj] SIn) (b : Fin 16) (f : Fin 257) (t : Fin 4000) :
    addf (F := Ideal) (φ := .f32) acc
      (mulf (F := Ideal) (φ := .f32)
        (mulf (F := Ideal) (φ := .f32) (broadcastInDim SIn ![] hb w)
          (extractStridedSlice SIn ![0, di, dj] (pad SPad ![0, 1, 2] ![0, 1, 2] ![0, 0, 0] x0 v0 hp hu) hs))
        (extractStridedSlice SIn ![0, di, dj] (pad SPad ![0, 1, 2] ![0, 1, 2] ![0, 0, 0] x3 v3 hp hu) hs)) (ix3 b f t)
      = acc (ix3 b f t) + prodI x0 x3 b (f.val + di) (t.val + dj) := by
  rw [addf_apply, mulf_apply, mulf_apply, splat_at w hb, hw,
    window_at x0 v0 hp hu h0 di dj hs b f t, window_at x3 v3 hp hu h3 di dj hs b f t]
  rfl

/-- The joined result at a row below 257 is the first piece at that row. -/
theorem join_low (p q : Arr) (hc : Shape.Concatenates [SIn, SIn] SOut 1)
    (b : Fin 16) (r : Fin 514) (t : Fin 4000) (h : r.val < 257) :
    concatenate SOut 1 [⟨SIn, p⟩, ⟨SIn, q⟩] hc (ix3 b r t) = p (ix3 b ⟨r.val, h⟩ t) :=
  concatenate_pair_apply_left 1 p q hc (ix3 b r t) rfl (ix3 b ⟨r.val, h⟩ t) (fun a => by
    match a with
    | ⟨0, _⟩ => rfl
    | ⟨1, _⟩ => rfl
    | ⟨2, _⟩ => rfl)

/-- The joined result at a row from 257 on is the second piece at that row less 257. -/
theorem join_high (p q : Arr) (hc : Shape.Concatenates [SIn, SIn] SOut 1)
    (b : Fin 16) (r : Fin 514) (t : Fin 4000) (h : 257 ≤ r.val) :
    concatenate SOut 1 [⟨SIn, p⟩, ⟨SIn, q⟩] hc (ix3 b r t) = q (ix3 b ⟨r.val - 257, by omega⟩ t) :=
  concatenate_pair_apply_right 1 p q hc (ix3 b r t) rfl rfl (ix3 b ⟨r.val - 257, by omega⟩ t) (fun a ha => by
    match a with
    | ⟨0, _⟩ => rfl
    | ⟨1, _⟩ => exact absurd rfl ha
    | ⟨2, _⟩ => rfl) (by show r.val - 257 + 257 = r.val; omega)

end Cert.DeepFilter.Ref

end
-- ==== Proof.RefSum.lean ====
/-
  The accumulation over the fifteen taps is the window sum.

  The reference starts from zero and, tap after tap (bin offset outermost), adds the product at the shifted
  position; for the real part it adds one product and then subtracts another, which is adding their difference
  (on the extended reals x - y is x + -y and addition is associative). Written out, the fifteen steps are the
  double sum over the 3 x 5 window in its natural order, so only associativity of addition is needed.
-/
import Mathlib.Data.EReal.Operations
import Mathlib.Algebra.BigOperators.Fin

open scoped BigOperators

namespace Cert.DeepFilter.Ref

/-- Adding one product and subtracting another is adding their difference. -/
theorem add_sub_step (acc p q : EReal) : acc + p - q = acc + (p - q) := by
  rw [sub_eq_add_neg, sub_eq_add_neg, add_assoc]

/-- The sum over the 3 x 5 window at (f, t), written as fifteen additions from zero in the order of the taps. -/
theorem window_sum (g : Nat → Nat → EReal) (f t : Nat) :
    ∑ i : Fin 3, ∑ j : Fin 5, g (f + i.val) (t + j.val)
      = 0 + g (f + 0) (t + 0) + g (f + 0) (t + 1) + g (f + 0) (t + 2) + g (f + 0) (t + 3) + g (f + 0) (t + 4)
          + g (f + 1) (t + 0) + g (f + 1) (t + 1) + g (f + 1) (t + 2) + g (f + 1) (t + 3) + g (f + 1) (t + 4)
          + g (f + 2) (t + 0) + g (f + 2) (t + 1) + g (f + 2) (t + 2) + g (f + 2) (t + 3) + g (f + 2) (t + 4) := by
  rw [Fin.sum_univ_three, Fin.sum_univ_five, Fin.sum_univ_five, Fin.sum_univ_five]
  simp only [zero_add, add_assoc]
  rfl

end Cert.DeepFilter.Ref
-- ==== Proof.RefIsG.lean ====
/-
  The reference program's result, as a function of its four inputs, is the deep-filter sum.

  The stages of the reference are written here as functions of the four input arrays over the literal shapes,
  in the program's own order: each input extended by the padding value (the integer zero, converted), its fifteen
  windows, the two accumulations from the array of zeros (for the real part: add the product of the first pair of
  windows, subtract the product of the second pair; for the imaginary part: add the word 2.0 times the first window
  times the fourth), and the two parts joined along the rows. Read at an index, each tap adds the product at the
  shifted position of the extension by zero, so each part is the 3 x 5 window sum of the specification, and the
  joined array is the specification's result.
-/
import proofs.«134051_j16587163697924_2_alg».proof.Proof.RefPad
import proofs.«134051_j16587163697924_2_alg».proof.Proof.RefSum

noncomputable section

open scoped BigOperators

namespace Cert.DeepFilter.Ref

open Idealize.ShloMosaic Idealize.ShloMosaic.ValueIdx

/-! ## The facts about the shapes -/

theorem pads_in : SIn.Pads (![0, 1, 2] : Fin 3 → Nat) ![0, 1, 2] ![0, 0, 0] SPad := by decide
theorem unit_pos : 0 < SUnit.numel := by decide
theorem spreads : SUnit.BroadcastsInDim SIn (![] : Fin 0 → Fin SIn.rank) := by decide
theorem joins : Shape.Concatenates [SIn, SIn] SOut 1 := by decide

/-- Every window of the 3 x 5 taps lies inside the padded array. -/
theorem slices_in (di dj : Nat) (h : di ≤ 2 ∧ dj ≤ 4) : SPad.Slices ![0, di, dj] SIn :=
  ⟨rfl, fun a => by
    match a with
    | ⟨0, _⟩ => show 0 + 16 ≤ 16; omega
    | ⟨1, _⟩ => show di + 257 ≤ 259; omega
    | ⟨2, _⟩ => show dj + 4000 ≤ 4004; omega⟩

/-! ## The reference's stages as functions of the four inputs -/

/-- The padding value: the integer zero, converted. -/
def padValue : SUnit.Idx → EReal := sitofp (F := Ideal) .f32 (constantI SUnit 32 0#32)

theorem padValue_zero : padValue (Shape.Idx.first unit_pos) = 0 := by
  show (((0#32 : BitVec 32).toInt : ℝ) : EReal) = 0
  simp

/-- An input extended by the padding value. -/
def padded (x : Arr) : SPad.Idx → EReal := pad SPad ![0, 1, 2] ![0, 1, 2] ![0, 0, 0] x padValue pads_in unit_pos

/-- The window of the extended input starting at bin di, frame dj. -/
def win (x : Arr) (di dj : Nat) (h : di ≤ 2 ∧ dj ≤ 4) : Arr :=
  extractStridedSlice SIn ![0, di, dj] (padded x) (slices_in di dj h)

/-- The array of zeros the accumulation starts from. -/
def zeros : Arr := broadcastInDim SIn ![] spreads (constant (F := Ideal) SUnit .f32 0x00000000#32)

/-- The array filled with the word 2.0. -/
def twos : Arr := broadcastInDim SIn ![] spreads (constant (F := Ideal) SUnit .f32 0x40000000#32)

/-- One tap of the real part. -/
def tapR (x0 x1 x2 x3 : Arr) (di dj : Nat) (h : di ≤ 2 ∧ dj ≤ 4) (acc : Arr) : Arr :=
  subf (F := Ideal) (φ := .f32)
    (addf (F := Ideal) (φ := .f32) acc (mulf (F := Ideal) (φ := .f32) (win x0 di dj h) (win x2 di dj h)))
    (mulf (F := Ideal) (φ := .f32) (win x1 di dj h) (win x3 di dj h))

/-- One tap of the imaginary part. -/
def tapI (x0 x3 : Arr) (di dj : Nat) (h : di ≤ 2 ∧ dj ≤ 4) (acc : Arr) : Arr :=
  addf (F := Ideal) (φ := .f32) acc
    (mulf (F := Ideal) (φ := .f32) (mulf (F := Ideal) (φ := .f32) twos (win x0 di dj h)) (win x3 di dj h))

/-- The real part: the fifteen taps from zero, bin offset outermost. -/
def outR (x0 x1 x2 x3 : Arr) : Arr :=
  tapR x0 x1 x2 x3 2 4 (by decide)
    (tapR x0 x1 x2 x3 2 3 (by decide)
    (tapR x0 x1 x2 x3 2 2 (by decide)
    (tapR x0 x1 x2 x3 2 1 (by decide)
    (tapR x0 x1 x2 x3 2 0 (by decide)
    (tapR x0 x1 x2 x3 1 4 (by decide)
    (tapR x0 x1 x2 x3 1 3 (by decide)
    (tapR x0 x1 x2 x3 1 2 (by decide)
    (tapR x0 x1 x2 x3 1 1 (by decide)
    (tapR x0 x1 x2 x3 1 0 (by decide)
    (tapR x0 x1 x2 x3 0 4 (by decide)
    (tapR x0 x1 x2 x3 0 3 (by decide)
    (tapR x0 x1 x2 x3 0 2 (by decide)
    (tapR x0 x1 x2 x3 0 1 (by decide)
    (tapR x0 x1 x2 x3 0 0 (by decide)
    (zeros)))))))))))))))

/-- The imaginary part: the fifteen taps from zero, bin offset outermost. -/
def outI (x0 x3 : Arr) : Arr :=
  tapI x0 x3 2 4 (by decide)
    (tapI x0 x3 2 3 (by decide)
    (tapI x0 x3 2 2 (by decide)
    (tapI x0 x3 2 1 (by decide)
    (tapI x0 x3 2 0 (by decide)
    (tapI x0 x3 1 4 (by decide)
    (tapI x0 x3 1 3 (by decide)
    (tapI x0 x3 1 2 (by decide)
    (tapI x0 x3 1 1 (by decide)
    (tapI x0 x3 1 0 (by decide)
    (tapI x0 x3 0 4 (by decide)
    (tapI x0 x3 0 3 (by decide)
    (tapI x0 x3 0 2 (by decide)
    (tapI x0 x3 0 1 (by decide)
    (tapI x0 x3 0 0 (by decide)
    (zeros)))))))))))))))

/-- The reference's result: the real part's rows, then the imaginary part's. -/
def whole (x0 x1 x2 x3 : Arr) : Res :=
  concatenate SOut 1 [⟨SIn, outR x0 x1 x2 x3⟩, ⟨SIn, outI x0 x3⟩] joins

/-! ## The stages at an index -/

theorem zeros_apply (i : SIn.Idx) : zeros i = 0 :=
  (splat_at _ spreads i).trans Ideal.ofBits_zero_f32

theorem tapR_apply (x0 x1 x2 x3 : Arr) (di dj : Nat) (h : di ≤ 2 ∧ dj ≤ 4) (acc : Arr)
    (b : Fin 16) (f : Fin 257) (t : Fin 4000) :
    tapR x0 x1 x2 x3 di dj h acc (ix3 b f t)
      = acc (ix3 b f t) + prodR x0 x1 x2 x3 b (f.val + di) (t.val + dj) :=
  tapR_at acc x0 x1 x2 x3 padValue padValue padValue padValue pads_in unit_pos
    padValue_zero padValue_zero padValue_zero padValue_zero di dj (slices_in di dj h) b f t

theorem tapI_apply (x0 x3 : Arr) (di dj : Nat) (h : di ≤ 2 ∧ dj ≤ 4) (acc : Arr)
    (b : Fin 16) (f : Fin 257) (t : Fin 4000) :
    tapI x0 x3 di dj h acc (ix3 b f t) = acc (ix3 b f t) + prodI x0 x3 b (f.val + di) (t.val + dj) :=
  tapI_at acc x0 x3 padValue padValue (constant (F := Ideal) SUnit .f32 0x40000000#32) pads_in unit_pos spreads
    padValue_zero padValue_zero rfl di dj (slices_in di dj h) b f t

/-- The real part at (b, f, t) is the window sum of the real products. -/
theorem outR_apply (x0 x1 x2 x3 : Arr) (b : Fin 16) (f : Fin 257) (t : Fin 4000) :
    outR x0 x1 x2 x3 (ix3 b f t) = sumR x0 x1 x2 x3 b f.val t.val := by
  unfold outR sumR
  simp only [tapR_apply, zeros_apply]
  exact (window_sum (prodR x0 x1 x2 x3 b) f.val t.val).symm

/-- The imaginary part at (b, f, t) is the window sum of the imaginary products. -/
theorem outI_apply (x0 x3 : Arr) (b : Fin 16) (f : Fin 257) (t : Fin 4000) :
    outI x0 x3 (ix3 b f t) = sumI x0 x3 b f.val t.val := by
  unfold outI sumI
  simp only [tapI_apply, zeros_apply]
  exact (window_sum (prodI x0 x3 b) f.val t.val).symm

/-- The reference's result is the specification. -/
theorem whole_eq_G (x0 x1 x2 x3 : Arr) : whole x0 x1 x2 x3 = G x0 x1 x2 x3 := by
  funext y
  obtain ⟨b, r, t, rfl⟩ : ∃ (b : Fin 16) (r : Fin 514) (t : Fin 4000), y = ix3 b r t := ⟨y 0, y 1, y 2, eq_ix3 y⟩
  unfold whole
  by_cases h : r.val < 257
  · rw [join_low _ _ joins b r t h, outR_apply]
    show _ = if r.val < 257 then sumR x0 x1 x2 x3 b r.val t.val else sumI x0 x3 b (r.val - 257) t.val
    rw [if_pos h]
  · rw [join_high _ _ joins b r t (by omega), outI_apply]
    show _ = if r.val < 257 then sumR x0 x1 x2 x3 b r.val t.val else sumI x0 x3 b (r.val - 257) t.val
    rw [if_neg h]

end Cert.DeepFilter.Ref

end
-- ==== Proof.RefRead.lean ====
/-
  The result buffer after the reference's operations, as a function of the argument buffers.

  Running the four windows of operations in order from any contents of the buffers leaves in the result buffer the
  stages of the sibling module composed over the contents of the four argument buffers: each operation's result
  read at its own buffer is its function of its operands' contents, and at any other buffer what was there.
-/
import proofs.«134051_j16587163697924_2_alg».proof.Proof.RefRunA
import proofs.«134051_j16587163697924_2_alg».proof.Proof.RefRunB
import proofs.«134051_j16587163697924_2_alg».proof.Proof.RefRunC
import proofs.«134051_j16587163697924_2_alg».proof.Proof.RefRunD
import proofs.«134051_j16587163697924_2_alg».proof.Proof.RefIsG

noncomputable section

namespace Cert.DeepFilter.Ref

open Cert.ReferenceIdeal Cert.ReferenceIdeal.Gen Idealize.ShloMosaic Idealize.ShloMosaic.TcCoe Idealize.SL.Sem Idealize.ShloMosaic.StableHlo

set_option maxRecDepth 8192 in
set_option maxHeartbeats 84800000 in
/-- The result buffer after the four windows holds the composed stages of the argument buffers' contents. -/
theorem read_res (V : Valuation τ sig (Elt Ideal)) :
    after (ops3 (F := Ideal)) (after (ops2 (F := Ideal)) (after (ops1 (F := Ideal)) (after (ops0 (F := Ideal)) V)))
        (Proc.devRef .tc main_v186)
      = whole (V (Proc.devRef .tc main_arg0)) (V (Proc.devRef .tc main_arg1)) (V (Proc.devRef .tc main_arg2))
          (V (Proc.devRef .tc main_arg3)) := by
  after_results_simp
  rfl

end Cert.DeepFilter.Ref

end
-- ==== Proof.RefRun.lean ====
/-
  The reference program's run: every execution ends with the deep-filter sum in the result buffer.

  The program is its four windows of statements in order, each the straight line of its operations, so the whole is
  the straight line of the four lists joined; contents after a joined list are the contents after the second list
  from the contents after the first. From any memory with zero counters every weakly fair execution therefore
  terminates with each buffer at the operations' results folded over the launch contents: the result buffer at the
  composed stages of the four arguments, which are the specification, and the arguments unchanged.
-/
import proofs.«134051_j16587163697924_2_alg».proof.Proof.RefRead

noncomputable section

namespace Cert.DeepFilter.Ref

open Cert.ReferenceIdeal Cert.ReferenceIdeal.Gen Idealize.ShloMosaic Idealize.ShloMosaic.TcCoe Idealize.SL.Sem Idealize.ShloMosaic.StableHlo

variable {F : FTy → Type} [FloatOps F]

/-- The contents after two lists of operations run one after the other. -/
theorem after_append {τ' : Topo} {sig' : RefSig} {Val : EltTy → Type}
    (l₁ l₂ : List (HloOp τ' sig' Val)) (V : Valuation τ' sig' Val) :
    after (l₁ ++ l₂) V = after l₂ (after l₁ V) := by
  induction l₁ generalizing V with
  | nil => rfl
  | cons op l ih => exact ih (op.result V)

/-- The four windows' operations, joined. -/
abbrev opsAll : List (HloOp τ sig (Elt F)) := ops0 ++ (ops1 ++ (ops2 ++ ops3))

/-- The contents after all the operations are those after the four windows in order. -/
theorem after_all (V : Valuation τ sig (Elt F)) :
    after (opsAll (F := F)) V = after ops3 (after ops2 (after ops1 (after ops0 V))) := by
  unfold opsAll
  rw [after_append, after_append, after_append]

/-- The program is the straight line of all its operations. -/
theorem main_eq (c : Dev nD) : main (F := F) c = seq (opsAll (F := F)) := by
  unfold opsAll
  rw [seq_append, seq_append, seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem opsAll_sub : (opsAll : List (HloOp τ sig (Elt F))).Forall fun op => op.bufs ⊆ tcRefs τ sig := by
  refine List.forall_iff_forall_mem.2 fun op h => ?_
  rcases List.mem_append.1 h with h | h
  · exact List.forall_iff_forall_mem.1 ops0_sub op h
  rcases List.mem_append.1 h with h | h
  · exact List.forall_iff_forall_mem.1 ops1_sub op h
  rcases List.mem_append.1 h with h | h
  · exact List.forall_iff_forall_mem.1 ops2_sub op h
  · exact List.forall_iff_forall_mem.1 ops3_sub op h

/-- Every operation determines its results. -/
theorem opsAll_fresh : ∀ op ∈ (opsAll : List (HloOp τ sig (Elt F))), op.fresh = ∅ := by
  intro op h
  rcases List.mem_append.1 h with h | h
  · exact List.forall_iff_forall_mem.1 ops0_fresh op h
  rcases List.mem_append.1 h with h | h
  · exact List.forall_iff_forall_mem.1 ops1_fresh op h
  rcases List.mem_append.1 h with h | h
  · exact List.forall_iff_forall_mem.1 ops2_fresh op h
  · exact List.forall_iff_forall_mem.1 ops3_fresh op h

/-- No operation writes an argument buffer. -/
theorem keep_all (V : Valuation τ sig (Elt F)) :
    after (opsAll (F := F)) V (Proc.devRef .tc main_arg0) = V (Proc.devRef .tc main_arg0)
      ∧ after (opsAll (F := F)) V (Proc.devRef .tc main_arg1) = V (Proc.devRef .tc main_arg1)
      ∧ after (opsAll (F := F)) V (Proc.devRef .tc main_arg2) = V (Proc.devRef .tc main_arg2)
      ∧ after (opsAll (F := F)) V (Proc.devRef .tc main_arg3) = V (Proc.devRef .tc main_arg3) := by
  rw [after_all]
  have h0 := keep0 V
  have h1 := keep1 (after ops0 V)
  have h2 := keep2 (after ops1 (after ops0 V))
  have h3 := keep3 (after ops2 (after ops1 (after ops0 V)))
  exact ⟨h3.1.trans (h2.1.trans (h1.1.trans h0.1)),
    h3.2.1.trans (h2.2.1.trans (h1.2.1.trans h0.2.1)),
    h3.2.2.1.trans (h2.2.2.1.trans (h1.2.2.1.trans h0.2.2.1)),
    h3.2.2.2.trans (h2.2.2.2.trans (h1.2.2.2.trans h0.2.2.2))⟩

/-- On every device, from any memory with zero counters: every weakly fair execution of the reference terminates
    with the result buffer at the deep-filter sum of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v186)
          = Cert.DeepFilter.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v186).trans ((congrFun (after_all (launchContents m c)) _).trans
          ((read_res (launchContents m c)).trans (whole_eq_G _ _ _ _))),
        (h c main_arg0).trans (keep_all (launchContents m c)).1,
        (h c main_arg1).trans (keep_all (launchContents m c)).2.1,
        (h c main_arg2).trans (keep_all (launchContents m c)).2.2.1,
        (h c main_arg3).trans (keep_all (launchContents m c)).2.2.2⟩)
    (run_seq scopedRefs_eq scopedSems_eq defs main (fun _ => opsAll) main_eq (fun _ => opsAll_sub) m ρ
      (fun _ => opsAll_fresh))

end Cert.DeepFilter.Ref

end
-- ==== Proof.Claims.lean ====
/-
  The five claims of the certificate.

  The two kernel programs and the reference run and leave their arguments unchanged (the frames); the idealization
  rewrote nothing; and at the ideal instance the kernel program's result buffer and the reference's both end at the
  deep-filter window sums `G` of the four argument arrays, so from memories agreeing on the arguments the results
  are equal.
-/
import proofs.«134051_j16587163697924_2_alg».proof.Defs
import proofs.«134051_j16587163697924_2_alg».proof.Proof.Gen.Kernel.Frame
import proofs.«134051_j16587163697924_2_alg».proof.Proof.Gen.Pre_finite_inputs
import proofs.«134051_j16587163697924_2_alg».proof.Proof.KernRun
import proofs.«134051_j16587163697924_2_alg».proof.Proof.RefRun

noncomputable section

open Idealize.ShloMosaic Idealize.ShloMosaic.TcCoe Idealize.SL.Sem

namespace Cert.DeepFilter.Claims

/-- The kernel program as printed runs and leaves its arguments unchanged. -/
theorem frame_Kernel : Cert.frame_Kernel := fun m ρ _ => Cert.Kernel.Gen.frame m ρ

/-- The idealized kernel program runs and leaves its arguments unchanged. -/
theorem frame_KernelIdeal : Cert.frame_KernelIdeal := fun m ρ _ => Cert.KernelIdeal.Gen.frame m ρ

/-- The idealized reference runs and leaves its arguments unchanged. -/
theorem frame_ReferenceIdeal : Cert.frame_ReferenceIdeal := fun m ρ _ =>
  (θ_run Cert.ReferenceIdeal.defs _ _).mono (fun _ h c => (h c).2) (Cert.DeepFilter.Ref.run m ρ)

/-- The idealization rewrote no operation. -/
theorem preserves : Cert.preserves_Kernel_KernelIdeal := trivial

/-- At the ideal instance both programs end with the window sums `G` of the arguments in their result buffers:
    from memories that agree on the arguments the two results are one function of the same arrays. -/
theorem algebraic : Cert.algebraic_KernelIdeal_ReferenceIdeal := by
  intro m ρ m' ρ' _ hagree
  refine ⟨fun c => Cert.DeepFilter.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.DeepFilter.Kern.run m ρ, ?_⟩
  refine (θ_run Cert.ReferenceIdeal.defs _ _).mono (fun _ h c => ⟨?_, (h c).2⟩) (Cert.DeepFilter.Ref.run m' ρ')
  rw [(h c).1, (hagree c).1, (hagree c).2.1, (hagree c).2.2.1, (hagree c).2.2.2]

end Cert.DeepFilter.Claims

end
-- ==== Proof.lean ====
/-
  The deep-filter kernel against its reference: both are the 3 x 5 window sum of a complex product.

  Four arrays [16, 257, 4000] (batch, frequency bin, frame) — the real and imaginary parts of an input and of a
  filter — give, at each batch, bin and frame, the sum over the 3 x 5 window of bins `f - 1 … f + 1` and frames
  `t - 2 … t + 2` of the product `ir * fr - ii * fi` (real part) and of `(2 * ir) * fi` (the imaginary part as the
  source writes it), positions off the array counting as zero; the result [16, 514, 4000] holds the real sums in
  rows 0 … 256 and the imaginary sums in rows 257 … 513 (`Cert.DeepFilter.G`, Spec.lean).

  The reference pads the four arrays with zeros and adds the fifteen shifted products one after the other. The
  kernel works batch by batch: it copies the batch's four [257, 4000] slabs into scratch, forms the product once,
  and on eight runs of at most 512 frames adds it over the three bins into one scratch buffer and then over the five
  frames into another, each step a read-modify-write on the rectangle where the neighbour exists, and stores the run
  into the planes of an output [16, 2, 257, 4000] that a final reshape lays out as [16, 514, 4000]. Over the
  extended reals the two agree with no finiteness assumption: the only laws used are that zero times zero is zero,
  that adding zero changes nothing, that `x - y` is `x + -y`, and the associativity and commutativity of addition,
  which hold at the infinities too.

  The modules: Spec (the function `G`); LibNatReads, LibNatReads4 (vectors and lists of stores read at natural
  coordinates); BodySlabs, BodyChunk0R … BodyChunk7I, BodyValue (what the kernel body leaves in the output block);
  KernArray, KernTail, KernRun (from the blocks to the array, the reshape, the kernel program's run); RefSum,
  RefPad, RefIsG, RefRunA … RefRunD, RefRead, RefRun (the reference's run and its result); Claims (the five claims).
-/
import proofs.«134051_j16587163697924_2_alg».proof.Defs
import proofs.«134051_j16587163697924_2_alg».proof.Proof.Gen.Kernel
import proofs.«134051_j16587163697924_2_alg».proof.Proof.Gen.KernelIdeal
import proofs.«134051_j16587163697924_2_alg».proof.Proof.Gen.ReferenceIdeal
import proofs.«134051_j16587163697924_2_alg».proof.Proof.Gen.Pre_finite_inputs
import proofs.«134051_j16587163697924_2_alg».proof.Proof.Claims

noncomputable section

namespace Cert.Proof

/-- The certificate: the programs' stated facts hold, the three programs run and keep their arguments, the
    idealization rewrote nothing, and the idealized kernel and reference end with equal results. -/
theorem claim : Cert.Claim :=
  ⟨Cert.Kernel.Gen.facts, Cert.KernelIdeal.Gen.facts, Cert.ReferenceIdeal.Gen.facts, Cert.Pre_finite_inputs.Gen.facts,
    Cert.DeepFilter.Claims.frame_Kernel, Cert.DeepFilter.Claims.frame_KernelIdeal,
    Cert.DeepFilter.Claims.frame_ReferenceIdeal, Cert.DeepFilter.Claims.preserves, Cert.DeepFilter.Claims.algebraic⟩

end Cert.Proof

end
